-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v247)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v247) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v261) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x1200000 : Shape := ⟨2, ![2, 1200000]⟩
abbrev S100000 : Shape := ⟨1, ![100000]⟩
abbrev S64x4 : Shape := ⟨2, ![64, 4]⟩
abbrev S64 : Shape := ⟨1, ![64]⟩
abbrev S64x64 : Shape := ⟨2, ![64, 64]⟩
abbrev S3x64 : Shape := ⟨2, ![3, 64]⟩
abbrev S3 : Shape := ⟨1, ![3]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S64x4 : S_.BroadcastsInDim S64x4 (![] : Fin 0 → Fin S64x4.rank)
  reducesTo_S64x4_S_d0_1 : S64x4.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S3x64 : S_.BroadcastsInDim S3x64 (![] : Fin 0 → Fin S3x64.rank)
  reducesTo_S3x64_S_d0_1 : S3x64.ReducesTo [0, 1] S_
  bcast_S_S3 : S_.BroadcastsInDim S3 (![] : Fin 0 → Fin S3.rank)
  reducesTo_S3_S_d0 : S3.ReducesTo [0] S_

variable [Facts]

def fn_part6 {F : FTy → Type} [FloatOps F] (main_v98 : IVec S_ 1) (main_v101 : IVec S3 1) (main_c_39 : IVec S_ 1) : IVec S_ 1 :=
  let main_v102 : IVec S_ 1 := (fun x v => Host.reduce IntOp.andi x v reducesTo_S3_S_d0 h_S_) main_v101 main_c_39
  let main_v103 : IVec S_ 1 := andi main_v98 main_v102
  main_v103

def fn_part5 {F : FTy → Type} [FloatOps F] (main_arg20 : FVec F S64 .f32) (main_arg21 : FVec F S3x64 .f32) (main_arg22 : FVec F S3 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S3x64 .f32 := Host.absf main_arg21
  let main_cst_36 : FVec F S_ .f32 := constant S_ .f32 0x7F800000#32
  let main_v95 : FVec F S3x64 .f32 := broadcastInDim S3x64 ![] bcast_S_S3x64 main_cst_36
  let main_v96 : IVec S3x64 1 := cmpf .olt main_v94 main_v95
  let main_c_37 : IVec S_ 1 := constantI S_ 1 1#1
  let main_v97 : IVec S_ 1 := (fun x v => Host.reduce IntOp.andi x v reducesTo_S3x64_S_d0_1 h_S_) main_v96 main_c_37
  let main_v98 : IVec S_ 1 := andi main_v93 main_v97
  let main_v99 : FVec F S3 .f32 := Host.absf main_arg22
  let main_cst_38 : FVec F S_ .f32 := constant S_ .f32 0x7F800000#32
  let main_v100 : FVec F S3 .f32 := broadcastInDim S3 ![] bcast_S_S3 main_cst_38
  let main_v101 : IVec S3 1 := cmpf .olt main_v99 main_v100
  let main_c_39 : IVec S_ 1 := constantI S_ 1 1#1
  fn_part6 (F := F) main_v98 main_v101 main_c_39

def fn_part4 {F : FTy → Type} [FloatOps F] (main_arg16 : FVec F S64 .f32) (main_arg17 : FVec F S64 .f32) (main_arg18 : FVec F S64 .f32) (main_arg19 : FVec F S64 .f32) (main_arg20 : FVec F S64 .f32) (main_arg21 : FVec F S3x64 .f32) (main_arg22 : FVec F S3 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_arg21 main_arg22 main_v83 main_v84 main_cst_32

def fn_part3 {F : FTy → Type} [FloatOps F] (main_arg13 : FVec F S64 .f32) (main_arg14 : FVec F S64 .f32) (main_arg15 : FVec F S64 .f32) (main_arg16 : FVec F S64 .f32) (main_arg17 : FVec F S64 .f32) (main_arg18 : FVec F S64 .f32) (main_arg19 : FVec F S64 .f32) (main_arg20 : FVec F S64 .f32) (main_arg21 : FVec F S3x64 .f32) (main_arg22 : FVec F S3 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_arg19 main_arg20 main_arg21 main_arg22 main_v63 main_v67

def fn_part2 {F : FTy → Type} [FloatOps F] (main_arg9 : FVec F S64x64 .f32) (main_arg10 : FVec F S64 .f32) (main_arg11 : FVec F S64x64 .f32) (main_arg12 : FVec F S64 .f32) (main_arg13 : FVec F S64 .f32) (main_arg14 : FVec F S64 .f32) (main_arg15 : FVec F S64 .f32) (main_arg16 : FVec F S64 .f32) (main_arg17 : FVec F S64 .f32) (main_arg18 : FVec F S64 .f32) (main_arg19 : FVec F S64 .f32) (main_arg20 : FVec F S64 .f32) (main_arg21 : FVec F S3x64 .f32) (main_arg22 : FVec F S3 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_arg21 main_arg22 main_v48 main_v49 main_v50

def fn_part1 {F : FTy → Type} [FloatOps F] (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S64 .f32) (main_arg13 : FVec F S64 .f32) (main_arg14 : FVec F S64 .f32) (main_arg15 : FVec F S64 .f32) (main_arg16 : FVec F S64 .f32) (main_arg17 : FVec F S64 .f32) (main_arg18 : FVec F S64 .f32) (main_arg19 : FVec F S64 .f32) (main_arg20 : FVec F S64 .f32) (main_arg21 : FVec F S3x64 .f32) (main_arg22 : FVec F S3 .f32) (main_v13 : IVec S_ 1) (main_v16 : IVec S64x4 1) : IVec S_ 1 :=
  let main_c_5 : IVec S_ 1 := constantI S_ 1 1#1
  let main_v17 : IVec S_ 1 := (fun x v => Host.reduce IntOp.andi x v reducesTo_S64x4_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_v33

def fn {F : FTy → Type} [FloatOps F] (main_arg0 : FVec F S100000x4 .f32) (main_arg1 : IVec S2x1200000 32) (main_arg2 : IVec S100000 32) (main_arg3 : FVec F S64x4 .f32) (main_arg4 : FVec F S64 .f32) (main_arg5 : FVec F S64x4 .f32) (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S64 .f32) (main_arg13 : FVec F S64 .f32) (main_arg14 : FVec F S64 .f32) (main_arg15 : FVec F S64 .f32) (main_arg16 : FVec F S64 .f32) (main_arg17 : FVec F S64 .f32) (main_arg18 : FVec F S64 .f32) (main_arg19 : FVec F S64 .f32) (main_arg20 : FVec F S64 .f32) (main_arg21 : FVec F S3x64 .f32) (main_arg22 : FVec F S3 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S64x4 .f32 := Host.absf main_arg3
  let main_cst_0 : FVec F S_ .f32 := constant S_ .f32 0x7F800000#32
  let main_v5 : FVec F S64x4 .f32 := broadcastInDim S64x4 ![] bcast_S_S64x4 main_cst_0
  let main_v6 : IVec S64x4 1 := cmpf .olt main_v4 main_v5
  let main_c_1 : IVec S_ 1 := constantI S_ 1 1#1
  let main_v7 : IVec S_ 1 := (fun x v => Host.reduce IntOp.andi x v reducesTo_S64x4_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x4 .f32 := Host.absf main_arg5
  let main_cst_4 : FVec F S_ .f32 := constant S_ .f32 0x7F800000#32
  let main_v15 : FVec F S64x4 .f32 := broadcastInDim S64x4 ![] bcast_S_S64x4 main_cst_4
  let main_v16 : IVec S64x4 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S100000x4 : Shape := ⟨2, ![100000, 4]⟩
abbrev S2x1200000 : Shape := ⟨2, ![2, 1200000]⟩
abbrev S100000 : Shape := ⟨1, ![100000]⟩
abbrev S64x4 : Shape := ⟨2, ![64, 4]⟩
abbrev S64 : Shape := ⟨1, ![64]⟩
abbrev S64x64 : Shape := ⟨2, ![64, 64]⟩
abbrev S3x64 : Shape := ⟨2, ![3, 64]⟩
abbrev S3 : Shape := ⟨1, ![3]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x4 : Shape := ⟨2, ![1200000, 4]⟩
abbrev S100000x1 : Shape := ⟨2, ![100000, 1]⟩
abbrev S4x64 : Shape := ⟨2, ![4, 64]⟩
abbrev S1x64 : Shape := ⟨2, ![1, 64]⟩
abbrev S100000x64 : Shape := ⟨2, ![100000, 64]⟩
abbrev S5000x4 : Shape := ⟨2, ![5000, 4]⟩
abbrev S5000x64 : Shape := ⟨2, ![5000, 64]⟩
abbrev S128x64 : Shape := ⟨2, ![128, 64]⟩
abbrev S128x1 : Shape := ⟨2, ![128, 1]⟩
abbrev S1200000x64 : Shape := ⟨2, ![1200000, 64]⟩
abbrev S64x3 : Shape := ⟨2, ![64, 3]⟩
abbrev S128x3 : Shape := ⟨2, ![128, 3]⟩
abbrev S1x3 : Shape := ⟨2, ![1, 3]⟩

abbrev nBuf : Space → Nat
  | .hbm => 334
  | .vmem => 64
  | .smem => 0
  | _ => 0

abbrev hbmTy0_0 (i : Nat) : BufTy := match i % 128 with
  | 0 => ⟨S100000x4, .f32⟩
  | 1 => ⟨S2x1200000, .i32⟩
  | 2 => ⟨S100000, .i32⟩
  | 3 => ⟨S64x4, .f32⟩
  | 4 => ⟨S64, .f32⟩
  | 5 => ⟨S64x4, .f32⟩
  | 6 => ⟨S64x64, .f32⟩
  | 7 => ⟨S64, .f32⟩
  | 8 => ⟨S64x64, .f32⟩
  | 9 => ⟨S64x64, .f32⟩
  | 10 => ⟨S64, .f32⟩
  | 11 => ⟨S64x64, .f32⟩
  | 12 => ⟨S64, .f32⟩
  | 13 => ⟨S64, .f32⟩
  | 14 => ⟨S64, .f32⟩
  | 15 => ⟨S64, .f32⟩
  | 16 => ⟨S64, .f32⟩
  | 17 => ⟨S64, .f32⟩
  | 18 => ⟨S64, .f32⟩
  | 19 => ⟨S64, .f32⟩
  | 20 => ⟨S64, .f32⟩
  | 21 => ⟨S3x64, .f32⟩
  | 22 => ⟨S3, .f32⟩
  | 23 => ⟨S1x1200000, .i32⟩
  | 24 => ⟨S1200000, .i32⟩
  | 25 => ⟨S1x1200000, .i32⟩
  | 26 => ⟨S1200000, .i32⟩
  | 27 => ⟨S_, .i32⟩
  | 28 => ⟨S1200000, .i32⟩
  | 29 => ⟨S1200000, .i1⟩
  | 30 => ⟨S_, .i32⟩
  | 31 => ⟨S1200000, .i32⟩
  | 32 => ⟨S1200000, .i32⟩
  | 33 => ⟨S1200000, .i32⟩
  | 34 => ⟨S1200000x1, .i32⟩
  | 35 => ⟨S1200000x4, .f32⟩
  | 36 => ⟨S_, .f32⟩
  | 37 => ⟨S100000x4, .f32⟩
  | 38 => ⟨S1200000x1, .i32⟩
  | 39 => ⟨S100000x4, .f32⟩
  | 40 => ⟨S_, .f32⟩
  | 41 => ⟨S1200000x1, .f32⟩
  | 42 => ⟨S_, .f32⟩
  | 43 => ⟨S100000x1, .f32⟩
  | 44 => ⟨S1200000x1, .i32⟩
  | 45 => ⟨S100000x1, .f32⟩
  | 46 => ⟨S_, .f32⟩
  | 47 => ⟨S100000x1, .f32⟩
  | 48 => ⟨S100000x1, .f32⟩
  | 49 => ⟨S100000x4, .f32⟩
  | 50 => ⟨S100000x4, .f32⟩
  | 51 => ⟨S4x64, .f32⟩
  | 52 => ⟨S4x64, .f32⟩
  | 53 => ⟨S1x64, .f32⟩
  | 54 => ⟨S100000x64, .f32⟩
  | 55 => ⟨S_, .f32⟩
  | 56 => ⟨S128x64, .f32⟩
  | 57 => ⟨S100000x1, .i32⟩
  | 58 => ⟨S128x64, .f32⟩
  | 59 => ⟨S_, .f32⟩
  | 60 => ⟨S100000x1, .f32⟩
  | 61 => ⟨S_, .f32⟩
  | 62 => ⟨S128x1, .f32⟩
  | 63 => ⟨S100000x1, .i32⟩
  | 64 => ⟨S128x1, .f32⟩
  | 65 => ⟨S_, .f32⟩
  | 66 => ⟨S128x1, .f32⟩
  | 67 => ⟨S128x1, .f32⟩
  | 68 => ⟨S128x64, .f32⟩
  | 69 => ⟨S128x64, .f32⟩
  | 70 => ⟨S1x64, .f32⟩
  | 71 => ⟨S_, .i32⟩
  | 72 => ⟨S100000, .i32⟩
  | 73 => ⟨S100000, .i1⟩
  | 74 => ⟨S_, .i32⟩
  | 75 => ⟨S100000, .i32⟩
  | 76 => ⟨S100000, .i32⟩
  | 77 => ⟨S100000, .i32⟩
  | 78 => ⟨S100000x1, .i32⟩
  | 79 => ⟨S100000x64, .f32⟩
  | 80 => ⟨S100000x64, .f32⟩
  | 81 => ⟨S100000x64, .f32⟩
  | 82 => ⟨S100000x64, .f32⟩
  | 83 => ⟨S100000x64, .f32⟩
  | 84 => ⟨S_, .f32⟩
  | 85 => ⟨S128x64, .f32⟩
  | 86 => ⟨S100000x1, .i32⟩
  | 87 => ⟨S128x64, .f32⟩
  | 88 => ⟨S_, .f32⟩
  | 89 => ⟨S100000x1, .f32⟩
  | 90 => ⟨S_, .f32⟩
  | 91 => ⟨S128x1, .f32⟩
  | 92 => ⟨S100000x1, .i32⟩
  | 93 => ⟨S128x1, .f32⟩
  | 94 => ⟨S_, .f32⟩
  | 95 => ⟨S128x1, .f32⟩
  | 96 => ⟨S128x1, .f32⟩
  | 97 => ⟨S128x64, .f32⟩
  | 98 => ⟨S128x64, .f32⟩
  | 99 => ⟨S_, .i32⟩
  | 100 => ⟨S100000, .i32⟩
  | 101 => ⟨S100000, .i1⟩
  | 102 => ⟨S_, .i32⟩
  | 103 => ⟨S100000, .i32⟩
  | 104 => ⟨S100000, .i32⟩
  | 105 => ⟨S100000, .i32⟩
  | 106 => ⟨S100000x1, .i32⟩
  | 107 => ⟨S100000x64, .f32⟩
  | 108 => ⟨S_, .i32⟩
  | 109 => ⟨S100000, .i32⟩
  | 110 => ⟨S100000, .i1⟩
  | 111 => ⟨S_, .i32⟩
  | 112 => ⟨S100000, .i32⟩
  | 113 => ⟨S100000, .i32⟩
  | 114 => ⟨S100000, .i32⟩
  | 115 => ⟨S100000x1, .i32⟩
  | 116 => ⟨S100000x64, .f32⟩
  | 117 => ⟨S1x64, .f32⟩
  | 118 => ⟨S1x64, .f32⟩
  | 119 => ⟨S1x64, .f32⟩
  | 120 => ⟨S100000x64, .f32⟩
  | 121 => ⟨S1x1200000, .i32⟩
  | 122 => ⟨S1200000, .i32⟩
  | 123 => ⟨S1x1200000, .i32⟩
  | 124 => ⟨S1200000, .i32⟩
  | 125 => ⟨S_, .i32⟩
  | 126 => ⟨S1200000, .i32⟩
  | 127 => ⟨S1200000, .i1⟩
  | _ => ⟨S100000x4, .f32⟩

abbrev hbmTy0_1 (i : Nat) : BufTy := match i % 128 with
  | 0 => ⟨S_, .i32⟩
  | 1 => ⟨S1200000, .i32⟩
  | 2 => ⟨S1200000, .i32⟩
  | 3 => ⟨S1200000, .i32⟩
  | 4 => ⟨S1200000x1, .i32⟩
  | 5 => ⟨S1200000x64, .f32⟩
  | 6 => ⟨S_, .f32⟩
  | 7 => ⟨S100000x64, .f32⟩
  | 8 => ⟨S1200000x1, .i32⟩
  | 9 => ⟨S100000x64, .f32⟩
  | 10 => ⟨S_, .f32⟩
  | 11 => ⟨S1200000x1, .f32⟩
  | 12 => ⟨S_, .f32⟩
  | 13 => ⟨S100000x1, .f32⟩
  | 14 => ⟨S1200000x1, .i32⟩
  | 15 => ⟨S100000x1, .f32⟩
  | 16 => ⟨S_, .f32⟩
  | 17 => ⟨S100000x1, .f32⟩
  | 18 => ⟨S100000x1, .f32⟩
  | 19 => ⟨S100000x64, .f32⟩
  | 20 => ⟨S100000x64, .f32⟩
  | 21 => ⟨S64x64, .f32⟩
  | 22 => ⟨S64x64, .f32⟩
  | 23 => ⟨S1x64, .f32⟩
  | 24 => ⟨S100000x64, .f32⟩
  | 25 => ⟨S_, .f32⟩
  | 26 => ⟨S128x64, .f32⟩
  | 27 => ⟨S100000x1, .i32⟩
  | 28 => ⟨S128x64, .f32⟩
  | 29 => ⟨S_, .f32⟩
  | 30 => ⟨S100000x1, .f32⟩
  | 31 => ⟨S_, .f32⟩
  | 32 => ⟨S128x1, .f32⟩
  | 33 => ⟨S100000x1, .i32⟩
  | 34 => ⟨S128x1, .f32⟩
  | 35 => ⟨S_, .f32⟩
  | 36 => ⟨S128x1, .f32⟩
  | 37 => ⟨S128x1, .f32⟩
  | 38 => ⟨S128x64, .f32⟩
  | 39 => ⟨S128x64, .f32⟩
  | 40 => ⟨S1x64, .f32⟩
  | 41 => ⟨S_, .i32⟩
  | 42 => ⟨S100000, .i32⟩
  | 43 => ⟨S100000, .i1⟩
  | 44 => ⟨S_, .i32⟩
  | 45 => ⟨S100000, .i32⟩
  | 46 => ⟨S100000, .i32⟩
  | 47 => ⟨S100000, .i32⟩
  | 48 => ⟨S100000x1, .i32⟩
  | 49 => ⟨S100000x64, .f32⟩
  | 50 => ⟨S100000x64, .f32⟩
  | 51 => ⟨S100000x64, .f32⟩
  | 52 => ⟨S100000x64, .f32⟩
  | 53 => ⟨S100000x64, .f32⟩
  | 54 => ⟨S_, .f32⟩
  | 55 => ⟨S128x64, .f32⟩
  | 56 => ⟨S100000x1, .i32⟩
  | 57 => ⟨S128x64, .f32⟩
  | 58 => ⟨S_, .f32⟩
  | 59 => ⟨S100000x1, .f32⟩
  | 60 => ⟨S_, .f32⟩
  | 61 => ⟨S128x1, .f32⟩
  | 62 => ⟨S100000x1, .i32⟩
  | 63 => ⟨S128x1, .f32⟩
  | 64 => ⟨S_, .f32⟩
  | 65 => ⟨S128x1, .f32⟩
  | 66 => ⟨S128x1, .f32⟩
  | 67 => ⟨S128x64, .f32⟩
  | 68 => ⟨S128x64, .f32⟩
  | 69 => ⟨S_, .i32⟩
  | 70 => ⟨S100000, .i32⟩
  | 71 => ⟨S100000, .i1⟩
  | 72 => ⟨S_, .i32⟩
  | 73 => ⟨S100000, .i32⟩
  | 74 => ⟨S100000, .i32⟩
  | 75 => ⟨S100000, .i32⟩
  | 76 => ⟨S100000x1, .i32⟩
  | 77 => ⟨S100000x64, .f32⟩
  | 78 => ⟨S_, .i32⟩
  | 79 => ⟨S100000, .i32⟩
  | 80 => ⟨S100000, .i1⟩
  | 81 => ⟨S_, .i32⟩
  | 82 => ⟨S100000, .i32⟩
  | 83 => ⟨S100000, .i32⟩
  | 84 => ⟨S100000, .i32⟩
  | 85 => ⟨S100000x1, .i32⟩
  | 86 => ⟨S100000x64, .f32⟩
  | 87 => ⟨S1x64, .f32⟩
  | 88 => ⟨S1x64, .f32⟩
  | 89 => ⟨S1x64, .f32⟩
  | 90 => ⟨S100000x64, .f32⟩
  | 91 => ⟨S1x1200000, .i32⟩
  | 92 => ⟨S1200000, .i32⟩
  | 93 => ⟨S1x1200000, .i32⟩
  | 94 => ⟨S1200000, .i32⟩
  | 95 => ⟨S_, .i32⟩
  | 96 => ⟨S1200000, .i32⟩
  | 97 => ⟨S1200000, .i1⟩
  | 98 => ⟨S_, .i32⟩
  | 99 => ⟨S1200000, .i32⟩
  | 100 => ⟨S1200000, .i32⟩
  | 101 => ⟨S1200000, .i32⟩
  | 102 => ⟨S1200000x1, .i32⟩
  | 103 => ⟨S1200000x64, .f32⟩
  | 104 => ⟨S_, .f32⟩
  | 105 => ⟨S100000x64, .f32⟩
  | 106 => ⟨S1200000x1, .i32⟩
  | 107 => ⟨S100000x64, .f32⟩
  | 108 => ⟨S_, .f32⟩
  | 109 => ⟨S1200000x1, .f32⟩
  | 110 => ⟨S_, .f32⟩
  | 111 => ⟨S100000x1, .f32⟩
  | 112 => ⟨S1200000x1, .i32⟩
  | 113 => ⟨S100000x1, .f32⟩
  | 114 => ⟨S_, .f32⟩
  | 115 => ⟨S100000x1, .f32⟩
  | 116 => ⟨S100000x1, .f32⟩
  | 117 => ⟨S100000x64, .f32⟩
  | 118 => ⟨S100000x64, .f32⟩
  | 119 => ⟨S64x64, .f32⟩
  | 120 => ⟨S64x64, .f32⟩
  | 121 => ⟨S1x64, .f32⟩
  | 122 => ⟨S100000x64, .f32⟩
  | 123 => ⟨S_, .f32⟩
  | 124 => ⟨S128x64, .f32⟩
  | 125 => ⟨S100000x1, .i32⟩
  | 126 => ⟨S128x64, .f32⟩
  | 127 => ⟨S_, .f32⟩
  | _ => ⟨S100000x4, .f32⟩

abbrev hbmTy0_2 (i : Nat) : BufTy := match i % 128 with
  | 0 => ⟨S100000x1, .f32⟩
  | 1 => ⟨S_, .f32⟩
  | 2 => ⟨S128x1, .f32⟩
  | 3 => ⟨S100000x1, .i32⟩
  | 4 => ⟨S128x1, .f32⟩
  | 5 => ⟨S_, .f32⟩
  | 6 => ⟨S128x1, .f32⟩
  | 7 => ⟨S128x1, .f32⟩
  | 8 => ⟨S128x64, .f32⟩
  | 9 => ⟨S128x64, .f32⟩
  | 10 => ⟨S1x64, .f32⟩
  | 11 => ⟨S_, .i32⟩
  | 12 => ⟨S100000, .i32⟩
  | 13 => ⟨S100000, .i1⟩
  | 14 => ⟨S_, .i32⟩
  | 15 => ⟨S100000, .i32⟩
  | 16 => ⟨S100000, .i32⟩
  | 17 => ⟨S100000, .i32⟩
  | 18 => ⟨S100000x1, .i32⟩
  | 19 => ⟨S100000x64, .f32⟩
  | 20 => ⟨S100000x64, .f32⟩
  | 21 => ⟨S100000x64, .f32⟩
  | 22 => ⟨S100000x64, .f32⟩
  | 23 => ⟨S100000x64, .f32⟩
  | 24 => ⟨S_, .f32⟩
  | 25 => ⟨S128x64, .f32⟩
  | 26 => ⟨S100000x1, .i32⟩
  | 27 => ⟨S128x64, .f32⟩
  | 28 => ⟨S_, .f32⟩
  | 29 => ⟨S100000x1, .f32⟩
  | 30 => ⟨S_, .f32⟩
  | 31 => ⟨S128x1, .f32⟩
  | 32 => ⟨S100000x1, .i32⟩
  | 33 => ⟨S128x1, .f32⟩
  | 34 => ⟨S_, .f32⟩
  | 35 => ⟨S128x1, .f32⟩
  | 36 => ⟨S128x1, .f32⟩
  | 37 => ⟨S128x64, .f32⟩
  | 38 => ⟨S128x64, .f32⟩
  | 39 => ⟨S_, .i32⟩
  | 40 => ⟨S100000, .i32⟩
  | 41 => ⟨S100000, .i1⟩
  | 42 => ⟨S_, .i32⟩
  | 43 => ⟨S100000, .i32⟩
  | 44 => ⟨S100000, .i32⟩
  | 45 => ⟨S100000, .i32⟩
  | 46 => ⟨S100000x1, .i32⟩
  | 47 => ⟨S100000x64, .f32⟩
  | 48 => ⟨S_, .i32⟩
  | 49 => ⟨S100000, .i32⟩
  | 50 => ⟨S100000, .i1⟩
  | 51 => ⟨S_, .i32⟩
  | 52 => ⟨S100000, .i32⟩
  | 53 => ⟨S100000, .i32⟩
  | 54 => ⟨S100000, .i32⟩
  | 55 => ⟨S100000x1, .i32⟩
  | 56 => ⟨S100000x64, .f32⟩
  | 57 => ⟨S1x64, .f32⟩
  | 58 => ⟨S1x64, .f32⟩
  | 59 => ⟨S1x64, .f32⟩
  | 60 => ⟨S100000x64, .f32⟩
  | 61 => ⟨S_, .f32⟩
  | 62 => ⟨S128x64, .f32⟩
  | 63 => ⟨S100000x1, .i32⟩
  | 64 => ⟨S128x64, .f32⟩
  | 65 => ⟨S_, .f32⟩
  | 66 => ⟨S100000x1, .f32⟩
  | 67 => ⟨S_, .f32⟩
  | 68 => ⟨S128x1, .f32⟩
  | 69 => ⟨S100000x1, .i32⟩
  | 70 => ⟨S128x1, .f32⟩
  | 71 => ⟨S128x64, .f32⟩
  | 72 => ⟨S128x64, .f32⟩
  | 73 => ⟨S64x3, .f32⟩
  | 74 => ⟨S128x3, .f32⟩
  | 75 => ⟨S1x3, .f32⟩
  | 76 => ⟨S128x3, .f32⟩
  | 77 => ⟨S128x3, .f32⟩
  | _ => ⟨S100000x4, .f32⟩

abbrev hbmTy (i : Nat) : BufTy := match i / 128 with
  | 0 => hbmTy0_0 i
  | 1 => hbmTy0_1 i
  | 2 => hbmTy0_2 i
  | _ => ⟨S100000x4, .f32⟩

abbrev bufTy : (tb : Table) → Fin (tcTables nBuf tb) → BufTy
  | .hbm, ⟨i, _⟩ => hbmTy i
  | .local _ .vmem, ⟨0, _⟩ => ⟨S5000x4, .f32⟩
  | .local _ .vmem, ⟨1, _⟩ => ⟨S5000x4, .f32⟩
  | .local _ .vmem, ⟨2, _⟩ => ⟨S5000x4, .f32⟩
  | .local _ .vmem, ⟨3, _⟩ => ⟨S5000x4, .f32⟩
  | .local _ .vmem, ⟨4, _⟩ => ⟨S4x64, .f32⟩
  | .local _ .vmem, ⟨5, _⟩ => ⟨S4x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x64, .f32⟩
  | .local _ .vmem, ⟨25, _⟩ => ⟨S64x64, .f32⟩
  | .local _ .vmem, ⟨26, _⟩ => ⟨S1x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S1x64, .f32⟩
  | .local _ .vmem, ⟨36, _⟩ => ⟨S1x64, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S64x64, .f32⟩
  | .local _ .vmem, ⟨47, _⟩ => ⟨S64x64, .f32⟩
  | .local _ .vmem, ⟨48, _⟩ => ⟨S1x64, .f32⟩
  | .local _ .vmem, ⟨49, _⟩ => ⟨S5000x64, .f32⟩
  | .local _ .vmem, ⟨50, _⟩ => ⟨S5000x64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S1x64, .f32⟩
  | .local _ .vmem, ⟨58, _⟩ => ⟨S1x64, .f32⟩
  | .local _ .vmem, ⟨59, _⟩ => ⟨S1x64, .f32⟩
  | .local _ .vmem, ⟨60, _⟩ => ⟨S5000x64, .f32⟩
  | .local _ .vmem, ⟨61, _⟩ => ⟨S5000x64, .f32⟩
  | .local _ .vmem, ⟨62, _⟩ => ⟨S5000x64, .f32⟩
  | .local _ .vmem, ⟨63, _⟩ => ⟨S5000x64, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst_1 : Ref sig .tc := ⟨.hbm, 40, rfl⟩
abbrev main_v14 : Ref sig .tc := ⟨.hbm, 41, rfl⟩
abbrev main_cst_2 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst_3 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_4 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_cst_5 : Ref sig .tc := ⟨.hbm, 59, rfl⟩
abbrev main_v29 : Ref sig .tc := ⟨.hbm, 60, rfl⟩
abbrev main_cst_6 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_7 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_c_8 : Ref sig .tc := ⟨.hbm, 71, rfl⟩
abbrev main_v38 : Ref sig .tc := ⟨.hbm, 72, rfl⟩
abbrev main_v39 : Ref sig .tc := ⟨.hbm, 73, rfl⟩
abbrev main_c_9 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_cst_10 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_11 : Ref sig .tc := ⟨.hbm, 88, rfl⟩
abbrev main_v52 : Ref sig .tc := ⟨.hbm, 89, rfl⟩
abbrev main_cst_12 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_13 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_c_14 : Ref sig .tc := ⟨.hbm, 99, rfl⟩
abbrev main_v60 : Ref sig .tc := ⟨.hbm, 100, rfl⟩
abbrev main_v61 : Ref sig .tc := ⟨.hbm, 101, rfl⟩
abbrev main_c_15 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_c_16 : Ref sig .tc := ⟨.hbm, 108, rfl⟩
abbrev main_v67 : Ref sig .tc := ⟨.hbm, 109, rfl⟩
abbrev main_v68 : Ref sig .tc := ⟨.hbm, 110, rfl⟩
abbrev main_c_17 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_c_18 : Ref sig .tc := ⟨.hbm, 125, rfl⟩
abbrev main_v82 : Ref sig .tc := ⟨.hbm, 126, rfl⟩
abbrev main_v83 : Ref sig .tc := ⟨.hbm, 127, rfl⟩
abbrev main_c_19 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_cst_20 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_cst_21 : Ref sig .tc := ⟨.hbm, 138, rfl⟩
abbrev main_v92 : Ref sig .tc := ⟨.hbm, 139, rfl⟩
abbrev main_cst_22 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_cst_23 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_cst_24 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_cst_25 : Ref sig .tc := ⟨.hbm, 157, rfl⟩
abbrev main_v107 : Ref sig .tc := ⟨.hbm, 158, rfl⟩
abbrev main_cst_26 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_cst_27 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_c_28 : Ref sig .tc := ⟨.hbm, 169, rfl⟩
abbrev main_v116 : Ref sig .tc := ⟨.hbm, 170, rfl⟩
abbrev main_v117 : Ref sig .tc := ⟨.hbm, 171, rfl⟩
abbrev main_c_29 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_cst_30 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_cst_31 : Ref sig .tc := ⟨.hbm, 186, rfl⟩
abbrev main_v130 : Ref sig .tc := ⟨.hbm, 187, rfl⟩
abbrev main_cst_32 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_cst_33 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_c_34 : Ref sig .tc := ⟨.hbm, 197, rfl⟩
abbrev main_v138 : Ref sig .tc := ⟨.hbm, 198, rfl⟩
abbrev main_v139 : Ref sig .tc := ⟨.hbm, 199, rfl⟩
abbrev main_c_35 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_c_36 : Ref sig .tc := ⟨.hbm, 206, rfl⟩
abbrev main_v145 : Ref sig .tc := ⟨.hbm, 207, rfl⟩
abbrev main_v146 : Ref sig .tc := ⟨.hbm, 208, rfl⟩
abbrev main_c_37 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_c_38 : Ref sig .tc := ⟨.hbm, 223, rfl⟩
abbrev main_v160 : Ref sig .tc := ⟨.hbm, 224, rfl⟩
abbrev main_v161 : Ref sig .tc := ⟨.hbm, 225, rfl⟩
abbrev main_c_39 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_cst_40 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_cst_41 : Ref sig .tc := ⟨.hbm, 236, rfl⟩
abbrev main_v170 : Ref sig .tc := ⟨.hbm, 237, rfl⟩
abbrev main_cst_42 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_cst_43 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_cst_44 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_cst_45 : Ref sig .tc := ⟨.hbm, 255, rfl⟩
abbrev main_v185 : Ref sig .tc := ⟨.hbm, 256, rfl⟩
abbrev main_cst_46 : Ref sig .tc := ⟨.hbm, 257, rfl⟩
abbrev main_v186 : Ref sig .tc := ⟨.hbm, 258, rfl⟩
abbrev main_v187 : Ref sig .tc := ⟨.hbm, 259, rfl⟩
abbrev main_v188 : Ref sig .tc := ⟨.hbm, 260, rfl⟩
abbrev main_cst_47 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_c_48 : Ref sig .tc := ⟨.hbm, 267, rfl⟩
abbrev main_v194 : Ref sig .tc := ⟨.hbm, 268, rfl⟩
abbrev main_v195 : Ref sig .tc := ⟨.hbm, 269, rfl⟩
abbrev main_c_49 : Ref sig .tc := ⟨.hbm, 270, rfl⟩
abbrev main_v196 : Ref sig .tc := ⟨.hbm, 271, rfl⟩
abbrev main_v197 : Ref sig .tc := ⟨.hbm, 272, rfl⟩
abbrev main_v198 : Ref sig .tc := ⟨.hbm, 273, rfl⟩
abbrev main_v199 : Ref sig .tc := ⟨.hbm, 274, rfl⟩
abbrev main_v200 : Ref sig .tc := ⟨.hbm, 275, rfl⟩
abbrev main_v201 : Ref sig .tc := ⟨.hbm, 276, rfl⟩
abbrev main_v202 : Ref sig .tc := ⟨.hbm, 277, rfl⟩
abbrev main_v203 : Ref sig .tc := ⟨.hbm, 278, rfl⟩
abbrev main_v204 : Ref sig .tc := ⟨.hbm, 279, rfl⟩
abbrev main_cst_50 : Ref sig .tc := ⟨.hbm, 280, rfl⟩
abbrev main_v205 : Ref sig .tc := ⟨.hbm, 281, rfl⟩
abbrev main_v206 : Ref sig .tc := ⟨.hbm, 282, rfl⟩
abbrev main_v207 : Ref sig .tc := ⟨.hbm, 283, rfl⟩
abbrev main_cst_51 : Ref sig .tc := ⟨.hbm, 284, rfl⟩
abbrev main_v208 : Ref sig .tc := ⟨.hbm, 285, rfl⟩
abbrev main_cst_52 : Ref sig .tc := ⟨.hbm, 286, rfl⟩
abbrev main_v209 : Ref sig .tc := ⟨.hbm, 287, rfl⟩
abbrev main_v210 : Ref sig .tc := ⟨.hbm, 288, rfl⟩
abbrev main_v211 : Ref sig .tc := ⟨.hbm, 289, rfl⟩
abbrev main_cst_53 : Ref sig .tc := ⟨.hbm, 290, rfl⟩
abbrev main_v212 : Ref sig .tc := ⟨.hbm, 291, rfl⟩
abbrev main_v213 : Ref sig .tc := ⟨.hbm, 292, rfl⟩
abbrev main_v214 : Ref sig .tc := ⟨.hbm, 293, rfl⟩
abbrev main_v215 : Ref sig .tc := ⟨.hbm, 294, rfl⟩
abbrev main_c_54 : Ref sig .tc := ⟨.hbm, 295, rfl⟩
abbrev main_v216 : Ref sig .tc := ⟨.hbm, 296, rfl⟩
abbrev main_v217 : Ref sig .tc := ⟨.hbm, 297, rfl⟩
abbrev main_c_55 : Ref sig .tc := ⟨.hbm, 298, rfl⟩
abbrev main_v218 : Ref sig .tc := ⟨.hbm, 299, rfl⟩
abbrev main_v219 : Ref sig .tc := ⟨.hbm, 300, rfl⟩
abbrev main_v220 : Ref sig .tc := ⟨.hbm, 301, rfl⟩
abbrev main_v221 : Ref sig .tc := ⟨.hbm, 302, rfl⟩
abbrev main_v222 : Ref sig .tc := ⟨.hbm, 303, rfl⟩
abbrev main_c_56 : Ref sig .tc := ⟨.hbm, 304, rfl⟩
abbrev main_v223 : Ref sig .tc := ⟨.hbm, 305, rfl⟩
abbrev main_v224 : Ref sig .tc := ⟨.hbm, 306, rfl⟩
abbrev main_c_57 : Ref sig .tc := ⟨.hbm, 307, rfl⟩
abbrev main_v225 : Ref sig .tc := ⟨.hbm, 308, rfl⟩
abbrev main_v226 : Ref sig .tc := ⟨.hbm, 309, rfl⟩
abbrev main_v227 : Ref sig .tc := ⟨.hbm, 310, rfl⟩
abbrev main_v228 : Ref sig .tc := ⟨.hbm, 311, rfl⟩
abbrev main_v229 : Ref sig .tc := ⟨.hbm, 312, rfl⟩
abbrev main_v230 : Ref sig .tc := ⟨.hbm, 313, rfl⟩
abbrev main_v231 : Ref sig .tc := ⟨.hbm, 314, rfl⟩
abbrev main_v232 : Ref sig .tc := ⟨.hbm, 315, rfl⟩
abbrev main_v233 : Ref sig .tc := ⟨.hbm, 316, rfl⟩
abbrev main_cst_58 : Ref sig .tc := ⟨.hbm, 317, rfl⟩
abbrev main_v234 : Ref sig .tc := ⟨.hbm, 318, rfl⟩
abbrev main_v235 : Ref sig .tc := ⟨.hbm, 319, rfl⟩
abbrev main_v236 : Ref sig .tc := ⟨.hbm, 320, rfl⟩
abbrev main_cst_59 : Ref sig .tc := ⟨.hbm, 321, rfl⟩
abbrev main_v237 : Ref sig .tc := ⟨.hbm, 322, rfl⟩
abbrev main_cst_60 : Ref sig .tc := ⟨.hbm, 323, rfl⟩
abbrev main_v238 : Ref sig .tc := ⟨.hbm, 324, rfl⟩
abbrev main_v239 : Ref sig .tc := ⟨.hbm, 325, rfl⟩
abbrev main_v240 : Ref sig .tc := ⟨.hbm, 326, rfl⟩
abbrev main_v241 : Ref sig .tc := ⟨.hbm, 327, rfl⟩
abbrev main_v242 : Ref sig .tc := ⟨.hbm, 328, rfl⟩
abbrev main_v243 : Ref sig .tc := ⟨.hbm, 329, rfl⟩
abbrev main_v244 : Ref sig .tc := ⟨.hbm, 330, rfl⟩
abbrev main_v245 : Ref sig .tc := ⟨.hbm, 331, rfl⟩
abbrev main_v246 : Ref sig .tc := ⟨.hbm, 332, rfl⟩
abbrev main_v247 : Ref sig .tc := ⟨.hbm, 333, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc3_stg7_0 : Ref sig .tc := ⟨.vmem, 40, rfl⟩
abbrev cc3_stg7_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg5_0 : Ref sig .tc := ⟨.vmem, 49, rfl⟩
abbrev cc4_stg5_1 : Ref sig .tc := ⟨.vmem, 50, rfl⟩
abbrev cc5_stg0_0 : Ref sig .tc := ⟨.vmem, 51, rfl⟩
abbrev cc5_stg0_1 : Ref sig .tc := ⟨.vmem, 52, rfl⟩
abbrev cc5_stg1_0 : Ref sig .tc := ⟨.vmem, 53, rfl⟩
abbrev cc5_stg1_1 : Ref sig .tc := ⟨.vmem, 54, rfl⟩
abbrev cc5_stg2_0 : Ref sig .tc := ⟨.vmem, 55, rfl⟩
abbrev cc5_stg2_1 : Ref sig .tc := ⟨.vmem, 56, rfl⟩
abbrev cc5_stg3_0 : Ref sig .tc := ⟨.vmem, 57, rfl⟩
abbrev cc5_stg4_0 : Ref sig .tc := ⟨.vmem, 58, rfl⟩
abbrev cc5_stg5_0 : Ref sig .tc := ⟨.vmem, 59, rfl⟩
abbrev cc5_stg6_0 : Ref sig .tc := ⟨.vmem, 60, rfl⟩
abbrev cc5_stg6_1 : Ref sig .tc := ⟨.vmem, 61, rfl⟩
abbrev cc5_stg7_0 : Ref sig .tc := ⟨.vmem, 62, rfl⟩
abbrev cc5_stg7_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem5_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem2_1 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev cc3_sem7_0 : DmaSem sig := 40
abbrev cc3_sem7_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem3_0 : DmaSem sig := 47
abbrev cc4_sem4_0 : DmaSem sig := 48
abbrev cc4_sem5_0 : DmaSem sig := 49
abbrev cc4_sem5_1 : DmaSem sig := 50
abbrev cc5_sem0_0 : DmaSem sig := 51
abbrev cc5_sem0_1 : DmaSem sig := 52
abbrev cc5_sem1_0 : DmaSem sig := 53
abbrev cc5_sem1_1 : DmaSem sig := 54
abbrev cc5_sem2_0 : DmaSem sig := 55
abbrev cc5_sem2_1 : DmaSem sig := 56
abbrev cc5_sem3_0 : DmaSem sig := 57
abbrev cc5_sem4_0 : DmaSem sig := 58
abbrev cc5_sem5_0 : DmaSem sig := 59
abbrev cc5_sem6_0 : DmaSem sig := 60
abbrev cc5_sem6_1 : DmaSem sig := 61
abbrev cc5_sem7_0 : DmaSem sig := 62
abbrev cc5_sem7_1 : DmaSem sig := 63

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S5000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S5000x64 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x4 : S_.BroadcastsInDim S100000x4 (![] : Fin 0 → Fin S100000x4.rank)
  bcast_S_S1200000x1 : S_.BroadcastsInDim S1200000x1 (![] : Fin 0 → Fin S1200000x1.rank)
  bcast_S_S100000x1 : S_.BroadcastsInDim S100000x1 (![] : Fin 0 → Fin S100000x1.rank)
  bcast_S100000x1_S100000x4_0_1 : S100000x1.BroadcastsInDim S100000x4 (![0, 1] : Fin 2 → Fin S100000x4.rank)
  transposes_S64x4_S4x64_1_0 : S64x4.Transposes [1, 0] S4x64
  shapeCasts_S64_S1x64 : S64.ShapeCasts S1x64
  inb_S5000x4_S5000x4_0_0 : ∀ a, (![0, 0] : Fin 2 → Nat) a + S5000x4.size a ≤ S5000x4.size a
  h_S5000x4 : 0 < S5000x4.numel
  shapeCasts_S5000x4_S5000x4 : S5000x4.ShapeCasts S5000x4
  bitsLt_bf16_f32 : FTy.bits .bf16 < FTy.bits .f32
  inb_S4x64_S4x64_0_0 : ∀ a, (![0, 0] : Fin 2 → Nat) a + S4x64.size a ≤ S4x64.size a
  h_S4x64 : 0 < S4x64.numel
  shapeCasts_S4x64_S4x64 : S4x64.ShapeCasts S4x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S128x64 : S_.BroadcastsInDim S128x64 (![] : Fin 0 → Fin S128x64.rank)
  bcast_S100000_S100000x1_0 : S100000.BroadcastsInDim S100000x1 (![0] : Fin 1 → Fin S100000x1.rank)
  bcast_S_S128x1 : S_.BroadcastsInDim S128x1 (![] : Fin 0 → Fin S128x1.rank)
  bcast_S128x1_S128x64_0_1 : S128x1.BroadcastsInDim S128x64 (![0, 1] : Fin 2 → Fin S128x64.rank)
  bcast_S64_S1x64_1 : S64.BroadcastsInDim S1x64 (![1] : Fin 1 → Fin S1x64.rank)
  bcast_S_S100000 : S_.BroadcastsInDim S100000 (![] : Fin 0 → Fin S100000.rank)
  bcast_S1x64_S100000x64_0_1 : S1x64.BroadcastsInDim S100000x64 (![0, 1] : Fin 2 → Fin S100000x64.rank)
  shapeCasts_S5000x64_S5000x64 : S5000x64.ShapeCasts S5000x64
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  transposes_S3x64_S64x3_1_0 : S3x64.Transposes [1, 0] S64x3
  bcast_S3_S1x3_1 : S3.BroadcastsInDim S1x3 (![1] : Fin 1 → Fin S1x3.rank)
  bcast_S1x3_S128x3_0_1 : S1x3.BroadcastsInDim S128x3 (![0, 1] : Fin 2 → Fin S128x3.rank)
  gather_S100000x4_S1200000x1_S1200000x4_1_0_n_n_0_1_14_wf : GatherDims.WF S100000x4 S1200000x1 S1200000x4 [1] [0] [] [0] [] 1 ![1, 4]
  scatter_S100000x4_S1200000x1_S1200000x4_1_0_0_1_wf : ScatterDims.WF S100000x4 S1200000x1 S1200000x4 [1] [0] [0] 1
  scatter_S100000x1_S1200000x1_S1200000x1_1_0_0_1_wf : ScatterDims.WF S100000x1 S1200000x1 S1200000x1 [1] [0] [0] 1
  dot_S5000x4_S4x64_S5000x64_1_0_0_1_n_n_wf : DotDims.WF S5000x4 S4x64 S5000x64 [1] [0] [0] [1] [] []
  scatter_S128x64_S100000x1_S100000x64_1_0_0_1_wf : ScatterDims.WF S128x64 S100000x1 S100000x64 [1] [0] [0] 1
  scatter_S128x1_S100000x1_S100000x1_1_0_0_1_wf : ScatterDims.WF S128x1 S100000x1 S100000x1 [1] [0] [0] 1
  gather_S128x64_S100000x1_S100000x64_1_0_n_n_0_1_164_wf : GatherDims.WF S128x64 S100000x1 S100000x64 [1] [0] [] [0] [] 1 ![1, 64]
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x64_S5000x64_1_0_0_1_n_n_wf : DotDims.WF S5000x64 S64x64 S5000x64 [1] [0] [0] [1] [] []
  dot_S128x64_S64x3_S128x3_1_0_0_1_n_n_wf : DotDims.WF S128x64 S64x3 S128x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x4.size a ≤ S100000x4.size a
  hwx0_0 : ∀ i : grid0.Coords, EltTy.bits .f32 = 32 ∨ (Rect.block (s := S100000x4) S5000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x4.size a ≤ S100000x4.size a
  hwx0_1 : ∀ i : grid0.Coords, EltTy.bits .f32 = 32 ∨ (Rect.block (s := S100000x4) S5000x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x64.size a ≤ S4x64.size a
  hwx0_2 : ∀ i : grid0.Coords, EltTy.bits .f32 = 32 ∨ (Rect.block (s := S4x64) S4x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x64.size a ≤ S4x64.size a
  hwx0_3 : ∀ i : grid0.Coords, EltTy.bits .f32 = 32 ∨ (Rect.block (s := S4x64) S4x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x64.size a ≤ S100000x64.size a
  hwx3_7 : ∀ i : grid3.Coords, EltTy.bits .f32 = 32 ∨ (Rect.block (s := S100000x64) S5000x64.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S100000x64.size a
  hwx4_5 : ∀ i : grid4.Coords, EltTy.bits .f32 = 32 ∨ (Rect.block (s := S100000x64) S5000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S100000x64.size a
  hwx5_2 : ∀ i : grid5.Coords, EltTy.bits .f32 = 32 ∨ (Rect.block (s := S100000x64) S5000x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x64.size a ≤ S100000x64.size a
  hwx5_6 : ∀ i : grid5.Coords, EltTy.bits .f32 = 32 ∨ (Rect.block (s := S100000x64) S5000x64.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x64.size a ≤ S100000x64.size a
  hwx5_7 : ∀ i : grid5.Coords, EltTy.bits .f32 = 32 ∨ (Rect.block (s := S100000x64) S5000x64.size (cc5_transform_7 i) (hinb5_7 i)).WholeWords (EltTy.packing .f32)

variable [Facts₀]

def gather_S100000x4_S1200000x1_S1200000x4_1_0_n_n_0_1_14 : GatherDims S100000x4 S1200000x1 S1200000x4 where
  offsetDims := [1]
  collapsedSliceDims := [0]
  operandBatchingDims := []
  startIndicesBatchingDims := []
  startIndexMap := [0]
  indexVectorDim := 1
  sliceSizes := ![1, 4]
  wf := gather_S100000x4_S1200000x1_S1200000x4_1_0_n_n_0_1_14_wf
def scatter_S100000x4_S1200000x1_S1200000x4_1_0_0_1 : ScatterDims S100000x4 S1200000x1 S1200000x4 where
  updateWindowDims := [1]
  insertedWindowDims := [0]
  scatterDimsToOperandDims := [0]
  indexVectorDim := 1
  wf := scatter_S100000x4_S1200000x1_S1200000x4_1_0_0_1_wf
def scatter_S100000x1_S1200000x1_S1200000x1_1_0_0_1 : ScatterDims S100000x1 S1200000x1 S1200000x1 where
  updateWindowDims := [1]
  insertedWindowDims := [0]
  scatterDimsToOperandDims := [0]
  indexVectorDim := 1
  wf := scatter_S100000x1_S1200000x1_S1200000x1_1_0_0_1_wf
def dot_S5000x4_S4x64_S5000x64_1_0_0_1_n_n : DotDims S5000x4 S4x64 S5000x64 where
  lhsContracting := [1]
  rhsContracting := [0]
  lhsNonContracting := [0]
  rhsNonContracting := [1]
  lhsBatch := []
  rhsBatch := []
  wf := dot_S5000x4_S4x64_S5000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128x1_S100000x1_S100000x1_1_0_0_1 : ScatterDims S128x1 S100000x1 S100000x1 where
  updateWindowDims := [1]
  insertedWindowDims := [0]
  scatterDimsToOperandDims := [0]
  indexVectorDim := 1
  wf := scatter_S128x1_S100000x1_S100000x1_1_0_0_1_wf
def gather_S128x64_S100000x1_S100000x64_1_0_n_n_0_1_164 : GatherDims S128x64 S100000x1 S100000x64 where
  offsetDims := [1]
  collapsedSliceDims := [0]
  operandBatchingDims := []
  startIndicesBatchingDims := []
  startIndexMap := [0]
  indexVectorDim := 1
  sliceSizes := ![1, 64]
  wf := gather_S128x64_S100000x1_S100000x64_1_0_n_n_0_1_164_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S128x64_S64x3_S128x3_1_0_0_1_n_n : DotDims S128x64 S64x3 S128x3 where
  lhsContracting := [1]
  rhsContracting := [0]
  lhsNonContracting := [0]
  rhsNonContracting := [1]
  lhsBatch := []
  rhsBatch := []
  wf := dot_S128x64_S64x3_S128x3_1_0_0_1_n_n_wf

abbrev win0_0 : Pipeline.Window sig grid0 :=
  Pipeline.Window.ofSpec (Memref.whole main_v21) S5000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S4x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S4x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v66) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v73) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v74) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v75) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v76) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v77) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v99) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v77) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v100) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v101) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v102) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v103) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v103) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v144) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v151) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v152) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v153) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v154) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v77) S5000x64.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v155) S5000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v177) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v155) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v178) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v179) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v180) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v181) S5000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v181) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v222) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v229) S5000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v230) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v231) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v232) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v155) S5000x64.size cc5_transform_6 reads5_6 false false 2 stage5_6 sem5_6
    hrank5 hreads5_6 hinb5_6 nbuf5_6 (Memref.isWhole_whole _) hwx5_6 hstage5_6

abbrev win5_7 : Pipeline.Window sig grid5 :=
  Pipeline.Window.ofSpec (Memref.whole main_v233) S5000x64.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S100000x4 : Shape := ⟨2, ![100000, 4]⟩
abbrev S2x1200000 : Shape := ⟨2, ![2, 1200000]⟩
abbrev S100000 : Shape := ⟨1, ![100000]⟩
abbrev S64x4 : Shape := ⟨2, ![64, 4]⟩
abbrev S64 : Shape := ⟨1, ![64]⟩
abbrev S64x64 : Shape := ⟨2, ![64, 64]⟩
abbrev S3x64 : Shape := ⟨2, ![3, 64]⟩
abbrev S3 : Shape := ⟨1, ![3]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x4 : Shape := ⟨2, ![1200000, 4]⟩
abbrev S100000x1 : Shape := ⟨2, ![100000, 1]⟩
abbrev S4x64 : Shape := ⟨2, ![4, 64]⟩
abbrev S100000x64 : Shape := ⟨2, ![100000, 64]⟩
abbrev S1x64 : Shape := ⟨2, ![1, 64]⟩
abbrev S128x64 : Shape := ⟨2, ![128, 64]⟩
abbrev S128x1 : Shape := ⟨2, ![128, 1]⟩
abbrev S1200000x64 : Shape := ⟨2, ![1200000, 64]⟩
abbrev S64x3 : Shape := ⟨2, ![64, 3]⟩
abbrev S128x3 : Shape := ⟨2, ![128, 3]⟩
abbrev S1x3 : Shape := ⟨2, ![1, 3]⟩

abbrev nBuf : Space → Nat
  | .hbm => 351
  | .vmem => 0
  | .smem => 0
  | _ => 0

abbrev hbmTy0_0 (i : Nat) : BufTy := match i % 128 with
  | 0 => ⟨S100000x4, .f32⟩
  | 1 => ⟨S2x1200000, .i32⟩
  | 2 => ⟨S100000, .i32⟩
  | 3 => ⟨S64x4, .f32⟩
  | 4 => ⟨S64, .f32⟩
  | 5 => ⟨S64x4, .f32⟩
  | 6 => ⟨S64x64, .f32⟩
  | 7 => ⟨S64, .f32⟩
  | 8 => ⟨S64x64, .f32⟩
  | 9 => ⟨S64x64, .f32⟩
  | 10 => ⟨S64, .f32⟩
  | 11 => ⟨S64x64, .f32⟩
  | 12 => ⟨S64, .f32⟩
  | 13 => ⟨S64, .f32⟩
  | 14 => ⟨S64, .f32⟩
  | 15 => ⟨S64, .f32⟩
  | 16 => ⟨S64, .f32⟩
  | 17 => ⟨S64, .f32⟩
  | 18 => ⟨S64, .f32⟩
  | 19 => ⟨S64, .f32⟩
  | 20 => ⟨S64, .f32⟩
  | 21 => ⟨S3x64, .f32⟩
  | 22 => ⟨S3, .f32⟩
  | 23 => ⟨S1x1200000, .i32⟩
  | 24 => ⟨S1200000, .i32⟩
  | 25 => ⟨S1x1200000, .i32⟩
  | 26 => ⟨S1200000, .i32⟩
  | 27 => ⟨S_, .i32⟩
  | 28 => ⟨S1200000, .i32⟩
  | 29 => ⟨S1200000, .i1⟩
  | 30 => ⟨S_, .i32⟩
  | 31 => ⟨S1200000, .i32⟩
  | 32 => ⟨S1200000, .i32⟩
  | 33 => ⟨S1200000, .i32⟩
  | 34 => ⟨S1200000x1, .i32⟩
  | 35 => ⟨S1200000x4, .f32⟩
  | 36 => ⟨S_, .f32⟩
  | 37 => ⟨S100000x4, .f32⟩
  | 38 => ⟨S1200000x1, .i32⟩
  | 39 => ⟨S100000x4, .f32⟩
  | 40 => ⟨S_, .f32⟩
  | 41 => ⟨S1200000x1, .f32⟩
  | 42 => ⟨S_, .f32⟩
  | 43 => ⟨S100000x1, .f32⟩
  | 44 => ⟨S1200000x1, .i32⟩
  | 45 => ⟨S100000x1, .f32⟩
  | 46 => ⟨S_, .f32⟩
  | 47 => ⟨S100000x1, .f32⟩
  | 48 => ⟨S100000x1, .f32⟩
  | 49 => ⟨S100000x4, .f32⟩
  | 50 => ⟨S100000x4, .f32⟩
  | 51 => ⟨S4x64, .f32⟩
  | 52 => ⟨S100000x64, .f32⟩
  | 53 => ⟨S1x64, .f32⟩
  | 54 => ⟨S100000x64, .f32⟩
  | 55 => ⟨S100000x64, .f32⟩
  | 56 => ⟨S4x64, .f32⟩
  | 57 => ⟨S100000x64, .f32⟩
  | 58 => ⟨S100000x64, .f32⟩
  | 59 => ⟨S_, .f32⟩
  | 60 => ⟨S128x64, .f32⟩
  | 61 => ⟨S100000x1, .i32⟩
  | 62 => ⟨S128x64, .f32⟩
  | 63 => ⟨S_, .f32⟩
  | 64 => ⟨S100000x1, .f32⟩
  | 65 => ⟨S_, .f32⟩
  | 66 => ⟨S128x1, .f32⟩
  | 67 => ⟨S100000x1, .i32⟩
  | 68 => ⟨S128x1, .f32⟩
  | 69 => ⟨S_, .f32⟩
  | 70 => ⟨S128x1, .f32⟩
  | 71 => ⟨S128x1, .f32⟩
  | 72 => ⟨S128x64, .f32⟩
  | 73 => ⟨S128x64, .f32⟩
  | 74 => ⟨S_, .i32⟩
  | 75 => ⟨S100000, .i32⟩
  | 76 => ⟨S100000, .i1⟩
  | 77 => ⟨S_, .i32⟩
  | 78 => ⟨S100000, .i32⟩
  | 79 => ⟨S100000, .i32⟩
  | 80 => ⟨S100000, .i32⟩
  | 81 => ⟨S100000x1, .i32⟩
  | 82 => ⟨S100000x64, .f32⟩
  | 83 => ⟨S1x64, .f32⟩
  | 84 => ⟨S100000x64, .f32⟩
  | 85 => ⟨S100000x64, .f32⟩
  | 86 => ⟨S100000x64, .f32⟩
  | 87 => ⟨S100000x64, .f32⟩
  | 88 => ⟨S_, .f32⟩
  | 89 => ⟨S128x64, .f32⟩
  | 90 => ⟨S100000x1, .i32⟩
  | 91 => ⟨S128x64, .f32⟩
  | 92 => ⟨S_, .f32⟩
  | 93 => ⟨S100000x1, .f32⟩
  | 94 => ⟨S_, .f32⟩
  | 95 => ⟨S128x1, .f32⟩
  | 96 => ⟨S100000x1, .i32⟩
  | 97 => ⟨S128x1, .f32⟩
  | 98 => ⟨S_, .f32⟩
  | 99 => ⟨S128x1, .f32⟩
  | 100 => ⟨S128x1, .f32⟩
  | 101 => ⟨S128x64, .f32⟩
  | 102 => ⟨S128x64, .f32⟩
  | 103 => ⟨S1x64, .f32⟩
  | 104 => ⟨S100000x64, .f32⟩
  | 105 => ⟨S100000x64, .f32⟩
  | 106 => ⟨S_, .i32⟩
  | 107 => ⟨S100000, .i32⟩
  | 108 => ⟨S100000, .i1⟩
  | 109 => ⟨S_, .i32⟩
  | 110 => ⟨S100000, .i32⟩
  | 111 => ⟨S100000, .i32⟩
  | 112 => ⟨S100000, .i32⟩
  | 113 => ⟨S100000x1, .i32⟩
  | 114 => ⟨S100000x64, .f32⟩
  | 115 => ⟨S_, .f32⟩
  | 116 => ⟨S100000x64, .f32⟩
  | 117 => ⟨S100000x64, .f32⟩
  | 118 => ⟨S100000x64, .f32⟩
  | 119 => ⟨S100000x64, .f32⟩
  | 120 => ⟨S1x64, .f32⟩
  | 121 => ⟨S100000x64, .f32⟩
  | 122 => ⟨S100000x64, .f32⟩
  | 123 => ⟨S_, .f32⟩
  | 124 => ⟨S100000x64, .f32⟩
  | 125 => ⟨S100000x64, .f32⟩
  | 126 => ⟨S1x1200000, .i32⟩
  | 127 => ⟨S1200000, .i32⟩
  | _ => ⟨S100000x4, .f32⟩

abbrev hbmTy0_1 (i : Nat) : BufTy := match i % 128 with
  | 0 => ⟨S1x1200000, .i32⟩
  | 1 => ⟨S1200000, .i32⟩
  | 2 => ⟨S_, .i32⟩
  | 3 => ⟨S1200000, .i32⟩
  | 4 => ⟨S1200000, .i1⟩
  | 5 => ⟨S_, .i32⟩
  | 6 => ⟨S1200000, .i32⟩
  | 7 => ⟨S1200000, .i32⟩
  | 8 => ⟨S1200000, .i32⟩
  | 9 => ⟨S1200000x1, .i32⟩
  | 10 => ⟨S1200000x64, .f32⟩
  | 11 => ⟨S_, .f32⟩
  | 12 => ⟨S100000x64, .f32⟩
  | 13 => ⟨S1200000x1, .i32⟩
  | 14 => ⟨S100000x64, .f32⟩
  | 15 => ⟨S_, .f32⟩
  | 16 => ⟨S1200000x1, .f32⟩
  | 17 => ⟨S_, .f32⟩
  | 18 => ⟨S100000x1, .f32⟩
  | 19 => ⟨S1200000x1, .i32⟩
  | 20 => ⟨S100000x1, .f32⟩
  | 21 => ⟨S_, .f32⟩
  | 22 => ⟨S100000x1, .f32⟩
  | 23 => ⟨S100000x1, .f32⟩
  | 24 => ⟨S100000x64, .f32⟩
  | 25 => ⟨S100000x64, .f32⟩
  | 26 => ⟨S64x64, .f32⟩
  | 27 => ⟨S100000x64, .f32⟩
  | 28 => ⟨S1x64, .f32⟩
  | 29 => ⟨S100000x64, .f32⟩
  | 30 => ⟨S100000x64, .f32⟩
  | 31 => ⟨S64x64, .f32⟩
  | 32 => ⟨S100000x64, .f32⟩
  | 33 => ⟨S100000x64, .f32⟩
  | 34 => ⟨S_, .f32⟩
  | 35 => ⟨S128x64, .f32⟩
  | 36 => ⟨S100000x1, .i32⟩
  | 37 => ⟨S128x64, .f32⟩
  | 38 => ⟨S_, .f32⟩
  | 39 => ⟨S100000x1, .f32⟩
  | 40 => ⟨S_, .f32⟩
  | 41 => ⟨S128x1, .f32⟩
  | 42 => ⟨S100000x1, .i32⟩
  | 43 => ⟨S128x1, .f32⟩
  | 44 => ⟨S_, .f32⟩
  | 45 => ⟨S128x1, .f32⟩
  | 46 => ⟨S128x1, .f32⟩
  | 47 => ⟨S128x64, .f32⟩
  | 48 => ⟨S128x64, .f32⟩
  | 49 => ⟨S_, .i32⟩
  | 50 => ⟨S100000, .i32⟩
  | 51 => ⟨S100000, .i1⟩
  | 52 => ⟨S_, .i32⟩
  | 53 => ⟨S100000, .i32⟩
  | 54 => ⟨S100000, .i32⟩
  | 55 => ⟨S100000, .i32⟩
  | 56 => ⟨S100000x1, .i32⟩
  | 57 => ⟨S100000x64, .f32⟩
  | 58 => ⟨S1x64, .f32⟩
  | 59 => ⟨S100000x64, .f32⟩
  | 60 => ⟨S100000x64, .f32⟩
  | 61 => ⟨S100000x64, .f32⟩
  | 62 => ⟨S100000x64, .f32⟩
  | 63 => ⟨S_, .f32⟩
  | 64 => ⟨S128x64, .f32⟩
  | 65 => ⟨S100000x1, .i32⟩
  | 66 => ⟨S128x64, .f32⟩
  | 67 => ⟨S_, .f32⟩
  | 68 => ⟨S100000x1, .f32⟩
  | 69 => ⟨S_, .f32⟩
  | 70 => ⟨S128x1, .f32⟩
  | 71 => ⟨S100000x1, .i32⟩
  | 72 => ⟨S128x1, .f32⟩
  | 73 => ⟨S_, .f32⟩
  | 74 => ⟨S128x1, .f32⟩
  | 75 => ⟨S128x1, .f32⟩
  | 76 => ⟨S128x64, .f32⟩
  | 77 => ⟨S128x64, .f32⟩
  | 78 => ⟨S1x64, .f32⟩
  | 79 => ⟨S100000x64, .f32⟩
  | 80 => ⟨S100000x64, .f32⟩
  | 81 => ⟨S_, .i32⟩
  | 82 => ⟨S100000, .i32⟩
  | 83 => ⟨S100000, .i1⟩
  | 84 => ⟨S_, .i32⟩
  | 85 => ⟨S100000, .i32⟩
  | 86 => ⟨S100000, .i32⟩
  | 87 => ⟨S100000, .i32⟩
  | 88 => ⟨S100000x1, .i32⟩
  | 89 => ⟨S100000x64, .f32⟩
  | 90 => ⟨S_, .f32⟩
  | 91 => ⟨S100000x64, .f32⟩
  | 92 => ⟨S100000x64, .f32⟩
  | 93 => ⟨S100000x64, .f32⟩
  | 94 => ⟨S100000x64, .f32⟩
  | 95 => ⟨S1x64, .f32⟩
  | 96 => ⟨S100000x64, .f32⟩
  | 97 => ⟨S100000x64, .f32⟩
  | 98 => ⟨S100000x64, .f32⟩
  | 99 => ⟨S_, .f32⟩
  | 100 => ⟨S100000x64, .f32⟩
  | 101 => ⟨S100000x64, .f32⟩
  | 102 => ⟨S1x1200000, .i32⟩
  | 103 => ⟨S1200000, .i32⟩
  | 104 => ⟨S1x1200000, .i32⟩
  | 105 => ⟨S1200000, .i32⟩
  | 106 => ⟨S_, .i32⟩
  | 107 => ⟨S1200000, .i32⟩
  | 108 => ⟨S1200000, .i1⟩
  | 109 => ⟨S_, .i32⟩
  | 110 => ⟨S1200000, .i32⟩
  | 111 => ⟨S1200000, .i32⟩
  | 112 => ⟨S1200000, .i32⟩
  | 113 => ⟨S1200000x1, .i32⟩
  | 114 => ⟨S1200000x64, .f32⟩
  | 115 => ⟨S_, .f32⟩
  | 116 => ⟨S100000x64, .f32⟩
  | 117 => ⟨S1200000x1, .i32⟩
  | 118 => ⟨S100000x64, .f32⟩
  | 119 => ⟨S_, .f32⟩
  | 120 => ⟨S1200000x1, .f32⟩
  | 121 => ⟨S_, .f32⟩
  | 122 => ⟨S100000x1, .f32⟩
  | 123 => ⟨S1200000x1, .i32⟩
  | 124 => ⟨S100000x1, .f32⟩
  | 125 => ⟨S_, .f32⟩
  | 126 => ⟨S100000x1, .f32⟩
  | 127 => ⟨S100000x1, .f32⟩
  | _ => ⟨S100000x4, .f32⟩

abbrev hbmTy0_2 (i : Nat) : BufTy := match i % 128 with
  | 0 => ⟨S100000x64, .f32⟩
  | 1 => ⟨S100000x64, .f32⟩
  | 2 => ⟨S64x64, .f32⟩
  | 3 => ⟨S100000x64, .f32⟩
  | 4 => ⟨S1x64, .f32⟩
  | 5 => ⟨S100000x64, .f32⟩
  | 6 => ⟨S100000x64, .f32⟩
  | 7 => ⟨S64x64, .f32⟩
  | 8 => ⟨S100000x64, .f32⟩
  | 9 => ⟨S100000x64, .f32⟩
  | 10 => ⟨S_, .f32⟩
  | 11 => ⟨S128x64, .f32⟩
  | 12 => ⟨S100000x1, .i32⟩
  | 13 => ⟨S128x64, .f32⟩
  | 14 => ⟨S_, .f32⟩
  | 15 => ⟨S100000x1, .f32⟩
  | 16 => ⟨S_, .f32⟩
  | 17 => ⟨S128x1, .f32⟩
  | 18 => ⟨S100000x1, .i32⟩
  | 19 => ⟨S128x1, .f32⟩
  | 20 => ⟨S_, .f32⟩
  | 21 => ⟨S128x1, .f32⟩
  | 22 => ⟨S128x1, .f32⟩
  | 23 => ⟨S128x64, .f32⟩
  | 24 => ⟨S128x64, .f32⟩
  | 25 => ⟨S_, .i32⟩
  | 26 => ⟨S100000, .i32⟩
  | 27 => ⟨S100000, .i1⟩
  | 28 => ⟨S_, .i32⟩
  | 29 => ⟨S100000, .i32⟩
  | 30 => ⟨S100000, .i32⟩
  | 31 => ⟨S100000, .i32⟩
  | 32 => ⟨S100000x1, .i32⟩
  | 33 => ⟨S100000x64, .f32⟩
  | 34 => ⟨S1x64, .f32⟩
  | 35 => ⟨S100000x64, .f32⟩
  | 36 => ⟨S100000x64, .f32⟩
  | 37 => ⟨S100000x64, .f32⟩
  | 38 => ⟨S100000x64, .f32⟩
  | 39 => ⟨S_, .f32⟩
  | 40 => ⟨S128x64, .f32⟩
  | 41 => ⟨S100000x1, .i32⟩
  | 42 => ⟨S128x64, .f32⟩
  | 43 => ⟨S_, .f32⟩
  | 44 => ⟨S100000x1, .f32⟩
  | 45 => ⟨S_, .f32⟩
  | 46 => ⟨S128x1, .f32⟩
  | 47 => ⟨S100000x1, .i32⟩
  | 48 => ⟨S128x1, .f32⟩
  | 49 => ⟨S_, .f32⟩
  | 50 => ⟨S128x1, .f32⟩
  | 51 => ⟨S128x1, .f32⟩
  | 52 => ⟨S128x64, .f32⟩
  | 53 => ⟨S128x64, .f32⟩
  | 54 => ⟨S1x64, .f32⟩
  | 55 => ⟨S100000x64, .f32⟩
  | 56 => ⟨S100000x64, .f32⟩
  | 57 => ⟨S_, .i32⟩
  | 58 => ⟨S100000, .i32⟩
  | 59 => ⟨S100000, .i1⟩
  | 60 => ⟨S_, .i32⟩
  | 61 => ⟨S100000, .i32⟩
  | 62 => ⟨S100000, .i32⟩
  | 63 => ⟨S100000, .i32⟩
  | 64 => ⟨S100000x1, .i32⟩
  | 65 => ⟨S100000x64, .f32⟩
  | 66 => ⟨S_, .f32⟩
  | 67 => ⟨S100000x64, .f32⟩
  | 68 => ⟨S100000x64, .f32⟩
  | 69 => ⟨S100000x64, .f32⟩
  | 70 => ⟨S100000x64, .f32⟩
  | 71 => ⟨S1x64, .f32⟩
  | 72 => ⟨S100000x64, .f32⟩
  | 73 => ⟨S100000x64, .f32⟩
  | 74 => ⟨S100000x64, .f32⟩
  | 75 => ⟨S_, .f32⟩
  | 76 => ⟨S100000x64, .f32⟩
  | 77 => ⟨S100000x64, .f32⟩
  | 78 => ⟨S_, .f32⟩
  | 79 => ⟨S128x64, .f32⟩
  | 80 => ⟨S100000x1, .i32⟩
  | 81 => ⟨S128x64, .f32⟩
  | 82 => ⟨S_, .f32⟩
  | 83 => ⟨S100000x1, .f32⟩
  | 84 => ⟨S_, .f32⟩
  | 85 => ⟨S128x1, .f32⟩
  | 86 => ⟨S100000x1, .i32⟩
  | 87 => ⟨S128x1, .f32⟩
  | 88 => ⟨S128x64, .f32⟩
  | 89 => ⟨S128x64, .f32⟩
  | 90 => ⟨S64x3, .f32⟩
  | 91 => ⟨S128x3, .f32⟩
  | 92 => ⟨S1x3, .f32⟩
  | 93 => ⟨S128x3, .f32⟩
  | 94 => ⟨S128x3, .f32⟩
  | _ => ⟨S100000x4, .f32⟩

abbrev hbmTy (i : Nat) : BufTy := match i / 128 with
  | 0 => hbmTy0_0 i
  | 1 => hbmTy0_1 i
  | 2 => hbmTy0_2 i
  | _ => ⟨S100000x4, .f32⟩

abbrev bufTy : (tb : Table) → Fin (tcTables nBuf tb) → BufTy
  | .hbm, ⟨i, _⟩ => hbmTy i
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst_1 : Ref sig .tc := ⟨.hbm, 40, rfl⟩
abbrev main_v14 : Ref sig .tc := ⟨.hbm, 41, rfl⟩
abbrev main_cst_2 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst_3 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_4 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_5 : Ref sig .tc := ⟨.hbm, 63, rfl⟩
abbrev main_v33 : Ref sig .tc := ⟨.hbm, 64, rfl⟩
abbrev main_cst_6 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst_7 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_c_8 : Ref sig .tc := ⟨.hbm, 74, rfl⟩
abbrev main_v41 : Ref sig .tc := ⟨.hbm, 75, rfl⟩
abbrev main_v42 : Ref sig .tc := ⟨.hbm, 76, rfl⟩
abbrev main_c_9 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_10 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_11 : Ref sig .tc := ⟨.hbm, 92, rfl⟩
abbrev main_v56 : Ref sig .tc := ⟨.hbm, 93, rfl⟩
abbrev main_cst_12 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_cst_13 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_c_14 : Ref sig .tc := ⟨.hbm, 106, rfl⟩
abbrev main_v67 : Ref sig .tc := ⟨.hbm, 107, rfl⟩
abbrev main_v68 : Ref sig .tc := ⟨.hbm, 108, rfl⟩
abbrev main_c_15 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_cst_16 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_call0_cst : Ref sig .tc := ⟨.hbm, 123, rfl⟩
abbrev main_call0_v0 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_c_17 : Ref sig .tc := ⟨.hbm, 130, rfl⟩
abbrev main_v86 : Ref sig .tc := ⟨.hbm, 131, rfl⟩
abbrev main_v87 : Ref sig .tc := ⟨.hbm, 132, rfl⟩
abbrev main_c_18 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_cst_19 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_cst_20 : Ref sig .tc := ⟨.hbm, 143, rfl⟩
abbrev main_v96 : Ref sig .tc := ⟨.hbm, 144, rfl⟩
abbrev main_cst_21 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_cst_22 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_cst_23 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_cst_24 : Ref sig .tc := ⟨.hbm, 166, rfl⟩
abbrev main_v115 : Ref sig .tc := ⟨.hbm, 167, rfl⟩
abbrev main_cst_25 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_cst_26 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_c_27 : Ref sig .tc := ⟨.hbm, 177, rfl⟩
abbrev main_v123 : Ref sig .tc := ⟨.hbm, 178, rfl⟩
abbrev main_v124 : Ref sig .tc := ⟨.hbm, 179, rfl⟩
abbrev main_c_28 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_cst_29 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_cst_30 : Ref sig .tc := ⟨.hbm, 195, rfl⟩
abbrev main_v138 : Ref sig .tc := ⟨.hbm, 196, rfl⟩
abbrev main_cst_31 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_cst_32 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_c_33 : Ref sig .tc := ⟨.hbm, 209, rfl⟩
abbrev main_v149 : Ref sig .tc := ⟨.hbm, 210, rfl⟩
abbrev main_v150 : Ref sig .tc := ⟨.hbm, 211, rfl⟩
abbrev main_c_34 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_cst_35 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_call1_cst : Ref sig .tc := ⟨.hbm, 227, rfl⟩
abbrev main_call1_v0 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_c_36 : Ref sig .tc := ⟨.hbm, 234, rfl⟩
abbrev main_v169 : Ref sig .tc := ⟨.hbm, 235, rfl⟩
abbrev main_v170 : Ref sig .tc := ⟨.hbm, 236, rfl⟩
abbrev main_c_37 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_cst_38 : Ref sig .tc := ⟨.hbm, 243, rfl⟩
abbrev main_v176 : Ref sig .tc := ⟨.hbm, 244, rfl⟩
abbrev main_v177 : Ref sig .tc := ⟨.hbm, 245, rfl⟩
abbrev main_v178 : Ref sig .tc := ⟨.hbm, 246, rfl⟩
abbrev main_cst_39 : Ref sig .tc := ⟨.hbm, 247, rfl⟩
abbrev main_v179 : Ref sig .tc := ⟨.hbm, 248, rfl⟩
abbrev main_cst_40 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_cst_41 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩
abbrev main_v188 : Ref sig .tc := ⟨.hbm, 259, rfl⟩
abbrev main_v189 : Ref sig .tc := ⟨.hbm, 260, rfl⟩
abbrev main_v190 : Ref sig .tc := ⟨.hbm, 261, rfl⟩
abbrev main_v191 : Ref sig .tc := ⟨.hbm, 262, rfl⟩
abbrev main_v192 : Ref sig .tc := ⟨.hbm, 263, rfl⟩
abbrev main_v193 : Ref sig .tc := ⟨.hbm, 264, rfl⟩
abbrev main_v194 : Ref sig .tc := ⟨.hbm, 265, rfl⟩
abbrev main_cst_42 : Ref sig .tc := ⟨.hbm, 266, rfl⟩
abbrev main_v195 : Ref sig .tc := ⟨.hbm, 267, rfl⟩
abbrev main_v196 : Ref sig .tc := ⟨.hbm, 268, rfl⟩
abbrev main_v197 : Ref sig .tc := ⟨.hbm, 269, rfl⟩
abbrev main_cst_43 : Ref sig .tc := ⟨.hbm, 270, rfl⟩
abbrev main_v198 : Ref sig .tc := ⟨.hbm, 271, rfl⟩
abbrev main_cst_44 : Ref sig .tc := ⟨.hbm, 272, rfl⟩
abbrev main_v199 : Ref sig .tc := ⟨.hbm, 273, rfl⟩
abbrev main_v200 : Ref sig .tc := ⟨.hbm, 274, rfl⟩
abbrev main_v201 : Ref sig .tc := ⟨.hbm, 275, rfl⟩
abbrev main_cst_45 : Ref sig .tc := ⟨.hbm, 276, rfl⟩
abbrev main_v202 : Ref sig .tc := ⟨.hbm, 277, rfl⟩
abbrev main_v203 : Ref sig .tc := ⟨.hbm, 278, rfl⟩
abbrev main_v204 : Ref sig .tc := ⟨.hbm, 279, rfl⟩
abbrev main_v205 : Ref sig .tc := ⟨.hbm, 280, rfl⟩
abbrev main_c_46 : Ref sig .tc := ⟨.hbm, 281, rfl⟩
abbrev main_v206 : Ref sig .tc := ⟨.hbm, 282, rfl⟩
abbrev main_v207 : Ref sig .tc := ⟨.hbm, 283, rfl⟩
abbrev main_c_47 : Ref sig .tc := ⟨.hbm, 284, rfl⟩
abbrev main_v208 : Ref sig .tc := ⟨.hbm, 285, rfl⟩
abbrev main_v209 : Ref sig .tc := ⟨.hbm, 286, rfl⟩
abbrev main_v210 : Ref sig .tc := ⟨.hbm, 287, rfl⟩
abbrev main_v211 : Ref sig .tc := ⟨.hbm, 288, rfl⟩
abbrev main_v212 : Ref sig .tc := ⟨.hbm, 289, rfl⟩
abbrev main_v213 : Ref sig .tc := ⟨.hbm, 290, rfl⟩
abbrev main_v214 : Ref sig .tc := ⟨.hbm, 291, rfl⟩
abbrev main_v215 : Ref sig .tc := ⟨.hbm, 292, rfl⟩
abbrev main_v216 : Ref sig .tc := ⟨.hbm, 293, rfl⟩
abbrev main_v217 : Ref sig .tc := ⟨.hbm, 294, rfl⟩
abbrev main_cst_48 : Ref sig .tc := ⟨.hbm, 295, rfl⟩
abbrev main_v218 : Ref sig .tc := ⟨.hbm, 296, rfl⟩
abbrev main_v219 : Ref sig .tc := ⟨.hbm, 297, rfl⟩
abbrev main_v220 : Ref sig .tc := ⟨.hbm, 298, rfl⟩
abbrev main_cst_49 : Ref sig .tc := ⟨.hbm, 299, rfl⟩
abbrev main_v221 : Ref sig .tc := ⟨.hbm, 300, rfl⟩
abbrev main_cst_50 : Ref sig .tc := ⟨.hbm, 301, rfl⟩
abbrev main_v222 : Ref sig .tc := ⟨.hbm, 302, rfl⟩
abbrev main_v223 : Ref sig .tc := ⟨.hbm, 303, rfl⟩
abbrev main_v224 : Ref sig .tc := ⟨.hbm, 304, rfl⟩
abbrev main_cst_51 : Ref sig .tc := ⟨.hbm, 305, rfl⟩
abbrev main_v225 : Ref sig .tc := ⟨.hbm, 306, rfl⟩
abbrev main_v226 : Ref sig .tc := ⟨.hbm, 307, rfl⟩
abbrev main_v227 : Ref sig .tc := ⟨.hbm, 308, rfl⟩
abbrev main_v228 : Ref sig .tc := ⟨.hbm, 309, rfl⟩
abbrev main_v229 : Ref sig .tc := ⟨.hbm, 310, rfl⟩
abbrev main_v230 : Ref sig .tc := ⟨.hbm, 311, rfl⟩
abbrev main_v231 : Ref sig .tc := ⟨.hbm, 312, rfl⟩
abbrev main_c_52 : Ref sig .tc := ⟨.hbm, 313, rfl⟩
abbrev main_v232 : Ref sig .tc := ⟨.hbm, 314, rfl⟩
abbrev main_v233 : Ref sig .tc := ⟨.hbm, 315, rfl⟩
abbrev main_c_53 : Ref sig .tc := ⟨.hbm, 316, rfl⟩
abbrev main_v234 : Ref sig .tc := ⟨.hbm, 317, rfl⟩
abbrev main_v235 : Ref sig .tc := ⟨.hbm, 318, rfl⟩
abbrev main_v236 : Ref sig .tc := ⟨.hbm, 319, rfl⟩
abbrev main_v237 : Ref sig .tc := ⟨.hbm, 320, rfl⟩
abbrev main_v238 : Ref sig .tc := ⟨.hbm, 321, rfl⟩
abbrev main_cst_54 : Ref sig .tc := ⟨.hbm, 322, rfl⟩
abbrev main_v239 : Ref sig .tc := ⟨.hbm, 323, rfl⟩
abbrev main_v240 : Ref sig .tc := ⟨.hbm, 324, rfl⟩
abbrev main_v241 : Ref sig .tc := ⟨.hbm, 325, rfl⟩
abbrev main_v242 : Ref sig .tc := ⟨.hbm, 326, rfl⟩
abbrev main_v243 : Ref sig .tc := ⟨.hbm, 327, rfl⟩
abbrev main_v244 : Ref sig .tc := ⟨.hbm, 328, rfl⟩
abbrev main_v245 : Ref sig .tc := ⟨.hbm, 329, rfl⟩
abbrev main_v246 : Ref sig .tc := ⟨.hbm, 330, rfl⟩
abbrev main_call2_cst : Ref sig .tc := ⟨.hbm, 331, rfl⟩
abbrev main_call2_v0 : Ref sig .tc := ⟨.hbm, 332, rfl⟩
abbrev main_v247 : Ref sig .tc := ⟨.hbm, 333, rfl⟩
abbrev main_cst_55 : Ref sig .tc := ⟨.hbm, 334, rfl⟩
abbrev main_v248 : Ref sig .tc := ⟨.hbm, 335, rfl⟩
abbrev main_v249 : Ref sig .tc := ⟨.hbm, 336, rfl⟩
abbrev main_v250 : Ref sig .tc := ⟨.hbm, 337, rfl⟩
abbrev main_cst_56 : Ref sig .tc := ⟨.hbm, 338, rfl⟩
abbrev main_v251 : Ref sig .tc := ⟨.hbm, 339, rfl⟩
abbrev main_cst_57 : Ref sig .tc := ⟨.hbm, 340, rfl⟩
abbrev main_v252 : Ref sig .tc := ⟨.hbm, 341, rfl⟩
abbrev main_v253 : Ref sig .tc := ⟨.hbm, 342, rfl⟩
abbrev main_v254 : Ref sig .tc := ⟨.hbm, 343, rfl⟩
abbrev main_v255 : Ref sig .tc := ⟨.hbm, 344, rfl⟩
abbrev main_v256 : Ref sig .tc := ⟨.hbm, 345, rfl⟩
abbrev main_v257 : Ref sig .tc := ⟨.hbm, 346, rfl⟩
abbrev main_v258 : Ref sig .tc := ⟨.hbm, 347, rfl⟩
abbrev main_v259 : Ref sig .tc := ⟨.hbm, 348, rfl⟩
abbrev main_v260 : Ref sig .tc := ⟨.hbm, 349, rfl⟩
abbrev main_v261 : Ref sig .tc := ⟨.hbm, 350, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x4 : S_.BroadcastsInDim S100000x4 (![] : Fin 0 → Fin S100000x4.rank)
  bcast_S_S1200000x1 : S_.BroadcastsInDim S1200000x1 (![] : Fin 0 → Fin S1200000x1.rank)
  bcast_S_S100000x1 : S_.BroadcastsInDim S100000x1 (![] : Fin 0 → Fin S100000x1.rank)
  bcast_S100000x1_S100000x4_0_1 : S100000x1.BroadcastsInDim S100000x4 (![0, 1] : Fin 2 → Fin S100000x4.rank)
  transposes_S64x4_S4x64_1_0 : S64x4.Transposes [1, 0] S4x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S128x64 : S_.BroadcastsInDim S128x64 (![] : Fin 0 → Fin S128x64.rank)
  bcast_S100000_S100000x1_0 : S100000.BroadcastsInDim S100000x1 (![0] : Fin 1 → Fin S100000x1.rank)
  bcast_S_S128x1 : S_.BroadcastsInDim S128x1 (![] : Fin 0 → Fin S128x1.rank)
  bcast_S128x1_S128x64_0_1 : S128x1.BroadcastsInDim S128x64 (![0, 1] : Fin 2 → Fin S128x64.rank)
  bcast_S_S100000 : S_.BroadcastsInDim S100000 (![] : Fin 0 → Fin S100000.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  transposes_S3x64_S64x3_1_0 : S3x64.Transposes [1, 0] S64x3
  bcast_S3_S1x3_1 : S3.BroadcastsInDim S1x3 (![1] : Fin 1 → Fin S1x3.rank)
  bcast_S1x3_S128x3_0_1 : S1x3.BroadcastsInDim S128x3 (![0, 1] : Fin 2 → Fin S128x3.rank)
  gather_S100000x4_S1200000x1_S1200000x4_1_0_n_n_0_1_14_wf : GatherDims.WF S100000x4 S1200000x1 S1200000x4 [1] [0] [] [0] [] 1 ![1, 4]
  scatter_S100000x4_S1200000x1_S1200000x4_1_0_0_1_wf : ScatterDims.WF S100000x4 S1200000x1 S1200000x4 [1] [0] [0] 1
  scatter_S100000x1_S1200000x1_S1200000x1_1_0_0_1_wf : ScatterDims.WF S100000x1 S1200000x1 S1200000x1 [1] [0] [0] 1
  dot_S100000x4_S4x64_S100000x64_1_0_0_1_n_n_wf : DotDims.WF S100000x4 S4x64 S100000x64 [1] [0] [0] [1] [] []
  scatter_S128x64_S100000x1_S100000x64_1_0_0_1_wf : ScatterDims.WF S128x64 S100000x1 S100000x64 [1] [0] [0] 1
  scatter_S128x1_S100000x1_S100000x1_1_0_0_1_wf : ScatterDims.WF S128x1 S100000x1 S100000x1 [1] [0] [0] 1
  gather_S128x64_S100000x1_S100000x64_1_0_n_n_0_1_164_wf : GatherDims.WF S128x64 S100000x1 S100000x64 [1] [0] [] [0] [] 1 ![1, 64]
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []
  dot_S128x64_S64x3_S128x3_1_0_0_1_n_n_wf : DotDims.WF S128x64 S64x3 S128x3 [1] [0] [0] [1] [] []

variable [Facts₀]

def gather_S100000x4_S1200000x1_S1200000x4_1_0_n_n_0_1_14 : GatherDims S100000x4 S1200000x1 S1200000x4 where
  offsetDims := [1]
  collapsedSliceDims := [0]
  operandBatchingDims := []
  startIndicesBatchingDims := []
  startIndexMap := [0]
  indexVectorDim := 1
  sliceSizes := ![1, 4]
  wf := gather_S100000x4_S1200000x1_S1200000x4_1_0_n_n_0_1_14_wf
def scatter_S100000x4_S1200000x1_S1200000x4_1_0_0_1 : ScatterDims S100000x4 S1200000x1 S1200000x4 where
  updateWindowDims := [1]
  insertedWindowDims := [0]
  scatterDimsToOperandDims := [0]
  indexVectorDim := 1
  wf := scatter_S100000x4_S1200000x1_S1200000x4_1_0_0_1_wf
def scatter_S100000x1_S1200000x1_S1200000x1_1_0_0_1 : ScatterDims S100000x1 S1200000x1 S1200000x1 where
  updateWindowDims := [1]
  insertedWindowDims := [0]
  scatterDimsToOperandDims := [0]
  indexVectorDim := 1
  wf := scatter_S100000x1_S1200000x1_S1200000x1_1_0_0_1_wf
def dot_S100000x4_S4x64_S100000x64_1_0_0_1_n_n : DotDims S100000x4 S4x64 S100000x64 where
  lhsContracting := [1]
  rhsContracting := [0]
  lhsNonContracting := [0]
  rhsNonContracting := [1]
  lhsBatch := []
  rhsBatch := []
  wf := dot_S100000x4_S4x64_S100000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128x1_S100000x1_S100000x1_1_0_0_1 : ScatterDims S128x1 S100000x1 S100000x1 where
  updateWindowDims := [1]
  insertedWindowDims := [0]
  scatterDimsToOperandDims := [0]
  indexVectorDim := 1
  wf := scatter_S128x1_S100000x1_S100000x1_1_0_0_1_wf
def gather_S128x64_S100000x1_S100000x64_1_0_n_n_0_1_164 : GatherDims S128x64 S100000x1 S100000x64 where
  offsetDims := [1]
  collapsedSliceDims := [0]
  operandBatchingDims := []
  startIndicesBatchingDims := []
  startIndexMap := [0]
  indexVectorDim := 1
  sliceSizes := ![1, 64]
  wf := gather_S128x64_S100000x1_S100000x64_1_0_n_n_0_1_164_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S128x64_S64x3_S128x3_1_0_0_1_n_n : DotDims S128x64 S64x3 S128x3 where
  lhsContracting := [1]
  rhsContracting := [0]
  lhsNonContracting := [0]
  rhsNonContracting := [1]
  lhsBatch := []
  rhsBatch := []
  wf := dot_S128x64_S64x3_S128x3_1_0_0_1_n_n_wf

class Facts : Prop extends Facts₀ where

variable [Facts]
-- ==== Proof.KernelRun.lean ====
/-
  The idealized kernel program's run with its result named.

  The program is six kernel regions among seven stretches of host operations.  Every weakly fair execution terminates
  without a fault, the argument arrays end as launched, and the result buffer ends at the contents of the last
  boundary of the fold through the program: the host stretches' operations applied in order, each region's arrays
  replaced by what its grid points wrote back.  This is the frame's own composition of the thirteen segments, read
  at the result buffer as well as at the arguments.
-/
import proofs.«152839_j85684597555422_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result buffer at the last boundary's contents and the arguments as
    launched. -/
theorem run : θ_run defs (onTc (τ := τ) (main (F := F))) ⟨m, fun _ => 0, ρ⟩ (fun r => ∀ c : Dev nD,
      r.2.mem ((c.tc : Thread nD τ).loc main_v247) = W13 m ρ c (Proc.devRef .tc main_v247)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v247 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c),
       (h c _ (mem_uc main_arg15 (by decide))).trans (W13_main_arg15 m ρ c),
       (h c _ (mem_uc main_arg16 (by decide))).trans (W13_main_arg16 m ρ c),
       (h c _ (mem_uc main_arg17 (by decide))).trans (W13_main_arg17 m ρ c),
       (h c _ (mem_uc main_arg18 (by decide))).trans (W13_main_arg18 m ρ c),
       (h c _ (mem_uc main_arg19 (by decide))).trans (W13_main_arg19 m ρ c),
       (h c _ (mem_uc main_arg20 (by decide))).trans (W13_main_arg20 m ρ c),
       (h c _ (mem_uc main_arg21 (by decide))).trans (W13_main_arg21 m ρ c),
       (h c _ (mem_uc main_arg22 (by decide))).trans (W13_main_arg22 m ρ c)⟩)

end Cert.KernelIdeal.Run

end
-- ==== Proof.RefSegs.lean ====
/-
  The reference program's host operations, in program order, as ten consecutive stretches.  The cuts are where the
  kernel program has its kernel regions' results: after the first layer's aggregation, after its convolution, after its
  output, and so on for the second and third layers, and the pooling with the last linear map at the end.  Run one after
  the other the stretches are the program: each later stretch reads an earlier stage as one buffer.
-/
import proofs.«152839_j85684597555422_1_alg».proof.Proof.Gen.ReferenceIdeal
import Idealize.ShloMosaic.Lib.StableHlo.Run

noncomputable section

namespace Cert.ReferenceIdeal.Segs

open Cert.ReferenceIdeal Cert.ReferenceIdeal.Gen Idealize.ShloMosaic Idealize.ShloMosaic.TcCoe Idealize.SL.Sem Idealize.ShloMosaic.StableHlo

variable {F : FTy → Type} [FloatOps F]

/-- Stretch 0 of the program's operations. -/
abbrev seg0 : List (HloOp τ sig (Elt F)) :=
  [ unary main_arg1 main_v0 ((extractStridedSlice S1x1200000 ![0, 0] · slices_S2x1200000_S1x1200000_0_0) : (⟨S2x1200000, .i32⟩ : BufTy).Contents (Elt F) → (⟨S1x1200000, .i32⟩ : BufTy).Contents (Elt F)),
    reshape main_v0 main_v1 rfl shapeCasts_S1x1200000_S1200000,
    unary main_arg1 main_v2 ((extractStridedSlice S1x1200000 ![1, 0] · slices_S2x1200000_S1x1200000_1_0) : (⟨S2x1200000, .i32⟩ : BufTy).Contents (Elt F) → (⟨S1x1200000, .i32⟩ : BufTy).Contents (Elt F)),
    reshape main_v2 main_v3 rfl shapeCasts_S1x1200000_S1200000,
    nullary main_c (constantI S_ 32 0#32),
    unary main_c main_v4 (broadcastInDim S1200000 ![] bcast_S_S1200000 : (⟨S_, .i32⟩ : BufTy).Contents (Elt F) → (⟨S1200000, .i32⟩ : BufTy).Contents (Elt F)),
    binary main_v1 main_v4 main_v5 (cmpi .slt : (⟨S1200000, .i32⟩ : BufTy).Contents (Elt F) → (⟨S1200000, .i32⟩ : BufTy).Contents (Elt F) → (⟨S1200000, .i1⟩ : BufTy).Contents (Elt F)),
    nullary main_c_0 (constantI S_ 32 100000#32),
    unary main_c_0 main_v6 (broadcastInDim S1200000 ![] bcast_S_S1200000 : (⟨S_, .i32⟩ : BufTy).Contents (Elt F) → (⟨S1200000, .i32⟩ : BufTy).Contents (Elt F)),
    binary main_v1 main_v6 main_v7 (addi : (⟨S1200000, .i32⟩ : BufTy).Contents (Elt F) → (⟨S1200000, .i32⟩ : BufTy).Contents (Elt F) → (⟨S1200000, .i32⟩ : BufTy).Contents (Elt F)),
    ternary main_v5 main_v7 main_v1 main_v8 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v8 main_v9 (broadcastInDim S1200000x1 ![0] bcast_S1200000_S1200000x1_0 : (⟨S1200000, .i32⟩ : BufTy).Contents (Elt F) → (⟨S1200000x1, .i32⟩ : BufTy).Contents (Elt F)),
    binary main_arg0 main_v9 main_v10 ((fun x i => Host.gather gather_S100000x4_S1200000x1_S1200000x4_1_0_n_n_0_1_14 x i) : (⟨S100000x4, .f32⟩ : BufTy).Contents (Elt F) → (⟨S1200000x1, .i32⟩ : BufTy).Contents (Elt F) → (⟨S1200000x4, .f32⟩ : BufTy).Contents (Elt F)),
    nullary main_cst (constant S_ .f32 0x00000000#32),
    unary main_cst main_v11 (broadcastInDim S100000x4 ![] bcast_S_S100000x4 : (⟨S_, .f32⟩ : BufTy).Contents (Elt F) → (⟨S100000x4, .f32⟩ : BufTy).Contents (Elt F)),
    unary main_v3 main_v12 (broadcastInDim S1200000x1 ![0] bcast_S1200000_S1200000x1_0 : (⟨S1200000, .i32⟩ : BufTy).Contents (Elt F) → (⟨S1200000x1, .i32⟩ : BufTy).Contents (Elt F)),
    ternary main_v11 main_v12 main_v10 main_v13 ((fun x i u => Host.scatterAdd scatter_S100000x4_S1200000x1_S1200000x4_1_0_0_1 x i u) : (⟨S100000x4, .f32⟩ : BufTy).Contents (Elt F) → (⟨S1200000x1, .i32⟩ : BufTy).Contents (Elt F) → (⟨S1200000x4, .f32⟩ : BufTy).Contents (Elt F) → (⟨S100000x4, .f32⟩ : BufTy).Contents (Elt F)),
    nullary main_cst_1 (constant S_ .f32 0x3F800000#32),
    unary main_cst_1 main_v14 (broadcastInDim S1200000x1 ![] bcast_S_S1200000x1 : (⟨S_, .f32⟩ : BufTy).Contents (Elt F) → (⟨S1200000x1, .f32⟩ : BufTy).Contents (Elt F)),
    nullary main_cst_2 (constant S_ .f32 0x00000000#32),
    unary main_cst_2 main_v15 (broadcastInDim S100000x1 ![] bcast_S_S100000x1 : (⟨S_, .f32⟩ : BufTy).Contents (Elt F) → (⟨S100000x1, .f32⟩ : BufTy).Contents (Elt F)),
    unary main_v3 main_v16 (broadcastInDim S1200000x1 ![0] bcast_S1200000_S1200000x1_0 : (⟨S1200000, .i32⟩ : BufTy).Contents (Elt F) → (⟨S1200000x1, .i32⟩ : BufTy).Contents (Elt F)),
    ternary main_v15 main_v16 main_v14 main_v17 ((fun x i u => Host.scatterAdd scatter_S100000x1_S1200000x1_S1200000x1_1_0_0_1 x i u) : (⟨S100000x1, .f32⟩ : BufTy).Contents (Elt F) → (⟨S1200000x1, .i32⟩ : BufTy).Contents (Elt F) → (⟨S1200000x1, .f32⟩ : BufTy).Contents (Elt F) → (⟨S100000x1, .f32⟩ : BufTy).Contents (Elt F)),
    nullary main_cst_3 (constant S_ .f32 0x3F800000#32),
    unary main_cst_3 main_v18 (broadcastInDim S100000x1 ![] bcast_S_S100000x1 : (⟨S_, .f32⟩ : BufTy).Contents (Elt F) → (⟨S100000x1, .f32⟩ : BufTy).Contents (Elt F)),
    binary main_v17 main_v18 main_v19 (maximumf : (⟨S100000x1, .f32⟩ : BufTy).Contents (Elt F) → (⟨S100000x1, .f32⟩ : BufTy).Contents (Elt F) → (⟨S100000x1, .f32⟩ : BufTy).Contents (Elt F)),
    unary main_v19 main_v20 (broadcastInDim S100000x4 ![0, 1] bcast_S100000x1_S100000x4_0_1 : (⟨S100000x1, .f32⟩ : BufTy).Contents (Elt F) → (⟨S100000x4, .f32⟩ : BufTy).Contents (Elt F)),
    binary main_v13 main_v20 main_v21 (Host.divf : (⟨S100000x4, .f32⟩ : BufTy).Contents (Elt F) → (⟨S100000x4, .f32⟩ : BufTy).Contents (Elt F) → (⟨S100000x4, .f32⟩ : BufTy).Contents (Elt F)) ]
set_option maxRecDepth 8192 in
theorem seg0_sub : (seg0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub ..⟩
theorem seg0_fresh : (seg0 : List (HloOp τ sig (Elt F))).Forall fun op => op.fresh = ∅ := by
  simp only [List.Forall]; repeat' constructor

/-- Stretch 1 of the program's operations. -/
abbrev seg1 : List (HloOp τ sig (Elt F)) :=
  [ unary main_arg3 main_v22 ((transpose S4x64 [1, 0] · transposes_S64x4_S4x64_1_0) : (⟨S64x4, .f32⟩ : BufTy).Contents (Elt F) → (⟨S4x64, .f32⟩ : BufTy).Contents (Elt F)),
    binary main_v21 main_v22 main_v23 ((fun l r => Host.dotGeneral dot_S100000x4_S4x64_S100000x64_1_0_0_1_n_n none l r) : (⟨S100000x4, .f32⟩ : BufTy).Contents (Elt F) → (⟨S4x64, .f32⟩ : BufTy).Contents (Elt F) → (⟨S100000x64, .f32⟩ : BufTy).Contents (Elt F)),
    unary main_arg4 main_v24 (broadcastInDim S1x64 ![1] bcast_S64_S1x64_1 : (⟨S64, .f32⟩ : BufTy).Contents (Elt F) → (⟨S1x64, .f32⟩ : BufTy).Contents (Elt F)),
    unary main_v24 main_v25 (broadcastInDim S100000x64 ![0, 1] bcast_S1x64_S100000x64_0_1 : (⟨S1x64, .f32⟩ : BufTy).Contents (Elt F) → (⟨S100000x64, .f32⟩ : BufTy).Contents (Elt F)),
    binary main_v23 main_v25 main_v26 (addf : (⟨S100000x64, .f32⟩ : BufTy).Contents (Elt F) → (⟨S100000x64, .f32⟩ : BufTy).Contents (Elt F) → (⟨S100000x64, .f32⟩ : BufTy).Contents (Elt F)),
    unary main_arg5 main_v27 ((transpose S4x64 [1, 0] · transposes_S64x4_S4x64_1_0) : (⟨S64x4, .f32⟩ : BufTy).Contents (Elt F) → (⟨S4x64, .f32⟩ : BufTy).Contents (Elt F)),
    binary main_arg0 main_v27 main_v28 ((fun l r => Host.dotGeneral dot_S100000x4_S4x64_S100000x64_1_0_0_1_n_n none l r) : (⟨S100000x4, .f32⟩ : BufTy).Contents (Elt F) → (⟨S4x64, .f32⟩ : BufTy).Contents (Elt F) → (⟨S100000x64, .f32⟩ : BufTy).Contents (Elt F)),
    binary main_v26 main_v28 main_v29 (addf : (⟨S100000x64, .f32⟩ : BufTy).Contents (Elt F) → (⟨S100000x64, .f32⟩ : BufTy).Contents (Elt F) → (⟨S100000x64, .f32⟩ : BufTy).Contents (Elt F)) ]
set_option maxRecDepth 8192 in
theorem seg1_sub : (seg1 : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., binary_bufs_sub ..⟩
theorem seg1_fresh : (seg1 : List (HloOp τ sig (Elt F))).Forall fun op => op.fresh = ∅ := by
  simp only [List.Forall]; repeat' constructor

/-- Stretch 2 of the program's operations. -/
abbrev seg2 : List (HloOp τ sig (Elt F)) :=
  [ nullary main_cst_4 (constant S_ .f32 0x00000000#32),
    unary main_cst_4 main_v30 (broadcastInDim S128x64 ![] bcast_S_S128x64 : (⟨S_, .f32⟩ : BufTy).Contents (Elt F) → (⟨S128x64, .f32⟩ : BufTy).Contents (Elt F)),
    unary main_arg2 main_v31 (broadcastInDim S100000x1 ![0] bcast_S100000_S100000x1_0 : (⟨S100000, .i32⟩ : BufTy).Contents (Elt F) → (⟨S100000x1, .i32⟩ : BufTy).Contents (Elt F)),
    ternary main_v30 main_v31 main_v29 main_v32 ((fun x i u => Host.scatterAdd scatter_S128x64_S100000x1_S100000x64_1_0_0_1 x i u) : (⟨S128x64, .f32⟩ : BufTy).Contents (Elt F) → (⟨S100000x1, .i32⟩ : BufTy).Contents (Elt F) → (⟨S100000x64, .f32⟩ : BufTy).Contents (Elt F) → (⟨S128x64, .f32⟩ : BufTy).Contents (Elt F)),
    nullary main_cst_5 (constant S_ .f32 0x3F800000#32),
    unary main_cst_5 main_v33 (broadcastInDim S100000x1 ![] bcast_S_S100000x1 : (⟨S_, .f32⟩ : BufTy).Contents (Elt F) → (⟨S100000x1, .f32⟩ : BufTy).Contents (Elt F)),
    nullary main_cst_6 (constant S_ .f32 0x00000000#32),
    unary main_cst_6 main_v34 (broadcastInDim S128x1 ![] bcast_S_S128x1 : (⟨S_, .f32⟩ : BufTy).Contents (Elt F) → (⟨S128x1, .f32⟩ : BufTy).Contents (Elt F)),
    unary main_arg2 main_v35 (broadcastInDim S100000x1 ![0] bcast_S100000_S100000x1_0 : (⟨S100000, .i32⟩ : BufTy).Contents (Elt F) → (⟨S100000x1, .i32⟩ : BufTy).Contents (Elt F)),
    ternary main_v34 main_v35 main_v33 main_v36 ((fun x i u => Host.scatterAdd scatter_S128x1_S100000x1_S100000x1_1_0_0_1 x i u) : (⟨S128x1, .f32⟩ : BufTy).Contents (Elt F) → (⟨S100000x1, .i32⟩ : BufTy).Contents (Elt F) → (⟨S100000x1, .f32⟩ : BufTy).Contents (Elt F) → (⟨S128x1, .f32⟩ : BufTy).Contents (Elt F)),
    nullary main_cst_7 (constant S_ .f32 0x3F800000#32),
    unary main_cst_7 main_v37 (broadcastInDim S128x1 ![] bcast_S_S128x1 : (⟨S_, .f32⟩ : BufTy).Contents (Elt F) → (⟨S128x1, .f32⟩ : BufTy).Contents (Elt F)),
    binary main_v36 main_v37 main_v38 (maximumf : (⟨S128x1, .f32⟩ : BufTy).Contents (Elt F) → (⟨S128x1, .f32⟩ : BufTy).Contents (Elt F) → (⟨S128x1, .f32⟩ : BufTy).Contents (Elt F)),
    unary main_v38 main_v39 (broadcastInDim S128x64 ![0, 1] bcast_S128x1_S128x64_0_1 : (⟨S128x1, .f32⟩ : BufTy).Contents (Elt F) → (⟨S128x64, .f32⟩ : BufTy).Contents (Elt F)),
    binary main_v32 main_v39 main_v40 (Host.divf : (⟨S128x64, .f32⟩ : BufTy).Contents (Elt F) → (⟨S128x64, .f32⟩ : BufTy).Contents (Elt F) → (⟨S128x64, .f32⟩ : BufTy).Contents (Elt F)),
    nullary main_c_8 (constantI S_ 32 0#32),
    unary main_c_8 main_v41 (broadcastInDim S100000 ![] bcast_S_S100000 : (⟨S_, .i32⟩ : BufTy).Contents (Elt F) → (⟨S100000, .i32⟩ : BufTy).Contents (Elt F)),
    binary main_arg2 main_v41 main_v42 (cmpi .slt : (⟨S100000, .i32⟩ : BufTy).Contents (Elt F) → (⟨S100000, .i32⟩ : BufTy).Contents (Elt F) → (⟨S100000, .i1⟩ : BufTy).Contents (Elt F)),
    nullary main_c_9 (constantI S_ 32 128#32),
    unary main_c_9 main_v43 (broadcastInDim S100000 ![] bcast_S_S100000 : (⟨S_, .i32⟩ : BufTy).Contents (Elt F) → (⟨S100000, .i32⟩ : BufTy).Contents (Elt F)),
    binary main_arg2 main_v43 main_v44 (addi : (⟨S100000, .i32⟩ : BufTy).Contents (Elt F) → (⟨S100000, .i32⟩ : BufTy).Contents (Elt F) → (⟨S100000, .i32⟩ : BufTy).Contents (Elt F)),
    ternary main_v42 main_v44 main_arg2 main_v45 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v45 main_v46 (broadcastInDim S100000x1 ![0] bcast_S100000_S100000x1_0 : (⟨S100000, .i32⟩ : BufTy).Contents (Elt F) → (⟨S100000x1, .i32⟩ : BufTy).Contents (Elt F)),
    binary main_v40 main_v46 main_v47 ((fun x i => Host.gather gather_S128x64_S100000x1_S100000x64_1_0_n_n_0_1_164 x i) : (⟨S128x64, .f32⟩ : BufTy).Contents (Elt F) → (⟨S100000x1, .i32⟩ : BufTy).Contents (Elt F) → (⟨S100000x64, .f32⟩ : BufTy).Contents (Elt F)),
    unary main_arg14 main_v48 (broadcastInDim S1x64 ![1] bcast_S64_S1x64_1 : (⟨S64, .f32⟩ : BufTy).Contents (Elt F) → (⟨S1x64, .f32⟩ : BufTy).Contents (Elt F)),
    unary main_v48 main_v49 (broadcastInDim S100000x64 ![0, 1] bcast_S1x64_S100000x64_0_1 : (⟨S1x64, .f32⟩ : BufTy).Contents (Elt F) → (⟨S100000x64, .f32⟩ : BufTy).Contents (Elt F)),
    binary main_v49 main_v47 main_v50 (mulf : (⟨S100000x64, .f32⟩ : BufTy).Contents (Elt F) → (⟨S100000x64, .f32⟩ : BufTy).Contents (Elt F) → (⟨S100000x64, .f32⟩ : BufTy).Contents (Elt F)),
    binary main_v29 main_v50 main_v51 (subf : (⟨S100000x64, .f32⟩ : BufTy).Contents (Elt F) → (⟨S100000x64, .f32⟩ : BufTy).Contents (Elt F) → (⟨S100000x64, .f32⟩ : BufTy).Contents (Elt F)),
    binary main_v51 main_v51 main_v52 (mulf : (⟨S100000x64, .f32⟩ : BufTy).Contents (Elt F) → (⟨S100000x64, .f32⟩ : BufTy).Contents (Elt F) → (⟨S100000x64, .f32⟩ : BufTy).Contents (Elt F)),
    nullary main_cst_10 (constant S_ .f32 0x00000000#32),
    unary main_cst_10 main_v53 (broadcastInDim S128x64 ![] bcast_S_S128x64 : (⟨S_, .f32⟩ : BufTy).Contents (Elt F) → (⟨S128x64, .f32⟩ : BufTy).Contents (Elt F)),
    unary main_arg2 main_v54 (broadcastInDim S100000x1 ![0] bcast_S100000_S100000x1_0 : (⟨S100000, .i32⟩ : BufTy).Contents (Elt F) → (⟨S100000x1, .i32⟩ : BufTy).Contents (Elt F)),
    ternary main_v53 main_v54 main_v52 main_v55 ((fun x i u => Host.scatterAdd scatter_S128x64_S100000x1_S100000x64_1_0_0_1 x i u) : (⟨S128x64, .f32⟩ : BufTy).Contents (Elt F) → (⟨S100000x1, .i32⟩ : BufTy).Contents (Elt F) → (⟨S100000x64, .f32⟩ : BufTy).Contents (Elt F) → (⟨S128x64, .f32⟩ : BufTy).Contents (Elt F)),
    nullary main_cst_11 (constant S_ .f32 0x3F800000#32),
    unary main_cst_11 main_v56 (broadcastInDim S100000x1 ![] bcast_S_S100000x1 : (⟨S_, .f32⟩ : BufTy).Contents (Elt F) → (⟨S100000x1, .f32⟩ : BufTy).Contents (Elt F)),
    nullary main_cst_12 (constant S_ .f32 0x00000000#32),
    unary main_cst_12 main_v57 (broadcastInDim S128x1 ![] bcast_S_S128x1 : (⟨S_, .f32⟩ : BufTy).Contents (Elt F) → (⟨S128x1, .f32⟩ : BufTy).Contents (Elt F)),
    unary main_arg2 main_v58 (broadcastInDim S100000x1 ![0] bcast_S100000_S100000x1_0 : (⟨S100000, .i32⟩ : BufTy).Contents (Elt F) → (⟨S100000x1, .i32⟩ : BufTy).Contents (Elt F)),
    ternary main_v57 main_v58 main_v56 main_v59 ((fun x i u => Host.scatterAdd scatter_S128x1_S100000x1_S100000x1_1_0_0_1 x i u) : (⟨S128x1, .f32⟩ : BufTy).Contents (Elt F) → (⟨S100000x1, .i32⟩ : BufTy).Contents (Elt F) → (⟨S100000x1, .f32⟩ : BufTy).Contents (Elt F) → (⟨S128x1, .f32⟩ : BufTy).Contents (Elt F)),
    nullary main_cst_13 (constant S_ .f32 0x3F800000#32),
    unary main_cst_13 main_v60 (broadcastInDim S128x1 ![] bcast_S_S128x1 : (⟨S_, .f32⟩ : BufTy).Contents (Elt F) → (⟨S128x1, .f32⟩ : BufTy).Contents (Elt F)),
    binary main_v59 main_v60 main_v61 (maximumf : (⟨S128x1, .f32⟩ : BufTy).Contents (Elt F) → (⟨S128x1, .f32⟩ : BufTy).Contents (Elt F) → (⟨S128x1, .f32⟩ : BufTy).Contents (Elt F)),
    unary main_v61 main_v62 (broadcastInDim S128x64 ![0, 1] bcast_S128x1_S128x64_0_1 : (⟨S128x1, .f32⟩ : BufTy).Contents (Elt F) → (⟨S128x64, .f32⟩ : BufTy).Contents (Elt F)),
    binary main_v55 main_v62 main_v63 (Host.divf : (⟨S128x64, .f32⟩ : BufTy).Contents (Elt F) → (⟨S128x64, .f32⟩ : BufTy).Contents (Elt F) → (⟨S128x64, .f32⟩ : BufTy).Contents (Elt F)),
    unary main_arg12 main_v64 (broadcastInDim S1x64 ![1] bcast_S64_S1x64_1 : (⟨S64, .f32⟩ : BufTy).Contents (Elt F) → (⟨S1x64, .f32⟩ : BufTy).Contents (Elt F)),
    unary main_v64 main_v65 (broadcastInDim S100000x64 ![0, 1] bcast_S1x64_S100000x64_0_1 : (⟨S1x64, .f32⟩ : BufTy).Contents (Elt F) → (⟨S100000x64, .f32⟩ : BufTy).Contents (Elt F)),
    binary main_v65 main_v51 main_v66 (mulf : (⟨S100000x64, .f32⟩ : BufTy).Contents (Elt F) → (⟨S100000x64, .f32⟩ : BufTy).Contents (Elt F) → (⟨S100000x64, .f32⟩ : BufTy).Contents (Elt F)),
    nullary main_c_14 (constantI S_ 32 0#32),
    unary main_c_14 main_v67 (broadcastInDim S100000 ![] bcast_S_S100000 : (⟨S_, .i32⟩ : BufTy).Contents (Elt F) → (⟨S100000, .i32⟩ : BufTy).Contents (Elt F)),
    binary main_arg2 main_v67 main_v68 (cmpi .slt : (⟨S100000, .i32⟩ : BufTy).Contents (Elt F) → (⟨S100000, .i32⟩ : BufTy).Contents (Elt F) → (⟨S100000, .i1⟩ : BufTy).Contents (Elt F)),
    nullary main_c_15 (constantI S_ 32 128#32),
    unary main_c_15 main_v69 (broadcastInDim S100000 ![] bcast_S_S100000 : (⟨S_, .i32⟩ : BufTy).Contents (Elt F) → (⟨S100000, .i32⟩ : BufTy).Contents (Elt F)),
    binary main_arg2 main_v69 main_v70 (addi : (⟨S100000, .i32⟩ : BufTy).Contents (Elt F) → (⟨S100000, .i32⟩ : BufTy).Contents (Elt F) → (⟨S100000, .i32⟩ : BufTy).Contents (Elt F)),
    ternary main_v68 main_v70 main_arg2 main_v71 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v71 main_v72 (broadcastInDim S100000x1 ![0] bcast_S100000_S100000x1_0 : (⟨S100000, .i32⟩ : BufTy).Contents (Elt F) → (⟨S100000x1, .i32⟩ : BufTy).Contents (Elt F)),
    binary main_v63 main_v72 main_v73 ((fun x i => Host.gather gather_S128x64_S100000x1_S100000x64_1_0_n_n_0_1_164 x i) : (⟨S128x64, .f32⟩ : BufTy).Contents (Elt F) → (⟨S100000x1, .i32⟩ : BufTy).Contents (Elt F) → (⟨S100000x64, .f32⟩ : BufTy).Contents (Elt F)),
    nullary main_cst_16 (constant S_ .f32 0x3727C5AC#32),
    unary main_cst_16 main_v74 (broadcastInDim S100000x64 ![] bcast_S_S100000x64 : (⟨S_, .f32⟩ : BufTy).Contents (Elt F) → (⟨S100000x64, .f32⟩ : BufTy).Contents (Elt F)),
    binary main_v73 main_v74 main_v75 (addf : (⟨S100000x64, .f32⟩ : BufTy).Contents (Elt F) → (⟨S100000x64, .f32⟩ : BufTy).Contents (Elt F) → (⟨S100000x64, .f32⟩ : BufTy).Contents (Elt F)),
    unary main_v75 main_v76 (Host.sqrt : (⟨S100000x64, .f32⟩ : BufTy).Contents (Elt F) → (⟨S100000x64, .f32⟩ : BufTy).Contents (Elt F)),
    binary main_v66 main_v76 main_v77 (Host.divf : (⟨S100000x64, .f32⟩ : BufTy).Contents (Elt F) → (⟨S100000x64, .f32⟩ : BufTy).Contents (Elt F) → (⟨S100000x64, .f32⟩ : BufTy).Contents (Elt F)),
    unary main_arg13 main_v78 (broadcastInDim S1x64 ![1] bcast_S64_S1x64_1 : (⟨S64, .f32⟩ : BufTy).Contents (Elt F) → (⟨S1x64, .f32⟩ : BufTy).Contents (Elt F)),
    unary main_v78 main_v79 (broadcastInDim S100000x64 ![0, 1] bcast_S1x64_S100000x64_0_1 : (⟨S1x64, .f32⟩ : BufTy).Contents (Elt F) → (⟨S100000x64, .f32⟩ : BufTy).Contents (Elt F)),
    binary main_v77 main_v79 main_v80 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v80) (TRef.of (T := ⟨S100000x64, .f32⟩) main_call0_v0) (TRef.of (T := ⟨S100000x64, .f32⟩) main_v81) maximumf ]
set_option maxRecDepth 8192 in
theorem seg2_sub : (seg2 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., binary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub ..⟩
theorem seg2_fresh : (seg2 : List (HloOp τ sig (Elt F))).Forall fun op => op.fresh = ∅ := by
  simp only [List.Forall]; repeat' constructor

/-- Stretch 3 of the program's operations. -/
abbrev seg3 : List (HloOp τ sig (Elt F)) :=
  [ unary main_arg1 main_v82 ((extractStridedSlice S1x1200000 ![0, 0] · slices_S2x1200000_S1x1200000_0_0) : (⟨S2x1200000, .i32⟩ : BufTy).Contents (Elt F) → (⟨S1x1200000, .i32⟩ : BufTy).Contents (Elt F)),
    reshape main_v82 main_v83 rfl shapeCasts_S1x1200000_S1200000,
    unary main_arg1 main_v84 ((extractStridedSlice S1x1200000 ![1, 0] · slices_S2x1200000_S1x1200000_1_0) : (⟨S2x1200000, .i32⟩ : BufTy).Contents (Elt F) → (⟨S1x1200000, .i32⟩ : BufTy).Contents (Elt F)),
    reshape main_v84 main_v85 rfl shapeCasts_S1x1200000_S1200000,
    nullary main_c_17 (constantI S_ 32 0#32),
    unary main_c_17 main_v86 (broadcastInDim S1200000 ![] bcast_S_S1200000 : (⟨S_, .i32⟩ : BufTy).Contents (Elt F) → (⟨S1200000, .i32⟩ : BufTy).Contents (Elt F)),
    binary main_v83 main_v86 main_v87 (cmpi .slt : (⟨S1200000, .i32⟩ : BufTy).Contents (Elt F) → (⟨S1200000, .i32⟩ : BufTy).Contents (Elt F) → (⟨S1200000, .i1⟩ : BufTy).Contents (Elt F)),
    nullary main_c_18 (constantI S_ 32 100000#32),
    unary main_c_18 main_v88 (broadcastInDim S1200000 ![] bcast_S_S1200000 : (⟨S_, .i32⟩ : BufTy).Contents (Elt F) → (⟨S1200000, .i32⟩ : BufTy).Contents (Elt F)),
    binary main_v83 main_v88 main_v89 (addi : (⟨S1200000, .i32⟩ : BufTy).Contents (Elt F) → (⟨S1200000, .i32⟩ : BufTy).Contents (Elt F) → (⟨S1200000, .i32⟩ : BufTy).Contents (Elt F)),
    ternary main_v87 main_v89 main_v83 main_v90 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v90 main_v91 (broadcastInDim S1200000x1 ![0] bcast_S1200000_S1200000x1_0 : (⟨S1200000, .i32⟩ : BufTy).Contents (Elt F) → (⟨S1200000x1, .i32⟩ : BufTy).Contents (Elt F)),
    binary main_v81 main_v91 main_v92 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    nullary main_cst_19 (constant S_ .f32 0x00000000#32),
    unary main_cst_19 main_v93 (broadcastInDim S100000x64 ![] bcast_S_S100000x64 : (⟨S_, .f32⟩ : BufTy).Contents (Elt F) → (⟨S100000x64, .f32⟩ : BufTy).Contents (Elt F)),
    unary main_v85 main_v94 (broadcastInDim S1200000x1 ![0] bcast_S1200000_S1200000x1_0 : (⟨S1200000, .i32⟩ : BufTy).Contents (Elt F) → (⟨S1200000x1, .i32⟩ : BufTy).Contents (Elt F)),
    ternary main_v93 main_v94 main_v92 main_v95 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    nullary main_cst_20 (constant S_ .f32 0x3F800000#32),
    unary main_cst_20 main_v96 (broadcastInDim S1200000x1 ![] bcast_S_S1200000x1 : (⟨S_, .f32⟩ : BufTy).Contents (Elt F) → (⟨S1200000x1, .f32⟩ : BufTy).Contents (Elt F)),
    nullary main_cst_21 (constant S_ .f32 0x00000000#32),
    unary main_cst_21 main_v97 (broadcastInDim S100000x1 ![] bcast_S_S100000x1 : (⟨S_, .f32⟩ : BufTy).Contents (Elt F) → (⟨S100000x1, .f32⟩ : BufTy).Contents (Elt F)),
    unary main_v85 main_v98 (broadcastInDim S1200000x1 ![0] bcast_S1200000_S1200000x1_0 : (⟨S1200000, .i32⟩ : BufTy).Contents (Elt F) → (⟨S1200000x1, .i32⟩ : BufTy).Contents (Elt F)),
    ternary main_v97 main_v98 main_v96 main_v99 ((fun x i u => Host.scatterAdd scatter_S100000x1_S1200000x1_S1200000x1_1_0_0_1 x i u) : (⟨S100000x1, .f32⟩ : BufTy).Contents (Elt F) → (⟨S1200000x1, .i32⟩ : BufTy).Contents (Elt F) → (⟨S1200000x1, .f32⟩ : BufTy).Contents (Elt F) → (⟨S100000x1, .f32⟩ : BufTy).Contents (Elt F)),
    nullary main_cst_22 (constant S_ .f32 0x3F800000#32),
    unary main_cst_22 main_v100 (broadcastInDim S100000x1 ![] bcast_S_S100000x1 : (⟨S_, .f32⟩ : BufTy).Contents (Elt F) → (⟨S100000x1, .f32⟩ : BufTy).Contents (Elt F)),
    binary main_v99 main_v100 main_v101 (maximumf : (⟨S100000x1, .f32⟩ : BufTy).Contents (Elt F) → (⟨S100000x1, .f32⟩ : BufTy).Contents (Elt F) → (⟨S100000x1, .f32⟩ : BufTy).Contents (Elt F)),
    unary main_v101 main_v102 (broadcastInDim S100000x64 ![0, 1] bcast_S100000x1_S100000x64_0_1 : (⟨S100000x1, .f32⟩ : BufTy).Contents (Elt F) → (⟨S100000x64, .f32⟩ : BufTy).Contents (Elt F)),
    binary main_v95 main_v102 main_v103 (Host.divf : (⟨S100000x64, .f32⟩ : BufTy).Contents (Elt F) → (⟨S100000x64, .f32⟩ : BufTy).Contents (Elt F) → (⟨S100000x64, .f32⟩ : BufTy).Contents (Elt F)) ]
set_option maxRecDepth 8192 in
theorem seg3_sub : (seg3 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub ..⟩
theorem seg3_fresh : (seg3 : List (HloOp τ sig (Elt F))).Forall fun op => op.fresh = ∅ := by
  simp only [List.Forall]; repeat' constructor

/-- Stretch 4 of the program's operations. -/
abbrev seg4 : List (HloOp τ sig (Elt F)) :=
  [ unary main_arg6 main_v104 ((transpose S64x64 [1, 0] · transposes_S64x64_S64x64_1_0) : (⟨S64x64, .f32⟩ : BufTy).Contents (Elt F) → (⟨S64x64, .f32⟩ : BufTy).Contents (Elt F)),
    binary main_v103 main_v104 main_v105 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg7 main_v106 (broadcastInDim S1x64 ![1] bcast_S64_S1x64_1 : (⟨S64, .f32⟩ : BufTy).Contents (Elt F) → (⟨S1x64, .f32⟩ : BufTy).Contents (Elt F)),
    unary main_v106 main_v107 (broadcastInDim S100000x64 ![0, 1] bcast_S1x64_S100000x64_0_1 : (⟨S1x64, .f32⟩ : BufTy).Contents (Elt F) → (⟨S100000x64, .f32⟩ : BufTy).Contents (Elt F)),
    binary main_v105 main_v107 main_v108 (addf : (⟨S100000x64, .f32⟩ : BufTy).Contents (Elt F) → (⟨S100000x64, .f32⟩ : BufTy).Contents (Elt F) → (⟨S100000x64, .f32⟩ : BufTy).Contents (Elt F)),
    unary main_arg8 main_v109 ((transpose S64x64 [1, 0] · transposes_S64x64_S64x64_1_0) : (⟨S64x64, .f32⟩ : BufTy).Contents (Elt F) → (⟨S64x64, .f32⟩ : BufTy).Contents (Elt F)),
    binary main_v81 main_v109 main_v110 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v108 main_v110 main_v111 (addf : (⟨S100000x64, .f32⟩ : BufTy).Contents (Elt F) → (⟨S100000x64, .f32⟩ : BufTy).Contents (Elt F) → (⟨S100000x64, .f32⟩ : BufTy).Contents (Elt F)) ]
set_option maxRecDepth 8192 in
theorem seg4_sub : (seg4 : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., binary_bufs_sub ..⟩
theorem seg4_fresh : (seg4 : List (HloOp τ sig (Elt F))).Forall fun op => op.fresh = ∅ := by
  simp only [List.Forall]; repeat' constructor

/-- Stretch 5 of the program's operations. -/
abbrev seg5 : List (HloOp τ sig (Elt F)) :=
  [ nullary main_cst_23 (constant S_ .f32 0x00000000#32),
    unary main_cst_23 main_v112 (broadcastInDim S128x64 ![] bcast_S_S128x64 : (⟨S_, .f32⟩ : BufTy).Contents (Elt F) → (⟨S128x64, .f32⟩ : BufTy).Contents (Elt F)),
    unary main_arg2 main_v113 (broadcastInDim S100000x1 ![0] bcast_S100000_S100000x1_0 : (⟨S100000, .i32⟩ : BufTy).Contents (Elt F) → (⟨S100000x1, .i32⟩ : BufTy).Contents (Elt F)),
    ternary main_v112 main_v113 main_v111 main_v114 ((fun x i u => Host.scatterAdd scatter_S128x64_S100000x1_S100000x64_1_0_0_1 x i u) : (⟨S128x64, .f32⟩ : BufTy).Contents (Elt F) → (⟨S100000x1, .i32⟩ : BufTy).Contents (Elt F) → (⟨S100000x64, .f32⟩ : BufTy).Contents (Elt F) → (⟨S128x64, .f32⟩ : BufTy).Contents (Elt F)),
    nullary main_cst_24 (constant S_ .f32 0x3F800000#32),
    unary main_cst_24 main_v115 (broadcastInDim S100000x1 ![] bcast_S_S100000x1 : (⟨S_, .f32⟩ : BufTy).Contents (Elt F) → (⟨S100000x1, .f32⟩ : BufTy).Contents (Elt F)),
    nullary main_cst_25 (constant S_ .f32 0x00000000#32),
    unary main_cst_25 main_v116 (broadcastInDim S128x1 ![] bcast_S_S128x1 : (⟨S_, .f32⟩ : BufTy).Contents (Elt F) → (⟨S128x1, .f32⟩ : BufTy).Contents (Elt F)),
    unary main_arg2 main_v117 (broadcastInDim S100000x1 ![0] bcast_S100000_S100000x1_0 : (⟨S100000, .i32⟩ : BufTy).Contents (Elt F) → (⟨S100000x1, .i32⟩ : BufTy).Contents (Elt F)),
    ternary main_v116 main_v117 main_v115 main_v118 ((fun x i u => Host.scatterAdd scatter_S128x1_S100000x1_S100000x1_1_0_0_1 x i u) : (⟨S128x1, .f32⟩ : BufTy).Contents (Elt F) → (⟨S100000x1, .i32⟩ : BufTy).Contents (Elt F) → (⟨S100000x1, .f32⟩ : BufTy).Contents (Elt F) → (⟨S128x1, .f32⟩ : BufTy).Contents (Elt F)),
    nullary main_cst_26 (constant S_ .f32 0x3F800000#32),
    unary main_cst_26 main_v119 (broadcastInDim S128x1 ![] bcast_S_S128x1 : (⟨S_, .f32⟩ : BufTy).Contents (Elt F) → (⟨S128x1, .f32⟩ : BufTy).Contents (Elt F)),
    binary main_v118 main_v119 main_v120 (maximumf : (⟨S128x1, .f32⟩ : BufTy).Contents (Elt F) → (⟨S128x1, .f32⟩ : BufTy).Contents (Elt F) → (⟨S128x1, .f32⟩ : BufTy).Contents (Elt F)),
    unary main_v120 main_v121 (broadcastInDim S128x64 ![0, 1] bcast_S128x1_S128x64_0_1 : (⟨S128x1, .f32⟩ : BufTy).Contents (Elt F) → (⟨S128x64, .f32⟩ : BufTy).Contents (Elt F)),
    binary main_v114 main_v121 main_v122 (Host.divf : (⟨S128x64, .f32⟩ : BufTy).Contents (Elt F) → (⟨S128x64, .f32⟩ : BufTy).Contents (Elt F) → (⟨S128x64, .f32⟩ : BufTy).Contents (Elt F)),
    nullary main_c_27 (constantI S_ 32 0#32),
    unary main_c_27 main_v123 (broadcastInDim S100000 ![] bcast_S_S100000 : (⟨S_, .i32⟩ : BufTy).Contents (Elt F) → (⟨S100000, .i32⟩ : BufTy).Contents (Elt F)),
    binary main_arg2 main_v123 main_v124 (cmpi .slt : (⟨S100000, .i32⟩ : BufTy).Contents (Elt F) → (⟨S100000, .i32⟩ : BufTy).Contents (Elt F) → (⟨S100000, .i1⟩ : BufTy).Contents (Elt F)),
    nullary main_c_28 (constantI S_ 32 128#32),
    unary main_c_28 main_v125 (broadcastInDim S100000 ![] bcast_S_S100000 : (⟨S_, .i32⟩ : BufTy).Contents (Elt F) → (⟨S100000, .i32⟩ : BufTy).Contents (Elt F)),
    binary main_arg2 main_v125 main_v126 (addi : (⟨S100000, .i32⟩ : BufTy).Contents (Elt F) → (⟨S100000, .i32⟩ : BufTy).Contents (Elt F) → (⟨S100000, .i32⟩ : BufTy).Contents (Elt F)),
    ternary main_v124 main_v126 main_arg2 main_v127 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v127 main_v128 (broadcastInDim S100000x1 ![0] bcast_S100000_S100000x1_0 : (⟨S100000, .i32⟩ : BufTy).Contents (Elt F) → (⟨S100000x1, .i32⟩ : BufTy).Contents (Elt F)),
    binary main_v122 main_v128 main_v129 ((fun x i => Host.gather gather_S128x64_S100000x1_S100000x64_1_0_n_n_0_1_164 x i) : (⟨S128x64, .f32⟩ : BufTy).Contents (Elt F) → (⟨S100000x1, .i32⟩ : BufTy).Contents (Elt F) → (⟨S100000x64, .f32⟩ : BufTy).Contents (Elt F)),
    unary main_arg17 main_v130 (broadcastInDim S1x64 ![1] bcast_S64_S1x64_1 : (⟨S64, .f32⟩ : BufTy).Contents (Elt F) → (⟨S1x64, .f32⟩ : BufTy).Contents (Elt F)),
    unary main_v130 main_v131 (broadcastInDim S100000x64 ![0, 1] bcast_S1x64_S100000x64_0_1 : (⟨S1x64, .f32⟩ : BufTy).Contents (Elt F) → (⟨S100000x64, .f32⟩ : BufTy).Contents (Elt F)),
    binary main_v131 main_v129 main_v132 (mulf : (⟨S100000x64, .f32⟩ : BufTy).Contents (Elt F) → (⟨S100000x64, .f32⟩ : BufTy).Contents (Elt F) → (⟨S100000x64, .f32⟩ : BufTy).Contents (Elt F)),
    binary main_v111 main_v132 main_v133 (subf : (⟨S100000x64, .f32⟩ : BufTy).Contents (Elt F) → (⟨S100000x64, .f32⟩ : BufTy).Contents (Elt F) → (⟨S100000x64, .f32⟩ : BufTy).Contents (Elt F)),
    binary main_v133 main_v133 main_v134 (mulf : (⟨S100000x64, .f32⟩ : BufTy).Contents (Elt F) → (⟨S100000x64, .f32⟩ : BufTy).Contents (Elt F) → (⟨S100000x64, .f32⟩ : BufTy).Contents (Elt F)),
    nullary main_cst_29 (constant S_ .f32 0x00000000#32),
    unary main_cst_29 main_v135 (broadcastInDim S128x64 ![] bcast_S_S128x64 : (⟨S_, .f32⟩ : BufTy).Contents (Elt F) → (⟨S128x64, .f32⟩ : BufTy).Contents (Elt F)),
    unary main_arg2 main_v136 (broadcastInDim S100000x1 ![0] bcast_S100000_S100000x1_0 : (⟨S100000, .i32⟩ : BufTy).Contents (Elt F) → (⟨S100000x1, .i32⟩ : BufTy).Contents (Elt F)),
    ternary main_v135 main_v136 main_v134 main_v137 ((fun x i u => Host.scatterAdd scatter_S128x64_S100000x1_S100000x64_1_0_0_1 x i u) : (⟨S128x64, .f32⟩ : BufTy).Contents (Elt F) → (⟨S100000x1, .i32⟩ : BufTy).Contents (Elt F) → (⟨S100000x64, .f32⟩ : BufTy).Contents (Elt F) → (⟨S128x64, .f32⟩ : BufTy).Contents (Elt F)),
    nullary main_cst_30 (constant S_ .f32 0x3F800000#32),
    unary main_cst_30 main_v138 (broadcastInDim S100000x1 ![] bcast_S_S100000x1 : (⟨S_, .f32⟩ : BufTy).Contents (Elt F) → (⟨S100000x1, .f32⟩ : BufTy).Contents (Elt F)),
    nullary main_cst_31 (constant S_ .f32 0x00000000#32),
    unary main_cst_31 main_v139 (broadcastInDim S128x1 ![] bcast_S_S128x1 : (⟨S_, .f32⟩ : BufTy).Contents (Elt F) → (⟨S128x1, .f32⟩ : BufTy).Contents (Elt F)),
    unary main_arg2 main_v140 (broadcastInDim S100000x1 ![0] bcast_S100000_S100000x1_0 : (⟨S100000, .i32⟩ : BufTy).Contents (Elt F) → (⟨S100000x1, .i32⟩ : BufTy).Contents (Elt F)),
    ternary main_v139 main_v140 main_v138 main_v141 ((fun x i u => Host.scatterAdd scatter_S128x1_S100000x1_S100000x1_1_0_0_1 x i u) : (⟨S128x1, .f32⟩ : BufTy).Contents (Elt F) → (⟨S100000x1, .i32⟩ : BufTy).Contents (Elt F) → (⟨S100000x1, .f32⟩ : BufTy).Contents (Elt F) → (⟨S128x1, .f32⟩ : BufTy).Contents (Elt F)),
    nullary main_cst_32 (constant S_ .f32 0x3F800000#32),
    unary main_cst_32 main_v142 (broadcastInDim S128x1 ![] bcast_S_S128x1 : (⟨S_, .f32⟩ : BufTy).Contents (Elt F) → (⟨S128x1, .f32⟩ : BufTy).Contents (Elt F)),
    binary main_v141 main_v142 main_v143 (maximumf : (⟨S128x1, .f32⟩ : BufTy).Contents (Elt F) → (⟨S128x1, .f32⟩ : BufTy).Contents (Elt F) → (⟨S128x1, .f32⟩ : BufTy).Contents (Elt F)),
    unary main_v143 main_v144 (broadcastInDim S128x64 ![0, 1] bcast_S128x1_S128x64_0_1 : (⟨S128x1, .f32⟩ : BufTy).Contents (Elt F) → (⟨S128x64, .f32⟩ : BufTy).Contents (Elt F)),
    binary main_v137 main_v144 main_v145 (Host.divf : (⟨S128x64, .f32⟩ : BufTy).Contents (Elt F) → (⟨S128x64, .f32⟩ : BufTy).Contents (Elt F) → (⟨S128x64, .f32⟩ : BufTy).Contents (Elt F)),
    unary main_arg15 main_v146 (broadcastInDim S1x64 ![1] bcast_S64_S1x64_1 : (⟨S64, .f32⟩ : BufTy).Contents (Elt F) → (⟨S1x64, .f32⟩ : BufTy).Contents (Elt F)),
    unary main_v146 main_v147 (broadcastInDim S100000x64 ![0, 1] bcast_S1x64_S100000x64_0_1 : (⟨S1x64, .f32⟩ : BufTy).Contents (Elt F) → (⟨S100000x64, .f32⟩ : BufTy).Contents (Elt F)),
    binary main_v147 main_v133 main_v148 (mulf : (⟨S100000x64, .f32⟩ : BufTy).Contents (Elt F) → (⟨S100000x64, .f32⟩ : BufTy).Contents (Elt F) → (⟨S100000x64, .f32⟩ : BufTy).Contents (Elt F)),
    nullary main_c_33 (constantI S_ 32 0#32),
    unary main_c_33 main_v149 (broadcastInDim S100000 ![] bcast_S_S100000 : (⟨S_, .i32⟩ : BufTy).Contents (Elt F) → (⟨S100000, .i32⟩ : BufTy).Contents (Elt F)),
    binary main_arg2 main_v149 main_v150 (cmpi .slt : (⟨S100000, .i32⟩ : BufTy).Contents (Elt F) → (⟨S100000, .i32⟩ : BufTy).Contents (Elt F) → (⟨S100000, .i1⟩ : BufTy).Contents (Elt F)),
    nullary main_c_34 (constantI S_ 32 128#32),
    unary main_c_34 main_v151 (broadcastInDim S100000 ![] bcast_S_S100000 : (⟨S_, .i32⟩ : BufTy).Contents (Elt F) → (⟨S100000, .i32⟩ : BufTy).Contents (Elt F)),
    binary main_arg2 main_v151 main_v152 (addi : (⟨S100000, .i32⟩ : BufTy).Contents (Elt F) → (⟨S100000, .i32⟩ : BufTy).Contents (Elt F) → (⟨S100000, .i32⟩ : BufTy).Contents (Elt F)),
    ternary main_v150 main_v152 main_arg2 main_v153 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v153 main_v154 (broadcastInDim S100000x1 ![0] bcast_S100000_S100000x1_0 : (⟨S100000, .i32⟩ : BufTy).Contents (Elt F) → (⟨S100000x1, .i32⟩ : BufTy).Contents (Elt F)),
    binary main_v145 main_v154 main_v155 ((fun x i => Host.gather gather_S128x64_S100000x1_S100000x64_1_0_n_n_0_1_164 x i) : (⟨S128x64, .f32⟩ : BufTy).Contents (Elt F) → (⟨S100000x1, .i32⟩ : BufTy).Contents (Elt F) → (⟨S100000x64, .f32⟩ : BufTy).Contents (Elt F)),
    nullary main_cst_35 (constant S_ .f32 0x3727C5AC#32),
    unary main_cst_35 main_v156 (broadcastInDim S100000x64 ![] bcast_S_S100000x64 : (⟨S_, .f32⟩ : BufTy).Contents (Elt F) → (⟨S100000x64, .f32⟩ : BufTy).Contents (Elt F)),
    binary main_v155 main_v156 main_v157 (addf : (⟨S100000x64, .f32⟩ : BufTy).Contents (Elt F) → (⟨S100000x64, .f32⟩ : BufTy).Contents (Elt F) → (⟨S100000x64, .f32⟩ : BufTy).Contents (Elt F)),
    unary main_v157 main_v158 (Host.sqrt : (⟨S100000x64, .f32⟩ : BufTy).Contents (Elt F) → (⟨S100000x64, .f32⟩ : BufTy).Contents (Elt F)),
    binary main_v148 main_v158 main_v159 (Host.divf : (⟨S100000x64, .f32⟩ : BufTy).Contents (Elt F) → (⟨S100000x64, .f32⟩ : BufTy).Contents (Elt F) → (⟨S100000x64, .f32⟩ : BufTy).Contents (Elt F)),
    unary main_arg16 main_v160 (broadcastInDim S1x64 ![1] bcast_S64_S1x64_1 : (⟨S64, .f32⟩ : BufTy).Contents (Elt F) → (⟨S1x64, .f32⟩ : BufTy).Contents (Elt F)),
    unary main_v160 main_v161 (broadcastInDim S100000x64 ![0, 1] bcast_S1x64_S100000x64_0_1 : (⟨S1x64, .f32⟩ : BufTy).Contents (Elt F) → (⟨S100000x64, .f32⟩ : BufTy).Contents (Elt F)),
    binary main_v159 main_v161 main_v162 (addf : (⟨S100000x64, .f32⟩ : BufTy).Contents (Elt F) → (⟨S100000x64, .f32⟩ : BufTy).Contents (Elt F) → (⟨S100000x64, .f32⟩ : BufTy).Contents (Elt F)),
    binary main_v162 main_v81 main_v163 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v163) (TRef.of (T := ⟨S100000x64, .f32⟩) main_call1_v0) (TRef.of (T := ⟨S100000x64, .f32⟩) main_v164) maximumf ]
set_option maxRecDepth 8192 in
theorem seg5_sub : (seg5 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., binary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., binary_bufs_sub .., unary_bufs_sub .., unary_bufs_sub .., binary_bufs_sub .., binary_bufs_sub .., nullary_bufs_sub .., unary_bufs_sub .., binary_bufs_sub ..⟩
theorem seg5_fresh : (seg5 : List (HloOp τ sig (Elt F))).Forall fun op => op.fresh = ∅ := by
  simp only [List.Forall]; repeat' constructor

/-- Stretch 6 of the program's operations. -/
abbrev seg6 : List (HloOp τ sig (Elt F)) :=
  [ unary main_arg1 main_v165 ((extractStridedSlice S1x1200000 ![0, 0] · slices_S2x1200000_S1x1200000_0_0) : (⟨S2x1200000, .i32⟩ : BufTy).Contents (Elt F) → (⟨S1x1200000, .i32⟩ : BufTy).Contents (Elt F)),
    reshape main_v165 main_v166 rfl shapeCasts_S1x1200000_S1200000,
    unary main_arg1 main_v167 ((extractStridedSlice S1x1200000 ![1, 0] · slices_S2x1200000_S1x1200000_1_0) : (⟨S2x1200000, .i32⟩ : BufTy).Contents (Elt F) → (⟨S1x1200000, .i32⟩ : BufTy).Contents (Elt F)),
    reshape main_v167 main_v168 rfl shapeCasts_S1x1200000_S1200000,
    nullary main_c_36 (constantI S_ 32 0#32),
    unary main_c_36 main_v169 (broadcastInDim S1200000 ![] bcast_S_S1200000 : (⟨S_, .i32⟩ : BufTy).Contents (Elt F) → (⟨S1200000, .i32⟩ : BufTy).Contents (Elt F)),
    binary main_v166 main_v169 main_v170 (cmpi .slt : (⟨S1200000, .i32⟩ : BufTy).Contents (Elt F) → (⟨S1200000, .i32⟩ : BufTy).Contents (Elt F) → (⟨S1200000, .i1⟩ : BufTy).Contents (Elt F)),
    nullary main_c_37 (constantI S_ 32 100000#32),
    unary main_c_37 main_v171 (broadcastInDim S1200000 ![] bcast_S_S1200000 : (⟨S_, .i32⟩ : BufTy).Contents (Elt F) → (⟨S1200000, .i32⟩ : BufTy).Contents (Elt F)),
    binary main_v166 main_v171 main_v172 (addi : (⟨S1200000, .i32⟩ : BufTy).Contents (Elt F) → (⟨S1200000, .i32⟩ : BufTy).Contents (Elt F) → (⟨S1200000, .i32⟩ : BufTy).Contents (Elt F)),
    ternary main_v170 main_v172 main_v166 main_v173 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v173 main_v174 (broadcastInDim S1200000x1 ![0] bcast_S1200000_S1200000x1_0 : (⟨S1200000, .i32⟩ : BufTy).Contents (Elt F) → (⟨S1200000x1, .i32⟩ : BufTy).Contents (Elt F)),
    binary main_v164 main_v174 main_v175 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    nullary main_cst_38 (constant S_ .f32 0x00000000#32),
    unary main_cst_38 main_v176 (broadcastInDim S100000x64 ![] bcast_S_S100000x64 : (⟨S_, .f32⟩ : BufTy).Contents (Elt F) → (⟨S100000x64, .f32⟩ : BufTy).Contents (Elt F)),
    unary main_v168 main_v177 (broadcastInDim S1200000x1 ![0] bcast_S1200000_S1200000x1_0 : (⟨S1200000, .i32⟩ : BufTy).Contents (Elt F) → (⟨S1200000x1, .i32⟩ : BufTy).Contents (Elt F)),
    ternary main_v176 main_v177 main_v175 main_v178 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    nullary main_cst_39 (constant S_ .f32 0x3F800000#32),
    unary main_cst_39 main_v179 (broadcastInDim S1200000x1 ![] bcast_S_S1200000x1 : (⟨S_, .f32⟩ : BufTy).Contents (Elt F) → (⟨S1200000x1, .f32⟩ : BufTy).Contents (Elt F)),
    nullary main_cst_40 (constant S_ .f32 0x00000000#32),
    unary main_cst_40 main_v180 (broadcastInDim S100000x1 ![] bcast_S_S100000x1 : (⟨S_, .f32⟩ : BufTy).Contents (Elt F) → (⟨S100000x1, .f32⟩ : BufTy).Contents (Elt F)),
    unary main_v168 main_v181 (broadcastInDim S1200000x1 ![0] bcast_S1200000_S1200000x1_0 : (⟨S1200000, .i32⟩ : BufTy).Contents (Elt F) → (⟨S1200000x1, .i32⟩ : BufTy).Contents (Elt F)),
    ternary main_v180 main_v181 main_v179 main_v182 ((fun x i u => Host.scatterAdd scatter_S100000x1_S1200000x1_S1200000x1_1_0_0_1 x i u) : (⟨S100000x1, .f32⟩ : BufTy).Contents (Elt F) → (⟨S1200000x1, .i32⟩ : BufTy).Contents (Elt F) → (⟨S1200000x1, .f32⟩ : BufTy).Contents (Elt F) → (⟨S100000x1, .f32⟩ : BufTy).Contents (Elt F)),
    nullary main_cst_41 (constant S_ .f32 0x3F800000#32),
    unary main_cst_41 main_v183 (broadcastInDim S100000x1 ![] bcast_S_S100000x1 : (⟨S_, .f32⟩ : BufTy).Contents (Elt F) → (⟨S100000x1, .f32⟩ : BufTy).Contents (Elt F)),
    binary main_v182 main_v183 main_v184 (maximumf : (⟨S100000x1, .f32⟩ : BufTy).Contents (Elt F) → (⟨S100000x1, .f32⟩ : BufTy).Contents (Elt F) → (⟨S100000x1, .f32⟩ : BufTy).Contents (Elt F)),
    unary main_v184 main_v185 (broadcastInDim S100000x64 ![0, 1] bcast_S100000x1_S100000x64_0_1 : (⟨S100000x1, .f32⟩ : BufTy).Contents (Elt F) → (⟨S100000x64, .f32⟩ : BufTy).Contents (Elt F)),
    binary main_v178 main_v185 main_v186 (Host.divf : (⟨S100000x64, .f32⟩ : BufTy).Contents (Elt F) → (⟨S100000x64, .f32⟩ : BufTy).Contents (Elt F) → (⟨S100000x64, .f32⟩ : BufTy).Contents (Elt F)) ]
set_option maxRecDepth 8192 in
theorem seg6_sub : (seg6 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub ..⟩
theorem seg6_fresh : (seg6 : List (HloOp τ sig (Elt F))).Forall fun op => op.fresh = ∅ := by
  simp only [List.Forall]; repeat' constructor

/-- Stretch 7 of the program's operations. -/
abbrev seg7 : List (HloOp τ sig (Elt F)) :=
  [ unary main_arg9 main_v187 ((transpose S64x64 [1, 0] · transposes_S64x64_S64x64_1_0) : (⟨S64x64, .f32⟩ : BufTy).Contents (Elt F) → (⟨S64x64, .f32⟩ : BufTy).Contents (Elt F)),
    binary main_v186 main_v187 main_v188 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg10 main_v189 (broadcastInDim S1x64 ![1] bcast_S64_S1x64_1 : (⟨S64, .f32⟩ : BufTy).Contents (Elt F) → (⟨S1x64, .f32⟩ : BufTy).Contents (Elt F)),
    unary main_v189 main_v190 (broadcastInDim S100000x64 ![0, 1] bcast_S1x64_S100000x64_0_1 : (⟨S1x64, .f32⟩ : BufTy).Contents (Elt F) → (⟨S100000x64, .f32⟩ : BufTy).Contents (Elt F)),
    binary main_v188 main_v190 main_v191 (addf : (⟨S100000x64, .f32⟩ : BufTy).Contents (Elt F) → (⟨S100000x64, .f32⟩ : BufTy).Contents (Elt F) → (⟨S100000x64, .f32⟩ : BufTy).Contents (Elt F)),
    unary main_arg11 main_v192 ((transpose S64x64 [1, 0] · transposes_S64x64_S64x64_1_0) : (⟨S64x64, .f32⟩ : BufTy).Contents (Elt F) → (⟨S64x64, .f32⟩ : BufTy).Contents (Elt F)),
    binary main_v164 main_v192 main_v193 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v191 main_v193 main_v194 (addf : (⟨S100000x64, .f32⟩ : BufTy).Contents (Elt F) → (⟨S100000x64, .f32⟩ : BufTy).Contents (Elt F) → (⟨S100000x64, .f32⟩ : BufTy).Contents (Elt F)) ]
set_option maxRecDepth 8192 in
theorem seg7_sub : (seg7 : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., binary_bufs_sub ..⟩
theorem seg7_fresh : (seg7 : List (HloOp τ sig (Elt F))).Forall fun op => op.fresh = ∅ := by
  simp only [List.Forall]; repeat' constructor

/-- Stretch 8 of the program's operations. -/
abbrev seg8 : List (HloOp τ sig (Elt F)) :=
  [ nullary main_cst_42 (constant S_ .f32 0x00000000#32),
    unary main_cst_42 main_v195 (broadcastInDim S128x64 ![] bcast_S_S128x64 : (⟨S_, .f32⟩ : BufTy).Contents (Elt F) → (⟨S128x64, .f32⟩ : BufTy).Contents (Elt F)),
    unary main_arg2 main_v196 (broadcastInDim S100000x1 ![0] bcast_S100000_S100000x1_0 : (⟨S100000, .i32⟩ : BufTy).Contents (Elt F) → (⟨S100000x1, .i32⟩ : BufTy).Contents (Elt F)),
    ternary main_v195 main_v196 main_v194 main_v197 ((fun x i u => Host.scatterAdd scatter_S128x64_S100000x1_S100000x64_1_0_0_1 x i u) : (⟨S128x64, .f32⟩ : BufTy).Contents (Elt F) → (⟨S100000x1, .i32⟩ : BufTy).Contents (Elt F) → (⟨S100000x64, .f32⟩ : BufTy).Contents (Elt F) → (⟨S128x64, .f32⟩ : BufTy).Contents (Elt F)),
    nullary main_cst_43 (constant S_ .f32 0x3F800000#32),
    unary main_cst_43 main_v198 (broadcastInDim S100000x1 ![] bcast_S_S100000x1 : (⟨S_, .f32⟩ : BufTy).Contents (Elt F) → (⟨S100000x1, .f32⟩ : BufTy).Contents (Elt F)),
    nullary main_cst_44 (constant S_ .f32 0x00000000#32),
    unary main_cst_44 main_v199 (broadcastInDim S128x1 ![] bcast_S_S128x1 : (⟨S_, .f32⟩ : BufTy).Contents (Elt F) → (⟨S128x1, .f32⟩ : BufTy).Contents (Elt F)),
    unary main_arg2 main_v200 (broadcastInDim S100000x1 ![0] bcast_S100000_S100000x1_0 : (⟨S100000, .i32⟩ : BufTy).Contents (Elt F) → (⟨S100000x1, .i32⟩ : BufTy).Contents (Elt F)),
    ternary main_v199 main_v200 main_v198 main_v201 ((fun x i u => Host.scatterAdd scatter_S128x1_S100000x1_S100000x1_1_0_0_1 x i u) : (⟨S128x1, .f32⟩ : BufTy).Contents (Elt F) → (⟨S100000x1, .i32⟩ : BufTy).Contents (Elt F) → (⟨S100000x1, .f32⟩ : BufTy).Contents (Elt F) → (⟨S128x1, .f32⟩ : BufTy).Contents (Elt F)),
    nullary main_cst_45 (constant S_ .f32 0x3F800000#32),
    unary main_cst_45 main_v202 (broadcastInDim S128x1 ![] bcast_S_S128x1 : (⟨S_, .f32⟩ : BufTy).Contents (Elt F) → (⟨S128x1, .f32⟩ : BufTy).Contents (Elt F)),
    binary main_v201 main_v202 main_v203 (maximumf : (⟨S128x1, .f32⟩ : BufTy).Contents (Elt F) → (⟨S128x1, .f32⟩ : BufTy).Contents (Elt F) → (⟨S128x1, .f32⟩ : BufTy).Contents (Elt F)),
    unary main_v203 main_v204 (broadcastInDim S128x64 ![0, 1] bcast_S128x1_S128x64_0_1 : (⟨S128x1, .f32⟩ : BufTy).Contents (Elt F) → (⟨S128x64, .f32⟩ : BufTy).Contents (Elt F)),
    binary main_v197 main_v204 main_v205 (Host.divf : (⟨S128x64, .f32⟩ : BufTy).Contents (Elt F) → (⟨S128x64, .f32⟩ : BufTy).Contents (Elt F) → (⟨S128x64, .f32⟩ : BufTy).Contents (Elt F)),
    nullary main_c_46 (constantI S_ 32 0#32),
    unary main_c_46 main_v206 (broadcastInDim S100000 ![] bcast_S_S100000 : (⟨S_, .i32⟩ : BufTy).Contents (Elt F) → (⟨S100000, .i32⟩ : BufTy).Contents (Elt F)),
    binary main_arg2 main_v206 main_v207 (cmpi .slt : (⟨S100000, .i32⟩ : BufTy).Contents (Elt F) → (⟨S100000, .i32⟩ : BufTy).Contents (Elt F) → (⟨S100000, .i1⟩ : BufTy).Contents (Elt F)),
    nullary main_c_47 (constantI S_ 32 128#32),
    unary main_c_47 main_v208 (broadcastInDim S100000 ![] bcast_S_S100000 : (⟨S_, .i32⟩ : BufTy).Contents (Elt F) → (⟨S100000, .i32⟩ : BufTy).Contents (Elt F)),
    binary main_arg2 main_v208 main_v209 (addi : (⟨S100000, .i32⟩ : BufTy).Contents (Elt F) → (⟨S100000, .i32⟩ : BufTy).Contents (Elt F) → (⟨S100000, .i32⟩ : BufTy).Contents (Elt F)),
    ternary main_v207 main_v209 main_arg2 main_v210 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v210 main_v211 (broadcastInDim S100000x1 ![0] bcast_S100000_S100000x1_0 : (⟨S100000, .i32⟩ : BufTy).Contents (Elt F) → (⟨S100000x1, .i32⟩ : BufTy).Contents (Elt F)),
    binary main_v205 main_v211 main_v212 ((fun x i => Host.gather gather_S128x64_S100000x1_S100000x64_1_0_n_n_0_1_164 x i) : (⟨S128x64, .f32⟩ : BufTy).Contents (Elt F) → (⟨S100000x1, .i32⟩ : BufTy).Contents (Elt F) → (⟨S100000x64, .f32⟩ : BufTy).Contents (Elt F)),
    unary main_arg20 main_v213 (broadcastInDim S1x64 ![1] bcast_S64_S1x64_1 : (⟨S64, .f32⟩ : BufTy).Contents (Elt F) → (⟨S1x64, .f32⟩ : BufTy).Contents (Elt F)),
    unary main_v213 main_v214 (broadcastInDim S100000x64 ![0, 1] bcast_S1x64_S100000x64_0_1 : (⟨S1x64, .f32⟩ : BufTy).Contents (Elt F) → (⟨S100000x64, .f32⟩ : BufTy).Contents (Elt F)),
    binary main_v214 main_v212 main_v215 (mulf : (⟨S100000x64, .f32⟩ : BufTy).Contents (Elt F) → (⟨S100000x64, .f32⟩ : BufTy).Contents (Elt F) → (⟨S100000x64, .f32⟩ : BufTy).Contents (Elt F)),
    binary main_v194 main_v215 main_v216 (subf : (⟨S100000x64, .f32⟩ : BufTy).Contents (Elt F) → (⟨S100000x64, .f32⟩ : BufTy).Contents (Elt F) → (⟨S100000x64, .f32⟩ : BufTy).Contents (Elt F)),
    binary main_v216 main_v216 main_v217 (mulf : (⟨S100000x64, .f32⟩ : BufTy).Contents (Elt F) → (⟨S100000x64, .f32⟩ : BufTy).Contents (Elt F) → (⟨S100000x64, .f32⟩ : BufTy).Contents (Elt F)),
    nullary main_cst_48 (constant S_ .f32 0x00000000#32),
    unary main_cst_48 main_v218 (broadcastInDim S128x64 ![] bcast_S_S128x64 : (⟨S_, .f32⟩ : BufTy).Contents (Elt F) → (⟨S128x64, .f32⟩ : BufTy).Contents (Elt F)),
    unary main_arg2 main_v219 (broadcastInDim S100000x1 ![0] bcast_S100000_S100000x1_0 : (⟨S100000, .i32⟩ : BufTy).Contents (Elt F) → (⟨S100000x1, .i32⟩ : BufTy).Contents (Elt F)),
    ternary main_v218 main_v219 main_v217 main_v220 ((fun x i u => Host.scatterAdd scatter_S128x64_S100000x1_S100000x64_1_0_0_1 x i u) : (⟨S128x64, .f32⟩ : BufTy).Contents (Elt F) → (⟨S100000x1, .i32⟩ : BufTy).Contents (Elt F) → (⟨S100000x64, .f32⟩ : BufTy).Contents (Elt F) → (⟨S128x64, .f32⟩ : BufTy).Contents (Elt F)),
    nullary main_cst_49 (constant S_ .f32 0x3F800000#32),
    unary main_cst_49 main_v221 (broadcastInDim S100000x1 ![] bcast_S_S100000x1 : (⟨S_, .f32⟩ : BufTy).Contents (Elt F) → (⟨S100000x1, .f32⟩ : BufTy).Contents (Elt F)),
    nullary main_cst_50 (constant S_ .f32 0x00000000#32),
    unary main_cst_50 main_v222 (broadcastInDim S128x1 ![] bcast_S_S128x1 : (⟨S_, .f32⟩ : BufTy).Contents (Elt F) → (⟨S128x1, .f32⟩ : BufTy).Contents (Elt F)),
    unary main_arg2 main_v223 (broadcastInDim S100000x1 ![0] bcast_S100000_S100000x1_0 : (⟨S100000, .i32⟩ : BufTy).Contents (Elt F) → (⟨S100000x1, .i32⟩ : BufTy).Contents (Elt F)),
    ternary main_v222 main_v223 main_v221 main_v224 ((fun x i u => Host.scatterAdd scatter_S128x1_S100000x1_S100000x1_1_0_0_1 x i u) : (⟨S128x1, .f32⟩ : BufTy).Contents (Elt F) → (⟨S100000x1, .i32⟩ : BufTy).Contents (Elt F) → (⟨S100000x1, .f32⟩ : BufTy).Contents (Elt F) → (⟨S128x1, .f32⟩ : BufTy).Contents (Elt F)),
    nullary main_cst_51 (constant S_ .f32 0x3F800000#32),
    unary main_cst_51 main_v225 (broadcastInDim S128x1 ![] bcast_S_S128x1 : (⟨S_, .f32⟩ : BufTy).Contents (Elt F) → (⟨S128x1, .f32⟩ : BufTy).Contents (Elt F)),
    binary main_v224 main_v225 main_v226 (maximumf : (⟨S128x1, .f32⟩ : BufTy).Contents (Elt F) → (⟨S128x1, .f32⟩ : BufTy).Contents (Elt F) → (⟨S128x1, .f32⟩ : BufTy).Contents (Elt F)),
    unary main_v226 main_v227 (broadcastInDim S128x64 ![0, 1] bcast_S128x1_S128x64_0_1 : (⟨S128x1, .f32⟩ : BufTy).Contents (Elt F) → (⟨S128x64, .f32⟩ : BufTy).Contents (Elt F)),
    binary main_v220 main_v227 main_v228 (Host.divf : (⟨S128x64, .f32⟩ : BufTy).Contents (Elt F) → (⟨S128x64, .f32⟩ : BufTy).Contents (Elt F) → (⟨S128x64, .f32⟩ : BufTy).Contents (Elt F)),
    unary main_arg18 main_v229 (broadcastInDim S1x64 ![1] bcast_S64_S1x64_1 : (⟨S64, .f32⟩ : BufTy).Contents (Elt F) → (⟨S1x64, .f32⟩ : BufTy).Contents (Elt F)),
    unary main_v229 main_v230 (broadcastInDim S100000x64 ![0, 1] bcast_S1x64_S100000x64_0_1 : (⟨S1x64, .f32⟩ : BufTy).Contents (Elt F) → (⟨S100000x64, .f32⟩ : BufTy).Contents (Elt F)),
    binary main_v230 main_v216 main_v231 (mulf : (⟨S100000x64, .f32⟩ : BufTy).Contents (Elt F) → (⟨S100000x64, .f32⟩ : BufTy).Contents (Elt F) → (⟨S100000x64, .f32⟩ : BufTy).Contents (Elt F)),
    nullary main_c_52 (constantI S_ 32 0#32),
    unary main_c_52 main_v232 (broadcastInDim S100000 ![] bcast_S_S100000 : (⟨S_, .i32⟩ : BufTy).Contents (Elt F) → (⟨S100000, .i32⟩ : BufTy).Contents (Elt F)),
    binary main_arg2 main_v232 main_v233 (cmpi .slt : (⟨S100000, .i32⟩ : BufTy).Contents (Elt F) → (⟨S100000, .i32⟩ : BufTy).Contents (Elt F) → (⟨S100000, .i1⟩ : BufTy).Contents (Elt F)),
    nullary main_c_53 (constantI S_ 32 128#32),
    unary main_c_53 main_v234 (broadcastInDim S100000 ![] bcast_S_S100000 : (⟨S_, .i32⟩ : BufTy).Contents (Elt F) → (⟨S100000, .i32⟩ : BufTy).Contents (Elt F)),
    binary main_arg2 main_v234 main_v235 (addi : (⟨S100000, .i32⟩ : BufTy).Contents (Elt F) → (⟨S100000, .i32⟩ : BufTy).Contents (Elt F) → (⟨S100000, .i32⟩ : BufTy).Contents (Elt F)),
    ternary main_v233 main_v235 main_arg2 main_v236 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v236 main_v237 (broadcastInDim S100000x1 ![0] bcast_S100000_S100000x1_0 : (⟨S100000, .i32⟩ : BufTy).Contents (Elt F) → (⟨S100000x1, .i32⟩ : BufTy).Contents (Elt F)),
    binary main_v228 main_v237 main_v238 ((fun x i => Host.gather gather_S128x64_S100000x1_S100000x64_1_0_n_n_0_1_164 x i) : (⟨S128x64, .f32⟩ : BufTy).Contents (Elt F) → (⟨S100000x1, .i32⟩ : BufTy).Contents (Elt F) → (⟨S100000x64, .f32⟩ : BufTy).Contents (Elt F)),
    nullary main_cst_54 (constant S_ .f32 0x3727C5AC#32),
    unary main_cst_54 main_v239 (broadcastInDim S100000x64 ![] bcast_S_S100000x64 : (⟨S_, .f32⟩ : BufTy).Contents (Elt F) → (⟨S100000x64, .f32⟩ : BufTy).Contents (Elt F)),
    binary main_v238 main_v239 main_v240 (addf : (⟨S100000x64, .f32⟩ : BufTy).Contents (Elt F) → (⟨S100000x64, .f32⟩ : BufTy).Contents (Elt F) → (⟨S100000x64, .f32⟩ : BufTy).Contents (Elt F)),
    unary main_v240 main_v241 (Host.sqrt : (⟨S100000x64, .f32⟩ : BufTy).Contents (Elt F) → (⟨S100000x64, .f32⟩ : BufTy).Contents (Elt F)),
    binary main_v231 main_v241 main_v242 (Host.divf : (⟨S100000x64, .f32⟩ : BufTy).Contents (Elt F) → (⟨S100000x64, .f32⟩ : BufTy).Contents (Elt F) → (⟨S100000x64, .f32⟩ : BufTy).Contents (Elt F)),
    unary main_arg19 main_v243 (broadcastInDim S1x64 ![1] bcast_S64_S1x64_1 : (⟨S64, .f32⟩ : BufTy).Contents (Elt F) → (⟨S1x64, .f32⟩ : BufTy).Contents (Elt F)),
    unary main_v243 main_v244 (broadcastInDim S100000x64 ![0, 1] bcast_S1x64_S100000x64_0_1 : (⟨S1x64, .f32⟩ : BufTy).Contents (Elt F) → (⟨S100000x64, .f32⟩ : BufTy).Contents (Elt F)),
    binary main_v242 main_v244 main_v245 (addf : (⟨S100000x64, .f32⟩ : BufTy).Contents (Elt F) → (⟨S100000x64, .f32⟩ : BufTy).Contents (Elt F) → (⟨S100000x64, .f32⟩ : BufTy).Contents (Elt F)),
    binary main_v245 main_v164 main_v246 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v246) (TRef.of (T := ⟨S100000x64, .f32⟩) main_call2_v0) (TRef.of (T := ⟨S100000x64, .f32⟩) main_v247) maximumf ]
set_option maxRecDepth 8192 in
theorem seg8_sub : (seg8 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., binary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., binary_bufs_sub .., unary_bufs_sub .., unary_bufs_sub .., binary_bufs_sub .., binary_bufs_sub .., nullary_bufs_sub .., unary_bufs_sub .., binary_bufs_sub ..⟩
theorem seg8_fresh : (seg8 : List (HloOp τ sig (Elt F))).Forall fun op => op.fresh = ∅ := by
  simp only [List.Forall]; repeat' constructor

/-- Stretch 9 of the program's operations. -/
abbrev seg9 : List (HloOp τ sig (Elt F)) :=
  [ nullary main_cst_55 (constant S_ .f32 0x00000000#32),
    unary main_cst_55 main_v248 (broadcastInDim S128x64 ![] bcast_S_S128x64 : (⟨S_, .f32⟩ : BufTy).Contents (Elt F) → (⟨S128x64, .f32⟩ : BufTy).Contents (Elt F)),
    unary main_arg2 main_v249 (broadcastInDim S100000x1 ![0] bcast_S100000_S100000x1_0 : (⟨S100000, .i32⟩ : BufTy).Contents (Elt F) → (⟨S100000x1, .i32⟩ : BufTy).Contents (Elt F)),
    ternary main_v248 main_v249 main_v247 main_v250 ((fun x i u => Host.scatterAdd scatter_S128x64_S100000x1_S100000x64_1_0_0_1 x i u) : (⟨S128x64, .f32⟩ : BufTy).Contents (Elt F) → (⟨S100000x1, .i32⟩ : BufTy).Contents (Elt F) → (⟨S100000x64, .f32⟩ : BufTy).Contents (Elt F) → (⟨S128x64, .f32⟩ : BufTy).Contents (Elt F)),
    nullary main_cst_56 (constant S_ .f32 0x3F800000#32),
    unary main_cst_56 main_v251 (broadcastInDim S100000x1 ![] bcast_S_S100000x1 : (⟨S_, .f32⟩ : BufTy).Contents (Elt F) → (⟨S100000x1, .f32⟩ : BufTy).Contents (Elt F)),
    nullary main_cst_57 (constant S_ .f32 0x00000000#32),
    unary main_cst_57 main_v252 (broadcastInDim S128x1 ![] bcast_S_S128x1 : (⟨S_, .f32⟩ : BufTy).Contents (Elt F) → (⟨S128x1, .f32⟩ : BufTy).Contents (Elt F)),
    unary main_arg2 main_v253 (broadcastInDim S100000x1 ![0] bcast_S100000_S100000x1_0 : (⟨S100000, .i32⟩ : BufTy).Contents (Elt F) → (⟨S100000x1, .i32⟩ : BufTy).Contents (Elt F)),
    ternary main_v252 main_v253 main_v251 main_v254 ((fun x i u => Host.scatterAdd scatter_S128x1_S100000x1_S100000x1_1_0_0_1 x i u) : (⟨S128x1, .f32⟩ : BufTy).Contents (Elt F) → (⟨S100000x1, .i32⟩ : BufTy).Contents (Elt F) → (⟨S100000x1, .f32⟩ : BufTy).Contents (Elt F) → (⟨S128x1, .f32⟩ : BufTy).Contents (Elt F)),
    unary main_v254 main_v255 (broadcastInDim S128x64 ![0, 1] bcast_S128x1_S128x64_0_1 : (⟨S128x1, .f32⟩ : BufTy).Contents (Elt F) → (⟨S128x64, .f32⟩ : BufTy).Contents (Elt F)),
    binary main_v250 main_v255 main_v256 (Host.divf : (⟨S128x64, .f32⟩ : BufTy).Contents (Elt F) → (⟨S128x64, .f32⟩ : BufTy).Contents (Elt F) → (⟨S128x64, .f32⟩ : BufTy).Contents (Elt F)),
    unary main_arg21 main_v257 ((transpose S64x3 [1, 0] · transposes_S3x64_S64x3_1_0) : (⟨S3x64, .f32⟩ : BufTy).Contents (Elt F) → (⟨S64x3, .f32⟩ : BufTy).Contents (Elt F)),
    binary main_v256 main_v257 main_v258 ((fun l r => Host.dotGeneral dot_S128x64_S64x3_S128x3_1_0_0_1_n_n none l r) : (⟨S128x64, .f32⟩ : BufTy).Contents (Elt F) → (⟨S64x3, .f32⟩ : BufTy).Contents (Elt F) → (⟨S128x3, .f32⟩ : BufTy).Contents (Elt F)),
    unary main_arg22 main_v259 (broadcastInDim S1x3 ![1] bcast_S3_S1x3_1 : (⟨S3, .f32⟩ : BufTy).Contents (Elt F) → (⟨S1x3, .f32⟩ : BufTy).Contents (Elt F)),
    unary main_v259 main_v260 (broadcastInDim S128x3 ![0, 1] bcast_S1x3_S128x3_0_1 : (⟨S1x3, .f32⟩ : BufTy).Contents (Elt F) → (⟨S128x3, .f32⟩ : BufTy).Contents (Elt F)),
    binary main_v258 main_v260 main_v261 (addf : (⟨S128x3, .f32⟩ : BufTy).Contents (Elt F) → (⟨S128x3, .f32⟩ : BufTy).Contents (Elt F) → (⟨S128x3, .f32⟩ : BufTy).Contents (Elt F)) ]
set_option maxRecDepth 8192 in
theorem seg9_sub : (seg9 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., unary_bufs_sub .., binary_bufs_sub .., unary_bufs_sub .., binary_bufs_sub .., unary_bufs_sub .., unary_bufs_sub .., binary_bufs_sub ..⟩
theorem seg9_fresh : (seg9 : List (HloOp τ sig (Elt F))).Forall fun op => op.fresh = ∅ := by
  simp only [List.Forall]; repeat' constructor

/-- The whole program: the stretches one after the other. -/
abbrev ops : List (HloOp τ sig (Elt F)) :=
  seg0 ++ (seg1 ++ (seg2 ++ (seg3 ++ (seg4 ++ (seg5 ++ (seg6 ++ (seg7 ++ (seg8 ++ seg9))))))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem mem_ops {op : HloOp τ sig (Elt F)} (h : op ∈ (ops : List (HloOp τ sig (Elt F)))) :
    op ∈ (seg0 : List (HloOp τ sig (Elt F))) ∨ op ∈ (seg1 : List (HloOp τ sig (Elt F))) ∨ op ∈ (seg2 : List (HloOp τ sig (Elt F)))
      ∨ op ∈ (seg3 : List (HloOp τ sig (Elt F))) ∨ op ∈ (seg4 : List (HloOp τ sig (Elt F))) ∨ op ∈ (seg5 : List (HloOp τ sig (Elt F)))
      ∨ op ∈ (seg6 : List (HloOp τ sig (Elt F))) ∨ op ∈ (seg7 : List (HloOp τ sig (Elt F))) ∨ op ∈ (seg8 : List (HloOp τ sig (Elt F)))
      ∨ op ∈ (seg9 : List (HloOp τ sig (Elt F))) := by
  simpa only [ops, List.mem_append] using h

theorem ops_sub : (ops : List (HloOp τ sig (Elt F))).Forall fun op => op.bufs ⊆ tcRefs τ sig :=
  List.forall_iff_forall_mem.mpr fun op h => by
    rcases mem_ops h with h | h | h | h | h | h | h | h | h | h
    · exact List.forall_iff_forall_mem.mp seg0_sub op h
    · exact List.forall_iff_forall_mem.mp seg1_sub op h
    · exact List.forall_iff_forall_mem.mp seg2_sub op h
    · exact List.forall_iff_forall_mem.mp seg3_sub op h
    · exact List.forall_iff_forall_mem.mp seg4_sub op h
    · exact List.forall_iff_forall_mem.mp seg5_sub op h
    · exact List.forall_iff_forall_mem.mp seg6_sub op h
    · exact List.forall_iff_forall_mem.mp seg7_sub op h
    · exact List.forall_iff_forall_mem.mp seg8_sub op h
    · exact List.forall_iff_forall_mem.mp seg9_sub op h

theorem ops_fresh : ∀ op ∈ (ops : List (HloOp τ sig (Elt F))), op.fresh = ∅ := fun op h => by
  rcases mem_ops h with h | h | h | h | h | h | h | h | h | h
  · exact List.forall_iff_forall_mem.mp seg0_fresh op h
  · exact List.forall_iff_forall_mem.mp seg1_fresh op h
  · exact List.forall_iff_forall_mem.mp seg2_fresh op h
  · exact List.forall_iff_forall_mem.mp seg3_fresh op h
  · exact List.forall_iff_forall_mem.mp seg4_fresh op h
  · exact List.forall_iff_forall_mem.mp seg5_fresh op h
  · exact List.forall_iff_forall_mem.mp seg6_fresh op h
  · exact List.forall_iff_forall_mem.mp seg7_fresh op h
  · exact List.forall_iff_forall_mem.mp seg8_fresh op h
  · exact List.forall_iff_forall_mem.mp seg9_fresh op h

end Cert.ReferenceIdeal.Segs

end
-- ==== Proof.LibHostKeeps.lean ====
/-
  Two small tactics for reading buffers through straight lines of host operations.

  A straight line of host operations writes only its operations' result buffers. So a buffer that is none of them
  holds after the line what it held before, whatever contents the line is entered with: `host_keeps ops` proves a goal
  `StableHlo.after ops W (Proc.devRef .tc b) = W (Proc.devRef .tc b)` for a literal list `ops` (named by the
  abbreviation that a `simp only` may unfold) and a literal reference `b`, by comparing `b` with each result buffer in
  turn. It is the step with which a value is carried across the host stretches of a program of several kernel
  regions (across a region, the frame's own `W…_of_ne` does the same).

  The operations of an outlined function (a `where`, a `relu`: `TRef.unary …`) carry each value to its buffer's own
  type and back. For literal references both carriages are casts along an equation between one type and itself:
  `drop_casts` removes them all, leaving the plain operations' term for `rfl` or a rewrite.
-/
import Idealize.ShloMosaic.Lib.StableHlo.Run

namespace Cert.LibHostKeeps

open Idealize.ShloMosaic

/-- No operation of the named list writes the goal's buffer: its result buffers, one by one, are other references. -/
macro "host_keeps " ops:ident : tactic => `(tactic| exact StableHlo.after_of_forall_not_mem _ _ (List.forall_iff_forall_mem.mp (by
  simp only [$ops:ident, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide))))

/-- The carriages of values to and from their buffers' own types, at literal references, are the identity. -/
macro "drop_casts" : tactic => `(tactic| simp only [StableHlo.TRef.toBuf, StableHlo.TRef.ofBuf, cast_eq])

end Cert.LibHostKeeps
-- ==== Proof.LibHostCut.lean ====
/-
  Cutting a straight line of host operations, and comparing two lines without ever comparing two large terms that differ.

  The contents of the buffers after a line of operations are a fold over the line, so a line run as its first n
  operations and then the rest is the line run whole (`after_append`, `after_split`).  Cutting two programs' lines at
  the same joints — after a value that later operations read several times, or right after a concatenation, whose pieces
  a rewriting pass does not enter — lets each stretch be read from a state in which that value is ONE buffer, so no
  stretch's term repeats it.

  To show a = b for two long terms that are equal only after some rewriting, it is enough to show that a is whatever b is:
  for every y, b = y → a = y (`via_right`).  While the two sides are being brought to one spelling each of them stands
  in an equation with the variable y only, never with the other, and they are matched once, at the end, when they are
  the same term.  (An equation between two large terms that still differ invites a check of their definitional equality,
  and refuting that can mean unfolding a fold over every element of a full-size array.)
-/
import Idealize.ShloMosaic.Lib.StableHlo.Run

namespace Cert.LibHostCut

open Idealize.ShloMosaic Idealize.ShloMosaic.StableHlo

/-- To prove a = b it is enough to show that a is whatever b is: b then only ever meets a variable. -/
theorem via_right {α : Sort _} {a b : α} (h : ∀ y, b = y → a = y) : a = b := h b rfl

/-- Two lines of host operations run one after the other are their concatenation run as one. -/
theorem after_append {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => rw [List.cons_append, after_cons, after_cons, ih]

/-- A line run as its first n operations and then the rest. -/
theorem after_split {τ : Topo} {sig : RefSig} {Val : EltTy → Type} (n : ℕ) (l : List (HloOp τ sig Val))
    (V : Valuation τ sig Val) : after l V = after (List.drop n l) (after (List.take n l) V) := by
  rw [← after_append, List.take_append_drop]

end Cert.LibHostCut
-- ==== Proof.RefBounds.lean ====
/-
  The reference program's contents at the boundaries of its ten stretches.

  The contents after a line of operations are a fold over the line, so the program run whole leaves what its ten
  stretches leave run one after the other: U0 is what the device holds at launch, and each later boundary is the
  stretch before it run from the boundary before.  A stretch writes only its operations' result buffers, so a reference
  that is none of them holds after the stretch what it held before.  No stretch writes an argument, so every argument
  holds its launch contents at every boundary; and a layer's output, written once by the stretch that ends with it, is
  still there two and three stretches on, where the next layer's convolution and residual read it.
-/
import proofs.«152839_j85684597555422_1_alg».proof.Proof.RefSegs
import proofs.«152839_j85684597555422_1_alg».proof.Proof.LibHostKeeps
import proofs.«152839_j85684597555422_1_alg».proof.Proof.LibHostCut
import Idealize.ShloMosaic.PureOps.Ideal

set_option maxRecDepth 16384

noncomputable section

namespace Cert.ReferenceIdeal.RefRun

open Cert.ReferenceIdeal Cert.ReferenceIdeal.Gen Cert.ReferenceIdeal.Segs Idealize.ShloMosaic Idealize.ShloMosaic.TcCoe Idealize.SL.Sem
  Idealize.ShloMosaic.StableHlo Cert.LibHostKeeps

variable (m : (ℓ : Loc nD τ sig) → Buf (Elt Ideal) ℓ) (c : Dev nD)

/-! ## The boundaries -/

/-- The device's buffers at launch. -/
abbrev U0 : Valuation τ sig (Elt Ideal) := StableHlo.launchContents m c
/-- The buffers after stretch 0. -/
def U1 : Valuation τ sig (Elt Ideal) := StableHlo.after (seg0 (F := Ideal)) (U0 m c)
theorem U1_eq : U1 m c = StableHlo.after (seg0 (F := Ideal)) (U0 m c) := rfl
/-- The buffers after stretch 1. -/
def U2 : Valuation τ sig (Elt Ideal) := StableHlo.after (seg1 (F := Ideal)) (U1 m c)
theorem U2_eq : U2 m c = StableHlo.after (seg1 (F := Ideal)) (U1 m c) := rfl
/-- The buffers after stretch 2. -/
def U3 : Valuation τ sig (Elt Ideal) := StableHlo.after (seg2 (F := Ideal)) (U2 m c)
theorem U3_eq : U3 m c = StableHlo.after (seg2 (F := Ideal)) (U2 m c) := rfl
/-- The buffers after stretch 3. -/
def U4 : Valuation τ sig (Elt Ideal) := StableHlo.after (seg3 (F := Ideal)) (U3 m c)
theorem U4_eq : U4 m c = StableHlo.after (seg3 (F := Ideal)) (U3 m c) := rfl
/-- The buffers after stretch 4. -/
def U5 : Valuation τ sig (Elt Ideal) := StableHlo.after (seg4 (F := Ideal)) (U4 m c)
theorem U5_eq : U5 m c = StableHlo.after (seg4 (F := Ideal)) (U4 m c) := rfl
/-- The buffers after stretch 5. -/
def U6 : Valuation τ sig (Elt Ideal) := StableHlo.after (seg5 (F := Ideal)) (U5 m c)
theorem U6_eq : U6 m c = StableHlo.after (seg5 (F := Ideal)) (U5 m c) := rfl
/-- The buffers after stretch 6. -/
def U7 : Valuation τ sig (Elt Ideal) := StableHlo.after (seg6 (F := Ideal)) (U6 m c)
theorem U7_eq : U7 m c = StableHlo.after (seg6 (F := Ideal)) (U6 m c) := rfl
/-- The buffers after stretch 7. -/
def U8 : Valuation τ sig (Elt Ideal) := StableHlo.after (seg7 (F := Ideal)) (U7 m c)
theorem U8_eq : U8 m c = StableHlo.after (seg7 (F := Ideal)) (U7 m c) := rfl
/-- The buffers after stretch 8. -/
def U9 : Valuation τ sig (Elt Ideal) := StableHlo.after (seg8 (F := Ideal)) (U8 m c)
theorem U9_eq : U9 m c = StableHlo.after (seg8 (F := Ideal)) (U8 m c) := rfl
/-- The buffers after stretch 9. -/
def U10 : Valuation τ sig (Elt Ideal) := StableHlo.after (seg9 (F := Ideal)) (U9 m c)
theorem U10_eq : U10 m c = StableHlo.after (seg9 (F := Ideal)) (U9 m c) := rfl

/-- The whole program run from the launch contents leaves what the tenth boundary holds. -/
theorem cut : StableHlo.after (ops (F := Ideal)) (U0 m c) = U10 m c := by
  rw [U10_eq, U9_eq, U8_eq, U7_eq, U6_eq, U5_eq, U4_eq, U3_eq, U2_eq, U1_eq]
  rw [Cert.LibHostCut.after_append, Cert.LibHostCut.after_append, Cert.LibHostCut.after_append,
    Cert.LibHostCut.after_append, Cert.LibHostCut.after_append, Cert.LibHostCut.after_append,
    Cert.LibHostCut.after_append, Cert.LibHostCut.after_append, Cert.LibHostCut.after_append]

/-! ## What each stretch writes, and what it therefore keeps -/

/-- The references stretch 0's operations write. -/
abbrev seg0_W : List (Ref sig .tc) :=
  [ main_v0, main_v1, main_v2, main_v3, main_c, main_v4, main_v5, main_c_0, main_v6, main_v7, main_v8, main_v9,
    main_v10, main_cst, main_v11, main_v12, main_v13, main_cst_1, main_v14, main_cst_2, main_v15, main_v16,
    main_v17, main_cst_3, main_v18, main_v19, main_v20, main_v21 ]
theorem seg0_writes : (seg0 : List (HloOp τ sig (Elt Ideal))).Forall fun op =>
    op.writes ⊆ (seg0_W.map (Proc.devRef (τ := τ) .tc)).toFinset := by
  simp only [List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)
/-- A reference stretch 0 does not write holds at boundary 1 what it held at boundary 0. -/
theorem U1_of (r : Ref sig .tc) (h : r ∉ seg0_W) : U1 m c (Proc.devRef .tc r) = U0 m c (Proc.devRef .tc r) :=
  StableHlo.after_of_writes_sub (seg0 (F := Ideal)) _ seg0_writes h

/-- The references stretch 1's operations write. -/
abbrev seg1_W : List (Ref sig .tc) :=
  [ main_v22, main_v23, main_v24, main_v25, main_v26, main_v27, main_v28, main_v29 ]
theorem seg1_writes : (seg1 : List (HloOp τ sig (Elt Ideal))).Forall fun op =>
    op.writes ⊆ (seg1_W.map (Proc.devRef (τ := τ) .tc)).toFinset := by
  simp only [List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)
/-- A reference stretch 1 does not write holds at boundary 2 what it held at boundary 1. -/
theorem U2_of (r : Ref sig .tc) (h : r ∉ seg1_W) : U2 m c (Proc.devRef .tc r) = U1 m c (Proc.devRef .tc r) :=
  StableHlo.after_of_writes_sub (seg1 (F := Ideal)) _ seg1_writes h

/-- The references stretch 2's operations write. -/
abbrev seg2_W : List (Ref sig .tc) :=
  [ main_cst_4, main_v30, main_v31, main_v32, main_cst_5, main_v33, main_cst_6, main_v34, main_v35, main_v36,
    main_cst_7, main_v37, main_v38, main_v39, main_v40, main_c_8, main_v41, main_v42, main_c_9, main_v43, main_v44,
    main_v45, main_v46, main_v47, main_v48, main_v49, main_v50, main_v51, main_v52, main_cst_10, main_v53,
    main_v54, main_v55, main_cst_11, main_v56, main_cst_12, main_v57, main_v58, main_v59, main_cst_13, main_v60,
    main_v61, main_v62, main_v63, main_v64, main_v65, main_v66, main_c_14, main_v67, main_v68, main_c_15, main_v69,
    main_v70, main_v71, main_v72, main_v73, main_cst_16, main_v74, main_v75, main_v76, main_v77, main_v78,
    main_v79, main_v80, main_call0_cst, main_call0_v0, main_v81 ]
theorem seg2_writes : (seg2 : List (HloOp τ sig (Elt Ideal))).Forall fun op =>
    op.writes ⊆ (seg2_W.map (Proc.devRef (τ := τ) .tc)).toFinset := by
  simp only [List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)
/-- A reference stretch 2 does not write holds at boundary 3 what it held at boundary 2. -/
theorem U3_of (r : Ref sig .tc) (h : r ∉ seg2_W) : U3 m c (Proc.devRef .tc r) = U2 m c (Proc.devRef .tc r) :=
  StableHlo.after_of_writes_sub (seg2 (F := Ideal)) _ seg2_writes h

/-- The references stretch 3's operations write. -/
abbrev seg3_W : List (Ref sig .tc) :=
  [ main_v82, main_v83, main_v84, main_v85, main_c_17, main_v86, main_v87, main_c_18, main_v88, main_v89, main_v90,
    main_v91, main_v92, main_cst_19, main_v93, main_v94, main_v95, main_cst_20, main_v96, main_cst_21, main_v97,
    main_v98, main_v99, main_cst_22, main_v100, main_v101, main_v102, main_v103 ]
theorem seg3_writes : (seg3 : List (HloOp τ sig (Elt Ideal))).Forall fun op =>
    op.writes ⊆ (seg3_W.map (Proc.devRef (τ := τ) .tc)).toFinset := by
  simp only [List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)
/-- A reference stretch 3 does not write holds at boundary 4 what it held at boundary 3. -/
theorem U4_of (r : Ref sig .tc) (h : r ∉ seg3_W) : U4 m c (Proc.devRef .tc r) = U3 m c (Proc.devRef .tc r) :=
  StableHlo.after_of_writes_sub (seg3 (F := Ideal)) _ seg3_writes h

/-- The references stretch 4's operations write. -/
abbrev seg4_W : List (Ref sig .tc) :=
  [ main_v104, main_v105, main_v106, main_v107, main_v108, main_v109, main_v110, main_v111 ]
theorem seg4_writes : (seg4 : List (HloOp τ sig (Elt Ideal))).Forall fun op =>
    op.writes ⊆ (seg4_W.map (Proc.devRef (τ := τ) .tc)).toFinset := by
  simp only [List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)
/-- A reference stretch 4 does not write holds at boundary 5 what it held at boundary 4. -/
theorem U5_of (r : Ref sig .tc) (h : r ∉ seg4_W) : U5 m c (Proc.devRef .tc r) = U4 m c (Proc.devRef .tc r) :=
  StableHlo.after_of_writes_sub (seg4 (F := Ideal)) _ seg4_writes h

/-- The references stretch 5's operations write. -/
abbrev seg5_W : List (Ref sig .tc) :=
  [ main_cst_23, main_v112, main_v113, main_v114, main_cst_24, main_v115, main_cst_25, main_v116, main_v117,
    main_v118, main_cst_26, main_v119, main_v120, main_v121, main_v122, main_c_27, main_v123, main_v124, main_c_28,
    main_v125, main_v126, main_v127, main_v128, main_v129, main_v130, main_v131, main_v132, main_v133, main_v134,
    main_cst_29, main_v135, main_v136, main_v137, main_cst_30, main_v138, main_cst_31, main_v139, main_v140,
    main_v141, main_cst_32, main_v142, main_v143, main_v144, main_v145, main_v146, main_v147, main_v148, main_c_33,
    main_v149, main_v150, main_c_34, main_v151, main_v152, main_v153, main_v154, main_v155, main_cst_35, main_v156,
    main_v157, main_v158, main_v159, main_v160, main_v161, main_v162, main_v163, main_call1_cst, main_call1_v0,
    main_v164 ]
theorem seg5_writes : (seg5 : List (HloOp τ sig (Elt Ideal))).Forall fun op =>
    op.writes ⊆ (seg5_W.map (Proc.devRef (τ := τ) .tc)).toFinset := by
  simp only [List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)
/-- A reference stretch 5 does not write holds at boundary 6 what it held at boundary 5. -/
theorem U6_of (r : Ref sig .tc) (h : r ∉ seg5_W) : U6 m c (Proc.devRef .tc r) = U5 m c (Proc.devRef .tc r) :=
  StableHlo.after_of_writes_sub (seg5 (F := Ideal)) _ seg5_writes h

/-- The references stretch 6's operations write. -/
abbrev seg6_W : List (Ref sig .tc) :=
  [ main_v165, main_v166, main_v167, main_v168, main_c_36, main_v169, main_v170, main_c_37, main_v171, main_v172,
    main_v173, main_v174, main_v175, main_cst_38, main_v176, main_v177, main_v178, main_cst_39, main_v179,
    main_cst_40, main_v180, main_v181, main_v182, main_cst_41, main_v183, main_v184, main_v185, main_v186 ]
theorem seg6_writes : (seg6 : List (HloOp τ sig (Elt Ideal))).Forall fun op =>
    op.writes ⊆ (seg6_W.map (Proc.devRef (τ := τ) .tc)).toFinset := by
  simp only [List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)
/-- A reference stretch 6 does not write holds at boundary 7 what it held at boundary 6. -/
theorem U7_of (r : Ref sig .tc) (h : r ∉ seg6_W) : U7 m c (Proc.devRef .tc r) = U6 m c (Proc.devRef .tc r) :=
  StableHlo.after_of_writes_sub (seg6 (F := Ideal)) _ seg6_writes h

/-- The references stretch 7's operations write. -/
abbrev seg7_W : List (Ref sig .tc) :=
  [ main_v187, main_v188, main_v189, main_v190, main_v191, main_v192, main_v193, main_v194 ]
theorem seg7_writes : (seg7 : List (HloOp τ sig (Elt Ideal))).Forall fun op =>
    op.writes ⊆ (seg7_W.map (Proc.devRef (τ := τ) .tc)).toFinset := by
  simp only [List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)
/-- A reference stretch 7 does not write holds at boundary 8 what it held at boundary 7. -/
theorem U8_of (r : Ref sig .tc) (h : r ∉ seg7_W) : U8 m c (Proc.devRef .tc r) = U7 m c (Proc.devRef .tc r) :=
  StableHlo.after_of_writes_sub (seg7 (F := Ideal)) _ seg7_writes h

/-- The references stretch 8's operations write. -/
abbrev seg8_W : List (Ref sig .tc) :=
  [ main_cst_42, main_v195, main_v196, main_v197, main_cst_43, main_v198, main_cst_44, main_v199, main_v200,
    main_v201, main_cst_45, main_v202, main_v203, main_v204, main_v205, main_c_46, main_v206, main_v207, main_c_47,
    main_v208, main_v209, main_v210, main_v211, main_v212, main_v213, main_v214, main_v215, main_v216, main_v217,
    main_cst_48, main_v218, main_v219, main_v220, main_cst_49, main_v221, main_cst_50, main_v222, main_v223,
    main_v224, main_cst_51, main_v225, main_v226, main_v227, main_v228, main_v229, main_v230, main_v231, main_c_52,
    main_v232, main_v233, main_c_53, main_v234, main_v235, main_v236, main_v237, main_v238, main_cst_54, main_v239,
    main_v240, main_v241, main_v242, main_v243, main_v244, main_v245, main_v246, main_call2_cst, main_call2_v0,
    main_v247 ]
theorem seg8_writes : (seg8 : List (HloOp τ sig (Elt Ideal))).Forall fun op =>
    op.writes ⊆ (seg8_W.map (Proc.devRef (τ := τ) .tc)).toFinset := by
  simp only [List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)
/-- A reference stretch 8 does not write holds at boundary 9 what it held at boundary 8. -/
theorem U9_of (r : Ref sig .tc) (h : r ∉ seg8_W) : U9 m c (Proc.devRef .tc r) = U8 m c (Proc.devRef .tc r) :=
  StableHlo.after_of_writes_sub (seg8 (F := Ideal)) _ seg8_writes h

/-- The references stretch 9's operations write. -/
abbrev seg9_W : List (Ref sig .tc) :=
  [ main_cst_55, main_v248, main_v249, main_v250, main_cst_56, main_v251, main_cst_57, main_v252, main_v253,
    main_v254, main_v255, main_v256, main_v257, main_v258, main_v259, main_v260, main_v261 ]
theorem seg9_writes : (seg9 : List (HloOp τ sig (Elt Ideal))).Forall fun op =>
    op.writes ⊆ (seg9_W.map (Proc.devRef (τ := τ) .tc)).toFinset := by
  simp only [List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)
/-- A reference stretch 9 does not write holds at boundary 10 what it held at boundary 9. -/
theorem U10_of (r : Ref sig .tc) (h : r ∉ seg9_W) : U10 m c (Proc.devRef .tc r) = U9 m c (Proc.devRef .tc r) :=
  StableHlo.after_of_writes_sub (seg9 (F := Ideal)) _ seg9_writes h

/-! ## The arguments at every boundary -/

/-- Argument 0 holds its launch contents at every boundary. -/
theorem arg0_at0 : U0 m c (Proc.devRef .tc main_arg0) = m ((c.tc : Thread nD τ).loc main_arg0) := rfl
theorem arg0_at1 : U1 m c (Proc.devRef .tc main_arg0) = m ((c.tc : Thread nD τ).loc main_arg0) :=
  (U1_of m c main_arg0 (by decide)).trans (arg0_at0 m c)
theorem arg0_at2 : U2 m c (Proc.devRef .tc main_arg0) = m ((c.tc : Thread nD τ).loc main_arg0) :=
  (U2_of m c main_arg0 (by decide)).trans (arg0_at1 m c)
theorem arg0_at3 : U3 m c (Proc.devRef .tc main_arg0) = m ((c.tc : Thread nD τ).loc main_arg0) :=
  (U3_of m c main_arg0 (by decide)).trans (arg0_at2 m c)
theorem arg0_at4 : U4 m c (Proc.devRef .tc main_arg0) = m ((c.tc : Thread nD τ).loc main_arg0) :=
  (U4_of m c main_arg0 (by decide)).trans (arg0_at3 m c)
theorem arg0_at5 : U5 m c (Proc.devRef .tc main_arg0) = m ((c.tc : Thread nD τ).loc main_arg0) :=
  (U5_of m c main_arg0 (by decide)).trans (arg0_at4 m c)
theorem arg0_at6 : U6 m c (Proc.devRef .tc main_arg0) = m ((c.tc : Thread nD τ).loc main_arg0) :=
  (U6_of m c main_arg0 (by decide)).trans (arg0_at5 m c)
theorem arg0_at7 : U7 m c (Proc.devRef .tc main_arg0) = m ((c.tc : Thread nD τ).loc main_arg0) :=
  (U7_of m c main_arg0 (by decide)).trans (arg0_at6 m c)
theorem arg0_at8 : U8 m c (Proc.devRef .tc main_arg0) = m ((c.tc : Thread nD τ).loc main_arg0) :=
  (U8_of m c main_arg0 (by decide)).trans (arg0_at7 m c)
theorem arg0_at9 : U9 m c (Proc.devRef .tc main_arg0) = m ((c.tc : Thread nD τ).loc main_arg0) :=
  (U9_of m c main_arg0 (by decide)).trans (arg0_at8 m c)
theorem arg0_at10 : U10 m c (Proc.devRef .tc main_arg0) = m ((c.tc : Thread nD τ).loc main_arg0) :=
  (U10_of m c main_arg0 (by decide)).trans (arg0_at9 m c)

/-- Argument 1 holds its launch contents at every boundary. -/
theorem arg1_at0 : U0 m c (Proc.devRef .tc main_arg1) = m ((c.tc : Thread nD τ).loc main_arg1) := rfl
theorem arg1_at1 : U1 m c (Proc.devRef .tc main_arg1) = m ((c.tc : Thread nD τ).loc main_arg1) :=
  (U1_of m c main_arg1 (by decide)).trans (arg1_at0 m c)
theorem arg1_at2 : U2 m c (Proc.devRef .tc main_arg1) = m ((c.tc : Thread nD τ).loc main_arg1) :=
  (U2_of m c main_arg1 (by decide)).trans (arg1_at1 m c)
theorem arg1_at3 : U3 m c (Proc.devRef .tc main_arg1) = m ((c.tc : Thread nD τ).loc main_arg1) :=
  (U3_of m c main_arg1 (by decide)).trans (arg1_at2 m c)
theorem arg1_at4 : U4 m c (Proc.devRef .tc main_arg1) = m ((c.tc : Thread nD τ).loc main_arg1) :=
  (U4_of m c main_arg1 (by decide)).trans (arg1_at3 m c)
theorem arg1_at5 : U5 m c (Proc.devRef .tc main_arg1) = m ((c.tc : Thread nD τ).loc main_arg1) :=
  (U5_of m c main_arg1 (by decide)).trans (arg1_at4 m c)
theorem arg1_at6 : U6 m c (Proc.devRef .tc main_arg1) = m ((c.tc : Thread nD τ).loc main_arg1) :=
  (U6_of m c main_arg1 (by decide)).trans (arg1_at5 m c)
theorem arg1_at7 : U7 m c (Proc.devRef .tc main_arg1) = m ((c.tc : Thread nD τ).loc main_arg1) :=
  (U7_of m c main_arg1 (by decide)).trans (arg1_at6 m c)
theorem arg1_at8 : U8 m c (Proc.devRef .tc main_arg1) = m ((c.tc : Thread nD τ).loc main_arg1) :=
  (U8_of m c main_arg1 (by decide)).trans (arg1_at7 m c)
theorem arg1_at9 : U9 m c (Proc.devRef .tc main_arg1) = m ((c.tc : Thread nD τ).loc main_arg1) :=
  (U9_of m c main_arg1 (by decide)).trans (arg1_at8 m c)
theorem arg1_at10 : U10 m c (Proc.devRef .tc main_arg1) = m ((c.tc : Thread nD τ).loc main_arg1) :=
  (U10_of m c main_arg1 (by decide)).trans (arg1_at9 m c)

/-- Argument 2 holds its launch contents at every boundary. -/
theorem arg2_at0 : U0 m c (Proc.devRef .tc main_arg2) = m ((c.tc : Thread nD τ).loc main_arg2) := rfl
theorem arg2_at1 : U1 m c (Proc.devRef .tc main_arg2) = m ((c.tc : Thread nD τ).loc main_arg2) :=
  (U1_of m c main_arg2 (by decide)).trans (arg2_at0 m c)
theorem arg2_at2 : U2 m c (Proc.devRef .tc main_arg2) = m ((c.tc : Thread nD τ).loc main_arg2) :=
  (U2_of m c main_arg2 (by decide)).trans (arg2_at1 m c)
theorem arg2_at3 : U3 m c (Proc.devRef .tc main_arg2) = m ((c.tc : Thread nD τ).loc main_arg2) :=
  (U3_of m c main_arg2 (by decide)).trans (arg2_at2 m c)
theorem arg2_at4 : U4 m c (Proc.devRef .tc main_arg2) = m ((c.tc : Thread nD τ).loc main_arg2) :=
  (U4_of m c main_arg2 (by decide)).trans (arg2_at3 m c)
theorem arg2_at5 : U5 m c (Proc.devRef .tc main_arg2) = m ((c.tc : Thread nD τ).loc main_arg2) :=
  (U5_of m c main_arg2 (by decide)).trans (arg2_at4 m c)
theorem arg2_at6 : U6 m c (Proc.devRef .tc main_arg2) = m ((c.tc : Thread nD τ).loc main_arg2) :=
  (U6_of m c main_arg2 (by decide)).trans (arg2_at5 m c)
theorem arg2_at7 : U7 m c (Proc.devRef .tc main_arg2) = m ((c.tc : Thread nD τ).loc main_arg2) :=
  (U7_of m c main_arg2 (by decide)).trans (arg2_at6 m c)
theorem arg2_at8 : U8 m c (Proc.devRef .tc main_arg2) = m ((c.tc : Thread nD τ).loc main_arg2) :=
  (U8_of m c main_arg2 (by decide)).trans (arg2_at7 m c)
theorem arg2_at9 : U9 m c (Proc.devRef .tc main_arg2) = m ((c.tc : Thread nD τ).loc main_arg2) :=
  (U9_of m c main_arg2 (by decide)).trans (arg2_at8 m c)
theorem arg2_at10 : U10 m c (Proc.devRef .tc main_arg2) = m ((c.tc : Thread nD τ).loc main_arg2) :=
  (U10_of m c main_arg2 (by decide)).trans (arg2_at9 m c)

/-- Argument 3 holds its launch contents at every boundary. -/
theorem arg3_at0 : U0 m c (Proc.devRef .tc main_arg3) = m ((c.tc : Thread nD τ).loc main_arg3) := rfl
theorem arg3_at1 : U1 m c (Proc.devRef .tc main_arg3) = m ((c.tc : Thread nD τ).loc main_arg3) :=
  (U1_of m c main_arg3 (by decide)).trans (arg3_at0 m c)
theorem arg3_at2 : U2 m c (Proc.devRef .tc main_arg3) = m ((c.tc : Thread nD τ).loc main_arg3) :=
  (U2_of m c main_arg3 (by decide)).trans (arg3_at1 m c)
theorem arg3_at3 : U3 m c (Proc.devRef .tc main_arg3) = m ((c.tc : Thread nD τ).loc main_arg3) :=
  (U3_of m c main_arg3 (by decide)).trans (arg3_at2 m c)
theorem arg3_at4 : U4 m c (Proc.devRef .tc main_arg3) = m ((c.tc : Thread nD τ).loc main_arg3) :=
  (U4_of m c main_arg3 (by decide)).trans (arg3_at3 m c)
theorem arg3_at5 : U5 m c (Proc.devRef .tc main_arg3) = m ((c.tc : Thread nD τ).loc main_arg3) :=
  (U5_of m c main_arg3 (by decide)).trans (arg3_at4 m c)
theorem arg3_at6 : U6 m c (Proc.devRef .tc main_arg3) = m ((c.tc : Thread nD τ).loc main_arg3) :=
  (U6_of m c main_arg3 (by decide)).trans (arg3_at5 m c)
theorem arg3_at7 : U7 m c (Proc.devRef .tc main_arg3) = m ((c.tc : Thread nD τ).loc main_arg3) :=
  (U7_of m c main_arg3 (by decide)).trans (arg3_at6 m c)
theorem arg3_at8 : U8 m c (Proc.devRef .tc main_arg3) = m ((c.tc : Thread nD τ).loc main_arg3) :=
  (U8_of m c main_arg3 (by decide)).trans (arg3_at7 m c)
theorem arg3_at9 : U9 m c (Proc.devRef .tc main_arg3) = m ((c.tc : Thread nD τ).loc main_arg3) :=
  (U9_of m c main_arg3 (by decide)).trans (arg3_at8 m c)
theorem arg3_at10 : U10 m c (Proc.devRef .tc main_arg3) = m ((c.tc : Thread nD τ).loc main_arg3) :=
  (U10_of m c main_arg3 (by decide)).trans (arg3_at9 m c)

/-- Argument 4 holds its launch contents at every boundary. -/
theorem arg4_at0 : U0 m c (Proc.devRef .tc main_arg4) = m ((c.tc : Thread nD τ).loc main_arg4) := rfl
theorem arg4_at1 : U1 m c (Proc.devRef .tc main_arg4) = m ((c.tc : Thread nD τ).loc main_arg4) :=
  (U1_of m c main_arg4 (by decide)).trans (arg4_at0 m c)
theorem arg4_at2 : U2 m c (Proc.devRef .tc main_arg4) = m ((c.tc : Thread nD τ).loc main_arg4) :=
  (U2_of m c main_arg4 (by decide)).trans (arg4_at1 m c)
theorem arg4_at3 : U3 m c (Proc.devRef .tc main_arg4) = m ((c.tc : Thread nD τ).loc main_arg4) :=
  (U3_of m c main_arg4 (by decide)).trans (arg4_at2 m c)
theorem arg4_at4 : U4 m c (Proc.devRef .tc main_arg4) = m ((c.tc : Thread nD τ).loc main_arg4) :=
  (U4_of m c main_arg4 (by decide)).trans (arg4_at3 m c)
theorem arg4_at5 : U5 m c (Proc.devRef .tc main_arg4) = m ((c.tc : Thread nD τ).loc main_arg4) :=
  (U5_of m c main_arg4 (by decide)).trans (arg4_at4 m c)
theorem arg4_at6 : U6 m c (Proc.devRef .tc main_arg4) = m ((c.tc : Thread nD τ).loc main_arg4) :=
  (U6_of m c main_arg4 (by decide)).trans (arg4_at5 m c)
theorem arg4_at7 : U7 m c (Proc.devRef .tc main_arg4) = m ((c.tc : Thread nD τ).loc main_arg4) :=
  (U7_of m c main_arg4 (by decide)).trans (arg4_at6 m c)
theorem arg4_at8 : U8 m c (Proc.devRef .tc main_arg4) = m ((c.tc : Thread nD τ).loc main_arg4) :=
  (U8_of m c main_arg4 (by decide)).trans (arg4_at7 m c)
theorem arg4_at9 : U9 m c (Proc.devRef .tc main_arg4) = m ((c.tc : Thread nD τ).loc main_arg4) :=
  (U9_of m c main_arg4 (by decide)).trans (arg4_at8 m c)
theorem arg4_at10 : U10 m c (Proc.devRef .tc main_arg4) = m ((c.tc : Thread nD τ).loc main_arg4) :=
  (U10_of m c main_arg4 (by decide)).trans (arg4_at9 m c)

/-- Argument 5 holds its launch contents at every boundary. -/
theorem arg5_at0 : U0 m c (Proc.devRef .tc main_arg5) = m ((c.tc : Thread nD τ).loc main_arg5) := rfl
theorem arg5_at1 : U1 m c (Proc.devRef .tc main_arg5) = m ((c.tc : Thread nD τ).loc main_arg5) :=
  (U1_of m c main_arg5 (by decide)).trans (arg5_at0 m c)
theorem arg5_at2 : U2 m c (Proc.devRef .tc main_arg5) = m ((c.tc : Thread nD τ).loc main_arg5) :=
  (U2_of m c main_arg5 (by decide)).trans (arg5_at1 m c)
theorem arg5_at3 : U3 m c (Proc.devRef .tc main_arg5) = m ((c.tc : Thread nD τ).loc main_arg5) :=
  (U3_of m c main_arg5 (by decide)).trans (arg5_at2 m c)
theorem arg5_at4 : U4 m c (Proc.devRef .tc main_arg5) = m ((c.tc : Thread nD τ).loc main_arg5) :=
  (U4_of m c main_arg5 (by decide)).trans (arg5_at3 m c)
theorem arg5_at5 : U5 m c (Proc.devRef .tc main_arg5) = m ((c.tc : Thread nD τ).loc main_arg5) :=
  (U5_of m c main_arg5 (by decide)).trans (arg5_at4 m c)
theorem arg5_at6 : U6 m c (Proc.devRef .tc main_arg5) = m ((c.tc : Thread nD τ).loc main_arg5) :=
  (U6_of m c main_arg5 (by decide)).trans (arg5_at5 m c)
theorem arg5_at7 : U7 m c (Proc.devRef .tc main_arg5) = m ((c.tc : Thread nD τ).loc main_arg5) :=
  (U7_of m c main_arg5 (by decide)).trans (arg5_at6 m c)
theorem arg5_at8 : U8 m c (Proc.devRef .tc main_arg5) = m ((c.tc : Thread nD τ).loc main_arg5) :=
  (U8_of m c main_arg5 (by decide)).trans (arg5_at7 m c)
theorem arg5_at9 : U9 m c (Proc.devRef .tc main_arg5) = m ((c.tc : Thread nD τ).loc main_arg5) :=
  (U9_of m c main_arg5 (by decide)).trans (arg5_at8 m c)
theorem arg5_at10 : U10 m c (Proc.devRef .tc main_arg5) = m ((c.tc : Thread nD τ).loc main_arg5) :=
  (U10_of m c main_arg5 (by decide)).trans (arg5_at9 m c)

/-- Argument 6 holds its launch contents at every boundary. -/
theorem arg6_at0 : U0 m c (Proc.devRef .tc main_arg6) = m ((c.tc : Thread nD τ).loc main_arg6) := rfl
theorem arg6_at1 : U1 m c (Proc.devRef .tc main_arg6) = m ((c.tc : Thread nD τ).loc main_arg6) :=
  (U1_of m c main_arg6 (by decide)).trans (arg6_at0 m c)
theorem arg6_at2 : U2 m c (Proc.devRef .tc main_arg6) = m ((c.tc : Thread nD τ).loc main_arg6) :=
  (U2_of m c main_arg6 (by decide)).trans (arg6_at1 m c)
theorem arg6_at3 : U3 m c (Proc.devRef .tc main_arg6) = m ((c.tc : Thread nD τ).loc main_arg6) :=
  (U3_of m c main_arg6 (by decide)).trans (arg6_at2 m c)
theorem arg6_at4 : U4 m c (Proc.devRef .tc main_arg6) = m ((c.tc : Thread nD τ).loc main_arg6) :=
  (U4_of m c main_arg6 (by decide)).trans (arg6_at3 m c)
theorem arg6_at5 : U5 m c (Proc.devRef .tc main_arg6) = m ((c.tc : Thread nD τ).loc main_arg6) :=
  (U5_of m c main_arg6 (by decide)).trans (arg6_at4 m c)
theorem arg6_at6 : U6 m c (Proc.devRef .tc main_arg6) = m ((c.tc : Thread nD τ).loc main_arg6) :=
  (U6_of m c main_arg6 (by decide)).trans (arg6_at5 m c)
theorem arg6_at7 : U7 m c (Proc.devRef .tc main_arg6) = m ((c.tc : Thread nD τ).loc main_arg6) :=
  (U7_of m c main_arg6 (by decide)).trans (arg6_at6 m c)
theorem arg6_at8 : U8 m c (Proc.devRef .tc main_arg6) = m ((c.tc : Thread nD τ).loc main_arg6) :=
  (U8_of m c main_arg6 (by decide)).trans (arg6_at7 m c)
theorem arg6_at9 : U9 m c (Proc.devRef .tc main_arg6) = m ((c.tc : Thread nD τ).loc main_arg6) :=
  (U9_of m c main_arg6 (by decide)).trans (arg6_at8 m c)
theorem arg6_at10 : U10 m c (Proc.devRef .tc main_arg6) = m ((c.tc : Thread nD τ).loc main_arg6) :=
  (U10_of m c main_arg6 (by decide)).trans (arg6_at9 m c)

/-- Argument 7 holds its launch contents at every boundary. -/
theorem arg7_at0 : U0 m c (Proc.devRef .tc main_arg7) = m ((c.tc : Thread nD τ).loc main_arg7) := rfl
theorem arg7_at1 : U1 m c (Proc.devRef .tc main_arg7) = m ((c.tc : Thread nD τ).loc main_arg7) :=
  (U1_of m c main_arg7 (by decide)).trans (arg7_at0 m c)
theorem arg7_at2 : U2 m c (Proc.devRef .tc main_arg7) = m ((c.tc : Thread nD τ).loc main_arg7) :=
  (U2_of m c main_arg7 (by decide)).trans (arg7_at1 m c)
theorem arg7_at3 : U3 m c (Proc.devRef .tc main_arg7) = m ((c.tc : Thread nD τ).loc main_arg7) :=
  (U3_of m c main_arg7 (by decide)).trans (arg7_at2 m c)
theorem arg7_at4 : U4 m c (Proc.devRef .tc main_arg7) = m ((c.tc : Thread nD τ).loc main_arg7) :=
  (U4_of m c main_arg7 (by decide)).trans (arg7_at3 m c)
theorem arg7_at5 : U5 m c (Proc.devRef .tc main_arg7) = m ((c.tc : Thread nD τ).loc main_arg7) :=
  (U5_of m c main_arg7 (by decide)).trans (arg7_at4 m c)
theorem arg7_at6 : U6 m c (Proc.devRef .tc main_arg7) = m ((c.tc : Thread nD τ).loc main_arg7) :=
  (U6_of m c main_arg7 (by decide)).trans (arg7_at5 m c)
theorem arg7_at7 : U7 m c (Proc.devRef .tc main_arg7) = m ((c.tc : Thread nD τ).loc main_arg7) :=
  (U7_of m c main_arg7 (by decide)).trans (arg7_at6 m c)
theorem arg7_at8 : U8 m c (Proc.devRef .tc main_arg7) = m ((c.tc : Thread nD τ).loc main_arg7) :=
  (U8_of m c main_arg7 (by decide)).trans (arg7_at7 m c)
theorem arg7_at9 : U9 m c (Proc.devRef .tc main_arg7) = m ((c.tc : Thread nD τ).loc main_arg7) :=
  (U9_of m c main_arg7 (by decide)).trans (arg7_at8 m c)
theorem arg7_at10 : U10 m c (Proc.devRef .tc main_arg7) = m ((c.tc : Thread nD τ).loc main_arg7) :=
  (U10_of m c main_arg7 (by decide)).trans (arg7_at9 m c)

/-- Argument 8 holds its launch contents at every boundary. -/
theorem arg8_at0 : U0 m c (Proc.devRef .tc main_arg8) = m ((c.tc : Thread nD τ).loc main_arg8) := rfl
theorem arg8_at1 : U1 m c (Proc.devRef .tc main_arg8) = m ((c.tc : Thread nD τ).loc main_arg8) :=
  (U1_of m c main_arg8 (by decide)).trans (arg8_at0 m c)
theorem arg8_at2 : U2 m c (Proc.devRef .tc main_arg8) = m ((c.tc : Thread nD τ).loc main_arg8) :=
  (U2_of m c main_arg8 (by decide)).trans (arg8_at1 m c)
theorem arg8_at3 : U3 m c (Proc.devRef .tc main_arg8) = m ((c.tc : Thread nD τ).loc main_arg8) :=
  (U3_of m c main_arg8 (by decide)).trans (arg8_at2 m c)
theorem arg8_at4 : U4 m c (Proc.devRef .tc main_arg8) = m ((c.tc : Thread nD τ).loc main_arg8) :=
  (U4_of m c main_arg8 (by decide)).trans (arg8_at3 m c)
theorem arg8_at5 : U5 m c (Proc.devRef .tc main_arg8) = m ((c.tc : Thread nD τ).loc main_arg8) :=
  (U5_of m c main_arg8 (by decide)).trans (arg8_at4 m c)
theorem arg8_at6 : U6 m c (Proc.devRef .tc main_arg8) = m ((c.tc : Thread nD τ).loc main_arg8) :=
  (U6_of m c main_arg8 (by decide)).trans (arg8_at5 m c)
theorem arg8_at7 : U7 m c (Proc.devRef .tc main_arg8) = m ((c.tc : Thread nD τ).loc main_arg8) :=
  (U7_of m c main_arg8 (by decide)).trans (arg8_at6 m c)
theorem arg8_at8 : U8 m c (Proc.devRef .tc main_arg8) = m ((c.tc : Thread nD τ).loc main_arg8) :=
  (U8_of m c main_arg8 (by decide)).trans (arg8_at7 m c)
theorem arg8_at9 : U9 m c (Proc.devRef .tc main_arg8) = m ((c.tc : Thread nD τ).loc main_arg8) :=
  (U9_of m c main_arg8 (by decide)).trans (arg8_at8 m c)
theorem arg8_at10 : U10 m c (Proc.devRef .tc main_arg8) = m ((c.tc : Thread nD τ).loc main_arg8) :=
  (U10_of m c main_arg8 (by decide)).trans (arg8_at9 m c)

/-- Argument 9 holds its launch contents at every boundary. -/
theorem arg9_at0 : U0 m c (Proc.devRef .tc main_arg9) = m ((c.tc : Thread nD τ).loc main_arg9) := rfl
theorem arg9_at1 : U1 m c (Proc.devRef .tc main_arg9) = m ((c.tc : Thread nD τ).loc main_arg9) :=
  (U1_of m c main_arg9 (by decide)).trans (arg9_at0 m c)
theorem arg9_at2 : U2 m c (Proc.devRef .tc main_arg9) = m ((c.tc : Thread nD τ).loc main_arg9) :=
  (U2_of m c main_arg9 (by decide)).trans (arg9_at1 m c)
theorem arg9_at3 : U3 m c (Proc.devRef .tc main_arg9) = m ((c.tc : Thread nD τ).loc main_arg9) :=
  (U3_of m c main_arg9 (by decide)).trans (arg9_at2 m c)
theorem arg9_at4 : U4 m c (Proc.devRef .tc main_arg9) = m ((c.tc : Thread nD τ).loc main_arg9) :=
  (U4_of m c main_arg9 (by decide)).trans (arg9_at3 m c)
theorem arg9_at5 : U5 m c (Proc.devRef .tc main_arg9) = m ((c.tc : Thread nD τ).loc main_arg9) :=
  (U5_of m c main_arg9 (by decide)).trans (arg9_at4 m c)
theorem arg9_at6 : U6 m c (Proc.devRef .tc main_arg9) = m ((c.tc : Thread nD τ).loc main_arg9) :=
  (U6_of m c main_arg9 (by decide)).trans (arg9_at5 m c)
theorem arg9_at7 : U7 m c (Proc.devRef .tc main_arg9) = m ((c.tc : Thread nD τ).loc main_arg9) :=
  (U7_of m c main_arg9 (by decide)).trans (arg9_at6 m c)
theorem arg9_at8 : U8 m c (Proc.devRef .tc main_arg9) = m ((c.tc : Thread nD τ).loc main_arg9) :=
  (U8_of m c main_arg9 (by decide)).trans (arg9_at7 m c)
theorem arg9_at9 : U9 m c (Proc.devRef .tc main_arg9) = m ((c.tc : Thread nD τ).loc main_arg9) :=
  (U9_of m c main_arg9 (by decide)).trans (arg9_at8 m c)
theorem arg9_at10 : U10 m c (Proc.devRef .tc main_arg9) = m ((c.tc : Thread nD τ).loc main_arg9) :=
  (U10_of m c main_arg9 (by decide)).trans (arg9_at9 m c)

/-- Argument 10 holds its launch contents at every boundary. -/
theorem arg10_at0 : U0 m c (Proc.devRef .tc main_arg10) = m ((c.tc : Thread nD τ).loc main_arg10) := rfl
theorem arg10_at1 : U1 m c (Proc.devRef .tc main_arg10) = m ((c.tc : Thread nD τ).loc main_arg10) :=
  (U1_of m c main_arg10 (by decide)).trans (arg10_at0 m c)
theorem arg10_at2 : U2 m c (Proc.devRef .tc main_arg10) = m ((c.tc : Thread nD τ).loc main_arg10) :=
  (U2_of m c main_arg10 (by decide)).trans (arg10_at1 m c)
theorem arg10_at3 : U3 m c (Proc.devRef .tc main_arg10) = m ((c.tc : Thread nD τ).loc main_arg10) :=
  (U3_of m c main_arg10 (by decide)).trans (arg10_at2 m c)
theorem arg10_at4 : U4 m c (Proc.devRef .tc main_arg10) = m ((c.tc : Thread nD τ).loc main_arg10) :=
  (U4_of m c main_arg10 (by decide)).trans (arg10_at3 m c)
theorem arg10_at5 : U5 m c (Proc.devRef .tc main_arg10) = m ((c.tc : Thread nD τ).loc main_arg10) :=
  (U5_of m c main_arg10 (by decide)).trans (arg10_at4 m c)
theorem arg10_at6 : U6 m c (Proc.devRef .tc main_arg10) = m ((c.tc : Thread nD τ).loc main_arg10) :=
  (U6_of m c main_arg10 (by decide)).trans (arg10_at5 m c)
theorem arg10_at7 : U7 m c (Proc.devRef .tc main_arg10) = m ((c.tc : Thread nD τ).loc main_arg10) :=
  (U7_of m c main_arg10 (by decide)).trans (arg10_at6 m c)
theorem arg10_at8 : U8 m c (Proc.devRef .tc main_arg10) = m ((c.tc : Thread nD τ).loc main_arg10) :=
  (U8_of m c main_arg10 (by decide)).trans (arg10_at7 m c)
theorem arg10_at9 : U9 m c (Proc.devRef .tc main_arg10) = m ((c.tc : Thread nD τ).loc main_arg10) :=
  (U9_of m c main_arg10 (by decide)).trans (arg10_at8 m c)
theorem arg10_at10 : U10 m c (Proc.devRef .tc main_arg10) = m ((c.tc : Thread nD τ).loc main_arg10) :=
  (U10_of m c main_arg10 (by decide)).trans (arg10_at9 m c)

/-- Argument 11 holds its launch contents at every boundary. -/
theorem arg11_at0 : U0 m c (Proc.devRef .tc main_arg11) = m ((c.tc : Thread nD τ).loc main_arg11) := rfl
theorem arg11_at1 : U1 m c (Proc.devRef .tc main_arg11) = m ((c.tc : Thread nD τ).loc main_arg11) :=
  (U1_of m c main_arg11 (by decide)).trans (arg11_at0 m c)
theorem arg11_at2 : U2 m c (Proc.devRef .tc main_arg11) = m ((c.tc : Thread nD τ).loc main_arg11) :=
  (U2_of m c main_arg11 (by decide)).trans (arg11_at1 m c)
theorem arg11_at3 : U3 m c (Proc.devRef .tc main_arg11) = m ((c.tc : Thread nD τ).loc main_arg11) :=
  (U3_of m c main_arg11 (by decide)).trans (arg11_at2 m c)
theorem arg11_at4 : U4 m c (Proc.devRef .tc main_arg11) = m ((c.tc : Thread nD τ).loc main_arg11) :=
  (U4_of m c main_arg11 (by decide)).trans (arg11_at3 m c)
theorem arg11_at5 : U5 m c (Proc.devRef .tc main_arg11) = m ((c.tc : Thread nD τ).loc main_arg11) :=
  (U5_of m c main_arg11 (by decide)).trans (arg11_at4 m c)
theorem arg11_at6 : U6 m c (Proc.devRef .tc main_arg11) = m ((c.tc : Thread nD τ).loc main_arg11) :=
  (U6_of m c main_arg11 (by decide)).trans (arg11_at5 m c)
theorem arg11_at7 : U7 m c (Proc.devRef .tc main_arg11) = m ((c.tc : Thread nD τ).loc main_arg11) :=
  (U7_of m c main_arg11 (by decide)).trans (arg11_at6 m c)
theorem arg11_at8 : U8 m c (Proc.devRef .tc main_arg11) = m ((c.tc : Thread nD τ).loc main_arg11) :=
  (U8_of m c main_arg11 (by decide)).trans (arg11_at7 m c)
theorem arg11_at9 : U9 m c (Proc.devRef .tc main_arg11) = m ((c.tc : Thread nD τ).loc main_arg11) :=
  (U9_of m c main_arg11 (by decide)).trans (arg11_at8 m c)
theorem arg11_at10 : U10 m c (Proc.devRef .tc main_arg11) = m ((c.tc : Thread nD τ).loc main_arg11) :=
  (U10_of m c main_arg11 (by decide)).trans (arg11_at9 m c)

/-- Argument 12 holds its launch contents at every boundary. -/
theorem arg12_at0 : U0 m c (Proc.devRef .tc main_arg12) = m ((c.tc : Thread nD τ).loc main_arg12) := rfl
theorem arg12_at1 : U1 m c (Proc.devRef .tc main_arg12) = m ((c.tc : Thread nD τ).loc main_arg12) :=
  (U1_of m c main_arg12 (by decide)).trans (arg12_at0 m c)
theorem arg12_at2 : U2 m c (Proc.devRef .tc main_arg12) = m ((c.tc : Thread nD τ).loc main_arg12) :=
  (U2_of m c main_arg12 (by decide)).trans (arg12_at1 m c)
theorem arg12_at3 : U3 m c (Proc.devRef .tc main_arg12) = m ((c.tc : Thread nD τ).loc main_arg12) :=
  (U3_of m c main_arg12 (by decide)).trans (arg12_at2 m c)
theorem arg12_at4 : U4 m c (Proc.devRef .tc main_arg12) = m ((c.tc : Thread nD τ).loc main_arg12) :=
  (U4_of m c main_arg12 (by decide)).trans (arg12_at3 m c)
theorem arg12_at5 : U5 m c (Proc.devRef .tc main_arg12) = m ((c.tc : Thread nD τ).loc main_arg12) :=
  (U5_of m c main_arg12 (by decide)).trans (arg12_at4 m c)
theorem arg12_at6 : U6 m c (Proc.devRef .tc main_arg12) = m ((c.tc : Thread nD τ).loc main_arg12) :=
  (U6_of m c main_arg12 (by decide)).trans (arg12_at5 m c)
theorem arg12_at7 : U7 m c (Proc.devRef .tc main_arg12) = m ((c.tc : Thread nD τ).loc main_arg12) :=
  (U7_of m c main_arg12 (by decide)).trans (arg12_at6 m c)
theorem arg12_at8 : U8 m c (Proc.devRef .tc main_arg12) = m ((c.tc : Thread nD τ).loc main_arg12) :=
  (U8_of m c main_arg12 (by decide)).trans (arg12_at7 m c)
theorem arg12_at9 : U9 m c (Proc.devRef .tc main_arg12) = m ((c.tc : Thread nD τ).loc main_arg12) :=
  (U9_of m c main_arg12 (by decide)).trans (arg12_at8 m c)
theorem arg12_at10 : U10 m c (Proc.devRef .tc main_arg12) = m ((c.tc : Thread nD τ).loc main_arg12) :=
  (U10_of m c main_arg12 (by decide)).trans (arg12_at9 m c)

/-- Argument 13 holds its launch contents at every boundary. -/
theorem arg13_at0 : U0 m c (Proc.devRef .tc main_arg13) = m ((c.tc : Thread nD τ).loc main_arg13) := rfl
theorem arg13_at1 : U1 m c (Proc.devRef .tc main_arg13) = m ((c.tc : Thread nD τ).loc main_arg13) :=
  (U1_of m c main_arg13 (by decide)).trans (arg13_at0 m c)
theorem arg13_at2 : U2 m c (Proc.devRef .tc main_arg13) = m ((c.tc : Thread nD τ).loc main_arg13) :=
  (U2_of m c main_arg13 (by decide)).trans (arg13_at1 m c)
theorem arg13_at3 : U3 m c (Proc.devRef .tc main_arg13) = m ((c.tc : Thread nD τ).loc main_arg13) :=
  (U3_of m c main_arg13 (by decide)).trans (arg13_at2 m c)
theorem arg13_at4 : U4 m c (Proc.devRef .tc main_arg13) = m ((c.tc : Thread nD τ).loc main_arg13) :=
  (U4_of m c main_arg13 (by decide)).trans (arg13_at3 m c)
theorem arg13_at5 : U5 m c (Proc.devRef .tc main_arg13) = m ((c.tc : Thread nD τ).loc main_arg13) :=
  (U5_of m c main_arg13 (by decide)).trans (arg13_at4 m c)
theorem arg13_at6 : U6 m c (Proc.devRef .tc main_arg13) = m ((c.tc : Thread nD τ).loc main_arg13) :=
  (U6_of m c main_arg13 (by decide)).trans (arg13_at5 m c)
theorem arg13_at7 : U7 m c (Proc.devRef .tc main_arg13) = m ((c.tc : Thread nD τ).loc main_arg13) :=
  (U7_of m c main_arg13 (by decide)).trans (arg13_at6 m c)
theorem arg13_at8 : U8 m c (Proc.devRef .tc main_arg13) = m ((c.tc : Thread nD τ).loc main_arg13) :=
  (U8_of m c main_arg13 (by decide)).trans (arg13_at7 m c)
theorem arg13_at9 : U9 m c (Proc.devRef .tc main_arg13) = m ((c.tc : Thread nD τ).loc main_arg13) :=
  (U9_of m c main_arg13 (by decide)).trans (arg13_at8 m c)
theorem arg13_at10 : U10 m c (Proc.devRef .tc main_arg13) = m ((c.tc : Thread nD τ).loc main_arg13) :=
  (U10_of m c main_arg13 (by decide)).trans (arg13_at9 m c)

/-- Argument 14 holds its launch contents at every boundary. -/
theorem arg14_at0 : U0 m c (Proc.devRef .tc main_arg14) = m ((c.tc : Thread nD τ).loc main_arg14) := rfl
theorem arg14_at1 : U1 m c (Proc.devRef .tc main_arg14) = m ((c.tc : Thread nD τ).loc main_arg14) :=
  (U1_of m c main_arg14 (by decide)).trans (arg14_at0 m c)
theorem arg14_at2 : U2 m c (Proc.devRef .tc main_arg14) = m ((c.tc : Thread nD τ).loc main_arg14) :=
  (U2_of m c main_arg14 (by decide)).trans (arg14_at1 m c)
theorem arg14_at3 : U3 m c (Proc.devRef .tc main_arg14) = m ((c.tc : Thread nD τ).loc main_arg14) :=
  (U3_of m c main_arg14 (by decide)).trans (arg14_at2 m c)
theorem arg14_at4 : U4 m c (Proc.devRef .tc main_arg14) = m ((c.tc : Thread nD τ).loc main_arg14) :=
  (U4_of m c main_arg14 (by decide)).trans (arg14_at3 m c)
theorem arg14_at5 : U5 m c (Proc.devRef .tc main_arg14) = m ((c.tc : Thread nD τ).loc main_arg14) :=
  (U5_of m c main_arg14 (by decide)).trans (arg14_at4 m c)
theorem arg14_at6 : U6 m c (Proc.devRef .tc main_arg14) = m ((c.tc : Thread nD τ).loc main_arg14) :=
  (U6_of m c main_arg14 (by decide)).trans (arg14_at5 m c)
theorem arg14_at7 : U7 m c (Proc.devRef .tc main_arg14) = m ((c.tc : Thread nD τ).loc main_arg14) :=
  (U7_of m c main_arg14 (by decide)).trans (arg14_at6 m c)
theorem arg14_at8 : U8 m c (Proc.devRef .tc main_arg14) = m ((c.tc : Thread nD τ).loc main_arg14) :=
  (U8_of m c main_arg14 (by decide)).trans (arg14_at7 m c)
theorem arg14_at9 : U9 m c (Proc.devRef .tc main_arg14) = m ((c.tc : Thread nD τ).loc main_arg14) :=
  (U9_of m c main_arg14 (by decide)).trans (arg14_at8 m c)
theorem arg14_at10 : U10 m c (Proc.devRef .tc main_arg14) = m ((c.tc : Thread nD τ).loc main_arg14) :=
  (U10_of m c main_arg14 (by decide)).trans (arg14_at9 m c)

/-- Argument 15 holds its launch contents at every boundary. -/
theorem arg15_at0 : U0 m c (Proc.devRef .tc main_arg15) = m ((c.tc : Thread nD τ).loc main_arg15) := rfl
theorem arg15_at1 : U1 m c (Proc.devRef .tc main_arg15) = m ((c.tc : Thread nD τ).loc main_arg15) :=
  (U1_of m c main_arg15 (by decide)).trans (arg15_at0 m c)
theorem arg15_at2 : U2 m c (Proc.devRef .tc main_arg15) = m ((c.tc : Thread nD τ).loc main_arg15) :=
  (U2_of m c main_arg15 (by decide)).trans (arg15_at1 m c)
theorem arg15_at3 : U3 m c (Proc.devRef .tc main_arg15) = m ((c.tc : Thread nD τ).loc main_arg15) :=
  (U3_of m c main_arg15 (by decide)).trans (arg15_at2 m c)
theorem arg15_at4 : U4 m c (Proc.devRef .tc main_arg15) = m ((c.tc : Thread nD τ).loc main_arg15) :=
  (U4_of m c main_arg15 (by decide)).trans (arg15_at3 m c)
theorem arg15_at5 : U5 m c (Proc.devRef .tc main_arg15) = m ((c.tc : Thread nD τ).loc main_arg15) :=
  (U5_of m c main_arg15 (by decide)).trans (arg15_at4 m c)
theorem arg15_at6 : U6 m c (Proc.devRef .tc main_arg15) = m ((c.tc : Thread nD τ).loc main_arg15) :=
  (U6_of m c main_arg15 (by decide)).trans (arg15_at5 m c)
theorem arg15_at7 : U7 m c (Proc.devRef .tc main_arg15) = m ((c.tc : Thread nD τ).loc main_arg15) :=
  (U7_of m c main_arg15 (by decide)).trans (arg15_at6 m c)
theorem arg15_at8 : U8 m c (Proc.devRef .tc main_arg15) = m ((c.tc : Thread nD τ).loc main_arg15) :=
  (U8_of m c main_arg15 (by decide)).trans (arg15_at7 m c)
theorem arg15_at9 : U9 m c (Proc.devRef .tc main_arg15) = m ((c.tc : Thread nD τ).loc main_arg15) :=
  (U9_of m c main_arg15 (by decide)).trans (arg15_at8 m c)
theorem arg15_at10 : U10 m c (Proc.devRef .tc main_arg15) = m ((c.tc : Thread nD τ).loc main_arg15) :=
  (U10_of m c main_arg15 (by decide)).trans (arg15_at9 m c)

/-- Argument 16 holds its launch contents at every boundary. -/
theorem arg16_at0 : U0 m c (Proc.devRef .tc main_arg16) = m ((c.tc : Thread nD τ).loc main_arg16) := rfl
theorem arg16_at1 : U1 m c (Proc.devRef .tc main_arg16) = m ((c.tc : Thread nD τ).loc main_arg16) :=
  (U1_of m c main_arg16 (by decide)).trans (arg16_at0 m c)
theorem arg16_at2 : U2 m c (Proc.devRef .tc main_arg16) = m ((c.tc : Thread nD τ).loc main_arg16) :=
  (U2_of m c main_arg16 (by decide)).trans (arg16_at1 m c)
theorem arg16_at3 : U3 m c (Proc.devRef .tc main_arg16) = m ((c.tc : Thread nD τ).loc main_arg16) :=
  (U3_of m c main_arg16 (by decide)).trans (arg16_at2 m c)
theorem arg16_at4 : U4 m c (Proc.devRef .tc main_arg16) = m ((c.tc : Thread nD τ).loc main_arg16) :=
  (U4_of m c main_arg16 (by decide)).trans (arg16_at3 m c)
theorem arg16_at5 : U5 m c (Proc.devRef .tc main_arg16) = m ((c.tc : Thread nD τ).loc main_arg16) :=
  (U5_of m c main_arg16 (by decide)).trans (arg16_at4 m c)
theorem arg16_at6 : U6 m c (Proc.devRef .tc main_arg16) = m ((c.tc : Thread nD τ).loc main_arg16) :=
  (U6_of m c main_arg16 (by decide)).trans (arg16_at5 m c)
theorem arg16_at7 : U7 m c (Proc.devRef .tc main_arg16) = m ((c.tc : Thread nD τ).loc main_arg16) :=
  (U7_of m c main_arg16 (by decide)).trans (arg16_at6 m c)
theorem arg16_at8 : U8 m c (Proc.devRef .tc main_arg16) = m ((c.tc : Thread nD τ).loc main_arg16) :=
  (U8_of m c main_arg16 (by decide)).trans (arg16_at7 m c)
theorem arg16_at9 : U9 m c (Proc.devRef .tc main_arg16) = m ((c.tc : Thread nD τ).loc main_arg16) :=
  (U9_of m c main_arg16 (by decide)).trans (arg16_at8 m c)
theorem arg16_at10 : U10 m c (Proc.devRef .tc main_arg16) = m ((c.tc : Thread nD τ).loc main_arg16) :=
  (U10_of m c main_arg16 (by decide)).trans (arg16_at9 m c)

/-- Argument 17 holds its launch contents at every boundary. -/
theorem arg17_at0 : U0 m c (Proc.devRef .tc main_arg17) = m ((c.tc : Thread nD τ).loc main_arg17) := rfl
theorem arg17_at1 : U1 m c (Proc.devRef .tc main_arg17) = m ((c.tc : Thread nD τ).loc main_arg17) :=
  (U1_of m c main_arg17 (by decide)).trans (arg17_at0 m c)
theorem arg17_at2 : U2 m c (Proc.devRef .tc main_arg17) = m ((c.tc : Thread nD τ).loc main_arg17) :=
  (U2_of m c main_arg17 (by decide)).trans (arg17_at1 m c)
theorem arg17_at3 : U3 m c (Proc.devRef .tc main_arg17) = m ((c.tc : Thread nD τ).loc main_arg17) :=
  (U3_of m c main_arg17 (by decide)).trans (arg17_at2 m c)
theorem arg17_at4 : U4 m c (Proc.devRef .tc main_arg17) = m ((c.tc : Thread nD τ).loc main_arg17) :=
  (U4_of m c main_arg17 (by decide)).trans (arg17_at3 m c)
theorem arg17_at5 : U5 m c (Proc.devRef .tc main_arg17) = m ((c.tc : Thread nD τ).loc main_arg17) :=
  (U5_of m c main_arg17 (by decide)).trans (arg17_at4 m c)
theorem arg17_at6 : U6 m c (Proc.devRef .tc main_arg17) = m ((c.tc : Thread nD τ).loc main_arg17) :=
  (U6_of m c main_arg17 (by decide)).trans (arg17_at5 m c)
theorem arg17_at7 : U7 m c (Proc.devRef .tc main_arg17) = m ((c.tc : Thread nD τ).loc main_arg17) :=
  (U7_of m c main_arg17 (by decide)).trans (arg17_at6 m c)
theorem arg17_at8 : U8 m c (Proc.devRef .tc main_arg17) = m ((c.tc : Thread nD τ).loc main_arg17) :=
  (U8_of m c main_arg17 (by decide)).trans (arg17_at7 m c)
theorem arg17_at9 : U9 m c (Proc.devRef .tc main_arg17) = m ((c.tc : Thread nD τ).loc main_arg17) :=
  (U9_of m c main_arg17 (by decide)).trans (arg17_at8 m c)
theorem arg17_at10 : U10 m c (Proc.devRef .tc main_arg17) = m ((c.tc : Thread nD τ).loc main_arg17) :=
  (U10_of m c main_arg17 (by decide)).trans (arg17_at9 m c)

/-- Argument 18 holds its launch contents at every boundary. -/
theorem arg18_at0 : U0 m c (Proc.devRef .tc main_arg18) = m ((c.tc : Thread nD τ).loc main_arg18) := rfl
theorem arg18_at1 : U1 m c (Proc.devRef .tc main_arg18) = m ((c.tc : Thread nD τ).loc main_arg18) :=
  (U1_of m c main_arg18 (by decide)).trans (arg18_at0 m c)
theorem arg18_at2 : U2 m c (Proc.devRef .tc main_arg18) = m ((c.tc : Thread nD τ).loc main_arg18) :=
  (U2_of m c main_arg18 (by decide)).trans (arg18_at1 m c)
theorem arg18_at3 : U3 m c (Proc.devRef .tc main_arg18) = m ((c.tc : Thread nD τ).loc main_arg18) :=
  (U3_of m c main_arg18 (by decide)).trans (arg18_at2 m c)
theorem arg18_at4 : U4 m c (Proc.devRef .tc main_arg18) = m ((c.tc : Thread nD τ).loc main_arg18) :=
  (U4_of m c main_arg18 (by decide)).trans (arg18_at3 m c)
theorem arg18_at5 : U5 m c (Proc.devRef .tc main_arg18) = m ((c.tc : Thread nD τ).loc main_arg18) :=
  (U5_of m c main_arg18 (by decide)).trans (arg18_at4 m c)
theorem arg18_at6 : U6 m c (Proc.devRef .tc main_arg18) = m ((c.tc : Thread nD τ).loc main_arg18) :=
  (U6_of m c main_arg18 (by decide)).trans (arg18_at5 m c)
theorem arg18_at7 : U7 m c (Proc.devRef .tc main_arg18) = m ((c.tc : Thread nD τ).loc main_arg18) :=
  (U7_of m c main_arg18 (by decide)).trans (arg18_at6 m c)
theorem arg18_at8 : U8 m c (Proc.devRef .tc main_arg18) = m ((c.tc : Thread nD τ).loc main_arg18) :=
  (U8_of m c main_arg18 (by decide)).trans (arg18_at7 m c)
theorem arg18_at9 : U9 m c (Proc.devRef .tc main_arg18) = m ((c.tc : Thread nD τ).loc main_arg18) :=
  (U9_of m c main_arg18 (by decide)).trans (arg18_at8 m c)
theorem arg18_at10 : U10 m c (Proc.devRef .tc main_arg18) = m ((c.tc : Thread nD τ).loc main_arg18) :=
  (U10_of m c main_arg18 (by decide)).trans (arg18_at9 m c)

/-- Argument 19 holds its launch contents at every boundary. -/
theorem arg19_at0 : U0 m c (Proc.devRef .tc main_arg19) = m ((c.tc : Thread nD τ).loc main_arg19) := rfl
theorem arg19_at1 : U1 m c (Proc.devRef .tc main_arg19) = m ((c.tc : Thread nD τ).loc main_arg19) :=
  (U1_of m c main_arg19 (by decide)).trans (arg19_at0 m c)
theorem arg19_at2 : U2 m c (Proc.devRef .tc main_arg19) = m ((c.tc : Thread nD τ).loc main_arg19) :=
  (U2_of m c main_arg19 (by decide)).trans (arg19_at1 m c)
theorem arg19_at3 : U3 m c (Proc.devRef .tc main_arg19) = m ((c.tc : Thread nD τ).loc main_arg19) :=
  (U3_of m c main_arg19 (by decide)).trans (arg19_at2 m c)
theorem arg19_at4 : U4 m c (Proc.devRef .tc main_arg19) = m ((c.tc : Thread nD τ).loc main_arg19) :=
  (U4_of m c main_arg19 (by decide)).trans (arg19_at3 m c)
theorem arg19_at5 : U5 m c (Proc.devRef .tc main_arg19) = m ((c.tc : Thread nD τ).loc main_arg19) :=
  (U5_of m c main_arg19 (by decide)).trans (arg19_at4 m c)
theorem arg19_at6 : U6 m c (Proc.devRef .tc main_arg19) = m ((c.tc : Thread nD τ).loc main_arg19) :=
  (U6_of m c main_arg19 (by decide)).trans (arg19_at5 m c)
theorem arg19_at7 : U7 m c (Proc.devRef .tc main_arg19) = m ((c.tc : Thread nD τ).loc main_arg19) :=
  (U7_of m c main_arg19 (by decide)).trans (arg19_at6 m c)
theorem arg19_at8 : U8 m c (Proc.devRef .tc main_arg19) = m ((c.tc : Thread nD τ).loc main_arg19) :=
  (U8_of m c main_arg19 (by decide)).trans (arg19_at7 m c)
theorem arg19_at9 : U9 m c (Proc.devRef .tc main_arg19) = m ((c.tc : Thread nD τ).loc main_arg19) :=
  (U9_of m c main_arg19 (by decide)).trans (arg19_at8 m c)
theorem arg19_at10 : U10 m c (Proc.devRef .tc main_arg19) = m ((c.tc : Thread nD τ).loc main_arg19) :=
  (U10_of m c main_arg19 (by decide)).trans (arg19_at9 m c)

/-- Argument 20 holds its launch contents at every boundary. -/
theorem arg20_at0 : U0 m c (Proc.devRef .tc main_arg20) = m ((c.tc : Thread nD τ).loc main_arg20) := rfl
theorem arg20_at1 : U1 m c (Proc.devRef .tc main_arg20) = m ((c.tc : Thread nD τ).loc main_arg20) :=
  (U1_of m c main_arg20 (by decide)).trans (arg20_at0 m c)
theorem arg20_at2 : U2 m c (Proc.devRef .tc main_arg20) = m ((c.tc : Thread nD τ).loc main_arg20) :=
  (U2_of m c main_arg20 (by decide)).trans (arg20_at1 m c)
theorem arg20_at3 : U3 m c (Proc.devRef .tc main_arg20) = m ((c.tc : Thread nD τ).loc main_arg20) :=
  (U3_of m c main_arg20 (by decide)).trans (arg20_at2 m c)
theorem arg20_at4 : U4 m c (Proc.devRef .tc main_arg20) = m ((c.tc : Thread nD τ).loc main_arg20) :=
  (U4_of m c main_arg20 (by decide)).trans (arg20_at3 m c)
theorem arg20_at5 : U5 m c (Proc.devRef .tc main_arg20) = m ((c.tc : Thread nD τ).loc main_arg20) :=
  (U5_of m c main_arg20 (by decide)).trans (arg20_at4 m c)
theorem arg20_at6 : U6 m c (Proc.devRef .tc main_arg20) = m ((c.tc : Thread nD τ).loc main_arg20) :=
  (U6_of m c main_arg20 (by decide)).trans (arg20_at5 m c)
theorem arg20_at7 : U7 m c (Proc.devRef .tc main_arg20) = m ((c.tc : Thread nD τ).loc main_arg20) :=
  (U7_of m c main_arg20 (by decide)).trans (arg20_at6 m c)
theorem arg20_at8 : U8 m c (Proc.devRef .tc main_arg20) = m ((c.tc : Thread nD τ).loc main_arg20) :=
  (U8_of m c main_arg20 (by decide)).trans (arg20_at7 m c)
theorem arg20_at9 : U9 m c (Proc.devRef .tc main_arg20) = m ((c.tc : Thread nD τ).loc main_arg20) :=
  (U9_of m c main_arg20 (by decide)).trans (arg20_at8 m c)
theorem arg20_at10 : U10 m c (Proc.devRef .tc main_arg20) = m ((c.tc : Thread nD τ).loc main_arg20) :=
  (U10_of m c main_arg20 (by decide)).trans (arg20_at9 m c)

/-- Argument 21 holds its launch contents at every boundary. -/
theorem arg21_at0 : U0 m c (Proc.devRef .tc main_arg21) = m ((c.tc : Thread nD τ).loc main_arg21) := rfl
theorem arg21_at1 : U1 m c (Proc.devRef .tc main_arg21) = m ((c.tc : Thread nD τ).loc main_arg21) :=
  (U1_of m c main_arg21 (by decide)).trans (arg21_at0 m c)
theorem arg21_at2 : U2 m c (Proc.devRef .tc main_arg21) = m ((c.tc : Thread nD τ).loc main_arg21) :=
  (U2_of m c main_arg21 (by decide)).trans (arg21_at1 m c)
theorem arg21_at3 : U3 m c (Proc.devRef .tc main_arg21) = m ((c.tc : Thread nD τ).loc main_arg21) :=
  (U3_of m c main_arg21 (by decide)).trans (arg21_at2 m c)
theorem arg21_at4 : U4 m c (Proc.devRef .tc main_arg21) = m ((c.tc : Thread nD τ).loc main_arg21) :=
  (U4_of m c main_arg21 (by decide)).trans (arg21_at3 m c)
theorem arg21_at5 : U5 m c (Proc.devRef .tc main_arg21) = m ((c.tc : Thread nD τ).loc main_arg21) :=
  (U5_of m c main_arg21 (by decide)).trans (arg21_at4 m c)
theorem arg21_at6 : U6 m c (Proc.devRef .tc main_arg21) = m ((c.tc : Thread nD τ).loc main_arg21) :=
  (U6_of m c main_arg21 (by decide)).trans (arg21_at5 m c)
theorem arg21_at7 : U7 m c (Proc.devRef .tc main_arg21) = m ((c.tc : Thread nD τ).loc main_arg21) :=
  (U7_of m c main_arg21 (by decide)).trans (arg21_at6 m c)
theorem arg21_at8 : U8 m c (Proc.devRef .tc main_arg21) = m ((c.tc : Thread nD τ).loc main_arg21) :=
  (U8_of m c main_arg21 (by decide)).trans (arg21_at7 m c)
theorem arg21_at9 : U9 m c (Proc.devRef .tc main_arg21) = m ((c.tc : Thread nD τ).loc main_arg21) :=
  (U9_of m c main_arg21 (by decide)).trans (arg21_at8 m c)
theorem arg21_at10 : U10 m c (Proc.devRef .tc main_arg21) = m ((c.tc : Thread nD τ).loc main_arg21) :=
  (U10_of m c main_arg21 (by decide)).trans (arg21_at9 m c)

/-- Argument 22 holds its launch contents at every boundary. -/
theorem arg22_at0 : U0 m c (Proc.devRef .tc main_arg22) = m ((c.tc : Thread nD τ).loc main_arg22) := rfl
theorem arg22_at1 : U1 m c (Proc.devRef .tc main_arg22) = m ((c.tc : Thread nD τ).loc main_arg22) :=
  (U1_of m c main_arg22 (by decide)).trans (arg22_at0 m c)
theorem arg22_at2 : U2 m c (Proc.devRef .tc main_arg22) = m ((c.tc : Thread nD τ).loc main_arg22) :=
  (U2_of m c main_arg22 (by decide)).trans (arg22_at1 m c)
theorem arg22_at3 : U3 m c (Proc.devRef .tc main_arg22) = m ((c.tc : Thread nD τ).loc main_arg22) :=
  (U3_of m c main_arg22 (by decide)).trans (arg22_at2 m c)
theorem arg22_at4 : U4 m c (Proc.devRef .tc main_arg22) = m ((c.tc : Thread nD τ).loc main_arg22) :=
  (U4_of m c main_arg22 (by decide)).trans (arg22_at3 m c)
theorem arg22_at5 : U5 m c (Proc.devRef .tc main_arg22) = m ((c.tc : Thread nD τ).loc main_arg22) :=
  (U5_of m c main_arg22 (by decide)).trans (arg22_at4 m c)
theorem arg22_at6 : U6 m c (Proc.devRef .tc main_arg22) = m ((c.tc : Thread nD τ).loc main_arg22) :=
  (U6_of m c main_arg22 (by decide)).trans (arg22_at5 m c)
theorem arg22_at7 : U7 m c (Proc.devRef .tc main_arg22) = m ((c.tc : Thread nD τ).loc main_arg22) :=
  (U7_of m c main_arg22 (by decide)).trans (arg22_at6 m c)
theorem arg22_at8 : U8 m c (Proc.devRef .tc main_arg22) = m ((c.tc : Thread nD τ).loc main_arg22) :=
  (U8_of m c main_arg22 (by decide)).trans (arg22_at7 m c)
theorem arg22_at9 : U9 m c (Proc.devRef .tc main_arg22) = m ((c.tc : Thread nD τ).loc main_arg22) :=
  (U9_of m c main_arg22 (by decide)).trans (arg22_at8 m c)
theorem arg22_at10 : U10 m c (Proc.devRef .tc main_arg22) = m ((c.tc : Thread nD τ).loc main_arg22) :=
  (U10_of m c main_arg22 (by decide)).trans (arg22_at9 m c)

/-! ## The layer outputs that are read again later -/

/-- The first layer's output, written by stretch 2, is still there after stretch 3 … -/
theorem x1_at4 : U4 m c (Proc.devRef .tc main_v81) = U3 m c (Proc.devRef .tc main_v81) := U4_of m c main_v81 (by decide)
/-- … and after stretch 4. -/
theorem x1_at5 : U5 m c (Proc.devRef .tc main_v81) = U3 m c (Proc.devRef .tc main_v81) :=
  (U5_of m c main_v81 (by decide)).trans (x1_at4 m c)
/-- The second layer's output, written by stretch 5, is still there after stretch 6 … -/
theorem x2_at7 : U7 m c (Proc.devRef .tc main_v164) = U6 m c (Proc.devRef .tc main_v164) := U7_of m c main_v164 (by decide)
/-- … and after stretch 7. -/
theorem x2_at8 : U8 m c (Proc.devRef .tc main_v164) = U6 m c (Proc.devRef .tc main_v164) :=
  (U8_of m c main_v164 (by decide)).trans (x2_at7 m c)

end Cert.ReferenceIdeal.RefRun

end
-- ==== Proof.LibHostBoth.lean ====
/-
  Reading one buffer after a straight line of host operations.

  The contents of the buffers after a line of operations are a fold over the line: each operation replaces its
  result buffer by its function's value of its operand buffers and leaves every other buffer alone. So what ONE buffer
  holds after a literal line is a computation: walk the line backwards from that buffer, at each operation either
  taking its function's value (the buffer is its result) or passing through it (it is not), and do the same for the
  operands met on the way. `host_read` does this for a goal that mentions `StableHlo.after ops V (Proc.devRef .tc b)`
  for literal lists `ops` and literal references `b`, on both sides of an equation at once: one rewriting pass that
  visits every shared operand once, then a loop over what the pass cannot reach — the operands of a concatenation sit
  inside a list of pairs (shape, contents), under which the pass does not rewrite —, then the removal of the identity
  casts with which an outlined function's operations carry values to and from their buffers' own types. What is left
  is an equation between terms of the pure operations over `V` at the line's own inputs. Stated for two programs at
  once — `after opsR WR (Proc.devRef .tc bR) = after opsK WK (Proc.devRef .tc bK)` over two signatures, with hypotheses
  that `WR` and `WK` agree at the lines' inputs — the goal after `host_read` closes by rewriting with those
  hypotheses and `rfl`, when the two lines are the same operations. (On a line made only of an outlined function's
  operations the last of the three steps, removing the casts, can cost far more than the rest: there the first step
  alone, `after_results_simp`, leaves both sides with the same casts in the same places, which is enough.)
  `cut_list` evaluates the prefixes and suffixes (`List.take`, `List.drop`) of a literal list.
-/
import Idealize.ShloMosaic.Lib.StableHlo.Run

namespace Cert.LibHostBoth

open Idealize.ShloMosaic Idealize.ShloMosaic.StableHlo

/-- The loop: one operation's result at one reference per step, anywhere in the goal. -/
macro "results_loop" : tactic =>
  `(tactic| (repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide))))

/-- The pass, the loop, the casts. -/
macro "host_read" : tactic =>
  `(tactic| ((try after_results_simp); results_loop;
             (try simp only [StableHlo.TRef.toBuf, StableHlo.TRef.ofBuf, cast_eq])))

/-- Prefixes and suffixes of a literal list. -/
macro "cut_list" : tactic =>
  `(tactic| simp only [List.take_succ_cons, List.take_zero, List.drop_succ_cons, List.drop_zero, List.take_nil, List.drop_nil])

end Cert.LibHostBoth
-- ==== Proof.RefRun.lean ====
/-
  The reference program's run, read stage by stage.

  The program is a straight line of host operations, so each buffer ends holding the fold of the operations' results
  over the launch contents.  The line is cut into ten stretches; the contents at the cuts are the boundaries U0 … U10.
  Each stretch is read from the boundary before it: its last buffer is the stretch's own operations applied to the
  buffers it finds there — an earlier stage, as ONE buffer, and arguments, which no operation writes — and those
  operations are, one for one, the definitions of the stage's value from the earlier stages' values.  So by induction
  along the ten stretches the last buffer of each holds the stage's value as a function of the arguments' launch
  contents, and the program's result holds the last stage's.
-/
import proofs.«152839_j85684597555422_1_alg».proof.Proof.RefBounds
import proofs.«152839_j85684597555422_1_alg».proof.Proof.ReadP
import proofs.«152839_j85684597555422_1_alg».proof.Proof.LibHostKeeps
import proofs.«152839_j85684597555422_1_alg».proof.Proof.LibHostBoth
import proofs.«152839_j85684597555422_1_alg».proof.Proof.LibHostCut

set_option maxRecDepth 16384

noncomputable section

namespace Cert.ReferenceIdeal.RefRun

open Cert.ReferenceIdeal Cert.ReferenceIdeal.Gen Cert.ReferenceIdeal.Segs Idealize.ShloMosaic Idealize.ShloMosaic.TcCoe Idealize.SL.Sem
  Idealize.ShloMosaic.StableHlo
open Cert.LibHostKeeps Cert.LibHostBoth

/-! ## The ten stages -/

section Stages

variable (m : (ℓ : Loc nD τ sig) → Buf (Elt Ideal) ℓ) (c : Dev nD)

set_option maxHeartbeats 4000000 in
/-- Layer 1's mean over incoming edges. -/
theorem st0 : U1 m c (Proc.devRef .tc main_v21) = Cert.ReferenceIdeal.ReadP.val_main_v21 (F := Ideal) (m ((c.tc : Thread nD τ).loc main_arg0)) (m ((c.tc : Thread nD τ).loc main_arg1)) := by
  show StableHlo.after (seg0 (F := Ideal)) (U0 m c) (Proc.devRef .tc main_v21) = _
  simp only [seg0]
  after_results_simp
  rw [arg0_at0 m c, arg1_at0 m c]
  rfl

set_option maxHeartbeats 4000000 in
/-- Layer 1's convolution. -/
theorem st1 : U2 m c (Proc.devRef .tc main_v29) = Cert.ReferenceIdeal.ReadP.val_main_v29 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  show StableHlo.after (seg1 (F := Ideal)) (U1 m c) (Proc.devRef .tc main_v29) = _
  simp only [seg1]
  after_results_simp
  rw [st0 m c, arg0_at1 m c, arg3_at1 m c, arg4_at1 m c, arg5_at1 m c]
  rfl

set_option maxHeartbeats 4000000 in
/-- Layer 1's output: the normalised convolution, clamped at zero. -/
theorem st2 : U3 m c (Proc.devRef .tc main_v81) = Cert.ReferenceIdeal.ReadP.val_main_v81 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg12)) (m ((c.tc : Thread nD τ).loc main_arg13)) (m ((c.tc : Thread nD τ).loc main_arg14)) := by
  show StableHlo.after (seg2 (F := Ideal)) (U2 m c) (Proc.devRef .tc main_v81) = _
  simp only [seg2]
  after_results_simp
  drop_casts
  rw [st1 m c, arg2_at2 m c, arg12_at2 m c, arg13_at2 m c, arg14_at2 m c]
  rfl

set_option maxHeartbeats 4000000 in
/-- Layer 2's mean over incoming edges. -/
theorem st3 : U4 m c (Proc.devRef .tc main_v103) = Cert.ReferenceIdeal.ReadP.val_main_v103 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg12)) (m ((c.tc : Thread nD τ).loc main_arg13)) (m ((c.tc : Thread nD τ).loc main_arg14)) := by
  show StableHlo.after (seg3 (F := Ideal)) (U3 m c) (Proc.devRef .tc main_v103) = _
  simp only [seg3]
  after_results_simp
  rw [st2 m c, arg1_at3 m c]
  rfl

set_option maxHeartbeats 4000000 in
/-- Layer 2's convolution. -/
theorem st4 : U5 m c (Proc.devRef .tc main_v111) = Cert.ReferenceIdeal.ReadP.val_main_v111 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg12)) (m ((c.tc : Thread nD τ).loc main_arg13)) (m ((c.tc : Thread nD τ).loc main_arg14)) := by
  show StableHlo.after (seg4 (F := Ideal)) (U4 m c) (Proc.devRef .tc main_v111) = _
  simp only [seg4]
  after_results_simp
  rw [st3 m c, x1_at4 m c, st2 m c, arg6_at4 m c, arg7_at4 m c, arg8_at4 m c]
  rfl

set_option maxHeartbeats 4000000 in
/-- Layer 2's output: the normalised convolution plus layer 1's output, clamped at zero. -/
theorem st5 : U6 m c (Proc.devRef .tc main_v164) = Cert.ReferenceIdeal.ReadP.val_main_v164 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  show StableHlo.after (seg5 (F := Ideal)) (U5 m c) (Proc.devRef .tc main_v164) = _
  simp only [seg5]
  after_results_simp
  drop_casts
  rw [st4 m c, x1_at5 m c, st2 m c, arg2_at5 m c, arg15_at5 m c, arg16_at5 m c, arg17_at5 m c]
  rfl

set_option maxHeartbeats 4000000 in
/-- Layer 3's mean over incoming edges. -/
theorem st6 : U7 m c (Proc.devRef .tc main_v186) = Cert.ReferenceIdeal.ReadP.val_main_v186 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  show StableHlo.after (seg6 (F := Ideal)) (U6 m c) (Proc.devRef .tc main_v186) = _
  simp only [seg6]
  after_results_simp
  rw [st5 m c, arg1_at6 m c]
  rfl

set_option maxHeartbeats 4000000 in
/-- Layer 3's convolution. -/
theorem st7 : U8 m c (Proc.devRef .tc main_v194) = Cert.ReferenceIdeal.ReadP.val_main_v194 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  show StableHlo.after (seg7 (F := Ideal)) (U7 m c) (Proc.devRef .tc main_v194) = _
  simp only [seg7]
  after_results_simp
  rw [st6 m c, x2_at7 m c, st5 m c, arg9_at7 m c, arg10_at7 m c, arg11_at7 m c]
  rfl

set_option maxHeartbeats 4000000 in
/-- Layer 3's output: the normalised convolution plus layer 2's output, clamped at zero. -/
theorem st8 : U9 m c (Proc.devRef .tc main_v247) = Cert.ReferenceIdeal.ReadP.val_main_v247 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := by
  show StableHlo.after (seg8 (F := Ideal)) (U8 m c) (Proc.devRef .tc main_v247) = _
  simp only [seg8]
  after_results_simp
  drop_casts
  rw [st7 m c, x2_at8 m c, st5 m c, arg2_at8 m c, arg18_at8 m c, arg19_at8 m c, arg20_at8 m c]
  rfl

set_option maxHeartbeats 4000000 in
/-- The program's result: the per-graph mean of layer 3's output through the last linear map. -/
theorem st9 : U10 m c (Proc.devRef .tc main_v261) = Cert.ReferenceIdeal.ReadP.val_main_v261 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) := by
  show StableHlo.after (seg9 (F := Ideal)) (U9 m c) (Proc.devRef .tc main_v261) = _
  simp only [seg9]
  after_results_simp
  rw [st8 m c, arg2_at9 m c, arg21_at9 m c, arg22_at9 m c]
  rfl

end Stages

/-! ## The run -/

/-- On every device, from any memory with zero counters: every weakly fair execution of the program terminates with the
    result at the last stage's value of the arguments' launch contents, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v261) = Cert.ReferenceIdeal.ReadP.val_main_v261 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun r h c => by
      have hb : ∀ b : Ref sig .tc, r.2.mem ((c.tc : Thread nD τ).loc b) = U10 m c (Proc.devRef .tc b) := fun b =>
        (h c b).trans (congrFun (cut m c) (Proc.devRef .tc b))
      exact ⟨(hb main_v261).trans (st9 m c),
        (hb main_arg0).trans (arg0_at10 m c),
        (hb main_arg1).trans (arg1_at10 m c),
        (hb main_arg2).trans (arg2_at10 m c),
        (hb main_arg3).trans (arg3_at10 m c),
        (hb main_arg4).trans (arg4_at10 m c),
        (hb main_arg5).trans (arg5_at10 m c),
        (hb main_arg6).trans (arg6_at10 m c),
        (hb main_arg7).trans (arg7_at10 m c),
        (hb main_arg8).trans (arg8_at10 m c),
        (hb main_arg9).trans (arg9_at10 m c),
        (hb main_arg10).trans (arg10_at10 m c),
        (hb main_arg11).trans (arg11_at10 m c),
        (hb main_arg12).trans (arg12_at10 m c),
        (hb main_arg13).trans (arg13_at10 m c),
        (hb main_arg14).trans (arg14_at10 m c),
        (hb main_arg15).trans (arg15_at10 m c),
        (hb main_arg16).trans (arg16_at10 m c),
        (hb main_arg17).trans (arg17_at10 m c),
        (hb main_arg18).trans (arg18_at10 m c),
        (hb main_arg19).trans (arg19_at10 m c),
        (hb main_arg20).trans (arg20_at10 m c),
        (hb main_arg21).trans (arg21_at10 m c),
        (hb main_arg22).trans (arg22_at10 m c)⟩)
    (run_seq scopedRefs_eq scopedSems_eq defs main (fun _ => ops) main_eq (fun _ => ops_sub) m ρ (fun _ => ops_fresh))

end Cert.ReferenceIdeal.RefRun

end
-- ==== Proof.Keeps.lean ====
/-
  Buffers that a stretch of the program does not write hold after it what they held before.  An argument array is
  written by no host operation and by no kernel region, so at every boundary of the fold through the program it holds
  its launch contents; a region's result is written once, by that region, and read later — by the next host stretch,
  as another region's input block, as a residual two regions on — at the contents that region left.
-/
import proofs.«152839_j85684597555422_1_alg».proof.Proof.Gen.KernelIdeal.Frame
import proofs.«152839_j85684597555422_1_alg».proof.Proof.LibHostKeeps

set_option maxRecDepth 16384

noncomputable section

namespace Cert.Bridge

open Cert.KernelIdeal Cert.KernelIdeal.Gen
open Idealize.ShloMosaic Idealize.ShloMosaic.TcCoe Idealize.SL.Sem
open Cert.LibHostKeeps

variable {F : FTy → Type} [FloatOps F]
variable (m : (ℓ : Loc nD τ sig) → Buf (Elt F) ℓ) (ρ : Dev nD → PrngReg) (c : Dev nD)

/-! ## The arguments at the boundaries where they are read -/

/-- Argument 0 at boundary 1 is as launched. -/
theorem arg0_at1 : W1 m ρ c (Proc.devRef .tc main_arg0) = W0 m ρ c (Proc.devRef .tc main_arg0) :=
  calc W1 m ρ c (Proc.devRef .tc main_arg0)
    _ = W0 m ρ c (Proc.devRef .tc main_arg0) := (by host_keeps hostOps0)

/-- Argument 1 at boundary 4 is as launched. -/
theorem arg1_at4 : W4 m ρ c (Proc.devRef .tc main_arg1) = W0 m ρ c (Proc.devRef .tc main_arg1) :=
  calc W4 m ρ c (Proc.devRef .tc main_arg1)
    _ = W3 m ρ c (Proc.devRef .tc main_arg1) := (W4_of_ne m ρ c main_arg1 (by decide))
    _ = W2 m ρ c (Proc.devRef .tc main_arg1) := (by host_keeps hostOps1)
    _ = W1 m ρ c (Proc.devRef .tc main_arg1) := (W2_of_ne m ρ c main_arg1 (by decide))
    _ = W0 m ρ c (Proc.devRef .tc main_arg1) := (by host_keeps hostOps0)

/-- Argument 1 at boundary 8 is as launched. -/
theorem arg1_at8 : W8 m ρ c (Proc.devRef .tc main_arg1) = W0 m ρ c (Proc.devRef .tc main_arg1) :=
  (show W8 m ρ c (Proc.devRef .tc main_arg1) = W4 m ρ c (Proc.devRef .tc main_arg1) from
    calc W8 m ρ c (Proc.devRef .tc main_arg1)
      _ = W7 m ρ c (Proc.devRef .tc main_arg1) := (W8_of_ne m ρ c main_arg1 (by decide))
      _ = W6 m ρ c (Proc.devRef .tc main_arg1) := (by host_keeps hostOps3)
      _ = W5 m ρ c (Proc.devRef .tc main_arg1) := (W6_of_ne m ρ c main_arg1 (by decide))
      _ = W4 m ρ c (Proc.devRef .tc main_arg1) := (by host_keeps hostOps2)).trans (arg1_at4 m ρ c)

/-- Argument 2 at boundary 2 is as launched. -/
theorem arg2_at2 : W2 m ρ c (Proc.devRef .tc main_arg2) = W0 m ρ c (Proc.devRef .tc main_arg2) :=
  calc W2 m ρ c (Proc.devRef .tc main_arg2)
    _ = W1 m ρ c (Proc.devRef .tc main_arg2) := (W2_of_ne m ρ c main_arg2 (by decide))
    _ = W0 m ρ c (Proc.devRef .tc main_arg2) := (by host_keeps hostOps0)

/-- Argument 2 at boundary 6 is as launched. -/
theorem arg2_at6 : W6 m ρ c (Proc.devRef .tc main_arg2) = W0 m ρ c (Proc.devRef .tc main_arg2) :=
  (show W6 m ρ c (Proc.devRef .tc main_arg2) = W2 m ρ c (Proc.devRef .tc main_arg2) from
    calc W6 m ρ c (Proc.devRef .tc main_arg2)
      _ = W5 m ρ c (Proc.devRef .tc main_arg2) := (W6_of_ne m ρ c main_arg2 (by decide))
      _ = W4 m ρ c (Proc.devRef .tc main_arg2) := (by host_keeps hostOps2)
      _ = W3 m ρ c (Proc.devRef .tc main_arg2) := (W4_of_ne m ρ c main_arg2 (by decide))
      _ = W2 m ρ c (Proc.devRef .tc main_arg2) := (by host_keeps hostOps1)).trans (arg2_at2 m ρ c)

/-- Argument 2 at boundary 10 is as launched. -/
theorem arg2_at10 : W10 m ρ c (Proc.devRef .tc main_arg2) = W0 m ρ c (Proc.devRef .tc main_arg2) :=
  (show W10 m ρ c (Proc.devRef .tc main_arg2) = W6 m ρ c (Proc.devRef .tc main_arg2) from
    calc W10 m ρ c (Proc.devRef .tc main_arg2)
      _ = W9 m ρ c (Proc.devRef .tc main_arg2) := (W10_of_ne m ρ c main_arg2 (by decide))
      _ = W8 m ρ c (Proc.devRef .tc main_arg2) := (by host_keeps hostOps4)
      _ = W7 m ρ c (Proc.devRef .tc main_arg2) := (W8_of_ne m ρ c main_arg2 (by decide))
      _ = W6 m ρ c (Proc.devRef .tc main_arg2) := (by host_keeps hostOps3)).trans (arg2_at6 m ρ c)

/-- Argument 2 at boundary 12 is as launched. -/
theorem arg2_at12 : W12 m ρ c (Proc.devRef .tc main_arg2) = W0 m ρ c (Proc.devRef .tc main_arg2) :=
  (show W12 m ρ c (Proc.devRef .tc main_arg2) = W10 m ρ c (Proc.devRef .tc main_arg2) from
    calc W12 m ρ c (Proc.devRef .tc main_arg2)
      _ = W11 m ρ c (Proc.devRef .tc main_arg2) := (W12_of_ne m ρ c main_arg2 (by decide))
      _ = W10 m ρ c (Proc.devRef .tc main_arg2) := (by host_keeps hostOps5)).trans (arg2_at10 m ρ c)

/-- Argument 6 at boundary 4 is as launched. -/
theorem arg6_at4 : W4 m ρ c (Proc.devRef .tc main_arg6) = W0 m ρ c (Proc.devRef .tc main_arg6) :=
  calc W4 m ρ c (Proc.devRef .tc main_arg6)
    _ = W3 m ρ c (Proc.devRef .tc main_arg6) := (W4_of_ne m ρ c main_arg6 (by decide))
    _ = W2 m ρ c (Proc.devRef .tc main_arg6) := (by host_keeps hostOps1)
    _ = W1 m ρ c (Proc.devRef .tc main_arg6) := (W2_of_ne m ρ c main_arg6 (by decide))
    _ = W0 m ρ c (Proc.devRef .tc main_arg6) := (by host_keeps hostOps0)

/-- Argument 7 at boundary 4 is as launched. -/
theorem arg7_at4 : W4 m ρ c (Proc.devRef .tc main_arg7) = W0 m ρ c (Proc.devRef .tc main_arg7) :=
  calc W4 m ρ c (Proc.devRef .tc main_arg7)
    _ = W3 m ρ c (Proc.devRef .tc main_arg7) := (W4_of_ne m ρ c main_arg7 (by decide))
    _ = W2 m ρ c (Proc.devRef .tc main_arg7) := (by host_keeps hostOps1)
    _ = W1 m ρ c (Proc.devRef .tc main_arg7) := (W2_of_ne m ρ c main_arg7 (by decide))
    _ = W0 m ρ c (Proc.devRef .tc main_arg7) := (by host_keeps hostOps0)

/-- Argument 8 at boundary 4 is as launched. -/
theorem arg8_at4 : W4 m ρ c (Proc.devRef .tc main_arg8) = W0 m ρ c (Proc.devRef .tc main_arg8) :=
  calc W4 m ρ c (Proc.devRef .tc main_arg8)
    _ = W3 m ρ c (Proc.devRef .tc main_arg8) := (W4_of_ne m ρ c main_arg8 (by decide))
    _ = W2 m ρ c (Proc.devRef .tc main_arg8) := (by host_keeps hostOps1)
    _ = W1 m ρ c (Proc.devRef .tc main_arg8) := (W2_of_ne m ρ c main_arg8 (by decide))
    _ = W0 m ρ c (Proc.devRef .tc main_arg8) := (by host_keeps hostOps0)

/-- Argument 9 at boundary 8 is as launched. -/
theorem arg9_at8 : W8 m ρ c (Proc.devRef .tc main_arg9) = W0 m ρ c (Proc.devRef .tc main_arg9) :=
  calc W8 m ρ c (Proc.devRef .tc main_arg9)
    _ = W7 m ρ c (Proc.devRef .tc main_arg9) := (W8_of_ne m ρ c main_arg9 (by decide))
    _ = W6 m ρ c (Proc.devRef .tc main_arg9) := (by host_keeps hostOps3)
    _ = W5 m ρ c (Proc.devRef .tc main_arg9) := (W6_of_ne m ρ c main_arg9 (by decide))
    _ = W4 m ρ c (Proc.devRef .tc main_arg9) := (by host_keeps hostOps2)
    _ = W3 m ρ c (Proc.devRef .tc main_arg9) := (W4_of_ne m ρ c main_arg9 (by decide))
    _ = W2 m ρ c (Proc.devRef .tc main_arg9) := (by host_keeps hostOps1)
    _ = W1 m ρ c (Proc.devRef .tc main_arg9) := (W2_of_ne m ρ c main_arg9 (by decide))
    _ = W0 m ρ c (Proc.devRef .tc main_arg9) := (by host_keeps hostOps0)

/-- Argument 10 at boundary 8 is as launched. -/
theorem arg10_at8 : W8 m ρ c (Proc.devRef .tc main_arg10) = W0 m ρ c (Proc.devRef .tc main_arg10) :=
  calc W8 m ρ c (Proc.devRef .tc main_arg10)
    _ = W7 m ρ c (Proc.devRef .tc main_arg10) := (W8_of_ne m ρ c main_arg10 (by decide))
    _ = W6 m ρ c (Proc.devRef .tc main_arg10) := (by host_keeps hostOps3)
    _ = W5 m ρ c (Proc.devRef .tc main_arg10) := (W6_of_ne m ρ c main_arg10 (by decide))
    _ = W4 m ρ c (Proc.devRef .tc main_arg10) := (by host_keeps hostOps2)
    _ = W3 m ρ c (Proc.devRef .tc main_arg10) := (W4_of_ne m ρ c main_arg10 (by decide))
    _ = W2 m ρ c (Proc.devRef .tc main_arg10) := (by host_keeps hostOps1)
    _ = W1 m ρ c (Proc.devRef .tc main_arg10) := (W2_of_ne m ρ c main_arg10 (by decide))
    _ = W0 m ρ c (Proc.devRef .tc main_arg10) := (by host_keeps hostOps0)

/-- Argument 11 at boundary 8 is as launched. -/
theorem arg11_at8 : W8 m ρ c (Proc.devRef .tc main_arg11) = W0 m ρ c (Proc.devRef .tc main_arg11) :=
  calc W8 m ρ c (Proc.devRef .tc main_arg11)
    _ = W7 m ρ c (Proc.devRef .tc main_arg11) := (W8_of_ne m ρ c main_arg11 (by decide))
    _ = W6 m ρ c (Proc.devRef .tc main_arg11) := (by host_keeps hostOps3)
    _ = W5 m ρ c (Proc.devRef .tc main_arg11) := (W6_of_ne m ρ c main_arg11 (by decide))
    _ = W4 m ρ c (Proc.devRef .tc main_arg11) := (by host_keeps hostOps2)
    _ = W3 m ρ c (Proc.devRef .tc main_arg11) := (W4_of_ne m ρ c main_arg11 (by decide))
    _ = W2 m ρ c (Proc.devRef .tc main_arg11) := (by host_keeps hostOps1)
    _ = W1 m ρ c (Proc.devRef .tc main_arg11) := (W2_of_ne m ρ c main_arg11 (by decide))
    _ = W0 m ρ c (Proc.devRef .tc main_arg11) := (by host_keeps hostOps0)

/-- Argument 12 at boundary 2 is as launched. -/
theorem arg12_at2 : W2 m ρ c (Proc.devRef .tc main_arg12) = W0 m ρ c (Proc.devRef .tc main_arg12) :=
  calc W2 m ρ c (Proc.devRef .tc main_arg12)
    _ = W1 m ρ c (Proc.devRef .tc main_arg12) := (W2_of_ne m ρ c main_arg12 (by decide))
    _ = W0 m ρ c (Proc.devRef .tc main_arg12) := (by host_keeps hostOps0)

/-- Argument 13 at boundary 2 is as launched. -/
theorem arg13_at2 : W2 m ρ c (Proc.devRef .tc main_arg13) = W0 m ρ c (Proc.devRef .tc main_arg13) :=
  calc W2 m ρ c (Proc.devRef .tc main_arg13)
    _ = W1 m ρ c (Proc.devRef .tc main_arg13) := (W2_of_ne m ρ c main_arg13 (by decide))
    _ = W0 m ρ c (Proc.devRef .tc main_arg13) := (by host_keeps hostOps0)

/-- Argument 14 at boundary 2 is as launched. -/
theorem arg14_at2 : W2 m ρ c (Proc.devRef .tc main_arg14) = W0 m ρ c (Proc.devRef .tc main_arg14) :=
  calc W2 m ρ c (Proc.devRef .tc main_arg14)
    _ = W1 m ρ c (Proc.devRef .tc main_arg14) := (W2_of_ne m ρ c main_arg14 (by decide))
    _ = W0 m ρ c (Proc.devRef .tc main_arg14) := (by host_keeps hostOps0)

/-- Argument 15 at boundary 6 is as launched. -/
theorem arg15_at6 : W6 m ρ c (Proc.devRef .tc main_arg15) = W0 m ρ c (Proc.devRef .tc main_arg15) :=
  calc W6 m ρ c (Proc.devRef .tc main_arg15)
    _ = W5 m ρ c (Proc.devRef .tc main_arg15) := (W6_of_ne m ρ c main_arg15 (by decide))
    _ = W4 m ρ c (Proc.devRef .tc main_arg15) := (by host_keeps hostOps2)
    _ = W3 m ρ c (Proc.devRef .tc main_arg15) := (W4_of_ne m ρ c main_arg15 (by decide))
    _ = W2 m ρ c (Proc.devRef .tc main_arg15) := (by host_keeps hostOps1)
    _ = W1 m ρ c (Proc.devRef .tc main_arg15) := (W2_of_ne m ρ c main_arg15 (by decide))
    _ = W0 m ρ c (Proc.devRef .tc main_arg15) := (by host_keeps hostOps0)

/-- Argument 16 at boundary 6 is as launched. -/
theorem arg16_at6 : W6 m ρ c (Proc.devRef .tc main_arg16) = W0 m ρ c (Proc.devRef .tc main_arg16) :=
  calc W6 m ρ c (Proc.devRef .tc main_arg16)
    _ = W5 m ρ c (Proc.devRef .tc main_arg16) := (W6_of_ne m ρ c main_arg16 (by decide))
    _ = W4 m ρ c (Proc.devRef .tc main_arg16) := (by host_keeps hostOps2)
    _ = W3 m ρ c (Proc.devRef .tc main_arg16) := (W4_of_ne m ρ c main_arg16 (by decide))
    _ = W2 m ρ c (Proc.devRef .tc main_arg16) := (by host_keeps hostOps1)
    _ = W1 m ρ c (Proc.devRef .tc main_arg16) := (W2_of_ne m ρ c main_arg16 (by decide))
    _ = W0 m ρ c (Proc.devRef .tc main_arg16) := (by host_keeps hostOps0)

/-- Argument 17 at boundary 6 is as launched. -/
theorem arg17_at6 : W6 m ρ c (Proc.devRef .tc main_arg17) = W0 m ρ c (Proc.devRef .tc main_arg17) :=
  calc W6 m ρ c (Proc.devRef .tc main_arg17)
    _ = W5 m ρ c (Proc.devRef .tc main_arg17) := (W6_of_ne m ρ c main_arg17 (by decide))
    _ = W4 m ρ c (Proc.devRef .tc main_arg17) := (by host_keeps hostOps2)
    _ = W3 m ρ c (Proc.devRef .tc main_arg17) := (W4_of_ne m ρ c main_arg17 (by decide))
    _ = W2 m ρ c (Proc.devRef .tc main_arg17) := (by host_keeps hostOps1)
    _ = W1 m ρ c (Proc.devRef .tc main_arg17) := (W2_of_ne m ρ c main_arg17 (by decide))
    _ = W0 m ρ c (Proc.devRef .tc main_arg17) := (by host_keeps hostOps0)

/-- Argument 18 at boundary 10 is as launched. -/
theorem arg18_at10 : W10 m ρ c (Proc.devRef .tc main_arg18) = W0 m ρ c (Proc.devRef .tc main_arg18) :=
  calc W10 m ρ c (Proc.devRef .tc main_arg18)
    _ = W9 m ρ c (Proc.devRef .tc main_arg18) := (W10_of_ne m ρ c main_arg18 (by decide))
    _ = W8 m ρ c (Proc.devRef .tc main_arg18) := (by host_keeps hostOps4)
    _ = W7 m ρ c (Proc.devRef .tc main_arg18) := (W8_of_ne m ρ c main_arg18 (by decide))
    _ = W6 m ρ c (Proc.devRef .tc main_arg18) := (by host_keeps hostOps3)
    _ = W5 m ρ c (Proc.devRef .tc main_arg18) := (W6_of_ne m ρ c main_arg18 (by decide))
    _ = W4 m ρ c (Proc.devRef .tc main_arg18) := (by host_keeps hostOps2)
    _ = W3 m ρ c (Proc.devRef .tc main_arg18) := (W4_of_ne m ρ c main_arg18 (by decide))
    _ = W2 m ρ c (Proc.devRef .tc main_arg18) := (by host_keeps hostOps1)
    _ = W1 m ρ c (Proc.devRef .tc main_arg18) := (W2_of_ne m ρ c main_arg18 (by decide))
    _ = W0 m ρ c (Proc.devRef .tc main_arg18) := (by host_keeps hostOps0)

/-- Argument 19 at boundary 10 is as launched. -/
theorem arg19_at10 : W10 m ρ c (Proc.devRef .tc main_arg19) = W0 m ρ c (Proc.devRef .tc main_arg19) :=
  calc W10 m ρ c (Proc.devRef .tc main_arg19)
    _ = W9 m ρ c (Proc.devRef .tc main_arg19) := (W10_of_ne m ρ c main_arg19 (by decide))
    _ = W8 m ρ c (Proc.devRef .tc main_arg19) := (by host_keeps hostOps4)
    _ = W7 m ρ c (Proc.devRef .tc main_arg19) := (W8_of_ne m ρ c main_arg19 (by decide))
    _ = W6 m ρ c (Proc.devRef .tc main_arg19) := (by host_keeps hostOps3)
    _ = W5 m ρ c (Proc.devRef .tc main_arg19) := (W6_of_ne m ρ c main_arg19 (by decide))
    _ = W4 m ρ c (Proc.devRef .tc main_arg19) := (by host_keeps hostOps2)
    _ = W3 m ρ c (Proc.devRef .tc main_arg19) := (W4_of_ne m ρ c main_arg19 (by decide))
    _ = W2 m ρ c (Proc.devRef .tc main_arg19) := (by host_keeps hostOps1)
    _ = W1 m ρ c (Proc.devRef .tc main_arg19) := (W2_of_ne m ρ c main_arg19 (by decide))
    _ = W0 m ρ c (Proc.devRef .tc main_arg19) := (by host_keeps hostOps0)

/-- Argument 20 at boundary 10 is as launched. -/
theorem arg20_at10 : W10 m ρ c (Proc.devRef .tc main_arg20) = W0 m ρ c (Proc.devRef .tc main_arg20) :=
  calc W10 m ρ c (Proc.devRef .tc main_arg20)
    _ = W9 m ρ c (Proc.devRef .tc main_arg20) := (W10_of_ne m ρ c main_arg20 (by decide))
    _ = W8 m ρ c (Proc.devRef .tc main_arg20) := (by host_keeps hostOps4)
    _ = W7 m ρ c (Proc.devRef .tc main_arg20) := (W8_of_ne m ρ c main_arg20 (by decide))
    _ = W6 m ρ c (Proc.devRef .tc main_arg20) := (by host_keeps hostOps3)
    _ = W5 m ρ c (Proc.devRef .tc main_arg20) := (W6_of_ne m ρ c main_arg20 (by decide))
    _ = W4 m ρ c (Proc.devRef .tc main_arg20) := (by host_keeps hostOps2)
    _ = W3 m ρ c (Proc.devRef .tc main_arg20) := (W4_of_ne m ρ c main_arg20 (by decide))
    _ = W2 m ρ c (Proc.devRef .tc main_arg20) := (by host_keeps hostOps1)
    _ = W1 m ρ c (Proc.devRef .tc main_arg20) := (W2_of_ne m ρ c main_arg20 (by decide))
    _ = W0 m ρ c (Proc.devRef .tc main_arg20) := (by host_keeps hostOps0)

/-- Argument 21 at boundary 12 is as launched. -/
theorem arg21_at12 : W12 m ρ c (Proc.devRef .tc main_arg21) = W0 m ρ c (Proc.devRef .tc main_arg21) :=
  calc W12 m ρ c (Proc.devRef .tc main_arg21)
    _ = W11 m ρ c (Proc.devRef .tc main_arg21) := (W12_of_ne m ρ c main_arg21 (by decide))
    _ = W10 m ρ c (Proc.devRef .tc main_arg21) := (by host_keeps hostOps5)
    _ = W9 m ρ c (Proc.devRef .tc main_arg21) := (W10_of_ne m ρ c main_arg21 (by decide))
    _ = W8 m ρ c (Proc.devRef .tc main_arg21) := (by host_keeps hostOps4)
    _ = W7 m ρ c (Proc.devRef .tc main_arg21) := (W8_of_ne m ρ c main_arg21 (by decide))
    _ = W6 m ρ c (Proc.devRef .tc main_arg21) := (by host_keeps hostOps3)
    _ = W5 m ρ c (Proc.devRef .tc main_arg21) := (W6_of_ne m ρ c main_arg21 (by decide))
    _ = W4 m ρ c (Proc.devRef .tc main_arg21) := (by host_keeps hostOps2)
    _ = W3 m ρ c (Proc.devRef .tc main_arg21) := (W4_of_ne m ρ c main_arg21 (by decide))
    _ = W2 m ρ c (Proc.devRef .tc main_arg21) := (by host_keeps hostOps1)
    _ = W1 m ρ c (Proc.devRef .tc main_arg21) := (W2_of_ne m ρ c main_arg21 (by decide))
    _ = W0 m ρ c (Proc.devRef .tc main_arg21) := (by host_keeps hostOps0)

/-- Argument 22 at boundary 12 is as launched. -/
theorem arg22_at12 : W12 m ρ c (Proc.devRef .tc main_arg22) = W0 m ρ c (Proc.devRef .tc main_arg22) :=
  calc W12 m ρ c (Proc.devRef .tc main_arg22)
    _ = W11 m ρ c (Proc.devRef .tc main_arg22) := (W12_of_ne m ρ c main_arg22 (by decide))
    _ = W10 m ρ c (Proc.devRef .tc main_arg22) := (by host_keeps hostOps5)
    _ = W9 m ρ c (Proc.devRef .tc main_arg22) := (W10_of_ne m ρ c main_arg22 (by decide))
    _ = W8 m ρ c (Proc.devRef .tc main_arg22) := (by host_keeps hostOps4)
    _ = W7 m ρ c (Proc.devRef .tc main_arg22) := (W8_of_ne m ρ c main_arg22 (by decide))
    _ = W6 m ρ c (Proc.devRef .tc main_arg22) := (by host_keeps hostOps3)
    _ = W5 m ρ c (Proc.devRef .tc main_arg22) := (W6_of_ne m ρ c main_arg22 (by decide))
    _ = W4 m ρ c (Proc.devRef .tc main_arg22) := (by host_keeps hostOps2)
    _ = W3 m ρ c (Proc.devRef .tc main_arg22) := (W4_of_ne m ρ c main_arg22 (by decide))
    _ = W2 m ρ c (Proc.devRef .tc main_arg22) := (by host_keeps hostOps1)
    _ = W1 m ρ c (Proc.devRef .tc main_arg22) := (W2_of_ne m ρ c main_arg22 (by decide))
    _ = W0 m ρ c (Proc.devRef .tc main_arg22) := (by host_keeps hostOps0)

/-! ## Results carried to their later readers -/

theorem conv1_at3 : W3 m ρ c (Proc.devRef .tc main_v25) = W2 m ρ c (Proc.devRef .tc main_v25) :=
  calc W3 m ρ c (Proc.devRef .tc main_v25)
    _ = W2 m ρ c (Proc.devRef .tc main_v25) := (by host_keeps hostOps1)

theorem x1_at5 : W5 m ρ c (Proc.devRef .tc main_v77) = W4 m ρ c (Proc.devRef .tc main_v77) :=
  calc W5 m ρ c (Proc.devRef .tc main_v77)
    _ = W4 m ρ c (Proc.devRef .tc main_v77) := (by host_keeps hostOps2)

theorem x1_at7 : W7 m ρ c (Proc.devRef .tc main_v77) = W4 m ρ c (Proc.devRef .tc main_v77) :=
  (show W7 m ρ c (Proc.devRef .tc main_v77) = W5 m ρ c (Proc.devRef .tc main_v77) from
    calc W7 m ρ c (Proc.devRef .tc main_v77)
      _ = W6 m ρ c (Proc.devRef .tc main_v77) := (by host_keeps hostOps3)
      _ = W5 m ρ c (Proc.devRef .tc main_v77) := ((W6_arr m ρ c 1).trans (((dat2 (V5 m ρ) c).arrAt_in 1 rfl _).trans (A_eq2 (V5 m ρ) c 1)))).trans (x1_at5 m ρ c)

theorem conv2_at7 : W7 m ρ c (Proc.devRef .tc main_v103) = W6 m ρ c (Proc.devRef .tc main_v103) :=
  calc W7 m ρ c (Proc.devRef .tc main_v103)
    _ = W6 m ρ c (Proc.devRef .tc main_v103) := (by host_keeps hostOps3)

theorem x2_at9 : W9 m ρ c (Proc.devRef .tc main_v155) = W8 m ρ c (Proc.devRef .tc main_v155) :=
  calc W9 m ρ c (Proc.devRef .tc main_v155)
    _ = W8 m ρ c (Proc.devRef .tc main_v155) := (by host_keeps hostOps4)

theorem x2_at11 : W11 m ρ c (Proc.devRef .tc main_v155) = W8 m ρ c (Proc.devRef .tc main_v155) :=
  (show W11 m ρ c (Proc.devRef .tc main_v155) = W9 m ρ c (Proc.devRef .tc main_v155) from
    calc W11 m ρ c (Proc.devRef .tc main_v155)
      _ = W10 m ρ c (Proc.devRef .tc main_v155) := (by host_keeps hostOps5)
      _ = W9 m ρ c (Proc.devRef .tc main_v155) := ((W10_arr m ρ c 1).trans (((dat4 (V9 m ρ) c).arrAt_in 1 rfl _).trans (A_eq4 (V9 m ρ) c 1)))).trans (x2_at9 m ρ c)

theorem conv3_at11 : W11 m ρ c (Proc.devRef .tc main_v181) = W10 m ρ c (Proc.devRef .tc main_v181) :=
  calc W11 m ρ c (Proc.devRef .tc main_v181)
    _ = W10 m ρ c (Proc.devRef .tc main_v181) := (by host_keeps hostOps5)

end Cert.Bridge

end
-- ==== Proof.HostJoints.lean ====
/-
  The host stretches of the kernel program against the reference's stages.

  The kernel program's host operations between its kernel regions — the mean aggregation over incoming edges, the
  per-graph mean and variance and their gathers back to the nodes, the pooling and the last linear map — are the
  reference's own operations in the same order on the same operands.  So when a stretch is entered with the previous
  region's result equal to the reference's corresponding stage, each buffer the stretch writes is the reference's
  corresponding stage.  The operands the kernels take in another layout — a weight transposed, a vector viewed as one
  row — are read at an index.
-/
import proofs.«152839_j85684597555422_1_alg».proof.Proof.Gen.KernelIdeal.Frame
import proofs.«152839_j85684597555422_1_alg».proof.Proof.ReadP
import proofs.«152839_j85684597555422_1_alg».proof.Proof.Keeps
import proofs.«152839_j85684597555422_1_alg».proof.Proof.LibHostBoth
import Idealize.ShloMosaic.Lib.Pipeline.Value
import Idealize.ShloMosaic.Lib.ValueIdx

set_option maxRecDepth 16384

noncomputable section

namespace Cert.Bridge

open Cert.KernelIdeal Cert.KernelIdeal.Gen
open Idealize.ShloMosaic Idealize.ShloMosaic.TcCoe Idealize.ShloMosaic.ValueIdx Idealize.SL.Sem
open Cert.LibHostBoth

variable (m : (ℓ : Loc nD τ sig) → Buf (Elt Ideal) ℓ) (ρ : Dev nD → PrngReg) (c : Dev nD)

/-! ## The arguments' launch contents and the reference's stages at them -/
abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)
abbrev A6 := m ((c : Thread nD τ).loc main_arg6)
abbrev A7 := m ((c : Thread nD τ).loc main_arg7)
abbrev A8 := m ((c : Thread nD τ).loc main_arg8)
abbrev A9 := m ((c : Thread nD τ).loc main_arg9)
abbrev A10 := m ((c : Thread nD τ).loc main_arg10)
abbrev A11 := m ((c : Thread nD τ).loc main_arg11)
abbrev A12 := m ((c : Thread nD τ).loc main_arg12)
abbrev A13 := m ((c : Thread nD τ).loc main_arg13)
abbrev A14 := m ((c : Thread nD τ).loc main_arg14)
abbrev A15 := m ((c : Thread nD τ).loc main_arg15)
abbrev A16 := m ((c : Thread nD τ).loc main_arg16)
abbrev A17 := m ((c : Thread nD τ).loc main_arg17)
abbrev A18 := m ((c : Thread nD τ).loc main_arg18)
abbrev A19 := m ((c : Thread nD τ).loc main_arg19)
abbrev A20 := m ((c : Thread nD τ).loc main_arg20)
abbrev A21 := m ((c : Thread nD τ).loc main_arg21)
abbrev A22 := m ((c : Thread nD τ).loc main_arg22)

abbrev R21 := Cert.ReferenceIdeal.ReadP.val_main_v21 (F := Ideal) (A0 m c) (A1 m c)
abbrev R29 := Cert.ReferenceIdeal.ReadP.val_main_v29 (F := Ideal) (A0 m c) (A1 m c) (A3 m c) (A4 m c) (A5 m c)
abbrev R47 := Cert.ReferenceIdeal.ReadP.val_main_v47 (F := Ideal) (A0 m c) (A1 m c) (A2 m c) (A3 m c) (A4 m c) (A5 m c)
abbrev R73 := Cert.ReferenceIdeal.ReadP.val_main_v73 (F := Ideal) (A0 m c) (A1 m c) (A2 m c) (A3 m c) (A4 m c) (A5 m c) (A14 m c)
abbrev R81 := Cert.ReferenceIdeal.ReadP.val_main_v81 (F := Ideal) (A0 m c) (A1 m c) (A2 m c) (A3 m c) (A4 m c) (A5 m c) (A12 m c) (A13 m c) (A14 m c)
abbrev R103 := Cert.ReferenceIdeal.ReadP.val_main_v103 (F := Ideal) (A0 m c) (A1 m c) (A2 m c) (A3 m c) (A4 m c) (A5 m c) (A12 m c) (A13 m c) (A14 m c)
abbrev R111 := Cert.ReferenceIdeal.ReadP.val_main_v111 (F := Ideal) (A0 m c) (A1 m c) (A2 m c) (A3 m c) (A4 m c) (A5 m c) (A6 m c) (A7 m c) (A8 m c) (A12 m c) (A13 m c) (A14 m c)
abbrev R129 := Cert.ReferenceIdeal.ReadP.val_main_v129 (F := Ideal) (A0 m c) (A1 m c) (A2 m c) (A3 m c) (A4 m c) (A5 m c) (A6 m c) (A7 m c) (A8 m c) (A12 m c) (A13 m c) (A14 m c)
abbrev R155 := Cert.ReferenceIdeal.ReadP.val_main_v155 (F := Ideal) (A0 m c) (A1 m c) (A2 m c) (A3 m c) (A4 m c) (A5 m c) (A6 m c) (A7 m c) (A8 m c) (A12 m c) (A13 m c) (A14 m c) (A17 m c)
abbrev R164 := Cert.ReferenceIdeal.ReadP.val_main_v164 (F := Ideal) (A0 m c) (A1 m c) (A2 m c) (A3 m c) (A4 m c) (A5 m c) (A6 m c) (A7 m c) (A8 m c) (A12 m c) (A13 m c) (A14 m c) (A15 m c) (A16 m c) (A17 m c)
abbrev R186 := Cert.ReferenceIdeal.ReadP.val_main_v186 (F := Ideal) (A0 m c) (A1 m c) (A2 m c) (A3 m c) (A4 m c) (A5 m c) (A6 m c) (A7 m c) (A8 m c) (A12 m c) (A13 m c) (A14 m c) (A15 m c) (A16 m c) (A17 m c)
abbrev R194 := Cert.ReferenceIdeal.ReadP.val_main_v194 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c)
abbrev R212 := Cert.ReferenceIdeal.ReadP.val_main_v212 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c)
abbrev R238 := Cert.ReferenceIdeal.ReadP.val_main_v238 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A20 m c)
abbrev R247 := Cert.ReferenceIdeal.ReadP.val_main_v247 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c)
abbrev R261 := Cert.ReferenceIdeal.ReadP.val_main_v261 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c)

/-! ## Layer 1: the stretch before its convolution region -/

/-- The mean over incoming edges of layer 1's input is the reference's. -/
theorem agg1 :
    W1 m ρ c (Proc.devRef .tc main_v21) = R21 m c := by
  show StableHlo.after hostOps0 (W0 m ρ c) (Proc.devRef .tc main_v21) = _
  simp only [hostOps0]
  after_results_simp
  rfl

/-- The neighbours' weight as the kernel takes it is the argument transposed. -/
theorem wl1 (q : Fin 4) (j : Fin 64) :
    W1 m ρ c (Proc.devRef .tc main_v22) (ix2 q j) = A3 m c (ix2 j q) := by
  have e : W1 m ρ c (Proc.devRef .tc main_v22)
      = transpose S4x64 [1, 0] (W0 m ρ c (Proc.devRef .tc main_arg3)) transposes_S64x4_S4x64_1_0 := by
    show StableHlo.after hostOps0 (W0 m ρ c) (Proc.devRef .tc main_v22) = _
    simp only [hostOps0]
    after_results_simp
  rw [e]
  exact transpose_apply [1, 0] _ transposes_S64x4_S4x64_1_0 (ix2 q j) (ix2 j q) (fun b => match b with
    | ⟨0, _⟩ => rfl
    | ⟨1, _⟩ => rfl)

/-- The node's own weight as the kernel takes it is the argument transposed. -/
theorem wr1 (q : Fin 4) (j : Fin 64) :
    W1 m ρ c (Proc.devRef .tc main_v23) (ix2 q j) = A5 m c (ix2 j q) := by
  have e : W1 m ρ c (Proc.devRef .tc main_v23)
      = transpose S4x64 [1, 0] (W0 m ρ c (Proc.devRef .tc main_arg5)) transposes_S64x4_S4x64_1_0 := by
    show StableHlo.after hostOps0 (W0 m ρ c) (Proc.devRef .tc main_v23) = _
    simp only [hostOps0]
    after_results_simp
  rw [e]
  exact transpose_apply [1, 0] _ transposes_S64x4_S4x64_1_0 (ix2 q j) (ix2 j q) (fun b => match b with
    | ⟨0, _⟩ => rfl
    | ⟨1, _⟩ => rfl)

/-- The bias row the kernel takes is the bias vector. -/
theorem bias1 (j : Fin 64) :
    W1 m ρ c (Proc.devRef .tc main_v24) (ix2 (0 : Fin 1) j) = A4 m c (ix1 j) := by
  have e : W1 m ρ c (Proc.devRef .tc main_v24)
      = shapeCast S1x64 (W0 m ρ c (Proc.devRef .tc main_arg4)) shapeCasts_S64_S1x64 := by
    show StableHlo.after hostOps0 (W0 m ρ c) (Proc.devRef .tc main_v24) = _
    simp only [hostOps0]
    after_results_simp
    rfl
  rw [e]
  exact shapeCast_apply _ shapeCasts_S64_S1x64 (ix2 (0 : Fin 1) j) (ix1 j) (by
    rw [Shape.rowMajor_val_one, Shape.rowMajor_val_two]; simp)

/-! ## Layer 1: the stretch before its normalisation region -/

/-- The per-graph mean gathered to the nodes is the reference's. -/
theorem mean1 (hconv : W2 m ρ c (Proc.devRef .tc main_v25) = R29 m c) :
    W3 m ρ c (Proc.devRef .tc main_v66) = R47 m c := by
  show StableHlo.after hostOps1 (W2 m ρ c) (Proc.devRef .tc main_v66) = _
  simp only [hostOps1]
  after_results_simp
  rw [hconv, arg2_at2 m ρ c]
  rfl

/-- The per-graph variance gathered to the nodes is the reference's. -/
theorem var1 (hconv : W2 m ρ c (Proc.devRef .tc main_v25) = R29 m c) :
    W3 m ρ c (Proc.devRef .tc main_v73) = R73 m c := by
  show StableHlo.after hostOps1 (W2 m ρ c) (Proc.devRef .tc main_v73) = _
  simp only [hostOps1]
  after_results_simp
  rw [hconv, arg2_at2 m ρ c, arg14_at2 m ρ c]
  rfl

/-- The scale row the kernel takes is the scale vector. -/
theorem gamma1 (j : Fin 64) :
    W3 m ρ c (Proc.devRef .tc main_v74) (ix2 (0 : Fin 1) j) = A12 m c (ix1 j) := by
  have e : W3 m ρ c (Proc.devRef .tc main_v74)
      = shapeCast S1x64 (W2 m ρ c (Proc.devRef .tc main_arg12)) shapeCasts_S64_S1x64 := by
    show StableHlo.after hostOps1 (W2 m ρ c) (Proc.devRef .tc main_v74) = _
    simp only [hostOps1]
    after_results_simp
    rfl
  rw [e, arg12_at2 m ρ c]
  exact shapeCast_apply _ shapeCasts_S64_S1x64 (ix2 (0 : Fin 1) j) (ix1 j) (by
    rw [Shape.rowMajor_val_one, Shape.rowMajor_val_two]; simp)

/-- The shift row the kernel takes is the shift vector. -/
theorem beta1 (j : Fin 64) :
    W3 m ρ c (Proc.devRef .tc main_v75) (ix2 (0 : Fin 1) j) = A13 m c (ix1 j) := by
  have e : W3 m ρ c (Proc.devRef .tc main_v75)
      = shapeCast S1x64 (W2 m ρ c (Proc.devRef .tc main_arg13)) shapeCasts_S64_S1x64 := by
    show StableHlo.after hostOps1 (W2 m ρ c) (Proc.devRef .tc main_v75) = _
    simp only [hostOps1]
    after_results_simp
    rfl
  rw [e, arg13_at2 m ρ c]
  exact shapeCast_apply _ shapeCasts_S64_S1x64 (ix2 (0 : Fin 1) j) (ix1 j) (by
    rw [Shape.rowMajor_val_one, Shape.rowMajor_val_two]; simp)

/-- The mean-scale row the kernel takes is the mean-scale vector. -/
theorem alpha1 (j : Fin 64) :
    W3 m ρ c (Proc.devRef .tc main_v76) (ix2 (0 : Fin 1) j) = A14 m c (ix1 j) := by
  have e : W3 m ρ c (Proc.devRef .tc main_v76)
      = shapeCast S1x64 (W2 m ρ c (Proc.devRef .tc main_arg14)) shapeCasts_S64_S1x64 := by
    show StableHlo.after hostOps1 (W2 m ρ c) (Proc.devRef .tc main_v76) = _
    simp only [hostOps1]
    after_results_simp
    rfl
  rw [e, arg14_at2 m ρ c]
  exact shapeCast_apply _ shapeCasts_S64_S1x64 (ix2 (0 : Fin 1) j) (ix1 j) (by
    rw [Shape.rowMajor_val_one, Shape.rowMajor_val_two]; simp)

/-! ## Layer 2: the stretch before its convolution region -/

/-- The mean over incoming edges of layer 2's input is the reference's. -/
theorem agg2 (hx : W4 m ρ c (Proc.devRef .tc main_v77) = R81 m c) :
    W5 m ρ c (Proc.devRef .tc main_v99) = R103 m c := by
  show StableHlo.after hostOps2 (W4 m ρ c) (Proc.devRef .tc main_v99) = _
  simp only [hostOps2]
  after_results_simp
  rw [hx, arg1_at4 m ρ c]
  rfl

/-- The neighbours' weight as the kernel takes it is the argument transposed. -/
theorem wl2 (q : Fin 64) (j : Fin 64) :
    W5 m ρ c (Proc.devRef .tc main_v100) (ix2 q j) = A6 m c (ix2 j q) := by
  have e : W5 m ρ c (Proc.devRef .tc main_v100)
      = transpose S64x64 [1, 0] (W4 m ρ c (Proc.devRef .tc main_arg6)) transposes_S64x64_S64x64_1_0 := by
    show StableHlo.after hostOps2 (W4 m ρ c) (Proc.devRef .tc main_v100) = _
    simp only [hostOps2]
    after_results_simp
  rw [e, arg6_at4 m ρ c]
  exact transpose_apply [1, 0] _ transposes_S64x64_S64x64_1_0 (ix2 q j) (ix2 j q) (fun b => match b with
    | ⟨0, _⟩ => rfl
    | ⟨1, _⟩ => rfl)

/-- The node's own weight as the kernel takes it is the argument transposed. -/
theorem wr2 (q : Fin 64) (j : Fin 64) :
    W5 m ρ c (Proc.devRef .tc main_v101) (ix2 q j) = A8 m c (ix2 j q) := by
  have e : W5 m ρ c (Proc.devRef .tc main_v101)
      = transpose S64x64 [1, 0] (W4 m ρ c (Proc.devRef .tc main_arg8)) transposes_S64x64_S64x64_1_0 := by
    show StableHlo.after hostOps2 (W4 m ρ c) (Proc.devRef .tc main_v101) = _
    simp only [hostOps2]
    after_results_simp
  rw [e, arg8_at4 m ρ c]
  exact transpose_apply [1, 0] _ transposes_S64x64_S64x64_1_0 (ix2 q j) (ix2 j q) (fun b => match b with
    | ⟨0, _⟩ => rfl
    | ⟨1, _⟩ => rfl)

/-- The bias row the kernel takes is the bias vector. -/
theorem bias2 (j : Fin 64) :
    W5 m ρ c (Proc.devRef .tc main_v102) (ix2 (0 : Fin 1) j) = A7 m c (ix1 j) := by
  have e : W5 m ρ c (Proc.devRef .tc main_v102)
      = shapeCast S1x64 (W4 m ρ c (Proc.devRef .tc main_arg7)) shapeCasts_S64_S1x64 := by
    show StableHlo.after hostOps2 (W4 m ρ c) (Proc.devRef .tc main_v102) = _
    simp only [hostOps2]
    after_results_simp
    rfl
  rw [e, arg7_at4 m ρ c]
  exact shapeCast_apply _ shapeCasts_S64_S1x64 (ix2 (0 : Fin 1) j) (ix1 j) (by
    rw [Shape.rowMajor_val_one, Shape.rowMajor_val_two]; simp)

/-! ## Layer 2: the stretch before its normalisation region -/

/-- The per-graph mean gathered to the nodes is the reference's. -/
theorem mean2 (hconv : W6 m ρ c (Proc.devRef .tc main_v103) = R111 m c) :
    W7 m ρ c (Proc.devRef .tc main_v144) = R129 m c := by
  show StableHlo.after hostOps3 (W6 m ρ c) (Proc.devRef .tc main_v144) = _
  simp only [hostOps3]
  after_results_simp
  rw [hconv, arg2_at6 m ρ c]
  rfl

/-- The per-graph variance gathered to the nodes is the reference's. -/
theorem var2 (hconv : W6 m ρ c (Proc.devRef .tc main_v103) = R111 m c) :
    W7 m ρ c (Proc.devRef .tc main_v151) = R155 m c := by
  show StableHlo.after hostOps3 (W6 m ρ c) (Proc.devRef .tc main_v151) = _
  simp only [hostOps3]
  after_results_simp
  rw [hconv, arg2_at6 m ρ c, arg17_at6 m ρ c]
  rfl

/-- The scale row the kernel takes is the scale vector. -/
theorem gamma2 (j : Fin 64) :
    W7 m ρ c (Proc.devRef .tc main_v152) (ix2 (0 : Fin 1) j) = A15 m c (ix1 j) := by
  have e : W7 m ρ c (Proc.devRef .tc main_v152)
      = shapeCast S1x64 (W6 m ρ c (Proc.devRef .tc main_arg15)) shapeCasts_S64_S1x64 := by
    show StableHlo.after hostOps3 (W6 m ρ c) (Proc.devRef .tc main_v152) = _
    simp only [hostOps3]
    after_results_simp
    rfl
  rw [e, arg15_at6 m ρ c]
  exact shapeCast_apply _ shapeCasts_S64_S1x64 (ix2 (0 : Fin 1) j) (ix1 j) (by
    rw [Shape.rowMajor_val_one, Shape.rowMajor_val_two]; simp)

/-- The shift row the kernel takes is the shift vector. -/
theorem beta2 (j : Fin 64) :
    W7 m ρ c (Proc.devRef .tc main_v153) (ix2 (0 : Fin 1) j) = A16 m c (ix1 j) := by
  have e : W7 m ρ c (Proc.devRef .tc main_v153)
      = shapeCast S1x64 (W6 m ρ c (Proc.devRef .tc main_arg16)) shapeCasts_S64_S1x64 := by
    show StableHlo.after hostOps3 (W6 m ρ c) (Proc.devRef .tc main_v153) = _
    simp only [hostOps3]
    after_results_simp
    rfl
  rw [e, arg16_at6 m ρ c]
  exact shapeCast_apply _ shapeCasts_S64_S1x64 (ix2 (0 : Fin 1) j) (ix1 j) (by
    rw [Shape.rowMajor_val_one, Shape.rowMajor_val_two]; simp)

/-- The mean-scale row the kernel takes is the mean-scale vector. -/
theorem alpha2 (j : Fin 64) :
    W7 m ρ c (Proc.devRef .tc main_v154) (ix2 (0 : Fin 1) j) = A17 m c (ix1 j) := by
  have e : W7 m ρ c (Proc.devRef .tc main_v154)
      = shapeCast S1x64 (W6 m ρ c (Proc.devRef .tc main_arg17)) shapeCasts_S64_S1x64 := by
    show StableHlo.after hostOps3 (W6 m ρ c) (Proc.devRef .tc main_v154) = _
    simp only [hostOps3]
    after_results_simp
    rfl
  rw [e, arg17_at6 m ρ c]
  exact shapeCast_apply _ shapeCasts_S64_S1x64 (ix2 (0 : Fin 1) j) (ix1 j) (by
    rw [Shape.rowMajor_val_one, Shape.rowMajor_val_two]; simp)

/-! ## Layer 3: the stretch before its convolution region -/

/-- The mean over incoming edges of layer 3's input is the reference's. -/
theorem agg3 (hx : W8 m ρ c (Proc.devRef .tc main_v155) = R164 m c) :
    W9 m ρ c (Proc.devRef .tc main_v177) = R186 m c := by
  show StableHlo.after hostOps4 (W8 m ρ c) (Proc.devRef .tc main_v177) = _
  simp only [hostOps4]
  after_results_simp
  rw [hx, arg1_at8 m ρ c]
  rfl

/-- The neighbours' weight as the kernel takes it is the argument transposed. -/
theorem wl3 (q : Fin 64) (j : Fin 64) :
    W9 m ρ c (Proc.devRef .tc main_v178) (ix2 q j) = A9 m c (ix2 j q) := by
  have e : W9 m ρ c (Proc.devRef .tc main_v178)
      = transpose S64x64 [1, 0] (W8 m ρ c (Proc.devRef .tc main_arg9)) transposes_S64x64_S64x64_1_0 := by
    show StableHlo.after hostOps4 (W8 m ρ c) (Proc.devRef .tc main_v178) = _
    simp only [hostOps4]
    after_results_simp
  rw [e, arg9_at8 m ρ c]
  exact transpose_apply [1, 0] _ transposes_S64x64_S64x64_1_0 (ix2 q j) (ix2 j q) (fun b => match b with
    | ⟨0, _⟩ => rfl
    | ⟨1, _⟩ => rfl)

/-- The node's own weight as the kernel takes it is the argument transposed. -/
theorem wr3 (q : Fin 64) (j : Fin 64) :
    W9 m ρ c (Proc.devRef .tc main_v179) (ix2 q j) = A11 m c (ix2 j q) := by
  have e : W9 m ρ c (Proc.devRef .tc main_v179)
      = transpose S64x64 [1, 0] (W8 m ρ c (Proc.devRef .tc main_arg11)) transposes_S64x64_S64x64_1_0 := by
    show StableHlo.after hostOps4 (W8 m ρ c) (Proc.devRef .tc main_v179) = _
    simp only [hostOps4]
    after_results_simp
  rw [e, arg11_at8 m ρ c]
  exact transpose_apply [1, 0] _ transposes_S64x64_S64x64_1_0 (ix2 q j) (ix2 j q) (fun b => match b with
    | ⟨0, _⟩ => rfl
    | ⟨1, _⟩ => rfl)

/-- The bias row the kernel takes is the bias vector. -/
theorem bias3 (j : Fin 64) :
    W9 m ρ c (Proc.devRef .tc main_v180) (ix2 (0 : Fin 1) j) = A10 m c (ix1 j) := by
  have e : W9 m ρ c (Proc.devRef .tc main_v180)
      = shapeCast S1x64 (W8 m ρ c (Proc.devRef .tc main_arg10)) shapeCasts_S64_S1x64 := by
    show StableHlo.after hostOps4 (W8 m ρ c) (Proc.devRef .tc main_v180) = _
    simp only [hostOps4]
    after_results_simp
    rfl
  rw [e, arg10_at8 m ρ c]
  exact shapeCast_apply _ shapeCasts_S64_S1x64 (ix2 (0 : Fin 1) j) (ix1 j) (by
    rw [Shape.rowMajor_val_one, Shape.rowMajor_val_two]; simp)

/-! ## Layer 3: the stretch before its normalisation region -/

/-- The per-graph mean gathered to the nodes is the reference's. -/
theorem mean3 (hconv : W10 m ρ c (Proc.devRef .tc main_v181) = R194 m c) :
    W11 m ρ c (Proc.devRef .tc main_v222) = R212 m c := by
  show StableHlo.after hostOps5 (W10 m ρ c) (Proc.devRef .tc main_v222) = _
  simp only [hostOps5]
  after_results_simp
  rw [hconv, arg2_at10 m ρ c]
  rfl

/-- The per-graph variance gathered to the nodes is the reference's. -/
theorem var3 (hconv : W10 m ρ c (Proc.devRef .tc main_v181) = R194 m c) :
    W11 m ρ c (Proc.devRef .tc main_v229) = R238 m c := by
  show StableHlo.after hostOps5 (W10 m ρ c) (Proc.devRef .tc main_v229) = _
  simp only [hostOps5]
  after_results_simp
  rw [hconv, arg2_at10 m ρ c, arg20_at10 m ρ c]
  rfl

/-- The scale row the kernel takes is the scale vector. -/
theorem gamma3 (j : Fin 64) :
    W11 m ρ c (Proc.devRef .tc main_v230) (ix2 (0 : Fin 1) j) = A18 m c (ix1 j) := by
  have e : W11 m ρ c (Proc.devRef .tc main_v230)
      = shapeCast S1x64 (W10 m ρ c (Proc.devRef .tc main_arg18)) shapeCasts_S64_S1x64 := by
    show StableHlo.after hostOps5 (W10 m ρ c) (Proc.devRef .tc main_v230) = _
    simp only [hostOps5]
    after_results_simp
    rfl
  rw [e, arg18_at10 m ρ c]
  exact shapeCast_apply _ shapeCasts_S64_S1x64 (ix2 (0 : Fin 1) j) (ix1 j) (by
    rw [Shape.rowMajor_val_one, Shape.rowMajor_val_two]; simp)

/-- The shift row the kernel takes is the shift vector. -/
theorem beta3 (j : Fin 64) :
    W11 m ρ c (Proc.devRef .tc main_v231) (ix2 (0 : Fin 1) j) = A19 m c (ix1 j) := by
  have e : W11 m ρ c (Proc.devRef .tc main_v231)
      = shapeCast S1x64 (W10 m ρ c (Proc.devRef .tc main_arg19)) shapeCasts_S64_S1x64 := by
    show StableHlo.after hostOps5 (W10 m ρ c) (Proc.devRef .tc main_v231) = _
    simp only [hostOps5]
    after_results_simp
    rfl
  rw [e, arg19_at10 m ρ c]
  exact shapeCast_apply _ shapeCasts_S64_S1x64 (ix2 (0 : Fin 1) j) (ix1 j) (by
    rw [Shape.rowMajor_val_one, Shape.rowMajor_val_two]; simp)

/-- The mean-scale row the kernel takes is the mean-scale vector. -/
theorem alpha3 (j : Fin 64) :
    W11 m ρ c (Proc.devRef .tc main_v232) (ix2 (0 : Fin 1) j) = A20 m c (ix1 j) := by
  have e : W11 m ρ c (Proc.devRef .tc main_v232)
      = shapeCast S1x64 (W10 m ρ c (Proc.devRef .tc main_arg20)) shapeCasts_S64_S1x64 := by
    show StableHlo.after hostOps5 (W10 m ρ c) (Proc.devRef .tc main_v232) = _
    simp only [hostOps5]
    after_results_simp
    rfl
  rw [e, arg20_at10 m ρ c]
  exact shapeCast_apply _ shapeCasts_S64_S1x64 (ix2 (0 : Fin 1) j) (ix1 j) (by
    rw [Shape.rowMajor_val_one, Shape.rowMajor_val_two]; simp)

/-! ## The tail: pooling and the last linear map -/

/-- The pooled, linearly mapped result is the reference's. -/
theorem tail (hx : W12 m ρ c (Proc.devRef .tc main_v233) = R247 m c) :
    W13 m ρ c (Proc.devRef .tc main_v247) = R261 m c := by
  show StableHlo.after hostOps6 (W12 m ρ c) (Proc.devRef .tc main_v247) = _
  simp only [hostOps6]
  after_results_simp
  rw [hx, arg2_at12 m ρ c, arg21_at12 m ρ c, arg22_at12 m ρ c]
  rfl

end Cert.Bridge

end
-- ==== Proof.GnnSpec.lean ====
/-
  The entries of the two dense stages of a graph-network layer, as functions of extended reals, in the two spellings
  the programs use, and the laws that join the spellings.

  A convolution entry is a row of the aggregated neighbours against a weight column, a row of the node's own features
  against another weight column, and a bias: written with the bias last over transposed weights, or with the bias between
  the two products over the weights as given.  Addition of extended reals is commutative and associative, so the two agree
  for all entries, infinite ones included.

  A normalisation entry scales g · (c - a · m) by the reciprocal square root of v + ε, or divides it by the square root
  of v + ε.  The two agree whenever 0 ≤ v: then v + ε is a positive real, where 1/√y is the inverse of √y, or it is +∞,
  where both the reciprocal square root and the inverse of the square root are 0.  (For v + ε ≤ 0 they differ, so the
  variance's sign is what the bridge owes.)
-/
import Idealize.ShloMosaic.PureOps.Ideal
import Idealize.ShloMosaic.PureOps.Ideal.Laws
import Idealize.ShloMosaic.Lib.ValueIdx
import Mathlib.Tactic

noncomputable section

open scoped BigOperators

namespace Cert.Gnn

open Idealize.ShloMosaic Idealize.ShloMosaic.ValueIdx

/-- The variance's epsilon: the f32 word both programs add. -/
def eps : EReal := Ideal.ofBits .f32 0x3727C5AC#32

theorem eps_pos : ∃ ε : ℝ, 0 < ε ∧ eps = (ε : EReal) := by
  refine ⟨_, ?_, by simp [eps, Ideal.ofBits, Ideal.ieee, -EReal.coe_mul]; rfl⟩
  norm_num

/-- Scaling by the reciprocal square root is dividing by the square root, on every positive extended real. -/
theorem mul_rsqrt_eq_div_sqrt (a y : EReal) (hy : 0 < y) : a * Ideal.rsqrt y = Ideal.div a (Ideal.sqrt y) := by
  induction y using EReal.rec with
  | bot => exact absurd hy (by simp)
  | top =>
    rw [Ideal.rsqrt_top, Ideal.sqrt_top, Ideal.div, if_neg (by simp), EReal.inv_top]
  | coe r =>
    have hr : 0 < r := by exact_mod_cast hy
    have hs : 0 < Real.sqrt r := Real.sqrt_pos.mpr hr
    rw [Ideal.rsqrt_coe, if_neg (not_lt.mpr hr.le), if_neg hr.ne', Ideal.sqrt_coe, if_neg (not_lt.mpr hr.le),
      Ideal.div, if_neg (by exact_mod_cast hs.ne'), EReal.coe_inv]

/-- A nonnegative extended real plus the epsilon is positive. -/
theorem add_eps_pos {v : EReal} (hv : 0 ≤ v) : 0 < v + eps := by
  obtain ⟨ε, hε, he⟩ := eps_pos
  rw [he]
  calc (0 : EReal) < (ε : EReal) := by exact_mod_cast hε
    _ = 0 + (ε : EReal) := (zero_add _).symm
    _ ≤ v + (ε : EReal) := add_le_add hv le_rfl

/-- The normalisation entry as the kernel spells it. -/
def normElt (c m v g b a : EReal) : EReal := max (g * (c - a * m) * Ideal.rsqrt (v + eps) + b) 0
/-- The same with a residual added before the clamp. -/
def normResElt (c m v g b a r : EReal) : EReal := max (g * (c - a * m) * Ideal.rsqrt (v + eps) + b + r) 0
/-- The normalisation entry as the reference spells it. -/
def normRefElt (c m v g b a : EReal) : EReal := max (Ideal.div (g * (c - a * m)) (Ideal.sqrt (v + eps)) + b) 0
/-- The same with a residual added before the clamp. -/
def normRefResElt (c m v g b a r : EReal) : EReal := max (Ideal.div (g * (c - a * m)) (Ideal.sqrt (v + eps)) + b + r) 0

theorem normElt_eq_ref (c m v g b a : EReal) (hv : 0 ≤ v) : normElt c m v g b a = normRefElt c m v g b a := by
  unfold normElt normRefElt; rw [mul_rsqrt_eq_div_sqrt _ _ (add_eps_pos hv)]
theorem normResElt_eq_ref (c m v g b a r : EReal) (hv : 0 ≤ v) :
    normResElt c m v g b a r = normRefResElt c m v g b a r := by
  unfold normResElt normRefResElt; rw [mul_rsqrt_eq_div_sqrt _ _ (add_eps_pos hv)]

variable {n k h : ℕ}

/-- A convolution entry, bias last, over weights laid out [k, h] (the kernel's operands). -/
def convK (agg x : (⟨2, ![n, k]⟩ : Shape).Idx → EReal) (wl wr : (⟨2, ![k, h]⟩ : Shape).Idx → EReal)
    (b : (⟨2, ![1, h]⟩ : Shape).Idx → EReal) (r : Fin n) (j : Fin h) : EReal :=
  (∑ q : Fin k, agg (ix2 r q) * wl (ix2 q j) + ∑ q : Fin k, x (ix2 r q) * wr (ix2 q j)) + b (ix2 (0 : Fin 1) j)

/-- A convolution entry, bias between the products, over weights laid out [h, k] (the reference's arguments). -/
def convR (agg x : (⟨2, ![n, k]⟩ : Shape).Idx → EReal) (wl : (⟨2, ![h, k]⟩ : Shape).Idx → EReal)
    (b : (⟨1, ![h]⟩ : Shape).Idx → EReal) (wr : (⟨2, ![h, k]⟩ : Shape).Idx → EReal) (r : Fin n) (j : Fin h) : EReal :=
  (∑ q : Fin k, agg (ix2 r q) * wl (ix2 j q) + b (ix1 j)) + ∑ q : Fin k, x (ix2 r q) * wr (ix2 j q)

/-- The two spellings agree when the kernel's weights are the transposes and its bias row is the bias vector. -/
theorem convK_eq_convR (agg x : (⟨2, ![n, k]⟩ : Shape).Idx → EReal) (wlT wrT : (⟨2, ![k, h]⟩ : Shape).Idx → EReal)
    (b2 : (⟨2, ![1, h]⟩ : Shape).Idx → EReal) (wl wr : (⟨2, ![h, k]⟩ : Shape).Idx → EReal)
    (b : (⟨1, ![h]⟩ : Shape).Idx → EReal)
    (hl : ∀ q j, wlT (ix2 q j) = wl (ix2 j q)) (hr : ∀ q j, wrT (ix2 q j) = wr (ix2 j q))
    (hb : ∀ j, b2 (ix2 (0 : Fin 1) j) = b (ix1 j)) (r : Fin n) (j : Fin h) :
    convK agg x wlT wrT b2 r j = convR agg x wl b wr r j := by
  unfold convK convR
  simp only [hl, hr, hb]
  rw [add_assoc, add_assoc, add_comm (∑ q : Fin k, x (ix2 r q) * wr (ix2 j q))]

end Cert.Gnn

end
-- ==== Proof.ConvRegion0.lean ====
/-
  The value of one convolution stage of the kernel program, as one function of the stage's input arrays.

  The stage walks the rows of its two [100000, 4] operands in 20 blocks of 5000 rows; the two [4, 64] weight arrays
  and the [1, 64] bias row are the same block at every point.  At a point the body stores, at entry (p, q) of its
  [5000, 64] block, the row p of the first operand against column q of the first weights, plus the row p of the second
  operand against column q of the second weights, plus the bias of column q: a product accumulated into the zero array
  is the plain sum over the contracted axis, and the narrowing of the operands changes nothing on the extended reals.

  Point t's block of the operands is rows 5000·t … 5000·t + 4999 of the arrays, and its output block the same rows of the
  result; so what point t writes back is the same rows of the whole-array function  (r, q) ↦ convK … r q, the 20 blocks
  cover the 100000 rows (row r is in block r / 5000), and the result array ends holding that function.
-/
import proofs.«152839_j85684597555422_1_alg».proof.Proof.Gen.KernelIdeal.Frame
import proofs.«152839_j85684597555422_1_alg».proof.Proof.GnnSpec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.ConvValue

open Cert.KernelIdeal Cert.KernelIdeal.Gen Idealize.ShloMosaic Idealize.ShloMosaic.TcCoe Idealize.ShloMosaic.ValueIdx
open Idealize.SL.Sem
open Idealize.ShloMosaic.Pipeline (Dat)

/-! ## The stored value at an entry -/

/-- The contraction's record: rows of the left operand against columns of the right. -/
abbrev dims0 : DotDims S5000x4 S4x64 S5000x64 := dot_S5000x4_S4x64_S5000x64_1_0_0_1_n_n

/-- The left operand is read in the output's row … -/
theorem lhs_row0 (i : S5000x64.Idx) (k : dims0.contr.Idx) : (dims0.lhsIdx i k 0).val = (i 0).val := by
  unfold DotDims.lhsIdx
  rw [dif_neg (show ¬(0 : Fin S5000x4.rank) ∈ dims0.lhsBatch by decide), dif_pos (show (0 : Fin S5000x4.rank) ∈ dims0.lhsNonContracting by decide)]
  rfl

/-- … and the right operand in the output's column. -/
theorem rhs_col0 (i : S5000x64.Idx) (k : dims0.contr.Idx) : (dims0.rhsIdx i k 1).val = (i 1).val := by
  unfold DotDims.rhsIdx
  rw [dif_neg (show ¬(1 : Fin S4x64.rank) ∈ dims0.rhsBatch by decide), dif_pos (show (1 : Fin S4x64.rank) ∈ dims0.rhsNonContracting by decide)]
  rfl

set_option maxHeartbeats 400000 in
/-- A product accumulated into the zero array, read at an entry: the row against the column. -/
theorem matmul_entry0 (a : FVec Ideal S5000x4 .bf16) (b : FVec Ideal S4x64 .bf16) (p : Fin 5000) (q : Fin 64) :
    matmul dims0 none a b (constant (F := Ideal) S5000x64 .f32 0x00000000#32) (ix2 p q)
      = ∑ k : Fin 4, a (ix2 p k) * b (ix2 k q) := by
  refine (Ideal.matmul_constant_zero_apply dims0 none a b (ix2 p q)).trans ?_
  rw [← Equiv.sum_comp (contrEquiv1 dims0 4 rfl rfl).symm]
  refine Finset.sum_congr rfl fun k _ => ?_
  have hk := contrEquiv1_symm_val dims0 4 rfl rfl k
  have el : dims0.lhsIdx (ix2 p q) ((contrEquiv1 dims0 4 rfl rfl).symm k) = ix2 p k := funext fun a => Fin.ext (by
    match a with
    | ⟨0, _⟩ => exact lhs_row0 _ _
    | ⟨1, _⟩ => exact (dims0.lhsIdx_val_of_single rfl _ _).trans hk)
  have er : dims0.rhsIdx (ix2 p q) ((contrEquiv1 dims0 4 rfl rfl).symm k) = ix2 k q := funext fun a => Fin.ext (by
    match a with
    | ⟨0, _⟩ => exact (dims0.rhsIdx_val_of_single rfl _ _).trans hk
    | ⟨1, _⟩ => exact rhs_col0 _ _)
  rw [el, er]

set_option maxHeartbeats 400000 in
/-- The stored value at an entry: the two rows against the two weight columns, and the bias of the column. -/
theorem stored_entry0 (x0 x1 : Vec Ideal S5000x4 .f32) (x2 x3 : Vec Ideal S4x64 .f32) (x4 : Vec Ideal S1x64 .f32)
    (p : Fin 5000) (q : Fin 64) :
    k0_pay1 (F := Ideal) x0 x1 x2 x3 x4 (ix2 p q)
      = (∑ k : Fin 4, x0 (ix2 p k) * x2 (ix2 k q) + ∑ k : Fin 4, x1 (ix2 p k) * x3 (ix2 k q)) + x4 (ix2 (0 : Fin 1) q) := by
  unfold k0_pay1
  simp only [shapeCast_self]
  have hb : broadcastTo S5000x64 x4 broadcasts_S1x64_S5000x64 (ix2 p q) = x4 (ix2 (0 : Fin 1) q) :=
    broadcastTo_apply x4 broadcasts_S1x64_S5000x64 (ix2 p q) (ix2 (0 : Fin 1) q) (fun a => by
      match a with
      | ⟨0, _⟩ => rfl
      | ⟨1, _⟩ => rfl)
  show (matmul dims0 none (truncf .bf16 x0 bitsLt_bf16_f32) (truncf .bf16 x2 bitsLt_bf16_f32) (constant (F := Ideal) S5000x64 .f32 0x00000000#32) (ix2 p q)
      + matmul dims0 none (truncf .bf16 x1 bitsLt_bf16_f32) (truncf .bf16 x3 bitsLt_bf16_f32) (constant (F := Ideal) S5000x64 .f32 0x00000000#32) (ix2 p q))
      + broadcastTo S5000x64 x4 broadcasts_S1x64_S5000x64 (ix2 p q) = _
  rw [matmul_entry0, matmul_entry0, hb]
  rfl

/-- A block whose operand blocks are rows o … o + 4999 of the arrays, and whose weights and bias are the arrays', stores
    the same rows of the convolution. -/
theorem stored_rows0 (o : ℕ) (ho : o + 5000 ≤ 100000)
    (x0 x1 : Vec Ideal S5000x4 .f32) (x2 x3 : Vec Ideal S4x64 .f32) (x4 : Vec Ideal S1x64 .f32)
    (A X : S100000x4.Idx → EReal) (Wl Wr : S4x64.Idx → EReal) (B : S1x64.Idx → EReal)
    (h0 : ∀ (p : Fin 5000) (k : Fin 4), x0 (ix2 p k) = A (ix2 (⟨o + p.val, by omega⟩ : Fin 100000) k))
    (h1 : ∀ (p : Fin 5000) (k : Fin 4), x1 (ix2 p k) = X (ix2 (⟨o + p.val, by omega⟩ : Fin 100000) k))
    (h2 : ∀ (k : Fin 4) (q : Fin 64), x2 (ix2 k q) = Wl (ix2 k q))
    (h3 : ∀ (k : Fin 4) (q : Fin 64), x3 (ix2 k q) = Wr (ix2 k q))
    (h4 : ∀ q : Fin 64, x4 (ix2 (0 : Fin 1) q) = B (ix2 (0 : Fin 1) q))
    (p : Fin 5000) (q : Fin 64) :
    k0_pay1 (F := Ideal) x0 x1 x2 x3 x4 (ix2 p q) = Cert.Gnn.convK A X Wl Wr B (⟨o + p.val, by omega⟩ : Fin 100000) q := by
  rw [stored_entry0]
  unfold Cert.Gnn.convK
  simp only [h0, h1, h2, h3, h4]

/-! ## The blocks of a point -/

variable (V : (c : Dev nD) → (b : Ref sig .tc) → Buf (Elt Ideal) ((c : Thread nD τ).loc b))

theorem zero_offsets0 : (![0, 0] : Fin 2 → Nat) = fun _ => 0 := funext fun a => by fin_cases a <;> rfl

/-- The index maps over the grid: the two operands and the output move together, one block of rows per point; the weights
    and the bias stay. -/
theorem index_maps0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The first operand's block at point t is rows 5000·t … of its array. -/
theorem first_block0 (c : Dev nD) (t : Fin cfg0.N) (p : Fin 5000) (k : Fin 4) (r : Fin 100000) (hr : r.val = t.val * 5000 + p.val) :
    (iblk0 V c 0 t : Vec Ideal S5000x4 .f32) (ix2 p k) = (V c main_v21 : S100000x4.Idx → EReal) (ix2 r k) := by
  obtain ⟨e0, e1, -⟩ := index_maps0 t
  unfold iblk0
  rw [View.read_apply]
  show V c main_v21 _ = V c main_v21 _
  refine congrArg (V c main_v21) (funext fun a => Fin.ext ?_)
  match a with
  | ⟨0, _⟩ => show win0_0.index t (0 : Fin 2) * 5000 + 1 * p.val = r.val; omega
  | ⟨1, _⟩ => show win0_0.index t (1 : Fin 2) * 4 + 1 * k.val = k.val; omega

/-- The second operand's block at point t is the same rows of its array. -/
theorem second_block0 (c : Dev nD) (t : Fin cfg0.N) (p : Fin 5000) (k : Fin 4) (r : Fin 100000) (hr : r.val = t.val * 5000 + p.val) :
    (iblk0 V c 1 t : Vec Ideal S5000x4 .f32) (ix2 p k) = (V c main_arg0 : S100000x4.Idx → EReal) (ix2 r k) := by
  obtain ⟨-, -, e0, e1, -⟩ := index_maps0 t
  unfold iblk0
  rw [View.read_apply]
  show V c main_arg0 _ = V c main_arg0 _
  refine congrArg (V c main_arg0) (funext fun a => Fin.ext ?_)
  match a with
  | ⟨0, _⟩ => show win0_1.index t (0 : Fin 2) * 5000 + 1 * p.val = r.val; omega
  | ⟨1, _⟩ => show win0_1.index t (1 : Fin 2) * 4 + 1 * k.val = k.val; omega

/-- The first weights' block is the whole array, at every point. -/
theorem first_weights0 (c : Dev nD) (t : Fin cfg0.N) (k : Fin 4) (q : Fin 64) :
    (iblk0 V c 2 t : Vec Ideal S4x64 .f32) (ix2 k q) = (V c main_v22 : S4x64.Idx → EReal) (ix2 k q) := by
  obtain ⟨-, -, -, -, e0, e1, -⟩ := index_maps0 t
  unfold iblk0
  rw [View.read_apply]
  show V c main_v22 _ = V c main_v22 _
  refine congrArg (V c main_v22) (funext fun a => Fin.ext ?_)
  match a with
  | ⟨0, _⟩ => show win0_2.index t (0 : Fin 2) * 4 + 1 * k.val = k.val; omega
  | ⟨1, _⟩ => show win0_2.index t (1 : Fin 2) * 64 + 1 * q.val = q.val; omega

/-- So is the second weights'. -/
theorem second_weights0 (c : Dev nD) (t : Fin cfg0.N) (k : Fin 4) (q : Fin 64) :
    (iblk0 V c 3 t : Vec Ideal S4x64 .f32) (ix2 k q) = (V c main_v23 : S4x64.Idx → EReal) (ix2 k q) := by
  obtain ⟨-, -, -, -, -, -, e0, e1, -⟩ := index_maps0 t
  unfold iblk0
  rw [View.read_apply]
  show V c main_v23 _ = V c main_v23 _
  refine congrArg (V c main_v23) (funext fun a => Fin.ext ?_)
  match a with
  | ⟨0, _⟩ => show win0_3.index t (0 : Fin 2) * 4 + 1 * k.val = k.val; omega
  | ⟨1, _⟩ => show win0_3.index t (1 : Fin 2) * 64 + 1 * q.val = q.val; omega

/-- And the bias row's. -/
theorem bias_block0 (c : Dev nD) (t : Fin cfg0.N) (q : Fin 64) :
    (iblk0 V c 4 t : Vec Ideal S1x64 .f32) (ix2 (0 : Fin 1) q) = (V c main_v24 : S1x64.Idx → EReal) (ix2 (0 : Fin 1) q) := by
  obtain ⟨-, -, -, -, -, -, -, -, e0, e1, -⟩ := index_maps0 t
  unfold iblk0
  rw [View.read_apply]
  show V c main_v24 _ = V c main_v24 _
  refine congrArg (V c main_v24) (funext fun a => Fin.ext ?_)
  match a with
  | ⟨0, _⟩ => show win0_4.index t (0 : Fin 2) * 1 + 1 * 0 = 0; omega
  | ⟨1, _⟩ => show win0_4.index t (1 : Fin 2) * 64 + 1 * q.val = q.val; omega

/-! ## From the blocks to the array -/

/-- The stage's result: the convolution of the arrays the stage finds, entry by entry. -/
abbrev conv0 (c : Dev nD) : S100000x64.Idx → EReal :=
  fun i : S100000x64.Idx => Cert.Gnn.convK (V c main_v21) (V c main_arg0) (V c main_v22) (V c main_v23) (V c main_v24) (i 0) (i 1)

set_option maxHeartbeats 400000 in
/-- What point t writes back is its rows of the convolution. -/
theorem written_back0 (c : Dev nD) (t : Fin cfg0.N) :
    (dat0 (F := Ideal) V c).flushed 5 t = ((cfg0.win 5).blk t).view.read (Elt Ideal) (conv0 V c) := by
  show (cfg0.win 5).cut (grid0.coords t) ((dat0 V c).after 5 t) = _
  rw [after0_5]
  unfold out0_5
  rw [View.canon_unit_zero zero_offsets0]
  simp only [View.ld_unit_zero (S := S5000x4) zero_offsets0, View.ld_unit_zero (S := S4x64) zero_offsets0, View.ld_unit_zero (S := S1x64) zero_offsets0]
  have hN : cfg0.N = 20 := N_0
  have ht : t.val < 20 := hN ▸ t.isLt
  obtain ⟨-, -, -, -, -, -, -, -, -, -, e0, e1⟩ := index_maps0 t
  funext j
  have hj0 : (j 0).val < 5000 := (j 0).isLt
  have hj1 : (j 1).val < 64 := (j 1).isLt
  have hin : (cfg0.win 5).xinj (grid0.coords t) j = ix2 (⟨(j 0).val, hj0⟩ : Fin 5000) (⟨(j 1).val, hj1⟩ : Fin 64) :=
    funext fun a => by match a with | ⟨0, _⟩ => rfl | ⟨1, _⟩ => rfl
  have hout : ((cfg0.win 5).blk t).view.emb j
      = ix2 (⟨t.val * 5000 + (j 0).val, by omega⟩ : Fin 100000) (⟨(j 1).val, hj1⟩ : Fin 64) :=
    funext fun a => Fin.ext (by
      match a with
      | ⟨0, _⟩ => show win0_5.index t (0 : Fin 2) * 5000 + 1 * (j 0).val = t.val * 5000 + (j 0).val; omega
      | ⟨1, _⟩ => show win0_5.index t (1 : Fin 2) * 64 + 1 * (j 1).val = (j 1).val; omega)
  show k0_pay1 (F := Ideal) (iblk0 V c 0 t) (iblk0 V c 1 t) (iblk0 V c 2 t) (iblk0 V c 3 t) (iblk0 V c 4 t)
      ((cfg0.win 5).xinj (grid0.coords t) j) = conv0 V c (((cfg0.win 5).blk t).view.emb j)
  rw [hin, hout]
  exact stored_rows0 (t.val * 5000) (by omega) (iblk0 V c 0 t) (iblk0 V c 1 t) (iblk0 V c 2 t) (iblk0 V c 3 t) (iblk0 V c 4 t)
    (V c main_v21) (V c main_arg0) (V c main_v22) (V c main_v23) (V c main_v24)
    (fun p k => first_block0 V c t p k _ rfl) (fun p k => second_block0 V c t p k _ rfl)
    (fun k q => first_weights0 V c t k q) (fun k q => second_weights0 V c t k q) (fun q => bias_block0 V c t q)
    ⟨(j 0).val, hj0⟩ ⟨(j 1).val, hj1⟩

/-- An index of the result is in point t's block iff each coordinate is in the block's range on its axis. -/
theorem mem_rows0 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v25).slice (win0_5.rect t)).set ↔ _
  rw [View.set_slice_whole, Rect.mem_set_unit]
  exact Iff.rfl

/-- Every row is in the block of the point its quotient by 5000 names. -/
theorem rows_covered0 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, -, -, -, e0, e1⟩ := index_maps0 t
  refine ⟨t, flush0_5 t, ?_⟩
  rw [mem_rows0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- The result array after the stage is the convolution of the arrays the stage found. -/
theorem final0 (c : Dev nD) :
    (dat0 (F := Ideal) V c).arrAt 5 cfg0.N
      = fun i : S100000x64.Idx => Cert.Gnn.convK (V c main_v21) (V c main_arg0) (V c main_v22) (V c main_v23) (V c main_v24) (i 0) (i 1) :=
  (dat0 (F := Ideal) V c).arrAt_eq_of_cover 5 (conv0 V c) (fun t _ => written_back0 V c t) rows_covered0

end Cert.KernelIdeal.ConvValue

end
-- ==== Proof.ConvRegion2.lean ====
/-
  The value of one convolution stage of the kernel program, as one function of the stage's input arrays.

  The stage walks the rows of its two [100000, 64] operands in 20 blocks of 5000 rows; the two [64, 64] weight arrays
  and the [1, 64] bias row are the same block at every point.  At a point the body stores, at entry (p, q) of its
  [5000, 64] block, the row p of the first operand against column q of the first weights, plus the row p of the second
  operand against column q of the second weights, plus the bias of column q: a product accumulated into the zero array
  is the plain sum over the contracted axis, and the narrowing of the operands changes nothing on the extended reals.

  Point t's block of the operands is rows 5000·t … 5000·t + 4999 of the arrays, and its output block the same rows of the
  result; so what point t writes back is the same rows of the whole-array function  (r, q) ↦ convK … r q, the 20 blocks
  cover the 100000 rows (row r is in block r / 5000), and the result array ends holding that function.
-/
import proofs.«152839_j85684597555422_1_alg».proof.Proof.Gen.KernelIdeal.Frame
import proofs.«152839_j85684597555422_1_alg».proof.Proof.GnnSpec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.ConvValue

open Cert.KernelIdeal Cert.KernelIdeal.Gen Idealize.ShloMosaic Idealize.ShloMosaic.TcCoe Idealize.ShloMosaic.ValueIdx
open Idealize.SL.Sem
open Idealize.ShloMosaic.Pipeline (Dat)

/-! ## The stored value at an entry -/

/-- The contraction's record: rows of the left operand against columns of the right. -/
abbrev dims2 : DotDims S5000x64 S64x64 S5000x64 := dot_S5000x64_S64x64_S5000x64_1_0_0_1_n_n

/-- The left operand is read in the output's row … -/
theorem lhs_row2 (i : S5000x64.Idx) (k : dims2.contr.Idx) : (dims2.lhsIdx i k 0).val = (i 0).val := by
  unfold DotDims.lhsIdx
  rw [dif_neg (show ¬(0 : Fin S5000x64.rank) ∈ dims2.lhsBatch by decide), dif_pos (show (0 : Fin S5000x64.rank) ∈ dims2.lhsNonContracting by decide)]
  rfl

/-- … and the right operand in the output's column. -/
theorem rhs_col2 (i : S5000x64.Idx) (k : dims2.contr.Idx) : (dims2.rhsIdx i k 1).val = (i 1).val := by
  unfold DotDims.rhsIdx
  rw [dif_neg (show ¬(1 : Fin S64x64.rank) ∈ dims2.rhsBatch by decide), dif_pos (show (1 : Fin S64x64.rank) ∈ dims2.rhsNonContracting by decide)]
  rfl

set_option maxHeartbeats 400000 in
/-- A product accumulated into the zero array, read at an entry: the row against the column. -/
theorem matmul_entry2 (a : FVec Ideal S5000x64 .bf16) (b : FVec Ideal S64x64 .bf16) (p : Fin 5000) (q : Fin 64) :
    matmul dims2 none a b (constant (F := Ideal) S5000x64 .f32 0x00000000#32) (ix2 p q)
      = ∑ k : Fin 64, a (ix2 p k) * b (ix2 k q) := by
  refine (Ideal.matmul_constant_zero_apply dims2 none a b (ix2 p q)).trans ?_
  rw [← Equiv.sum_comp (contrEquiv1 dims2 64 rfl rfl).symm]
  refine Finset.sum_congr rfl fun k _ => ?_
  have hk := contrEquiv1_symm_val dims2 64 rfl rfl k
  have el : dims2.lhsIdx (ix2 p q) ((contrEquiv1 dims2 64 rfl rfl).symm k) = ix2 p k := funext fun a => Fin.ext (by
    match a with
    | ⟨0, _⟩ => exact lhs_row2 _ _
    | ⟨1, _⟩ => exact (dims2.lhsIdx_val_of_single rfl _ _).trans hk)
  have er : dims2.rhsIdx (ix2 p q) ((contrEquiv1 dims2 64 rfl rfl).symm k) = ix2 k q := funext fun a => Fin.ext (by
    match a with
    | ⟨0, _⟩ => exact (dims2.rhsIdx_val_of_single rfl _ _).trans hk
    | ⟨1, _⟩ => exact rhs_col2 _ _)
  rw [el, er]

set_option maxHeartbeats 400000 in
/-- The stored value at an entry: the two rows against the two weight columns, and the bias of the column. -/
theorem stored_entry2 (x0 x1 : Vec Ideal S5000x64 .f32) (x2 x3 : Vec Ideal S64x64 .f32) (x4 : Vec Ideal S1x64 .f32)
    (p : Fin 5000) (q : Fin 64) :
    k2_pay1 (F := Ideal) x0 x1 x2 x3 x4 (ix2 p q)
      = (∑ k : Fin 64, x0 (ix2 p k) * x2 (ix2 k q) + ∑ k : Fin 64, x1 (ix2 p k) * x3 (ix2 k q)) + x4 (ix2 (0 : Fin 1) q) := by
  unfold k2_pay1
  simp only [shapeCast_self]
  have hb : broadcastTo S5000x64 x4 broadcasts_S1x64_S5000x64 (ix2 p q) = x4 (ix2 (0 : Fin 1) q) :=
    broadcastTo_apply x4 broadcasts_S1x64_S5000x64 (ix2 p q) (ix2 (0 : Fin 1) q) (fun a => by
      match a with
      | ⟨0, _⟩ => rfl
      | ⟨1, _⟩ => rfl)
  show (matmul dims2 none (truncf .bf16 x0 bitsLt_bf16_f32) (truncf .bf16 x2 bitsLt_bf16_f32) (constant (F := Ideal) S5000x64 .f32 0x00000000#32) (ix2 p q)
      + matmul dims2 none (truncf .bf16 x1 bitsLt_bf16_f32) (truncf .bf16 x3 bitsLt_bf16_f32) (constant (F := Ideal) S5000x64 .f32 0x00000000#32) (ix2 p q))
      + broadcastTo S5000x64 x4 broadcasts_S1x64_S5000x64 (ix2 p q) = _
  rw [matmul_entry2, matmul_entry2, hb]
  rfl

/-- A block whose operand blocks are rows o … o + 4999 of the arrays, and whose weights and bias are the arrays', stores
    the same rows of the convolution. -/
theorem stored_rows2 (o : ℕ) (ho : o + 5000 ≤ 100000)
    (x0 x1 : Vec Ideal S5000x64 .f32) (x2 x3 : Vec Ideal S64x64 .f32) (x4 : Vec Ideal S1x64 .f32)
    (A X : S100000x64.Idx → EReal) (Wl Wr : S64x64.Idx → EReal) (B : S1x64.Idx → EReal)
    (h0 : ∀ (p : Fin 5000) (k : Fin 64), x0 (ix2 p k) = A (ix2 (⟨o + p.val, by omega⟩ : Fin 100000) k))
    (h1 : ∀ (p : Fin 5000) (k : Fin 64), x1 (ix2 p k) = X (ix2 (⟨o + p.val, by omega⟩ : Fin 100000) k))
    (h2 : ∀ (k : Fin 64) (q : Fin 64), x2 (ix2 k q) = Wl (ix2 k q))
    (h3 : ∀ (k : Fin 64) (q : Fin 64), x3 (ix2 k q) = Wr (ix2 k q))
    (h4 : ∀ q : Fin 64, x4 (ix2 (0 : Fin 1) q) = B (ix2 (0 : Fin 1) q))
    (p : Fin 5000) (q : Fin 64) :
    k2_pay1 (F := Ideal) x0 x1 x2 x3 x4 (ix2 p q) = Cert.Gnn.convK A X Wl Wr B (⟨o + p.val, by omega⟩ : Fin 100000) q := by
  rw [stored_entry2]
  unfold Cert.Gnn.convK
  simp only [h0, h1, h2, h3, h4]

/-! ## The blocks of a point -/

variable (V : (c : Dev nD) → (b : Ref sig .tc) → Buf (Elt Ideal) ((c : Thread nD τ).loc b))

theorem zero_offsets2 : (![0, 0] : Fin 2 → Nat) = fun _ => 0 := funext fun a => by fin_cases a <;> rfl

/-- The index maps over the grid: the two operands and the output move together, one block of rows per point; the weights
    and the bias stay. -/
theorem index_maps2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The first operand's block at point t is rows 5000·t … of its array. -/
theorem first_block2 (c : Dev nD) (t : Fin cfg2.N) (p : Fin 5000) (k : Fin 64) (r : Fin 100000) (hr : r.val = t.val * 5000 + p.val) :
    (iblk2 V c 0 t : Vec Ideal S5000x64 .f32) (ix2 p k) = (V c main_v99 : S100000x64.Idx → EReal) (ix2 r k) := by
  obtain ⟨e0, e1, -⟩ := index_maps2 t
  unfold iblk2
  rw [View.read_apply]
  show V c main_v99 _ = V c main_v99 _
  refine congrArg (V c main_v99) (funext fun a => Fin.ext ?_)
  match a with
  | ⟨0, _⟩ => show win2_0.index t (0 : Fin 2) * 5000 + 1 * p.val = r.val; omega
  | ⟨1, _⟩ => show win2_0.index t (1 : Fin 2) * 64 + 1 * k.val = k.val; omega

/-- The second operand's block at point t is the same rows of its array. -/
theorem second_block2 (c : Dev nD) (t : Fin cfg2.N) (p : Fin 5000) (k : Fin 64) (r : Fin 100000) (hr : r.val = t.val * 5000 + p.val) :
    (iblk2 V c 1 t : Vec Ideal S5000x64 .f32) (ix2 p k) = (V c main_v77 : S100000x64.Idx → EReal) (ix2 r k) := by
  obtain ⟨-, -, e0, e1, -⟩ := index_maps2 t
  unfold iblk2
  rw [View.read_apply]
  show V c main_v77 _ = V c main_v77 _
  refine congrArg (V c main_v77) (funext fun a => Fin.ext ?_)
  match a with
  | ⟨0, _⟩ => show win2_1.index t (0 : Fin 2) * 5000 + 1 * p.val = r.val; omega
  | ⟨1, _⟩ => show win2_1.index t (1 : Fin 2) * 64 + 1 * k.val = k.val; omega

/-- The first weights' block is the whole array, at every point. -/
theorem first_weights2 (c : Dev nD) (t : Fin cfg2.N) (k : Fin 64) (q : Fin 64) :
    (iblk2 V c 2 t : Vec Ideal S64x64 .f32) (ix2 k q) = (V c main_v100 : S64x64.Idx → EReal) (ix2 k q) := by
  obtain ⟨-, -, -, -, e0, e1, -⟩ := index_maps2 t
  unfold iblk2
  rw [View.read_apply]
  show V c main_v100 _ = V c main_v100 _
  refine congrArg (V c main_v100) (funext fun a => Fin.ext ?_)
  match a with
  | ⟨0, _⟩ => show win2_2.index t (0 : Fin 2) * 64 + 1 * k.val = k.val; omega
  | ⟨1, _⟩ => show win2_2.index t (1 : Fin 2) * 64 + 1 * q.val = q.val; omega

/-- So is the second weights'. -/
theorem second_weights2 (c : Dev nD) (t : Fin cfg2.N) (k : Fin 64) (q : Fin 64) :
    (iblk2 V c 3 t : Vec Ideal S64x64 .f32) (ix2 k q) = (V c main_v101 : S64x64.Idx → EReal) (ix2 k q) := by
  obtain ⟨-, -, -, -, -, -, e0, e1, -⟩ := index_maps2 t
  unfold iblk2
  rw [View.read_apply]
  show V c main_v101 _ = V c main_v101 _
  refine congrArg (V c main_v101) (funext fun a => Fin.ext ?_)
  match a with
  | ⟨0, _⟩ => show win2_3.index t (0 : Fin 2) * 64 + 1 * k.val = k.val; omega
  | ⟨1, _⟩ => show win2_3.index t (1 : Fin 2) * 64 + 1 * q.val = q.val; omega

/-- And the bias row's. -/
theorem bias_block2 (c : Dev nD) (t : Fin cfg2.N) (q : Fin 64) :
    (iblk2 V c 4 t : Vec Ideal S1x64 .f32) (ix2 (0 : Fin 1) q) = (V c main_v102 : S1x64.Idx → EReal) (ix2 (0 : Fin 1) q) := by
  obtain ⟨-, -, -, -, -, -, -, -, e0, e1, -⟩ := index_maps2 t
  unfold iblk2
  rw [View.read_apply]
  show V c main_v102 _ = V c main_v102 _
  refine congrArg (V c main_v102) (funext fun a => Fin.ext ?_)
  match a with
  | ⟨0, _⟩ => show win2_4.index t (0 : Fin 2) * 1 + 1 * 0 = 0; omega
  | ⟨1, _⟩ => show win2_4.index t (1 : Fin 2) * 64 + 1 * q.val = q.val; omega

/-! ## From the blocks to the array -/

/-- The stage's result: the convolution of the arrays the stage finds, entry by entry. -/
abbrev conv2 (c : Dev nD) : S100000x64.Idx → EReal :=
  fun i : S100000x64.Idx => Cert.Gnn.convK (V c main_v99) (V c main_v77) (V c main_v100) (V c main_v101) (V c main_v102) (i 0) (i 1)

set_option maxHeartbeats 400000 in
/-- What point t writes back is its rows of the convolution. -/
theorem written_back2 (c : Dev nD) (t : Fin cfg2.N) :
    (dat2 (F := Ideal) V c).flushed 5 t = ((cfg2.win 5).blk t).view.read (Elt Ideal) (conv2 V c) := by
  show (cfg2.win 5).cut (grid2.coords t) ((dat2 V c).after 5 t) = _
  rw [after2_5]
  unfold out2_5
  rw [View.canon_unit_zero zero_offsets2]
  simp only [View.ld_unit_zero (S := S5000x64) zero_offsets2, View.ld_unit_zero (S := S64x64) zero_offsets2, View.ld_unit_zero (S := S1x64) zero_offsets2]
  have hN : cfg2.N = 20 := N_2
  have ht : t.val < 20 := hN ▸ t.isLt
  obtain ⟨-, -, -, -, -, -, -, -, -, -, e0, e1⟩ := index_maps2 t
  funext j
  have hj0 : (j 0).val < 5000 := (j 0).isLt
  have hj1 : (j 1).val < 64 := (j 1).isLt
  have hin : (cfg2.win 5).xinj (grid2.coords t) j = ix2 (⟨(j 0).val, hj0⟩ : Fin 5000) (⟨(j 1).val, hj1⟩ : Fin 64) :=
    funext fun a => by match a with | ⟨0, _⟩ => rfl | ⟨1, _⟩ => rfl
  have hout : ((cfg2.win 5).blk t).view.emb j
      = ix2 (⟨t.val * 5000 + (j 0).val, by omega⟩ : Fin 100000) (⟨(j 1).val, hj1⟩ : Fin 64) :=
    funext fun a => Fin.ext (by
      match a with
      | ⟨0, _⟩ => show win2_5.index t (0 : Fin 2) * 5000 + 1 * (j 0).val = t.val * 5000 + (j 0).val; omega
      | ⟨1, _⟩ => show win2_5.index t (1 : Fin 2) * 64 + 1 * (j 1).val = (j 1).val; omega)
  show k2_pay1 (F := Ideal) (iblk2 V c 0 t) (iblk2 V c 1 t) (iblk2 V c 2 t) (iblk2 V c 3 t) (iblk2 V c 4 t)
      ((cfg2.win 5).xinj (grid2.coords t) j) = conv2 V c (((cfg2.win 5).blk t).view.emb j)
  rw [hin, hout]
  exact stored_rows2 (t.val * 5000) (by omega) (iblk2 V c 0 t) (iblk2 V c 1 t) (iblk2 V c 2 t) (iblk2 V c 3 t) (iblk2 V c 4 t)
    (V c main_v99) (V c main_v77) (V c main_v100) (V c main_v101) (V c main_v102)
    (fun p k => first_block2 V c t p k _ rfl) (fun p k => second_block2 V c t p k _ rfl)
    (fun k q => first_weights2 V c t k q) (fun k q => second_weights2 V c t k q) (fun q => bias_block2 V c t q)
    ⟨(j 0).val, hj0⟩ ⟨(j 1).val, hj1⟩

/-- An index of the result is in point t's block iff each coordinate is in the block's range on its axis. -/
theorem mem_rows2 (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v103).slice (win2_5.rect t)).set ↔ _
  rw [View.set_slice_whole, Rect.mem_set_unit]
  exact Iff.rfl

/-- Every row is in the block of the point its quotient by 5000 names. -/
theorem rows_covered2 (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, -, -, -, -, -, -, e0, e1⟩ := index_maps2 t
  refine ⟨t, flush2_5 t, ?_⟩
  rw [mem_rows2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-- The result array after the stage is the convolution of the arrays the stage found. -/
theorem final2 (c : Dev nD) :
    (dat2 (F := Ideal) V c).arrAt 5 cfg2.N
      = fun i : S100000x64.Idx => Cert.Gnn.convK (V c main_v99) (V c main_v77) (V c main_v100) (V c main_v101) (V c main_v102) (i 0) (i 1) :=
  (dat2 (F := Ideal) V c).arrAt_eq_of_cover 5 (conv2 V c) (fun t _ => written_back2 V c t) rows_covered2

end Cert.KernelIdeal.ConvValue

end
-- ==== Proof.ConvRegion4.lean ====
/-
  The value of one convolution stage of the kernel program, as one function of the stage's input arrays.

  The stage walks the rows of its two [100000, 64] operands in 20 blocks of 5000 rows; the two [64, 64] weight arrays
  and the [1, 64] bias row are the same block at every point.  At a point the body stores, at entry (p, q) of its
  [5000, 64] block, the row p of the first operand against column q of the first weights, plus the row p of the second
  operand against column q of the second weights, plus the bias of column q: a product accumulated into the zero array
  is the plain sum over the contracted axis, and the narrowing of the operands changes nothing on the extended reals.

  Point t's block of the operands is rows 5000·t … 5000·t + 4999 of the arrays, and its output block the same rows of the
  result; so what point t writes back is the same rows of the whole-array function  (r, q) ↦ convK … r q, the 20 blocks
  cover the 100000 rows (row r is in block r / 5000), and the result array ends holding that function.
-/
import proofs.«152839_j85684597555422_1_alg».proof.Proof.Gen.KernelIdeal.Frame
import proofs.«152839_j85684597555422_1_alg».proof.Proof.GnnSpec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.ConvValue

open Cert.KernelIdeal Cert.KernelIdeal.Gen Idealize.ShloMosaic Idealize.ShloMosaic.TcCoe Idealize.ShloMosaic.ValueIdx
open Idealize.SL.Sem
open Idealize.ShloMosaic.Pipeline (Dat)

/-! ## The stored value at an entry -/

/-- The contraction's record: rows of the left operand against columns of the right. -/
abbrev dims4 : DotDims S5000x64 S64x64 S5000x64 := dot_S5000x64_S64x64_S5000x64_1_0_0_1_n_n

/-- The left operand is read in the output's row … -/
theorem lhs_row4 (i : S5000x64.Idx) (k : dims4.contr.Idx) : (dims4.lhsIdx i k 0).val = (i 0).val := by
  unfold DotDims.lhsIdx
  rw [dif_neg (show ¬(0 : Fin S5000x64.rank) ∈ dims4.lhsBatch by decide), dif_pos (show (0 : Fin S5000x64.rank) ∈ dims4.lhsNonContracting by decide)]
  rfl

/-- … and the right operand in the output's column. -/
theorem rhs_col4 (i : S5000x64.Idx) (k : dims4.contr.Idx) : (dims4.rhsIdx i k 1).val = (i 1).val := by
  unfold DotDims.rhsIdx
  rw [dif_neg (show ¬(1 : Fin S64x64.rank) ∈ dims4.rhsBatch by decide), dif_pos (show (1 : Fin S64x64.rank) ∈ dims4.rhsNonContracting by decide)]
  rfl

set_option maxHeartbeats 400000 in
/-- A product accumulated into the zero array, read at an entry: the row against the column. -/
theorem matmul_entry4 (a : FVec Ideal S5000x64 .bf16) (b : FVec Ideal S64x64 .bf16) (p : Fin 5000) (q : Fin 64) :
    matmul dims4 none a b (constant (F := Ideal) S5000x64 .f32 0x00000000#32) (ix2 p q)
      = ∑ k : Fin 64, a (ix2 p k) * b (ix2 k q) := by
  refine (Ideal.matmul_constant_zero_apply dims4 none a b (ix2 p q)).trans ?_
  rw [← Equiv.sum_comp (contrEquiv1 dims4 64 rfl rfl).symm]
  refine Finset.sum_congr rfl fun k _ => ?_
  have hk := contrEquiv1_symm_val dims4 64 rfl rfl k
  have el : dims4.lhsIdx (ix2 p q) ((contrEquiv1 dims4 64 rfl rfl).symm k) = ix2 p k := funext fun a => Fin.ext (by
    match a with
    | ⟨0, _⟩ => exact lhs_row4 _ _
    | ⟨1, _⟩ => exact (dims4.lhsIdx_val_of_single rfl _ _).trans hk)
  have er : dims4.rhsIdx (ix2 p q) ((contrEquiv1 dims4 64 rfl rfl).symm k) = ix2 k q := funext fun a => Fin.ext (by
    match a with
    | ⟨0, _⟩ => exact (dims4.rhsIdx_val_of_single rfl _ _).trans hk
    | ⟨1, _⟩ => exact rhs_col4 _ _)
  rw [el, er]

set_option maxHeartbeats 400000 in
/-- The stored value at an entry: the two rows against the two weight columns, and the bias of the column. -/
theorem stored_entry4 (x0 x1 : Vec Ideal S5000x64 .f32) (x2 x3 : Vec Ideal S64x64 .f32) (x4 : Vec Ideal S1x64 .f32)
    (p : Fin 5000) (q : Fin 64) :
    k4_pay1 (F := Ideal) x0 x1 x2 x3 x4 (ix2 p q)
      = (∑ k : Fin 64, x0 (ix2 p k) * x2 (ix2 k q) + ∑ k : Fin 64, x1 (ix2 p k) * x3 (ix2 k q)) + x4 (ix2 (0 : Fin 1) q) := by
  unfold k4_pay1
  simp only [shapeCast_self]
  have hb : broadcastTo S5000x64 x4 broadcasts_S1x64_S5000x64 (ix2 p q) = x4 (ix2 (0 : Fin 1) q) :=
    broadcastTo_apply x4 broadcasts_S1x64_S5000x64 (ix2 p q) (ix2 (0 : Fin 1) q) (fun a => by
      match a with
      | ⟨0, _⟩ => rfl
      | ⟨1, _⟩ => rfl)
  show (matmul dims4 none (truncf .bf16 x0 bitsLt_bf16_f32) (truncf .bf16 x2 bitsLt_bf16_f32) (constant (F := Ideal) S5000x64 .f32 0x00000000#32) (ix2 p q)
      + matmul dims4 none (truncf .bf16 x1 bitsLt_bf16_f32) (truncf .bf16 x3 bitsLt_bf16_f32) (constant (F := Ideal) S5000x64 .f32 0x00000000#32) (ix2 p q))
      + broadcastTo S5000x64 x4 broadcasts_S1x64_S5000x64 (ix2 p q) = _
  rw [matmul_entry4, matmul_entry4, hb]
  rfl

/-- A block whose operand blocks are rows o … o + 4999 of the arrays, and whose weights and bias are the arrays', stores
    the same rows of the convolution. -/
theorem stored_rows4 (o : ℕ) (ho : o + 5000 ≤ 100000)
    (x0 x1 : Vec Ideal S5000x64 .f32) (x2 x3 : Vec Ideal S64x64 .f32) (x4 : Vec Ideal S1x64 .f32)
    (A X : S100000x64.Idx → EReal) (Wl Wr : S64x64.Idx → EReal) (B : S1x64.Idx → EReal)
    (h0 : ∀ (p : Fin 5000) (k : Fin 64), x0 (ix2 p k) = A (ix2 (⟨o + p.val, by omega⟩ : Fin 100000) k))
    (h1 : ∀ (p : Fin 5000) (k : Fin 64), x1 (ix2 p k) = X (ix2 (⟨o + p.val, by omega⟩ : Fin 100000) k))
    (h2 : ∀ (k : Fin 64) (q : Fin 64), x2 (ix2 k q) = Wl (ix2 k q))
    (h3 : ∀ (k : Fin 64) (q : Fin 64), x3 (ix2 k q) = Wr (ix2 k q))
    (h4 : ∀ q : Fin 64, x4 (ix2 (0 : Fin 1) q) = B (ix2 (0 : Fin 1) q))
    (p : Fin 5000) (q : Fin 64) :
    k4_pay1 (F := Ideal) x0 x1 x2 x3 x4 (ix2 p q) = Cert.Gnn.convK A X Wl Wr B (⟨o + p.val, by omega⟩ : Fin 100000) q := by
  rw [stored_entry4]
  unfold Cert.Gnn.convK
  simp only [h0, h1, h2, h3, h4]

/-! ## The blocks of a point -/

variable (V : (c : Dev nD) → (b : Ref sig .tc) → Buf (Elt Ideal) ((c : Thread nD τ).loc b))

theorem zero_offsets4 : (![0, 0] : Fin 2 → Nat) = fun _ => 0 := funext fun a => by fin_cases a <;> rfl

/-- The index maps over the grid: the two operands and the output move together, one block of rows per point; the weights
    and the bias stay. -/
theorem index_maps4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- The first operand's block at point t is rows 5000·t … of its array. -/
theorem first_block4 (c : Dev nD) (t : Fin cfg4.N) (p : Fin 5000) (k : Fin 64) (r : Fin 100000) (hr : r.val = t.val * 5000 + p.val) :
    (iblk4 V c 0 t : Vec Ideal S5000x64 .f32) (ix2 p k) = (V c main_v177 : S100000x64.Idx → EReal) (ix2 r k) := by
  obtain ⟨e0, e1, -⟩ := index_maps4 t
  unfold iblk4
  rw [View.read_apply]
  show V c main_v177 _ = V c main_v177 _
  refine congrArg (V c main_v177) (funext fun a => Fin.ext ?_)
  match a with
  | ⟨0, _⟩ => show win4_0.index t (0 : Fin 2) * 5000 + 1 * p.val = r.val; omega
  | ⟨1, _⟩ => show win4_0.index t (1 : Fin 2) * 64 + 1 * k.val = k.val; omega

/-- The second operand's block at point t is the same rows of its array. -/
theorem second_block4 (c : Dev nD) (t : Fin cfg4.N) (p : Fin 5000) (k : Fin 64) (r : Fin 100000) (hr : r.val = t.val * 5000 + p.val) :
    (iblk4 V c 1 t : Vec Ideal S5000x64 .f32) (ix2 p k) = (V c main_v155 : S100000x64.Idx → EReal) (ix2 r k) := by
  obtain ⟨-, -, e0, e1, -⟩ := index_maps4 t
  unfold iblk4
  rw [View.read_apply]
  show V c main_v155 _ = V c main_v155 _
  refine congrArg (V c main_v155) (funext fun a => Fin.ext ?_)
  match a with
  | ⟨0, _⟩ => show win4_1.index t (0 : Fin 2) * 5000 + 1 * p.val = r.val; omega
  | ⟨1, _⟩ => show win4_1.index t (1 : Fin 2) * 64 + 1 * k.val = k.val; omega

/-- The first weights' block is the whole array, at every point. -/
theorem first_weights4 (c : Dev nD) (t : Fin cfg4.N) (k : Fin 64) (q : Fin 64) :
    (iblk4 V c 2 t : Vec Ideal S64x64 .f32) (ix2 k q) = (V c main_v178 : S64x64.Idx → EReal) (ix2 k q) := by
  obtain ⟨-, -, -, -, e0, e1, -⟩ := index_maps4 t
  unfold iblk4
  rw [View.read_apply]
  show V c main_v178 _ = V c main_v178 _
  refine congrArg (V c main_v178) (funext fun a => Fin.ext ?_)
  match a with
  | ⟨0, _⟩ => show win4_2.index t (0 : Fin 2) * 64 + 1 * k.val = k.val; omega
  | ⟨1, _⟩ => show win4_2.index t (1 : Fin 2) * 64 + 1 * q.val = q.val; omega

/-- So is the second weights'. -/
theorem second_weights4 (c : Dev nD) (t : Fin cfg4.N) (k : Fin 64) (q : Fin 64) :
    (iblk4 V c 3 t : Vec Ideal S64x64 .f32) (ix2 k q) = (V c main_v179 : S64x64.Idx → EReal) (ix2 k q) := by
  obtain ⟨-, -, -, -, -, -, e0, e1, -⟩ := index_maps4 t
  unfold iblk4
  rw [View.read_apply]
  show V c main_v179 _ = V c main_v179 _
  refine congrArg (V c main_v179) (funext fun a => Fin.ext ?_)
  match a with
  | ⟨0, _⟩ => show win4_3.index t (0 : Fin 2) * 64 + 1 * k.val = k.val; omega
  | ⟨1, _⟩ => show win4_3.index t (1 : Fin 2) * 64 + 1 * q.val = q.val; omega

/-- And the bias row's. -/
theorem bias_block4 (c : Dev nD) (t : Fin cfg4.N) (q : Fin 64) :
    (iblk4 V c 4 t : Vec Ideal S1x64 .f32) (ix2 (0 : Fin 1) q) = (V c main_v180 : S1x64.Idx → EReal) (ix2 (0 : Fin 1) q) := by
  obtain ⟨-, -, -, -, -, -, -, -, e0, e1, -⟩ := index_maps4 t
  unfold iblk4
  rw [View.read_apply]
  show V c main_v180 _ = V c main_v180 _
  refine congrArg (V c main_v180) (funext fun a => Fin.ext ?_)
  match a with
  | ⟨0, _⟩ => show win4_4.index t (0 : Fin 2) * 1 + 1 * 0 = 0; omega
  | ⟨1, _⟩ => show win4_4.index t (1 : Fin 2) * 64 + 1 * q.val = q.val; omega

/-! ## From the blocks to the array -/

/-- The stage's result: the convolution of the arrays the stage finds, entry by entry. -/
abbrev conv4 (c : Dev nD) : S100000x64.Idx → EReal :=
  fun i : S100000x64.Idx => Cert.Gnn.convK (V c main_v177) (V c main_v155) (V c main_v178) (V c main_v179) (V c main_v180) (i 0) (i 1)

set_option maxHeartbeats 400000 in
/-- What point t writes back is its rows of the convolution. -/
theorem written_back4 (c : Dev nD) (t : Fin cfg4.N) :
    (dat4 (F := Ideal) V c).flushed 5 t = ((cfg4.win 5).blk t).view.read (Elt Ideal) (conv4 V c) := by
  show (cfg4.win 5).cut (grid4.coords t) ((dat4 V c).after 5 t) = _
  rw [after4_5]
  unfold out4_5
  rw [View.canon_unit_zero zero_offsets4]
  simp only [View.ld_unit_zero (S := S5000x64) zero_offsets4, View.ld_unit_zero (S := S64x64) zero_offsets4, View.ld_unit_zero (S := S1x64) zero_offsets4]
  have hN : cfg4.N = 20 := N_4
  have ht : t.val < 20 := hN ▸ t.isLt
  obtain ⟨-, -, -, -, -, -, -, -, -, -, e0, e1⟩ := index_maps4 t
  funext j
  have hj0 : (j 0).val < 5000 := (j 0).isLt
  have hj1 : (j 1).val < 64 := (j 1).isLt
  have hin : (cfg4.win 5).xinj (grid4.coords t) j = ix2 (⟨(j 0).val, hj0⟩ : Fin 5000) (⟨(j 1).val, hj1⟩ : Fin 64) :=
    funext fun a => by match a with | ⟨0, _⟩ => rfl | ⟨1, _⟩ => rfl
  have hout : ((cfg4.win 5).blk t).view.emb j
      = ix2 (⟨t.val * 5000 + (j 0).val, by omega⟩ : Fin 100000) (⟨(j 1).val, hj1⟩ : Fin 64) :=
    funext fun a => Fin.ext (by
      match a with
      | ⟨0, _⟩ => show win4_5.index t (0 : Fin 2) * 5000 + 1 * (j 0).val = t.val * 5000 + (j 0).val; omega
      | ⟨1, _⟩ => show win4_5.index t (1 : Fin 2) * 64 + 1 * (j 1).val = (j 1).val; omega)
  show k4_pay1 (F := Ideal) (iblk4 V c 0 t) (iblk4 V c 1 t) (iblk4 V c 2 t) (iblk4 V c 3 t) (iblk4 V c 4 t)
      ((cfg4.win 5).xinj (grid4.coords t) j) = conv4 V c (((cfg4.win 5).blk t).view.emb j)
  rw [hin, hout]
  exact stored_rows4 (t.val * 5000) (by omega) (iblk4 V c 0 t) (iblk4 V c 1 t) (iblk4 V c 2 t) (iblk4 V c 3 t) (iblk4 V c 4 t)
    (V c main_v177) (V c main_v155) (V c main_v178) (V c main_v179) (V c main_v180)
    (fun p k => first_block4 V c t p k _ rfl) (fun p k => second_block4 V c t p k _ rfl)
    (fun k q => first_weights4 V c t k q) (fun k q => second_weights4 V c t k q) (fun q => bias_block4 V c t q)
    ⟨(j 0).val, hj0⟩ ⟨(j 1).val, hj1⟩

/-- An index of the result is in point t's block iff each coordinate is in the block's range on its axis. -/
theorem mem_rows4 (t : Fin cfg4.N) (i : S100000x64.Idx) :
    i ∈ ((cfg4.win 5).blk t).view.set ↔ ∀ a : Fin 2, win4_5.index t a * S5000x64.size a ≤ (i a).val ∧ (i a).val < win4_5.index t a * S5000x64.size a + S5000x64.size a := by
  show i ∈ ((View.whole main_v181).slice (win4_5.rect t)).set ↔ _
  rw [View.set_slice_whole, Rect.mem_set_unit]
  exact Iff.rfl

/-- Every row is in the block of the point its quotient by 5000 names. -/
theorem rows_covered4 (i : S100000x64.Idx) :
    ∃ t : Fin cfg4.N, (cfg4.win 5).flush t = true ∧ i ∈ ((cfg4.win 5).blk t).view.set := by
  have hi0 : (i 0).val < 100000 := (i 0).isLt
  have hi1 : (i 1).val < 64 := (i 1).isLt
  have hN : cfg4.N = 20 := N_4
  obtain ⟨t, ht⟩ : ∃ t : Fin cfg4.N, t.val = (i 0).val / 5000 := ⟨⟨(i 0).val / 5000, by rw [hN]; omega⟩, rfl⟩
  obtain ⟨-, -, -, -, -, -, -, -, -, -, e0, e1⟩ := index_maps4 t
  refine ⟨t, flush4_5 t, ?_⟩
  rw [mem_rows4]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 64 ≤ (i 1).val ∧ (i 1).val < win4_5.index t (1 : Fin 2) * 64 + 64; omega

/-- The result array after the stage is the convolution of the arrays the stage found. -/
theorem final4 (c : Dev nD) :
    (dat4 (F := Ideal) V c).arrAt 5 cfg4.N
      = fun i : S100000x64.Idx => Cert.Gnn.convK (V c main_v177) (V c main_v155) (V c main_v178) (V c main_v179) (V c main_v180) (i 0) (i 1) :=
  (dat4 (F := Ideal) V c).arrAt_eq_of_cover 5 (conv4 V c) (fun t _ => written_back4 V c t) rows_covered4

end Cert.KernelIdeal.ConvValue

end
-- ==== Proof.NormRegion1.lean ====
/-
  The first normalisation stage of the layer, read as ONE function of its input arrays.

  The stage walks the 100000 rows of its operands in 20 blocks of 5000 rows; at each block it reads the same rows of the
  convolution output and of the gathered mean and variance, and the one row of the scale, shift and mean-scale vectors, and
  writes back the same rows of the result.  Its body is pointwise: at row p and column q of a block it computes
  max (g q · (c p q − a q · m p q) · rsqrt (v p q + ε) + b q) 0.  Row p of block t is row 5000·t + p of the arrays and every
  row lies in the block ⌊row / 5000⌋, so the array the stage leaves is that expression of the input arrays at every index.
-/
import proofs.«152839_j85684597555422_1_alg».proof.Proof.Gen.KernelIdeal.Frame
import proofs.«152839_j85684597555422_1_alg».proof.Proof.GnnSpec
import Idealize.ShloMosaic.Lib.Pipeline.Value
import Idealize.ShloMosaic.Lib.ValueLayout

set_option maxRecDepth 16384

noncomputable section

namespace Cert.KernelIdeal.NormValue

open Cert.KernelIdeal Cert.KernelIdeal.Gen Idealize.ShloMosaic Idealize.ShloMosaic.TcCoe Idealize.ShloMosaic.ValueIdx Idealize.SL.Sem
open Idealize.ShloMosaic.Pipeline (Dat)

/-! ## The body at an index -/

/-- The body's value at row `p`, column `q` of a block: the normalisation entry of the three blocks' entries there and of the
    three row vectors' entries at column `q` (a row vector broadcast over the rows reads its one row; a cast between equal
    shapes changes nothing; the two scalar literals are the epsilon and zero). -/
theorem norm1_body_apply (x0 x1 x2 : Vec Ideal S5000x64 .f32) (x3 x4 x5 : Vec Ideal S1x64 .f32)
    (p : Fin 5000) (q : Fin 64) :
    k1_pay1 x0 x1 x2 x3 x4 x5 (ix2 p q)
      = Cert.Gnn.normElt (x0 (ix2 p q)) (x1 (ix2 p q)) (x2 (ix2 p q)) (x3 (ix2 (0 : Fin 1) q)) (x4 (ix2 (0 : Fin 1) q))
          (x5 (ix2 (0 : Fin 1) q)) := by
  unfold k1_pay1
  simp only [shapeCast_self]
  show max ((broadcastTo S5000x64 x3 broadcasts_S1x64_S5000x64 (ix2 p q)
        * (x0 (ix2 p q) - broadcastTo S5000x64 x5 broadcasts_S1x64_S5000x64 (ix2 p q) * x1 (ix2 p q)))
        * Ideal.rsqrt (x2 (ix2 p q) + Ideal.ofBits .f32 0x3727C5AC#32)
      + broadcastTo S5000x64 x4 broadcasts_S1x64_S5000x64 (ix2 p q)) (Ideal.ofBits .f32 0x00000000#32) = _
  rw [broadcastTo_1b_ab_apply x3, broadcastTo_1b_ab_apply x5, broadcastTo_1b_ab_apply x4, Ideal.ofBits_zero_f32]
  rfl

/-- The same at any index `y` of the block, the column being `y`'s second coordinate. -/
theorem norm1_body_at (x0 x1 x2 : Vec Ideal S5000x64 .f32) (x3 x4 x5 : Vec Ideal S1x64 .f32)
    (y : S5000x64.Idx) :
    k1_pay1 x0 x1 x2 x3 x4 x5 y
      = Cert.Gnn.normElt (x0 y) (x1 y) (x2 y) (x3 (ix2 (0 : Fin 1) (y 1))) (x4 (ix2 (0 : Fin 1) (y 1)))
          (x5 (ix2 (0 : Fin 1) (y 1))) := by
  obtain ⟨p, q, rfl⟩ : ∃ (p : Fin 5000) (q : Fin 64), y = ix2 p q := ⟨y 0, y 1, eq_ix2 y⟩
  exact norm1_body_apply x0 x1 x2 x3 x4 x5 p q

/-- Equal arguments give equal entries. -/
theorem norm1_entry_congr {c c' m m' v v' g g' b b' a a' : EReal} (hc : c = c') (hm : m = m') (hv : v = v') (hg : g = g') (hb : b = b') (ha : a = a') :
    Cert.Gnn.normElt c m v g b a = Cert.Gnn.normElt c' m' v' g' b' a' := by
  subst hc hm hv hg hb ha; rfl

/-! ## The blocks of the grid -/

theorem norm1_zeroOffsets : (![0, 0] : Fin 2 → Nat) = fun _ => 0 := funext fun a => by fin_cases a <;> rfl

/-- Where each window's block sits at grid point `t`, decided over the 20 points: the row-blocked windows at block row
    `t`, column block 0; the three row vectors always at their only block. -/
theorem norm1_blockIndices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- An index of the result array is in point `t`'s block iff each coordinate is in the block's range on its axis. -/
theorem norm1_mem_outBlock (t : Fin cfg1.N) (i : S100000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v77).slice (win1_6.rect t)).set ↔ _
  rw [View.set_slice_whole, Rect.mem_set_unit]
  exact Iff.rfl

/-- Every index of the result array is in the block of the point `⌊row / 5000⌋`, which writes back. -/
theorem norm1_rows_covered (i : S100000x64.Idx) :
    ∃ t : Fin cfg1.N, (cfg1.win 6).flush t = true ∧ i ∈ ((cfg1.win 6).blk t).view.set := by
  have hi0 : (i 0).val < 100000 := idx2_lt0 i
  have hi1 : (i 1).val < 64 := idx2_lt1 i
  have hN : cfg1.N = 20 := N_1
  have ht : (i 0).val / 5000 < cfg1.N := by rw [hN]; omega
  obtain ⟨-, -, -, -, -, -, -, -, -, -, -, -, e0, e1⟩ := norm1_blockIndices ⟨(i 0).val / 5000, ht⟩
  have e0' : win1_6.index ⟨(i 0).val / 5000, ht⟩ (0 : Fin 2) = (i 0).val / 5000 := e0
  refine ⟨⟨(i 0).val / 5000, ht⟩, flush1_6 _, ?_⟩
  rw [norm1_mem_outBlock]
  intro a
  match a with
  | ⟨0, _⟩ =>
    show win1_6.index ⟨(i 0).val / 5000, ht⟩ (0 : Fin 2) * 5000 ≤ (i 0).val
      ∧ (i 0).val < win1_6.index ⟨(i 0).val / 5000, ht⟩ (0 : Fin 2) * 5000 + 5000
    rw [e0']; omega
  | ⟨1, _⟩ =>
    show win1_6.index ⟨(i 0).val / 5000, ht⟩ (1 : Fin 2) * 64 ≤ (i 1).val
      ∧ (i 1).val < win1_6.index ⟨(i 0).val / 5000, ht⟩ (1 : Fin 2) * 64 + 64
    rw [e1]; omega

/-! ## Reading a block -/

/-- Window 0's block at point `t`, read at `y`, is its array at row `5000·t + y₀`, column `y₁`: a block's coordinate is
    block index × block size + the coordinate inside the block. -/
theorem norm1_read0 (A : S100000x64.Idx → EReal) (t : Fin cfg1.N) (y : S5000x64.Idx) (i : S100000x64.Idx)
    (hi0 : (i 0).val = 5000 * t.val + (y 0).val) (hi1 : (i 1).val = (y 1).val) :
    (((cfg1.win 0).blk t).view.read (Elt Ideal) A : Vec Ideal S5000x64 .f32) y = A i := by
  obtain ⟨er, ec⟩ : win1_0.index t (0 : Fin 2) = t.val ∧ win1_0.index t (1 : Fin 2) = 0 := by
    have h := norm1_blockIndices t; simp only [h, and_self]
  show A (((cfg1.win 0).blk t).view.emb y) = A i
  refine congrArg A ?_
  funext a; apply Fin.ext
  match a with
  | ⟨0, _⟩ => show win1_0.index t (0 : Fin 2) * 5000 + 1 * (y 0).val = (i 0).val; rw [er, hi0]; omega
  | ⟨1, _⟩ => show win1_0.index t (1 : Fin 2) * 64 + 1 * (y 1).val = (i 1).val; rw [ec, hi1]; omega

/-- Window 1's block at point `t`, read at `y`, is its array at row `5000·t + y₀`, column `y₁`: a block's coordinate is
    block index × block size + the coordinate inside the block. -/
theorem norm1_read1 (A : S100000x64.Idx → EReal) (t : Fin cfg1.N) (y : S5000x64.Idx) (i : S100000x64.Idx)
    (hi0 : (i 0).val = 5000 * t.val + (y 0).val) (hi1 : (i 1).val = (y 1).val) :
    (((cfg1.win 1).blk t).view.read (Elt Ideal) A : Vec Ideal S5000x64 .f32) y = A i := by
  obtain ⟨er, ec⟩ : win1_1.index t (0 : Fin 2) = t.val ∧ win1_1.index t (1 : Fin 2) = 0 := by
    have h := norm1_blockIndices t; simp only [h, and_self]
  show A (((cfg1.win 1).blk t).view.emb y) = A i
  refine congrArg A ?_
  funext a; apply Fin.ext
  match a with
  | ⟨0, _⟩ => show win1_1.index t (0 : Fin 2) * 5000 + 1 * (y 0).val = (i 0).val; rw [er, hi0]; omega
  | ⟨1, _⟩ => show win1_1.index t (1 : Fin 2) * 64 + 1 * (y 1).val = (i 1).val; rw [ec, hi1]; omega

/-- Window 2's block at point `t`, read at `y`, is its array at row `5000·t + y₀`, column `y₁`: a block's coordinate is
    block index × block size + the coordinate inside the block. -/
theorem norm1_read2 (A : S100000x64.Idx → EReal) (t : Fin cfg1.N) (y : S5000x64.Idx) (i : S100000x64.Idx)
    (hi0 : (i 0).val = 5000 * t.val + (y 0).val) (hi1 : (i 1).val = (y 1).val) :
    (((cfg1.win 2).blk t).view.read (Elt Ideal) A : Vec Ideal S5000x64 .f32) y = A i := by
  obtain ⟨er, ec⟩ : win1_2.index t (0 : Fin 2) = t.val ∧ win1_2.index t (1 : Fin 2) = 0 := by
    have h := norm1_blockIndices t; simp only [h, and_self]
  show A (((cfg1.win 2).blk t).view.emb y) = A i
  refine congrArg A ?_
  funext a; apply Fin.ext
  match a with
  | ⟨0, _⟩ => show win1_2.index t (0 : Fin 2) * 5000 + 1 * (y 0).val = (i 0).val; rw [er, hi0]; omega
  | ⟨1, _⟩ => show win1_2.index t (1 : Fin 2) * 64 + 1 * (y 1).val = (i 1).val; rw [ec, hi1]; omega

/-- Window 3's block at any point is the whole row vector. -/
theorem norm1_read3 (A : S1x64.Idx → EReal) (t : Fin cfg1.N) (q : Fin 64) :
    (((cfg1.win 3).blk t).view.read (Elt Ideal) A : Vec Ideal S1x64 .f32) (ix2 (0 : Fin 1) q) = A (ix2 (0 : Fin 1) q) := by
  obtain ⟨er, ec⟩ : win1_3.index t (0 : Fin 2) = 0 ∧ win1_3.index t (1 : Fin 2) = 0 := by
    have h := norm1_blockIndices t; simp only [h, and_self]
  show A (((cfg1.win 3).blk t).view.emb (ix2 (0 : Fin 1) q)) = A (ix2 (0 : Fin 1) q)
  refine congrArg A ?_
  funext a; apply Fin.ext
  match a with
  | ⟨0, _⟩ => show win1_3.index t (0 : Fin 2) * 1 + 1 * 0 = 0; rw [er]
  | ⟨1, _⟩ => show win1_3.index t (1 : Fin 2) * 64 + 1 * q.val = q.val; rw [ec]; omega

/-- Window 4's block at any point is the whole row vector. -/
theorem norm1_read4 (A : S1x64.Idx → EReal) (t : Fin cfg1.N) (q : Fin 64) :
    (((cfg1.win 4).blk t).view.read (Elt Ideal) A : Vec Ideal S1x64 .f32) (ix2 (0 : Fin 1) q) = A (ix2 (0 : Fin 1) q) := by
  obtain ⟨er, ec⟩ : win1_4.index t (0 : Fin 2) = 0 ∧ win1_4.index t (1 : Fin 2) = 0 := by
    have h := norm1_blockIndices t; simp only [h, and_self]
  show A (((cfg1.win 4).blk t).view.emb (ix2 (0 : Fin 1) q)) = A (ix2 (0 : Fin 1) q)
  refine congrArg A ?_
  funext a; apply Fin.ext
  match a with
  | ⟨0, _⟩ => show win1_4.index t (0 : Fin 2) * 1 + 1 * 0 = 0; rw [er]
  | ⟨1, _⟩ => show win1_4.index t (1 : Fin 2) * 64 + 1 * q.val = q.val; rw [ec]; omega

/-- Window 5's block at any point is the whole row vector. -/
theorem norm1_read5 (A : S1x64.Idx → EReal) (t : Fin cfg1.N) (q : Fin 64) :
    (((cfg1.win 5).blk t).view.read (Elt Ideal) A : Vec Ideal S1x64 .f32) (ix2 (0 : Fin 1) q) = A (ix2 (0 : Fin 1) q) := by
  obtain ⟨er, ec⟩ : win1_5.index t (0 : Fin 2) = 0 ∧ win1_5.index t (1 : Fin 2) = 0 := by
    have h := norm1_blockIndices t; simp only [h, and_self]
  show A (((cfg1.win 5).blk t).view.emb (ix2 (0 : Fin 1) q)) = A (ix2 (0 : Fin 1) q)
  refine congrArg A ?_
  funext a; apply Fin.ext
  match a with
  | ⟨0, _⟩ => show win1_5.index t (0 : Fin 2) * 1 + 1 * 0 = 0; rw [er]
  | ⟨1, _⟩ => show win1_5.index t (1 : Fin 2) * 64 + 1 * q.val = q.val; rw [ec]; omega

/-- Window 6's block at point `t`, read at `y`, is its array at row `5000·t + y₀`, column `y₁`: a block's coordinate is
    block index × block size + the coordinate inside the block. -/
theorem norm1_read6 (A : S100000x64.Idx → EReal) (t : Fin cfg1.N) (y : S5000x64.Idx) (i : S100000x64.Idx)
    (hi0 : (i 0).val = 5000 * t.val + (y 0).val) (hi1 : (i 1).val = (y 1).val) :
    (((cfg1.win 6).blk t).view.read (Elt Ideal) A : Vec Ideal S5000x64 .f32) y = A i := by
  obtain ⟨er, ec⟩ : win1_6.index t (0 : Fin 2) = t.val ∧ win1_6.index t (1 : Fin 2) = 0 := by
    have h := norm1_blockIndices t; simp only [h, and_self]
  show A (((cfg1.win 6).blk t).view.emb y) = A i
  refine congrArg A ?_
  funext a; apply Fin.ext
  match a with
  | ⟨0, _⟩ => show win1_6.index t (0 : Fin 2) * 5000 + 1 * (y 0).val = (i 0).val; rw [er, hi0]; omega
  | ⟨1, _⟩ => show win1_6.index t (1 : Fin 2) * 64 + 1 * (y 1).val = (i 1).val; rw [ec, hi1]; omega

/-! ## From the blocks to the array -/

variable (V : (c : Dev nD) → (b : Ref sig .tc) → Buf (Elt Ideal) ((c : Thread nD τ).loc b))

/-- What point `t` writes back is block `t` of the normalisation of the input arrays: the body's value at an index of
    the block is the entry of the input blocks' entries there, each input block's entry is its array's entry at the same
    row and column of the arrays, and so is the entry the result's block reads. -/
theorem norm1_block_written (c : Dev nD) (t : Fin cfg1.N) :
    (dat1 (F := Ideal) V c).flushed 6 t = ((cfg1.win 6).blk t).view.read (Elt Ideal)
      (fun i : S100000x64.Idx => Cert.Gnn.normElt (V c main_v25 i) (V c main_v66 i) (V c main_v73 i)
        (V c main_v74 (ix2 (0 : Fin 1) (i 1))) (V c main_v75 (ix2 (0 : Fin 1) (i 1)))
        (V c main_v76 (ix2 (0 : Fin 1) (i 1)))) := by
  show (cfg1.win 6).cut (grid1.coords t) ((dat1 V c).after 6 t) = _
  rw [after1_6]
  unfold out1_6
  rw [View.canon_unit_zero norm1_zeroOffsets]
  simp only [View.ld_unit_zero (S := S5000x64) norm1_zeroOffsets, View.ld_unit_zero (S := S1x64) norm1_zeroOffsets]
  show (k1_pay1 (iblk1 V c 0 t) (iblk1 V c 1 t) (iblk1 V c 2 t) (iblk1 V c 3 t) (iblk1 V c 4 t) (iblk1 V c 5 t) : Vec Ideal S5000x64 .f32) = _
  funext y
  have hy0 : (y 0).val < 5000 := idx2_lt0 y
  have ht : t.val < 20 := Nat.lt_of_lt_of_eq t.isLt N_1
  refine (norm1_body_at _ _ _ _ _ _ y).trans ?_
  refine Eq.trans ?_ (norm1_read6 _ t y (ix2 (⟨5000 * t.val + (y 0).val, by omega⟩ : Fin 100000) (y 1)) rfl rfl).symm
  exact norm1_entry_congr (norm1_read0 _ t y _ rfl rfl)
    (norm1_read1 _ t y _ rfl rfl)
    (norm1_read2 _ t y _ rfl rfl)
    (norm1_read3 _ t (y 1))
    (norm1_read4 _ t (y 1))
    (norm1_read5 _ t (y 1))

/-- THE ARRAY the stage leaves: the normalisation of its input arrays, index by index. -/
theorem final1 (c : Dev nD) :
    (dat1 (F := Ideal) V c).arrAt 6 cfg1.N
      = fun i : S100000x64.Idx => Cert.Gnn.normElt (V c main_v25 i) (V c main_v66 i) (V c main_v73 i)
        (V c main_v74 (ix2 (0 : Fin 1) (i 1))) (V c main_v75 (ix2 (0 : Fin 1) (i 1)))
        (V c main_v76 (ix2 (0 : Fin 1) (i 1))) :=
  (dat1 (F := Ideal) V c).arrAt_eq_of_cover 6 _ (fun t _ => norm1_block_written V c t) norm1_rows_covered

end Cert.KernelIdeal.NormValue

end
-- ==== Proof.NormRegion3.lean ====
/-
  The second normalisation stage of the layer (the first of the two that add a residual), read as ONE function of its
  input arrays.

  The stage walks the 100000 rows of its operands in 20 blocks of 5000 rows; at each block it reads the same rows of the
  convolution output, of the gathered mean and variance and of the residual, and the one row of the scale, shift and
  mean-scale vectors, and writes back the same rows of the result.  Its body is pointwise: at row p and column q of a block
  it computes  max (g q · (c p q − a q · m p q) · rsqrt (v p q + ε) + b q + r p q) 0.  Row p of block t is row 5000·t + p of the
  arrays and every row lies in the block ⌊row / 5000⌋, so the array the stage leaves is that expression of the input arrays
  at every index.
-/
import proofs.«152839_j85684597555422_1_alg».proof.Proof.Gen.KernelIdeal.Frame
import proofs.«152839_j85684597555422_1_alg».proof.Proof.GnnSpec
import Idealize.ShloMosaic.Lib.Pipeline.Value
import Idealize.ShloMosaic.Lib.ValueLayout

set_option maxRecDepth 16384

noncomputable section

namespace Cert.KernelIdeal.NormValue

open Cert.KernelIdeal Cert.KernelIdeal.Gen Idealize.ShloMosaic Idealize.ShloMosaic.TcCoe Idealize.ShloMosaic.ValueIdx Idealize.SL.Sem
open Idealize.ShloMosaic.Pipeline (Dat)

/-! ## The body at an index -/

/-- The body's value at row `p`, column `q` of a block: the normalisation entry of the four blocks' entries there and of the
    three row vectors' entries at column `q` (a row vector broadcast over the rows reads its one row; a cast between equal
    shapes changes nothing; the two scalar literals are the epsilon and zero). -/
theorem norm3_body_apply (x0 x1 x2 : Vec Ideal S5000x64 .f32) (x3 x4 x5 : Vec Ideal S1x64 .f32) (x6 : Vec Ideal S5000x64 .f32)
    (p : Fin 5000) (q : Fin 64) :
    k3_pay1 x0 x1 x2 x3 x4 x5 x6 (ix2 p q)
      = Cert.Gnn.normResElt (x0 (ix2 p q)) (x1 (ix2 p q)) (x2 (ix2 p q)) (x3 (ix2 (0 : Fin 1) q)) (x4 (ix2 (0 : Fin 1) q))
          (x5 (ix2 (0 : Fin 1) q)) (x6 (ix2 p q)) := by
  unfold k3_pay1
  simp only [shapeCast_self]
  show max ((broadcastTo S5000x64 x3 broadcasts_S1x64_S5000x64 (ix2 p q)
        * (x0 (ix2 p q) - broadcastTo S5000x64 x5 broadcasts_S1x64_S5000x64 (ix2 p q) * x1 (ix2 p q)))
        * Ideal.rsqrt (x2 (ix2 p q) + Ideal.ofBits .f32 0x3727C5AC#32)
      + broadcastTo S5000x64 x4 broadcasts_S1x64_S5000x64 (ix2 p q) + x6 (ix2 p q)) (Ideal.ofBits .f32 0x00000000#32) = _
  rw [broadcastTo_1b_ab_apply x3, broadcastTo_1b_ab_apply x5, broadcastTo_1b_ab_apply x4, Ideal.ofBits_zero_f32]
  rfl

/-- The same at any index `y` of the block, the column being `y`'s second coordinate. -/
theorem norm3_body_at (x0 x1 x2 : Vec Ideal S5000x64 .f32) (x3 x4 x5 : Vec Ideal S1x64 .f32) (x6 : Vec Ideal S5000x64 .f32)
    (y : S5000x64.Idx) :
    k3_pay1 x0 x1 x2 x3 x4 x5 x6 y
      = Cert.Gnn.normResElt (x0 y) (x1 y) (x2 y) (x3 (ix2 (0 : Fin 1) (y 1))) (x4 (ix2 (0 : Fin 1) (y 1)))
          (x5 (ix2 (0 : Fin 1) (y 1))) (x6 y) := by
  obtain ⟨p, q, rfl⟩ : ∃ (p : Fin 5000) (q : Fin 64), y = ix2 p q := ⟨y 0, y 1, eq_ix2 y⟩
  exact norm3_body_apply x0 x1 x2 x3 x4 x5 x6 p q

/-- Equal arguments give equal entries. -/
theorem norm3_entry_congr {c c' m m' v v' g g' b b' a a' r r' : EReal} (hc : c = c') (hm : m = m') (hv : v = v') (hg : g = g') (hb : b = b') (ha : a = a') (hr : r = r') :
    Cert.Gnn.normResElt c m v g b a r = Cert.Gnn.normResElt c' m' v' g' b' a' r' := by
  subst hc hm hv hg hb ha hr; rfl

/-! ## The blocks of the grid -/

theorem norm3_zeroOffsets : (![0, 0] : Fin 2 → Nat) = fun _ => 0 := funext fun a => by fin_cases a <;> rfl

/-- Where each window's block sits at grid point `t`, decided over the 20 points: the row-blocked windows at block row
    `t`, column block 0; the three row vectors always at their only block. -/
theorem norm3_blockIndices : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0
    ∧ win3_7.index t (0 : Fin 2) = t.val ∧ win3_7.index t (1 : Fin 2) = 0 :=
  (by decide +kernel : ∀ t : Fin grid3.N, _)

/-- An index of the result array is in point `t`'s block iff each coordinate is in the block's range on its axis. -/
theorem norm3_mem_outBlock (t : Fin cfg3.N) (i : S100000x64.Idx) :
    i ∈ ((cfg3.win 7).blk t).view.set ↔ ∀ a : Fin 2, win3_7.index t a * S5000x64.size a ≤ (i a).val
      ∧ (i a).val < win3_7.index t a * S5000x64.size a + S5000x64.size a := by
  show i ∈ ((View.whole main_v155).slice (win3_7.rect t)).set ↔ _
  rw [View.set_slice_whole, Rect.mem_set_unit]
  exact Iff.rfl

/-- Every index of the result array is in the block of the point `⌊row / 5000⌋`, which writes back. -/
theorem norm3_rows_covered (i : S100000x64.Idx) :
    ∃ t : Fin cfg3.N, (cfg3.win 7).flush t = true ∧ i ∈ ((cfg3.win 7).blk t).view.set := by
  have hi0 : (i 0).val < 100000 := idx2_lt0 i
  have hi1 : (i 1).val < 64 := idx2_lt1 i
  have hN : cfg3.N = 20 := N_3
  have ht : (i 0).val / 5000 < cfg3.N := by rw [hN]; omega
  obtain ⟨-, -, -, -, -, -, -, -, -, -, -, -, -, -, e0, e1⟩ := norm3_blockIndices ⟨(i 0).val / 5000, ht⟩
  have e0' : win3_7.index ⟨(i 0).val / 5000, ht⟩ (0 : Fin 2) = (i 0).val / 5000 := e0
  refine ⟨⟨(i 0).val / 5000, ht⟩, flush3_7 _, ?_⟩
  rw [norm3_mem_outBlock]
  intro a
  match a with
  | ⟨0, _⟩ =>
    show win3_7.index ⟨(i 0).val / 5000, ht⟩ (0 : Fin 2) * 5000 ≤ (i 0).val
      ∧ (i 0).val < win3_7.index ⟨(i 0).val / 5000, ht⟩ (0 : Fin 2) * 5000 + 5000
    rw [e0']; omega
  | ⟨1, _⟩ =>
    show win3_7.index ⟨(i 0).val / 5000, ht⟩ (1 : Fin 2) * 64 ≤ (i 1).val
      ∧ (i 1).val < win3_7.index ⟨(i 0).val / 5000, ht⟩ (1 : Fin 2) * 64 + 64
    rw [e1]; omega

/-! ## Reading a block -/

/-- Window 0's block at point `t`, read at `y`, is its array at row `5000·t + y₀`, column `y₁`: a block's coordinate is
    block index × block size + the coordinate inside the block. -/
theorem norm3_read0 (A : S100000x64.Idx → EReal) (t : Fin cfg3.N) (y : S5000x64.Idx) (i : S100000x64.Idx)
    (hi0 : (i 0).val = 5000 * t.val + (y 0).val) (hi1 : (i 1).val = (y 1).val) :
    (((cfg3.win 0).blk t).view.read (Elt Ideal) A : Vec Ideal S5000x64 .f32) y = A i := by
  obtain ⟨er, ec⟩ : win3_0.index t (0 : Fin 2) = t.val ∧ win3_0.index t (1 : Fin 2) = 0 := by
    have h := norm3_blockIndices t; simp only [h, and_self]
  show A (((cfg3.win 0).blk t).view.emb y) = A i
  refine congrArg A ?_
  funext a; apply Fin.ext
  match a with
  | ⟨0, _⟩ => show win3_0.index t (0 : Fin 2) * 5000 + 1 * (y 0).val = (i 0).val; rw [er, hi0]; omega
  | ⟨1, _⟩ => show win3_0.index t (1 : Fin 2) * 64 + 1 * (y 1).val = (i 1).val; rw [ec, hi1]; omega

/-- Window 1's block at point `t`, read at `y`, is its array at row `5000·t + y₀`, column `y₁`: a block's coordinate is
    block index × block size + the coordinate inside the block. -/
theorem norm3_read1 (A : S100000x64.Idx → EReal) (t : Fin cfg3.N) (y : S5000x64.Idx) (i : S100000x64.Idx)
    (hi0 : (i 0).val = 5000 * t.val + (y 0).val) (hi1 : (i 1).val = (y 1).val) :
    (((cfg3.win 1).blk t).view.read (Elt Ideal) A : Vec Ideal S5000x64 .f32) y = A i := by
  obtain ⟨er, ec⟩ : win3_1.index t (0 : Fin 2) = t.val ∧ win3_1.index t (1 : Fin 2) = 0 := by
    have h := norm3_blockIndices t; simp only [h, and_self]
  show A (((cfg3.win 1).blk t).view.emb y) = A i
  refine congrArg A ?_
  funext a; apply Fin.ext
  match a with
  | ⟨0, _⟩ => show win3_1.index t (0 : Fin 2) * 5000 + 1 * (y 0).val = (i 0).val; rw [er, hi0]; omega
  | ⟨1, _⟩ => show win3_1.index t (1 : Fin 2) * 64 + 1 * (y 1).val = (i 1).val; rw [ec, hi1]; omega

/-- Window 2's block at point `t`, read at `y`, is its array at row `5000·t + y₀`, column `y₁`: a block's coordinate is
    block index × block size + the coordinate inside the block. -/
theorem norm3_read2 (A : S100000x64.Idx → EReal) (t : Fin cfg3.N) (y : S5000x64.Idx) (i : S100000x64.Idx)
    (hi0 : (i 0).val = 5000 * t.val + (y 0).val) (hi1 : (i 1).val = (y 1).val) :
    (((cfg3.win 2).blk t).view.read (Elt Ideal) A : Vec Ideal S5000x64 .f32) y = A i := by
  obtain ⟨er, ec⟩ : win3_2.index t (0 : Fin 2) = t.val ∧ win3_2.index t (1 : Fin 2) = 0 := by
    have h := norm3_blockIndices t; simp only [h, and_self]
  show A (((cfg3.win 2).blk t).view.emb y) = A i
  refine congrArg A ?_
  funext a; apply Fin.ext
  match a with
  | ⟨0, _⟩ => show win3_2.index t (0 : Fin 2) * 5000 + 1 * (y 0).val = (i 0).val; rw [er, hi0]; omega
  | ⟨1, _⟩ => show win3_2.index t (1 : Fin 2) * 64 + 1 * (y 1).val = (i 1).val; rw [ec, hi1]; omega

/-- Window 3's block at any point is the whole row vector. -/
theorem norm3_read3 (A : S1x64.Idx → EReal) (t : Fin cfg3.N) (q : Fin 64) :
    (((cfg3.win 3).blk t).view.read (Elt Ideal) A : Vec Ideal S1x64 .f32) (ix2 (0 : Fin 1) q) = A (ix2 (0 : Fin 1) q) := by
  obtain ⟨er, ec⟩ : win3_3.index t (0 : Fin 2) = 0 ∧ win3_3.index t (1 : Fin 2) = 0 := by
    have h := norm3_blockIndices t; simp only [h, and_self]
  show A (((cfg3.win 3).blk t).view.emb (ix2 (0 : Fin 1) q)) = A (ix2 (0 : Fin 1) q)
  refine congrArg A ?_
  funext a; apply Fin.ext
  match a with
  | ⟨0, _⟩ => show win3_3.index t (0 : Fin 2) * 1 + 1 * 0 = 0; rw [er]
  | ⟨1, _⟩ => show win3_3.index t (1 : Fin 2) * 64 + 1 * q.val = q.val; rw [ec]; omega

/-- Window 4's block at any point is the whole row vector. -/
theorem norm3_read4 (A : S1x64.Idx → EReal) (t : Fin cfg3.N) (q : Fin 64) :
    (((cfg3.win 4).blk t).view.read (Elt Ideal) A : Vec Ideal S1x64 .f32) (ix2 (0 : Fin 1) q) = A (ix2 (0 : Fin 1) q) := by
  obtain ⟨er, ec⟩ : win3_4.index t (0 : Fin 2) = 0 ∧ win3_4.index t (1 : Fin 2) = 0 := by
    have h := norm3_blockIndices t; simp only [h, and_self]
  show A (((cfg3.win 4).blk t).view.emb (ix2 (0 : Fin 1) q)) = A (ix2 (0 : Fin 1) q)
  refine congrArg A ?_
  funext a; apply Fin.ext
  match a with
  | ⟨0, _⟩ => show win3_4.index t (0 : Fin 2) * 1 + 1 * 0 = 0; rw [er]
  | ⟨1, _⟩ => show win3_4.index t (1 : Fin 2) * 64 + 1 * q.val = q.val; rw [ec]; omega

/-- Window 5's block at any point is the whole row vector. -/
theorem norm3_read5 (A : S1x64.Idx → EReal) (t : Fin cfg3.N) (q : Fin 64) :
    (((cfg3.win 5).blk t).view.read (Elt Ideal) A : Vec Ideal S1x64 .f32) (ix2 (0 : Fin 1) q) = A (ix2 (0 : Fin 1) q) := by
  obtain ⟨er, ec⟩ : win3_5.index t (0 : Fin 2) = 0 ∧ win3_5.index t (1 : Fin 2) = 0 := by
    have h := norm3_blockIndices t; simp only [h, and_self]
  show A (((cfg3.win 5).blk t).view.emb (ix2 (0 : Fin 1) q)) = A (ix2 (0 : Fin 1) q)
  refine congrArg A ?_
  funext a; apply Fin.ext
  match a with
  | ⟨0, _⟩ => show win3_5.index t (0 : Fin 2) * 1 + 1 * 0 = 0; rw [er]
  | ⟨1, _⟩ => show win3_5.index t (1 : Fin 2) * 64 + 1 * q.val = q.val; rw [ec]; omega

/-- Window 6's block at point `t`, read at `y`, is its array at row `5000·t + y₀`, column `y₁`: a block's coordinate is
    block index × block size + the coordinate inside the block. -/
theorem norm3_read6 (A : S100000x64.Idx → EReal) (t : Fin cfg3.N) (y : S5000x64.Idx) (i : S100000x64.Idx)
    (hi0 : (i 0).val = 5000 * t.val + (y 0).val) (hi1 : (i 1).val = (y 1).val) :
    (((cfg3.win 6).blk t).view.read (Elt Ideal) A : Vec Ideal S5000x64 .f32) y = A i := by
  obtain ⟨er, ec⟩ : win3_6.index t (0 : Fin 2) = t.val ∧ win3_6.index t (1 : Fin 2) = 0 := by
    have h := norm3_blockIndices t; simp only [h, and_self]
  show A (((cfg3.win 6).blk t).view.emb y) = A i
  refine congrArg A ?_
  funext a; apply Fin.ext
  match a with
  | ⟨0, _⟩ => show win3_6.index t (0 : Fin 2) * 5000 + 1 * (y 0).val = (i 0).val; rw [er, hi0]; omega
  | ⟨1, _⟩ => show win3_6.index t (1 : Fin 2) * 64 + 1 * (y 1).val = (i 1).val; rw [ec, hi1]; omega

/-- Window 7's block at point `t`, read at `y`, is its array at row `5000·t + y₀`, column `y₁`: a block's coordinate is
    block index × block size + the coordinate inside the block. -/
theorem norm3_read7 (A : S100000x64.Idx → EReal) (t : Fin cfg3.N) (y : S5000x64.Idx) (i : S100000x64.Idx)
    (hi0 : (i 0).val = 5000 * t.val + (y 0).val) (hi1 : (i 1).val = (y 1).val) :
    (((cfg3.win 7).blk t).view.read (Elt Ideal) A : Vec Ideal S5000x64 .f32) y = A i := by
  obtain ⟨er, ec⟩ : win3_7.index t (0 : Fin 2) = t.val ∧ win3_7.index t (1 : Fin 2) = 0 := by
    have h := norm3_blockIndices t; simp only [h, and_self]
  show A (((cfg3.win 7).blk t).view.emb y) = A i
  refine congrArg A ?_
  funext a; apply Fin.ext
  match a with
  | ⟨0, _⟩ => show win3_7.index t (0 : Fin 2) * 5000 + 1 * (y 0).val = (i 0).val; rw [er, hi0]; omega
  | ⟨1, _⟩ => show win3_7.index t (1 : Fin 2) * 64 + 1 * (y 1).val = (i 1).val; rw [ec, hi1]; omega

/-! ## From the blocks to the array -/

variable (V : (c : Dev nD) → (b : Ref sig .tc) → Buf (Elt Ideal) ((c : Thread nD τ).loc b))

/-- What point `t` writes back is block `t` of the normalisation of the input arrays: the body's value at an index of
    the block is the entry of the input blocks' entries there, each input block's entry is its array's entry at the same
    row and column of the arrays, and so is the entry the result's block reads. -/
theorem norm3_block_written (c : Dev nD) (t : Fin cfg3.N) :
    (dat3 (F := Ideal) V c).flushed 7 t = ((cfg3.win 7).blk t).view.read (Elt Ideal)
      (fun i : S100000x64.Idx => Cert.Gnn.normResElt (V c main_v103 i) (V c main_v144 i) (V c main_v151 i)
        (V c main_v152 (ix2 (0 : Fin 1) (i 1))) (V c main_v153 (ix2 (0 : Fin 1) (i 1)))
        (V c main_v154 (ix2 (0 : Fin 1) (i 1))) (V c main_v77 i)) := by
  show (cfg3.win 7).cut (grid3.coords t) ((dat3 V c).after 7 t) = _
  rw [after3_7]
  unfold out3_7
  rw [View.canon_unit_zero norm3_zeroOffsets]
  simp only [View.ld_unit_zero (S := S5000x64) norm3_zeroOffsets, View.ld_unit_zero (S := S1x64) norm3_zeroOffsets]
  show (k3_pay1 (iblk3 V c 0 t) (iblk3 V c 1 t) (iblk3 V c 2 t) (iblk3 V c 3 t) (iblk3 V c 4 t) (iblk3 V c 5 t) (iblk3 V c 6 t) : Vec Ideal S5000x64 .f32) = _
  funext y
  have hy0 : (y 0).val < 5000 := idx2_lt0 y
  have ht : t.val < 20 := Nat.lt_of_lt_of_eq t.isLt N_3
  refine (norm3_body_at _ _ _ _ _ _ _ y).trans ?_
  refine Eq.trans ?_ (norm3_read7 _ t y (ix2 (⟨5000 * t.val + (y 0).val, by omega⟩ : Fin 100000) (y 1)) rfl rfl).symm
  exact norm3_entry_congr (norm3_read0 _ t y _ rfl rfl)
    (norm3_read1 _ t y _ rfl rfl)
    (norm3_read2 _ t y _ rfl rfl)
    (norm3_read3 _ t (y 1))
    (norm3_read4 _ t (y 1))
    (norm3_read5 _ t (y 1))
    (norm3_read6 _ t y _ rfl rfl)

/-- THE ARRAY the stage leaves: the normalisation of its input arrays, index by index. -/
theorem final3 (c : Dev nD) :
    (dat3 (F := Ideal) V c).arrAt 7 cfg3.N
      = fun i : S100000x64.Idx => Cert.Gnn.normResElt (V c main_v103 i) (V c main_v144 i) (V c main_v151 i)
        (V c main_v152 (ix2 (0 : Fin 1) (i 1))) (V c main_v153 (ix2 (0 : Fin 1) (i 1)))
        (V c main_v154 (ix2 (0 : Fin 1) (i 1))) (V c main_v77 i) :=
  (dat3 (F := Ideal) V c).arrAt_eq_of_cover 7 _ (fun t _ => norm3_block_written V c t) norm3_rows_covered

end Cert.KernelIdeal.NormValue

end
-- ==== Proof.NormRegion5.lean ====
/-
  The third normalisation stage of the layer (the second of the two that add a residual), read as ONE function of its
  input arrays.

  The stage walks the 100000 rows of its operands in 20 blocks of 5000 rows; at each block it reads the same rows of the
  convolution output, of the gathered mean and variance and of the residual, and the one row of the scale, shift and
  mean-scale vectors, and writes back the same rows of the result.  Its body is pointwise: at row p and column q of a block
  it computes  max (g q · (c p q − a q · m p q) · rsqrt (v p q + ε) + b q + r p q) 0.  Row p of block t is row 5000·t + p of the
  arrays and every row lies in the block ⌊row / 5000⌋, so the array the stage leaves is that expression of the input arrays
  at every index.
-/
import proofs.«152839_j85684597555422_1_alg».proof.Proof.Gen.KernelIdeal.Frame
import proofs.«152839_j85684597555422_1_alg».proof.Proof.GnnSpec
import Idealize.ShloMosaic.Lib.Pipeline.Value
import Idealize.ShloMosaic.Lib.ValueLayout

set_option maxRecDepth 16384

noncomputable section

namespace Cert.KernelIdeal.NormValue

open Cert.KernelIdeal Cert.KernelIdeal.Gen Idealize.ShloMosaic Idealize.ShloMosaic.TcCoe Idealize.ShloMosaic.ValueIdx Idealize.SL.Sem
open Idealize.ShloMosaic.Pipeline (Dat)

/-! ## The body at an index -/

/-- The body's value at row `p`, column `q` of a block: the normalisation entry of the four blocks' entries there and of the
    three row vectors' entries at column `q` (a row vector broadcast over the rows reads its one row; a cast between equal
    shapes changes nothing; the two scalar literals are the epsilon and zero). -/
theorem norm5_body_apply (x0 x1 x2 : Vec Ideal S5000x64 .f32) (x3 x4 x5 : Vec Ideal S1x64 .f32) (x6 : Vec Ideal S5000x64 .f32)
    (p : Fin 5000) (q : Fin 64) :
    k5_pay1 x0 x1 x2 x3 x4 x5 x6 (ix2 p q)
      = Cert.Gnn.normResElt (x0 (ix2 p q)) (x1 (ix2 p q)) (x2 (ix2 p q)) (x3 (ix2 (0 : Fin 1) q)) (x4 (ix2 (0 : Fin 1) q))
          (x5 (ix2 (0 : Fin 1) q)) (x6 (ix2 p q)) := by
  unfold k5_pay1
  simp only [shapeCast_self]
  show max ((broadcastTo S5000x64 x3 broadcasts_S1x64_S5000x64 (ix2 p q)
        * (x0 (ix2 p q) - broadcastTo S5000x64 x5 broadcasts_S1x64_S5000x64 (ix2 p q) * x1 (ix2 p q)))
        * Ideal.rsqrt (x2 (ix2 p q) + Ideal.ofBits .f32 0x3727C5AC#32)
      + broadcastTo S5000x64 x4 broadcasts_S1x64_S5000x64 (ix2 p q) + x6 (ix2 p q)) (Ideal.ofBits .f32 0x00000000#32) = _
  rw [broadcastTo_1b_ab_apply x3, broadcastTo_1b_ab_apply x5, broadcastTo_1b_ab_apply x4, Ideal.ofBits_zero_f32]
  rfl

/-- The same at any index `y` of the block, the column being `y`'s second coordinate. -/
theorem norm5_body_at (x0 x1 x2 : Vec Ideal S5000x64 .f32) (x3 x4 x5 : Vec Ideal S1x64 .f32) (x6 : Vec Ideal S5000x64 .f32)
    (y : S5000x64.Idx) :
    k5_pay1 x0 x1 x2 x3 x4 x5 x6 y
      = Cert.Gnn.normResElt (x0 y) (x1 y) (x2 y) (x3 (ix2 (0 : Fin 1) (y 1))) (x4 (ix2 (0 : Fin 1) (y 1)))
          (x5 (ix2 (0 : Fin 1) (y 1))) (x6 y) := by
  obtain ⟨p, q, rfl⟩ : ∃ (p : Fin 5000) (q : Fin 64), y = ix2 p q := ⟨y 0, y 1, eq_ix2 y⟩
  exact norm5_body_apply x0 x1 x2 x3 x4 x5 x6 p q

/-- Equal arguments give equal entries. -/
theorem norm5_entry_congr {c c' m m' v v' g g' b b' a a' r r' : EReal} (hc : c = c') (hm : m = m') (hv : v = v') (hg : g = g') (hb : b = b') (ha : a = a') (hr : r = r') :
    Cert.Gnn.normResElt c m v g b a r = Cert.Gnn.normResElt c' m' v' g' b' a' r' := by
  subst hc hm hv hg hb ha hr; rfl

/-! ## The blocks of the grid -/

theorem norm5_zeroOffsets : (![0, 0] : Fin 2 → Nat) = fun _ => 0 := funext fun a => by fin_cases a <;> rfl

/-- Where each window's block sits at grid point `t`, decided over the 20 points: the row-blocked windows at block row
    `t`, column block 0; the three row vectors always at their only block. -/
theorem norm5_blockIndices : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0
    ∧ win5_7.index t (0 : Fin 2) = t.val ∧ win5_7.index t (1 : Fin 2) = 0 :=
  (by decide +kernel : ∀ t : Fin grid5.N, _)

/-- An index of the result array is in point `t`'s block iff each coordinate is in the block's range on its axis. -/
theorem norm5_mem_outBlock (t : Fin cfg5.N) (i : S100000x64.Idx) :
    i ∈ ((cfg5.win 7).blk t).view.set ↔ ∀ a : Fin 2, win5_7.index t a * S5000x64.size a ≤ (i a).val
      ∧ (i a).val < win5_7.index t a * S5000x64.size a + S5000x64.size a := by
  show i ∈ ((View.whole main_v233).slice (win5_7.rect t)).set ↔ _
  rw [View.set_slice_whole, Rect.mem_set_unit]
  exact Iff.rfl

/-- Every index of the result array is in the block of the point `⌊row / 5000⌋`, which writes back. -/
theorem norm5_rows_covered (i : S100000x64.Idx) :
    ∃ t : Fin cfg5.N, (cfg5.win 7).flush t = true ∧ i ∈ ((cfg5.win 7).blk t).view.set := by
  have hi0 : (i 0).val < 100000 := idx2_lt0 i
  have hi1 : (i 1).val < 64 := idx2_lt1 i
  have hN : cfg5.N = 20 := N_5
  have ht : (i 0).val / 5000 < cfg5.N := by rw [hN]; omega
  obtain ⟨-, -, -, -, -, -, -, -, -, -, -, -, -, -, e0, e1⟩ := norm5_blockIndices ⟨(i 0).val / 5000, ht⟩
  have e0' : win5_7.index ⟨(i 0).val / 5000, ht⟩ (0 : Fin 2) = (i 0).val / 5000 := e0
  refine ⟨⟨(i 0).val / 5000, ht⟩, flush5_7 _, ?_⟩
  rw [norm5_mem_outBlock]
  intro a
  match a with
  | ⟨0, _⟩ =>
    show win5_7.index ⟨(i 0).val / 5000, ht⟩ (0 : Fin 2) * 5000 ≤ (i 0).val
      ∧ (i 0).val < win5_7.index ⟨(i 0).val / 5000, ht⟩ (0 : Fin 2) * 5000 + 5000
    rw [e0']; omega
  | ⟨1, _⟩ =>
    show win5_7.index ⟨(i 0).val / 5000, ht⟩ (1 : Fin 2) * 64 ≤ (i 1).val
      ∧ (i 1).val < win5_7.index ⟨(i 0).val / 5000, ht⟩ (1 : Fin 2) * 64 + 64
    rw [e1]; omega

/-! ## Reading a block -/

/-- Window 0's block at point `t`, read at `y`, is its array at row `5000·t + y₀`, column `y₁`: a block's coordinate is
    block index × block size + the coordinate inside the block. -/
theorem norm5_read0 (A : S100000x64.Idx → EReal) (t : Fin cfg5.N) (y : S5000x64.Idx) (i : S100000x64.Idx)
    (hi0 : (i 0).val = 5000 * t.val + (y 0).val) (hi1 : (i 1).val = (y 1).val) :
    (((cfg5.win 0).blk t).view.read (Elt Ideal) A : Vec Ideal S5000x64 .f32) y = A i := by
  obtain ⟨er, ec⟩ : win5_0.index t (0 : Fin 2) = t.val ∧ win5_0.index t (1 : Fin 2) = 0 := by
    have h := norm5_blockIndices t; simp only [h, and_self]
  show A (((cfg5.win 0).blk t).view.emb y) = A i
  refine congrArg A ?_
  funext a; apply Fin.ext
  match a with
  | ⟨0, _⟩ => show win5_0.index t (0 : Fin 2) * 5000 + 1 * (y 0).val = (i 0).val; rw [er, hi0]; omega
  | ⟨1, _⟩ => show win5_0.index t (1 : Fin 2) * 64 + 1 * (y 1).val = (i 1).val; rw [ec, hi1]; omega

/-- Window 1's block at point `t`, read at `y`, is its array at row `5000·t + y₀`, column `y₁`: a block's coordinate is
    block index × block size + the coordinate inside the block. -/
theorem norm5_read1 (A : S100000x64.Idx → EReal) (t : Fin cfg5.N) (y : S5000x64.Idx) (i : S100000x64.Idx)
    (hi0 : (i 0).val = 5000 * t.val + (y 0).val) (hi1 : (i 1).val = (y 1).val) :
    (((cfg5.win 1).blk t).view.read (Elt Ideal) A : Vec Ideal S5000x64 .f32) y = A i := by
  obtain ⟨er, ec⟩ : win5_1.index t (0 : Fin 2) = t.val ∧ win5_1.index t (1 : Fin 2) = 0 := by
    have h := norm5_blockIndices t; simp only [h, and_self]
  show A (((cfg5.win 1).blk t).view.emb y) = A i
  refine congrArg A ?_
  funext a; apply Fin.ext
  match a with
  | ⟨0, _⟩ => show win5_1.index t (0 : Fin 2) * 5000 + 1 * (y 0).val = (i 0).val; rw [er, hi0]; omega
  | ⟨1, _⟩ => show win5_1.index t (1 : Fin 2) * 64 + 1 * (y 1).val = (i 1).val; rw [ec, hi1]; omega

/-- Window 2's block at point `t`, read at `y`, is its array at row `5000·t + y₀`, column `y₁`: a block's coordinate is
    block index × block size + the coordinate inside the block. -/
theorem norm5_read2 (A : S100000x64.Idx → EReal) (t : Fin cfg5.N) (y : S5000x64.Idx) (i : S100000x64.Idx)
    (hi0 : (i 0).val = 5000 * t.val + (y 0).val) (hi1 : (i 1).val = (y 1).val) :
    (((cfg5.win 2).blk t).view.read (Elt Ideal) A : Vec Ideal S5000x64 .f32) y = A i := by
  obtain ⟨er, ec⟩ : win5_2.index t (0 : Fin 2) = t.val ∧ win5_2.index t (1 : Fin 2) = 0 := by
    have h := norm5_blockIndices t; simp only [h, and_self]
  show A (((cfg5.win 2).blk t).view.emb y) = A i
  refine congrArg A ?_
  funext a; apply Fin.ext
  match a with
  | ⟨0, _⟩ => show win5_2.index t (0 : Fin 2) * 5000 + 1 * (y 0).val = (i 0).val; rw [er, hi0]; omega
  | ⟨1, _⟩ => show win5_2.index t (1 : Fin 2) * 64 + 1 * (y 1).val = (i 1).val; rw [ec, hi1]; omega

/-- Window 3's block at any point is the whole row vector. -/
theorem norm5_read3 (A : S1x64.Idx → EReal) (t : Fin cfg5.N) (q : Fin 64) :
    (((cfg5.win 3).blk t).view.read (Elt Ideal) A : Vec Ideal S1x64 .f32) (ix2 (0 : Fin 1) q) = A (ix2 (0 : Fin 1) q) := by
  obtain ⟨er, ec⟩ : win5_3.index t (0 : Fin 2) = 0 ∧ win5_3.index t (1 : Fin 2) = 0 := by
    have h := norm5_blockIndices t; simp only [h, and_self]
  show A (((cfg5.win 3).blk t).view.emb (ix2 (0 : Fin 1) q)) = A (ix2 (0 : Fin 1) q)
  refine congrArg A ?_
  funext a; apply Fin.ext
  match a with
  | ⟨0, _⟩ => show win5_3.index t (0 : Fin 2) * 1 + 1 * 0 = 0; rw [er]
  | ⟨1, _⟩ => show win5_3.index t (1 : Fin 2) * 64 + 1 * q.val = q.val; rw [ec]; omega

/-- Window 4's block at any point is the whole row vector. -/
theorem norm5_read4 (A : S1x64.Idx → EReal) (t : Fin cfg5.N) (q : Fin 64) :
    (((cfg5.win 4).blk t).view.read (Elt Ideal) A : Vec Ideal S1x64 .f32) (ix2 (0 : Fin 1) q) = A (ix2 (0 : Fin 1) q) := by
  obtain ⟨er, ec⟩ : win5_4.index t (0 : Fin 2) = 0 ∧ win5_4.index t (1 : Fin 2) = 0 := by
    have h := norm5_blockIndices t; simp only [h, and_self]
  show A (((cfg5.win 4).blk t).view.emb (ix2 (0 : Fin 1) q)) = A (ix2 (0 : Fin 1) q)
  refine congrArg A ?_
  funext a; apply Fin.ext
  match a with
  | ⟨0, _⟩ => show win5_4.index t (0 : Fin 2) * 1 + 1 * 0 = 0; rw [er]
  | ⟨1, _⟩ => show win5_4.index t (1 : Fin 2) * 64 + 1 * q.val = q.val; rw [ec]; omega

/-- Window 5's block at any point is the whole row vector. -/
theorem norm5_read5 (A : S1x64.Idx → EReal) (t : Fin cfg5.N) (q : Fin 64) :
    (((cfg5.win 5).blk t).view.read (Elt Ideal) A : Vec Ideal S1x64 .f32) (ix2 (0 : Fin 1) q) = A (ix2 (0 : Fin 1) q) := by
  obtain ⟨er, ec⟩ : win5_5.index t (0 : Fin 2) = 0 ∧ win5_5.index t (1 : Fin 2) = 0 := by
    have h := norm5_blockIndices t; simp only [h, and_self]
  show A (((cfg5.win 5).blk t).view.emb (ix2 (0 : Fin 1) q)) = A (ix2 (0 : Fin 1) q)
  refine congrArg A ?_
  funext a; apply Fin.ext
  match a with
  | ⟨0, _⟩ => show win5_5.index t (0 : Fin 2) * 1 + 1 * 0 = 0; rw [er]
  | ⟨1, _⟩ => show win5_5.index t (1 : Fin 2) * 64 + 1 * q.val = q.val; rw [ec]; omega

/-- Window 6's block at point `t`, read at `y`, is its array at row `5000·t + y₀`, column `y₁`: a block's coordinate is
    block index × block size + the coordinate inside the block. -/
theorem norm5_read6 (A : S100000x64.Idx → EReal) (t : Fin cfg5.N) (y : S5000x64.Idx) (i : S100000x64.Idx)
    (hi0 : (i 0).val = 5000 * t.val + (y 0).val) (hi1 : (i 1).val = (y 1).val) :
    (((cfg5.win 6).blk t).view.read (Elt Ideal) A : Vec Ideal S5000x64 .f32) y = A i := by
  obtain ⟨er, ec⟩ : win5_6.index t (0 : Fin 2) = t.val ∧ win5_6.index t (1 : Fin 2) = 0 := by
    have h := norm5_blockIndices t; simp only [h, and_self]
  show A (((cfg5.win 6).blk t).view.emb y) = A i
  refine congrArg A ?_
  funext a; apply Fin.ext
  match a with
  | ⟨0, _⟩ => show win5_6.index t (0 : Fin 2) * 5000 + 1 * (y 0).val = (i 0).val; rw [er, hi0]; omega
  | ⟨1, _⟩ => show win5_6.index t (1 : Fin 2) * 64 + 1 * (y 1).val = (i 1).val; rw [ec, hi1]; omega

/-- Window 7's block at point `t`, read at `y`, is its array at row `5000·t + y₀`, column `y₁`: a block's coordinate is
    block index × block size + the coordinate inside the block. -/
theorem norm5_read7 (A : S100000x64.Idx → EReal) (t : Fin cfg5.N) (y : S5000x64.Idx) (i : S100000x64.Idx)
    (hi0 : (i 0).val = 5000 * t.val + (y 0).val) (hi1 : (i 1).val = (y 1).val) :
    (((cfg5.win 7).blk t).view.read (Elt Ideal) A : Vec Ideal S5000x64 .f32) y = A i := by
  obtain ⟨er, ec⟩ : win5_7.index t (0 : Fin 2) = t.val ∧ win5_7.index t (1 : Fin 2) = 0 := by
    have h := norm5_blockIndices t; simp only [h, and_self]
  show A (((cfg5.win 7).blk t).view.emb y) = A i
  refine congrArg A ?_
  funext a; apply Fin.ext
  match a with
  | ⟨0, _⟩ => show win5_7.index t (0 : Fin 2) * 5000 + 1 * (y 0).val = (i 0).val; rw [er, hi0]; omega
  | ⟨1, _⟩ => show win5_7.index t (1 : Fin 2) * 64 + 1 * (y 1).val = (i 1).val; rw [ec, hi1]; omega

/-! ## From the blocks to the array -/

variable (V : (c : Dev nD) → (b : Ref sig .tc) → Buf (Elt Ideal) ((c : Thread nD τ).loc b))

/-- What point `t` writes back is block `t` of the normalisation of the input arrays: the body's value at an index of
    the block is the entry of the input blocks' entries there, each input block's entry is its array's entry at the same
    row and column of the arrays, and so is the entry the result's block reads. -/
theorem norm5_block_written (c : Dev nD) (t : Fin cfg5.N) :
    (dat5 (F := Ideal) V c).flushed 7 t = ((cfg5.win 7).blk t).view.read (Elt Ideal)
      (fun i : S100000x64.Idx => Cert.Gnn.normResElt (V c main_v181 i) (V c main_v222 i) (V c main_v229 i)
        (V c main_v230 (ix2 (0 : Fin 1) (i 1))) (V c main_v231 (ix2 (0 : Fin 1) (i 1)))
        (V c main_v232 (ix2 (0 : Fin 1) (i 1))) (V c main_v155 i)) := by
  show (cfg5.win 7).cut (grid5.coords t) ((dat5 V c).after 7 t) = _
  rw [after5_7]
  unfold out5_7
  rw [View.canon_unit_zero norm5_zeroOffsets]
  simp only [View.ld_unit_zero (S := S5000x64) norm5_zeroOffsets, View.ld_unit_zero (S := S1x64) norm5_zeroOffsets]
  show (k5_pay1 (iblk5 V c 0 t) (iblk5 V c 1 t) (iblk5 V c 2 t) (iblk5 V c 3 t) (iblk5 V c 4 t) (iblk5 V c 5 t) (iblk5 V c 6 t) : Vec Ideal S5000x64 .f32) = _
  funext y
  have hy0 : (y 0).val < 5000 := idx2_lt0 y
  have ht : t.val < 20 := Nat.lt_of_lt_of_eq t.isLt N_5
  refine (norm5_body_at _ _ _ _ _ _ _ y).trans ?_
  refine Eq.trans ?_ (norm5_read7 _ t y (ix2 (⟨5000 * t.val + (y 0).val, by omega⟩ : Fin 100000) (y 1)) rfl rfl).symm
  exact norm5_entry_congr (norm5_read0 _ t y _ rfl rfl)
    (norm5_read1 _ t y _ rfl rfl)
    (norm5_read2 _ t y _ rfl rfl)
    (norm5_read3 _ t (y 1))
    (norm5_read4 _ t (y 1))
    (norm5_read5 _ t (y 1))
    (norm5_read6 _ t y _ rfl rfl)

/-- THE ARRAY the stage leaves: the normalisation of its input arrays, index by index. -/
theorem final5 (c : Dev nD) :
    (dat5 (F := Ideal) V c).arrAt 7 cfg5.N
      = fun i : S100000x64.Idx => Cert.Gnn.normResElt (V c main_v181 i) (V c main_v222 i) (V c main_v229 i)
        (V c main_v230 (ix2 (0 : Fin 1) (i 1))) (V c main_v231 (ix2 (0 : Fin 1) (i 1)))
        (V c main_v232 (ix2 (0 : Fin 1) (i 1))) (V c main_v155 i) :=
  (dat5 (F := Ideal) V c).arrAt_eq_of_cover 7 _ (fun t _ => norm5_block_written V c t) norm5_rows_covered

end Cert.KernelIdeal.NormValue

end
-- ==== Proof.RefConv.lean ====
/-
  The reference program's three convolution stages, read entry by entry.

  Each stage is: the aggregated neighbours times the transposed first weight, plus the bias broadcast over the rows, plus
  the layer's input times the transposed second weight.  Read at row r and column j this is
  (Σ_q agg(r,q)·Wl(j,q) + b(j)) + Σ_q x(r,q)·Wr(j,q): the transposes only swap the two coordinates of the weight that is
  read, and the two broadcasts read the bias vector at j.  The aggregation and the earlier layers' outputs stay folded.
-/
import proofs.«152839_j85684597555422_1_alg».proof.Proof.ReadP
import proofs.«152839_j85684597555422_1_alg».proof.Proof.GnnSpec

noncomputable section

open scoped BigOperators

namespace Cert.ReferenceIdeal.LayerRead

open Cert.ReferenceIdeal Cert.ReferenceIdeal.ReadP Idealize.ShloMosaic Idealize.ShloMosaic.ValueIdx

variable (x0 : (⟨S100000x4, .f32⟩ : BufTy).Contents (Elt Ideal)) (x1 : (⟨S2x1200000, .i32⟩ : BufTy).Contents (Elt Ideal))
  (x2 : (⟨S100000, .i32⟩ : BufTy).Contents (Elt Ideal)) (x3 : (⟨S64x4, .f32⟩ : BufTy).Contents (Elt Ideal))
  (x4 : (⟨S64, .f32⟩ : BufTy).Contents (Elt Ideal)) (x5 : (⟨S64x4, .f32⟩ : BufTy).Contents (Elt Ideal))
  (x6 : (⟨S64x64, .f32⟩ : BufTy).Contents (Elt Ideal)) (x7 : (⟨S64, .f32⟩ : BufTy).Contents (Elt Ideal))
  (x8 x9 : (⟨S64x64, .f32⟩ : BufTy).Contents (Elt Ideal)) (x10 : (⟨S64, .f32⟩ : BufTy).Contents (Elt Ideal))
  (x11 : (⟨S64x64, .f32⟩ : BufTy).Contents (Elt Ideal)) (x12 x13 x14 x15 x16 x17 x18 x19 x20 : (⟨S64, .f32⟩ : BufTy).Contents (Elt Ideal))

/-- Layer 1: the convolution stage is the bias-between-the-products entry over the aggregated neighbours, the node features,
    and the layer's weights and bias as given. -/
theorem conv1 : val_main_v29 (F := Ideal) x0 x1 x3 x4 x5
    = fun i : S100000x64.Idx => Cert.Gnn.convR
        (val_main_v21 (F := Ideal) x0 x1)
        x0 x3 x4 x5 (i 0) (i 1) := by
  funext i
  obtain ⟨r, j, rfl⟩ : ∃ (r : Fin 100000) (j : Fin 64), i = ix2 r j := ⟨i 0, i 1, eq_ix2 i⟩
  have el : ∀ q : Fin 4, lidx_main_v23 (ix2 r j) q = ix2 r q := fun q => funext fun a => Fin.ext (by
    match a with | ⟨0, _⟩ => rfl | ⟨1, _⟩ => rfl)
  have er : ∀ q : Fin 4, idx_main_v22 (ridx_main_v23 (ix2 r j) q) = ix2 j q := fun q => funext fun a => Fin.ext (by
    match a with | ⟨0, _⟩ => rfl | ⟨1, _⟩ => rfl)
  have el' : ∀ q : Fin 4, lidx_main_v28 (ix2 r j) q = ix2 r q := fun q => funext fun a => Fin.ext (by
    match a with | ⟨0, _⟩ => rfl | ⟨1, _⟩ => rfl)
  have er' : ∀ q : Fin 4, idx_main_v27 (ridx_main_v28 (ix2 r j) q) = ix2 j q := fun q => funext fun a => Fin.ext (by
    match a with | ⟨0, _⟩ => rfl | ⟨1, _⟩ => rfl)
  have eb : idx_main_v24 (idx_main_v25 (ix2 r j)) = ix1 j := funext fun a => Fin.ext (by
    match a with | ⟨0, _⟩ => rfl)
  rw [val_main_v29_apply, val_main_v26_apply, val_main_v23_apply, val_main_v25_apply, val_main_v24_apply,
    val_main_v28_apply]
  simp only [val_main_v22_apply, val_main_v27_apply, el, er, el', er', eb, Ideal.addf_def]
  rfl

/-- Layer 2: the convolution stage is the bias-between-the-products entry over the aggregated neighbours, the first layer's output,
    and the layer's weights and bias as given. -/
theorem conv2 : val_main_v111 (F := Ideal) x0 x1 x2 x3 x4 x5 x6 x7 x8 x12 x13 x14
    = fun i : S100000x64.Idx => Cert.Gnn.convR
        (val_main_v103 (F := Ideal) x0 x1 x2 x3 x4 x5 x12 x13 x14)
        (val_main_v81 (F := Ideal) x0 x1 x2 x3 x4 x5 x12 x13 x14) x6 x7 x8 (i 0) (i 1) := by
  funext i
  obtain ⟨r, j, rfl⟩ : ∃ (r : Fin 100000) (j : Fin 64), i = ix2 r j := ⟨i 0, i 1, eq_ix2 i⟩
  have el : ∀ q : Fin 64, lidx_main_v105 (ix2 r j) q = ix2 r q := fun q => funext fun a => Fin.ext (by
    match a with | ⟨0, _⟩ => rfl | ⟨1, _⟩ => rfl)
  have er : ∀ q : Fin 64, idx_main_v104 (ridx_main_v105 (ix2 r j) q) = ix2 j q := fun q => funext fun a => Fin.ext (by
    match a with | ⟨0, _⟩ => rfl | ⟨1, _⟩ => rfl)
  have el' : ∀ q : Fin 64, lidx_main_v110 (ix2 r j) q = ix2 r q := fun q => funext fun a => Fin.ext (by
    match a with | ⟨0, _⟩ => rfl | ⟨1, _⟩ => rfl)
  have er' : ∀ q : Fin 64, idx_main_v109 (ridx_main_v110 (ix2 r j) q) = ix2 j q := fun q => funext fun a => Fin.ext (by
    match a with | ⟨0, _⟩ => rfl | ⟨1, _⟩ => rfl)
  have eb : idx_main_v106 (idx_main_v107 (ix2 r j)) = ix1 j := funext fun a => Fin.ext (by
    match a with | ⟨0, _⟩ => rfl)
  rw [val_main_v111_apply, val_main_v108_apply, val_main_v105_apply, val_main_v107_apply, val_main_v106_apply,
    val_main_v110_apply]
  simp only [val_main_v104_apply, val_main_v109_apply, el, er, el', er', eb, Ideal.addf_def]
  rfl

/-- Layer 3: the convolution stage is the bias-between-the-products entry over the aggregated neighbours, the second layer's output,
    and the layer's weights and bias as given. -/
theorem conv3 : val_main_v194 (F := Ideal) x0 x1 x2 x3 x4 x5 x6 x7 x8 x9 x10 x11 x12 x13 x14 x15 x16 x17
    = fun i : S100000x64.Idx => Cert.Gnn.convR
        (val_main_v186 (F := Ideal) x0 x1 x2 x3 x4 x5 x6 x7 x8 x12 x13 x14 x15 x16 x17)
        (val_main_v164 (F := Ideal) x0 x1 x2 x3 x4 x5 x6 x7 x8 x12 x13 x14 x15 x16 x17) x9 x10 x11 (i 0) (i 1) := by
  funext i
  obtain ⟨r, j, rfl⟩ : ∃ (r : Fin 100000) (j : Fin 64), i = ix2 r j := ⟨i 0, i 1, eq_ix2 i⟩
  have el : ∀ q : Fin 64, lidx_main_v188 (ix2 r j) q = ix2 r q := fun q => funext fun a => Fin.ext (by
    match a with | ⟨0, _⟩ => rfl | ⟨1, _⟩ => rfl)
  have er : ∀ q : Fin 64, idx_main_v187 (ridx_main_v188 (ix2 r j) q) = ix2 j q := fun q => funext fun a => Fin.ext (by
    match a with | ⟨0, _⟩ => rfl | ⟨1, _⟩ => rfl)
  have el' : ∀ q : Fin 64, lidx_main_v193 (ix2 r j) q = ix2 r q := fun q => funext fun a => Fin.ext (by
    match a with | ⟨0, _⟩ => rfl | ⟨1, _⟩ => rfl)
  have er' : ∀ q : Fin 64, idx_main_v192 (ridx_main_v193 (ix2 r j) q) = ix2 j q := fun q => funext fun a => Fin.ext (by
    match a with | ⟨0, _⟩ => rfl | ⟨1, _⟩ => rfl)
  have eb : idx_main_v189 (idx_main_v190 (ix2 r j)) = ix1 j := funext fun a => Fin.ext (by
    match a with | ⟨0, _⟩ => rfl)
  rw [val_main_v194_apply, val_main_v191_apply, val_main_v188_apply, val_main_v190_apply, val_main_v189_apply,
    val_main_v193_apply]
  simp only [val_main_v187_apply, val_main_v192_apply, el, er, el', er', eb, Ideal.addf_def]
  rfl

end Cert.ReferenceIdeal.LayerRead

end
-- ==== Proof.RefNorm.lean ====
/-
  The reference program's three normalisation stages, read entry by entry.

  Each stage takes the layer's convolution c, the per-node mean m and the per-node variance v, and computes
  max (gamma · (c - alpha · m) / sqrt (v + epsilon) + beta, 0); layers 2 and 3 add the previous layer's output before the
  clamp.  The parameter vectors are broadcast over the rows, so at row r and column j they are read at j; epsilon is one
  f32 word broadcast everywhere; the clamp's zero is the zero word.  The convolution, the mean, the variance and the
  previous layer's output stay folded.
-/
import proofs.«152839_j85684597555422_1_alg».proof.Proof.ReadP
import proofs.«152839_j85684597555422_1_alg».proof.Proof.GnnSpec

noncomputable section

open scoped BigOperators

namespace Cert.ReferenceIdeal.LayerRead

open Cert.ReferenceIdeal Cert.ReferenceIdeal.ReadP Idealize.ShloMosaic Idealize.ShloMosaic.ValueIdx

variable (x0 : (⟨S100000x4, .f32⟩ : BufTy).Contents (Elt Ideal)) (x1 : (⟨S2x1200000, .i32⟩ : BufTy).Contents (Elt Ideal))
  (x2 : (⟨S100000, .i32⟩ : BufTy).Contents (Elt Ideal)) (x3 : (⟨S64x4, .f32⟩ : BufTy).Contents (Elt Ideal))
  (x4 : (⟨S64, .f32⟩ : BufTy).Contents (Elt Ideal)) (x5 : (⟨S64x4, .f32⟩ : BufTy).Contents (Elt Ideal))
  (x6 : (⟨S64x64, .f32⟩ : BufTy).Contents (Elt Ideal)) (x7 : (⟨S64, .f32⟩ : BufTy).Contents (Elt Ideal))
  (x8 x9 : (⟨S64x64, .f32⟩ : BufTy).Contents (Elt Ideal)) (x10 : (⟨S64, .f32⟩ : BufTy).Contents (Elt Ideal))
  (x11 : (⟨S64x64, .f32⟩ : BufTy).Contents (Elt Ideal)) (x12 x13 x14 x15 x16 x17 x18 x19 x20 : (⟨S64, .f32⟩ : BufTy).Contents (Elt Ideal))

/-- Layer 1: the normalisation stage divides gamma · (convolution - alpha · mean) by the square root of variance + epsilon,
    adds beta, and clamps at zero; the three parameter vectors are read at the column. -/
theorem norm1 : val_main_v81 (F := Ideal) x0 x1 x2 x3 x4 x5 x12 x13 x14
    = fun i : S100000x64.Idx => Cert.Gnn.normRefElt
        (val_main_v29 (F := Ideal) x0 x1 x3 x4 x5 i)
        (val_main_v47 (F := Ideal) x0 x1 x2 x3 x4 x5 i)
        (val_main_v73 (F := Ideal) x0 x1 x2 x3 x4 x5 x14 i)
        (x12 (ix1 (i 1))) (x13 (ix1 (i 1))) (x14 (ix1 (i 1))) := by
  funext i
  obtain ⟨r, j, rfl⟩ : ∃ (r : Fin 100000) (j : Fin 64), i = ix2 r j := ⟨i 0, i 1, eq_ix2 i⟩
  have eg : idx_main_v64 (idx_main_v65 (ix2 r j)) = ix1 j := funext fun a => Fin.ext (by
    match a with | ⟨0, _⟩ => rfl)
  have eb : idx_main_v78 (idx_main_v79 (ix2 r j)) = ix1 j := funext fun a => Fin.ext (by
    match a with | ⟨0, _⟩ => rfl)
  have ea : idx_main_v48 (idx_main_v49 (ix2 r j)) = ix1 j := funext fun a => Fin.ext (by
    match a with | ⟨0, _⟩ => rfl)
  rw [val_main_v81_apply, val_main_v80_apply, val_main_v77_apply, val_main_v66_apply, val_main_v65_apply,
    val_main_v64_apply, val_main_v51_apply, val_main_v50_apply, val_main_v49_apply, val_main_v48_apply,
    val_main_v76_apply, val_main_v75_apply, val_main_v74_apply, val_main_cst_16_apply, val_main_v79_apply,
    val_main_v78_apply, val_main_call0_v0_apply, val_main_call0_cst_apply]
  simp only [eg, eb, ea, Ideal.addf_def, Ideal.mulf_def, Ideal.subf_def, Ideal.maximumf_def, Ideal.hostDivf_def,
    Ideal.hostUnary_sqrt_def, Ideal.ofBits_def, Ideal.ofBits_zero_f32]
  rfl

/-- Layer 2: the normalisation stage divides gamma · (convolution - alpha · mean) by the square root of variance + epsilon,
    adds beta and the previous layer's output, and clamps at zero; the three parameter vectors are read at the column. -/
theorem norm2 : val_main_v164 (F := Ideal) x0 x1 x2 x3 x4 x5 x6 x7 x8 x12 x13 x14 x15 x16 x17
    = fun i : S100000x64.Idx => Cert.Gnn.normRefResElt
        (val_main_v111 (F := Ideal) x0 x1 x2 x3 x4 x5 x6 x7 x8 x12 x13 x14 i)
        (val_main_v129 (F := Ideal) x0 x1 x2 x3 x4 x5 x6 x7 x8 x12 x13 x14 i)
        (val_main_v155 (F := Ideal) x0 x1 x2 x3 x4 x5 x6 x7 x8 x12 x13 x14 x17 i)
        (x15 (ix1 (i 1))) (x16 (ix1 (i 1))) (x17 (ix1 (i 1)))
        (val_main_v81 (F := Ideal) x0 x1 x2 x3 x4 x5 x12 x13 x14 i) := by
  funext i
  obtain ⟨r, j, rfl⟩ : ∃ (r : Fin 100000) (j : Fin 64), i = ix2 r j := ⟨i 0, i 1, eq_ix2 i⟩
  have eg : idx_main_v146 (idx_main_v147 (ix2 r j)) = ix1 j := funext fun a => Fin.ext (by
    match a with | ⟨0, _⟩ => rfl)
  have eb : idx_main_v160 (idx_main_v161 (ix2 r j)) = ix1 j := funext fun a => Fin.ext (by
    match a with | ⟨0, _⟩ => rfl)
  have ea : idx_main_v130 (idx_main_v131 (ix2 r j)) = ix1 j := funext fun a => Fin.ext (by
    match a with | ⟨0, _⟩ => rfl)
  rw [val_main_v164_apply, val_main_v163_apply, val_main_v162_apply, val_main_v159_apply, val_main_v148_apply,
    val_main_v147_apply, val_main_v146_apply, val_main_v133_apply, val_main_v132_apply,
    val_main_v131_apply, val_main_v130_apply, val_main_v158_apply, val_main_v157_apply,
    val_main_v156_apply, val_main_cst_35_apply, val_main_v161_apply, val_main_v160_apply,
    val_main_call1_v0_apply, val_main_call1_cst_apply]
  simp only [eg, eb, ea, Ideal.addf_def, Ideal.mulf_def, Ideal.subf_def, Ideal.maximumf_def, Ideal.hostDivf_def,
    Ideal.hostUnary_sqrt_def, Ideal.ofBits_def, Ideal.ofBits_zero_f32]
  rfl

/-- Layer 3: the normalisation stage divides gamma · (convolution - alpha · mean) by the square root of variance + epsilon,
    adds beta and the previous layer's output, and clamps at zero; the three parameter vectors are read at the column. -/
theorem norm3 : val_main_v247 (F := Ideal) x0 x1 x2 x3 x4 x5 x6 x7 x8 x9 x10 x11 x12 x13 x14 x15 x16 x17 x18 x19 x20
    = fun i : S100000x64.Idx => Cert.Gnn.normRefResElt
        (val_main_v194 (F := Ideal) x0 x1 x2 x3 x4 x5 x6 x7 x8 x9 x10 x11 x12 x13 x14 x15 x16 x17 i)
        (val_main_v212 (F := Ideal) x0 x1 x2 x3 x4 x5 x6 x7 x8 x9 x10 x11 x12 x13 x14 x15 x16 x17 i)
        (val_main_v238 (F := Ideal) x0 x1 x2 x3 x4 x5 x6 x7 x8 x9 x10 x11 x12 x13 x14 x15 x16 x17 x20 i)
        (x18 (ix1 (i 1))) (x19 (ix1 (i 1))) (x20 (ix1 (i 1)))
        (val_main_v164 (F := Ideal) x0 x1 x2 x3 x4 x5 x6 x7 x8 x12 x13 x14 x15 x16 x17 i) := by
  funext i
  obtain ⟨r, j, rfl⟩ : ∃ (r : Fin 100000) (j : Fin 64), i = ix2 r j := ⟨i 0, i 1, eq_ix2 i⟩
  have eg : idx_main_v229 (idx_main_v230 (ix2 r j)) = ix1 j := funext fun a => Fin.ext (by
    match a with | ⟨0, _⟩ => rfl)
  have eb : idx_main_v243 (idx_main_v244 (ix2 r j)) = ix1 j := funext fun a => Fin.ext (by
    match a with | ⟨0, _⟩ => rfl)
  have ea : idx_main_v213 (idx_main_v214 (ix2 r j)) = ix1 j := funext fun a => Fin.ext (by
    match a with | ⟨0, _⟩ => rfl)
  rw [val_main_v247_apply, val_main_v246_apply, val_main_v245_apply, val_main_v242_apply, val_main_v231_apply,
    val_main_v230_apply, val_main_v229_apply, val_main_v216_apply, val_main_v215_apply,
    val_main_v214_apply, val_main_v213_apply, val_main_v241_apply, val_main_v240_apply,
    val_main_v239_apply, val_main_cst_54_apply, val_main_v244_apply, val_main_v243_apply,
    val_main_call2_v0_apply, val_main_call2_cst_apply]
  simp only [eg, eb, ea, Ideal.addf_def, Ideal.mulf_def, Ideal.subf_def, Ideal.maximumf_def, Ideal.hostDivf_def,
    Ideal.hostUnary_sqrt_def, Ideal.ofBits_def, Ideal.ofBits_zero_f32]
  rfl

end Cert.ReferenceIdeal.LayerRead

end
-- ==== Proof.RefVar.lean ====
/-
  The reference program's three gathered variances are nonnegative.

  Each layer's variance per node is a gather of a per-graph table; the table is a scatter-add of the squared centred
  convolution into zeros, divided entry by entry by max (count, 1).  Every extended real has a nonnegative square
  (⊥ · ⊥ = ⊤); a scatter-add at the extended reals is the operand's entry plus a finite sum of update entries, so from
  zeros and nonnegative updates it is nonnegative; the divisor is at least 1, so the quotient is the dividend times a
  nonnegative inverse (the inverse of ⊤ is 0); and every entry of a gather is an entry of its operand.
-/
import proofs.«152839_j85684597555422_1_alg».proof.Proof.ReadP
import proofs.«152839_j85684597555422_1_alg».proof.Proof.GnnSpec
import Idealize.ShloMosaic.Lib.IdealHost

noncomputable section

open scoped BigOperators

namespace Cert.ReferenceIdeal.LayerRead

open Cert.ReferenceIdeal Cert.ReferenceIdeal.ReadP Idealize.ShloMosaic Idealize.ShloMosaic.ValueIdx

/-- The square of an extended real is nonnegative: ⊥ · ⊥ = ⊤ · ⊤ = ⊤, and a real's square is nonnegative. -/
theorem mul_self_nonneg' (x : EReal) : 0 ≤ x * x := by
  induction x using EReal.rec with
  | bot => rw [EReal.bot_mul_bot]; exact le_top
  | top => rw [EReal.top_mul_top]; exact le_top
  | coe r => exact_mod_cast mul_self_nonneg r

/-- A nonnegative dividend over a positive divisor: the quotient is the dividend times the divisor's inverse, which is
    nonnegative (and 0 when the divisor is ⊤). -/
theorem div_nonneg_of_pos {s d : EReal} (hs : 0 ≤ s) (hd : 0 < d) : 0 ≤ Ideal.div s d := by
  unfold Ideal.div
  rw [if_neg hd.ne']
  exact EReal.mul_nonneg hs (EReal.inv_nonneg_of_nonneg hd.le)

/-- Every entry of a gather is an entry of its operand, so a gather of a nonnegative array is nonnegative. -/
theorem gather_nonneg {s si t : Shape} {w : Nat} (d : GatherDims s si t) (x : s.Idx → EReal) (idx : IVec si w)
    (hx : ∀ p, 0 ≤ x p) (j : t.Idx) : 0 ≤ Host.gather d x idx j := hx _

/-- A scatter-add of nonnegative updates into a nonnegative operand is nonnegative: each entry is the operand's plus a
    finite sum of update entries. -/
theorem scatterAdd_nonneg {s si su : Shape} {φ : FTy} {w : Nat} (d : ScatterDims s si su) (x : FVec Ideal s φ)
    (idx : IVec si w) (upd : FVec Ideal su φ) (hx : ∀ i, (0 : EReal) ≤ x i) (hu : ∀ j, (0 : EReal) ≤ upd j) (i : s.Idx) :
    (0 : EReal) ≤ Host.scatterAdd d x idx upd i := by
  show (0 : EReal) ≤ Ideal.hostScatterAdd d x idx upd i
  unfold Ideal.hostScatterAdd
  exact add_nonneg (hx i) (Finset.sum_nonneg fun j _ => hu j)

variable (x0 : (⟨S100000x4, .f32⟩ : BufTy).Contents (Elt Ideal)) (x1 : (⟨S2x1200000, .i32⟩ : BufTy).Contents (Elt Ideal))
  (x2 : (⟨S100000, .i32⟩ : BufTy).Contents (Elt Ideal)) (x3 : (⟨S64x4, .f32⟩ : BufTy).Contents (Elt Ideal))
  (x4 : (⟨S64, .f32⟩ : BufTy).Contents (Elt Ideal)) (x5 : (⟨S64x4, .f32⟩ : BufTy).Contents (Elt Ideal))
  (x6 : (⟨S64x64, .f32⟩ : BufTy).Contents (Elt Ideal)) (x7 : (⟨S64, .f32⟩ : BufTy).Contents (Elt Ideal))
  (x8 x9 : (⟨S64x64, .f32⟩ : BufTy).Contents (Elt Ideal)) (x10 : (⟨S64, .f32⟩ : BufTy).Contents (Elt Ideal))
  (x11 : (⟨S64x64, .f32⟩ : BufTy).Contents (Elt Ideal)) (x12 x13 x14 x15 x16 x17 x18 x19 x20 : (⟨S64, .f32⟩ : BufTy).Contents (Elt Ideal))

/-- Layer 1: the gathered variance is nonnegative at every node and column. -/
theorem var1_nonneg : ∀ i, (0 : EReal) ≤ val_main_v73 (F := Ideal) x0 x1 x2 x3 x4 x5 x14 i := by
  intro i
  unfold val_main_v73
  refine gather_nonneg _ _ _ (fun p => ?_) i
  rw [val_main_v63_apply, Ideal.hostDivf_def]
  refine div_nonneg_of_pos ?_ ?_
  · unfold val_main_v55
    refine scatterAdd_nonneg _ _ _ _ (fun q => ?_) (fun q => ?_) p
    · rw [val_main_v53_apply, val_main_cst_10_apply, Ideal.ofBits_def, Ideal.ofBits_zero_f32]
    · rw [val_main_v52_apply, Ideal.mulf_def]
      exact mul_self_nonneg' _
  · rw [val_main_v62_apply, val_main_v61_apply, Ideal.maximumf_def, val_main_v60_apply, val_main_cst_13_apply,
      Ideal.ofBits_def, Ideal.ofBits_one_f32]
    exact lt_of_lt_of_le zero_lt_one (le_max_right _ _)

/-- Layer 2: the gathered variance is nonnegative at every node and column. -/
theorem var2_nonneg : ∀ i, (0 : EReal) ≤ val_main_v155 (F := Ideal) x0 x1 x2 x3 x4 x5 x6 x7 x8 x12 x13 x14 x17 i := by
  intro i
  unfold val_main_v155
  refine gather_nonneg _ _ _ (fun p => ?_) i
  rw [val_main_v145_apply, Ideal.hostDivf_def]
  refine div_nonneg_of_pos ?_ ?_
  · unfold val_main_v137
    refine scatterAdd_nonneg _ _ _ _ (fun q => ?_) (fun q => ?_) p
    · rw [val_main_v135_apply, val_main_cst_29_apply, Ideal.ofBits_def, Ideal.ofBits_zero_f32]
    · rw [val_main_v134_apply, Ideal.mulf_def]
      exact mul_self_nonneg' _
  · rw [val_main_v144_apply, val_main_v143_apply, Ideal.maximumf_def, val_main_v142_apply, val_main_cst_32_apply,
      Ideal.ofBits_def, Ideal.ofBits_one_f32]
    exact lt_of_lt_of_le zero_lt_one (le_max_right _ _)

/-- Layer 3: the gathered variance is nonnegative at every node and column. -/
theorem var3_nonneg : ∀ i, (0 : EReal) ≤ val_main_v238 (F := Ideal) x0 x1 x2 x3 x4 x5 x6 x7 x8 x9 x10 x11 x12 x13 x14 x15 x16 x17 x20 i := by
  intro i
  unfold val_main_v238
  refine gather_nonneg _ _ _ (fun p => ?_) i
  rw [val_main_v228_apply, Ideal.hostDivf_def]
  refine div_nonneg_of_pos ?_ ?_
  · unfold val_main_v220
    refine scatterAdd_nonneg _ _ _ _ (fun q => ?_) (fun q => ?_) p
    · rw [val_main_v218_apply, val_main_cst_48_apply, Ideal.ofBits_def, Ideal.ofBits_zero_f32]
    · rw [val_main_v217_apply, Ideal.mulf_def]
      exact mul_self_nonneg' _
  · rw [val_main_v227_apply, val_main_v226_apply, Ideal.maximumf_def, val_main_v225_apply, val_main_cst_51_apply,
      Ideal.ofBits_def, Ideal.ofBits_one_f32]
    exact lt_of_lt_of_le zero_lt_one (le_max_right _ _)

end Cert.ReferenceIdeal.LayerRead

end
-- ==== Proof.Chain.lean ====
/-
  The kernel program's boundaries against the reference's stages, layer by layer.

  At the exit of each convolution region the region's array is the reference's convolution stage: the region computes,
  row by row, the aggregated neighbours against the transposed neighbours' weight plus the node's own features against
  the transposed own weight plus the bias row, the reference the same two products over the weights as given with the
  bias added between them, and addition of extended reals is commutative and associative.  At the exit of each
  normalisation region the region's array is the reference's layer output: the region scales by the reciprocal square
  root of the variance plus epsilon where the reference divides by its square root, and the two agree because the
  gathered variance — a mean of squares over a divisor that is at least one — is never negative.  The host stretches
  between the regions are the reference's own operations.  So the last boundary's result buffer is the reference's
  result.
-/
import proofs.«152839_j85684597555422_1_alg».proof.Proof.HostJoints
import proofs.«152839_j85684597555422_1_alg».proof.Proof.ConvRegion0
import proofs.«152839_j85684597555422_1_alg».proof.Proof.ConvRegion2
import proofs.«152839_j85684597555422_1_alg».proof.Proof.ConvRegion4
import proofs.«152839_j85684597555422_1_alg».proof.Proof.NormRegion1
import proofs.«152839_j85684597555422_1_alg».proof.Proof.NormRegion3
import proofs.«152839_j85684597555422_1_alg».proof.Proof.NormRegion5
import proofs.«152839_j85684597555422_1_alg».proof.Proof.RefConv
import proofs.«152839_j85684597555422_1_alg».proof.Proof.RefNorm
import proofs.«152839_j85684597555422_1_alg».proof.Proof.RefVar

set_option maxRecDepth 16384

noncomputable section

namespace Cert.Bridge

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- Layer 1's convolution region leaves the reference's convolution stage. -/
theorem conv1_eq : W2 m ρ c (Proc.devRef .tc main_v25) = R29 m c := by
  refine (show W2 m ρ c (Proc.devRef .tc main_v25) = (dat0 (V1 m ρ) c).arrAt 5 cfg0.N from W2_arr m ρ c 5).trans ?_
  rw [Cert.KernelIdeal.ConvValue.final0 (V1 m ρ) c]
  refine Eq.trans ?_ (Cert.ReferenceIdeal.LayerRead.conv1 (A0 m c) (A1 m c) (A3 m c) (A4 m c) (A5 m c)).symm
  funext i
  beta_reduce
  refine (Cert.Gnn.convK_eq_convR _ _ _ _ _ (A3 m c) (A5 m c) (A4 m c)
    (wl1 m ρ c) (wr1 m ρ c) (bias1 m ρ c) (i 0) (i 1)).trans ?_
  rw [show V1 m ρ c main_v21 = R21 m c from agg1 m ρ c,
    show V1 m ρ c main_arg0 = A0 m c from arg0_at1 m ρ c]
  rfl

/-- Layer 1's normalisation region leaves the reference's layer output. -/
theorem x1_eq : W4 m ρ c (Proc.devRef .tc main_v77) = R81 m c := by
  have hconv := conv1_eq m ρ c
  refine (show W4 m ρ c (Proc.devRef .tc main_v77) = (dat1 (V3 m ρ) c).arrAt 6 cfg1.N from W4_arr m ρ c 6).trans ?_
  rw [Cert.KernelIdeal.NormValue.final1 (V3 m ρ) c]
  refine Eq.trans ?_ (Cert.ReferenceIdeal.LayerRead.norm1 (A0 m c) (A1 m c) (A2 m c) (A3 m c) (A4 m c) (A5 m c) (A12 m c) (A13 m c) (A14 m c)).symm
  funext i
  beta_reduce
  rw [show V3 m ρ c main_v25 = R29 m c from (conv1_at3 m ρ c).trans hconv,
    show V3 m ρ c main_v66 = R47 m c from mean1 m ρ c hconv,
    show V3 m ρ c main_v73 = R73 m c from var1 m ρ c hconv,
    show V3 m ρ c main_v74 (ix2 (0 : Fin 1) (i 1)) = A12 m c (ix1 (i 1)) from gamma1 m ρ c (i 1),
    show V3 m ρ c main_v75 (ix2 (0 : Fin 1) (i 1)) = A13 m c (ix1 (i 1)) from beta1 m ρ c (i 1),
    show V3 m ρ c main_v76 (ix2 (0 : Fin 1) (i 1)) = A14 m c (ix1 (i 1)) from alpha1 m ρ c (i 1)]
  exact Cert.Gnn.normElt_eq_ref _ _ _ _ _ _ (Cert.ReferenceIdeal.LayerRead.var1_nonneg (A0 m c) (A1 m c) (A2 m c) (A3 m c) (A4 m c) (A5 m c) (A14 m c) i)

/-- Layer 2's convolution region leaves the reference's convolution stage. -/
theorem conv2_eq : W6 m ρ c (Proc.devRef .tc main_v103) = R111 m c := by
  refine (show W6 m ρ c (Proc.devRef .tc main_v103) = (dat2 (V5 m ρ) c).arrAt 5 cfg2.N from W6_arr m ρ c 5).trans ?_
  rw [Cert.KernelIdeal.ConvValue.final2 (V5 m ρ) c]
  refine Eq.trans ?_ (Cert.ReferenceIdeal.LayerRead.conv2 (A0 m c) (A1 m c) (A2 m c) (A3 m c) (A4 m c) (A5 m c) (A6 m c) (A7 m c) (A8 m c) (A12 m c) (A13 m c) (A14 m c)).symm
  funext i
  beta_reduce
  refine (Cert.Gnn.convK_eq_convR _ _ _ _ _ (A6 m c) (A8 m c) (A7 m c)
    (wl2 m ρ c) (wr2 m ρ c) (bias2 m ρ c) (i 0) (i 1)).trans ?_
  rw [show V5 m ρ c main_v99 = R103 m c from agg2 m ρ c (x1_eq m ρ c),
    show V5 m ρ c main_v77 = R81 m c from (x1_at5 m ρ c).trans (x1_eq m ρ c)]
  rfl

/-- Layer 2's normalisation region leaves the reference's layer output. -/
theorem x2_eq : W8 m ρ c (Proc.devRef .tc main_v155) = R164 m c := by
  have hconv := conv2_eq m ρ c
  refine (show W8 m ρ c (Proc.devRef .tc main_v155) = (dat3 (V7 m ρ) c).arrAt 7 cfg3.N from W8_arr m ρ c 7).trans ?_
  rw [Cert.KernelIdeal.NormValue.final3 (V7 m ρ) c]
  refine Eq.trans ?_ (Cert.ReferenceIdeal.LayerRead.norm2 (A0 m c) (A1 m c) (A2 m c) (A3 m c) (A4 m c) (A5 m c) (A6 m c) (A7 m c) (A8 m c) (A12 m c) (A13 m c) (A14 m c) (A15 m c) (A16 m c) (A17 m c)).symm
  funext i
  beta_reduce
  rw [show V7 m ρ c main_v103 = R111 m c from (conv2_at7 m ρ c).trans hconv,
    show V7 m ρ c main_v144 = R129 m c from mean2 m ρ c hconv,
    show V7 m ρ c main_v151 = R155 m c from var2 m ρ c hconv,
    show V7 m ρ c main_v152 (ix2 (0 : Fin 1) (i 1)) = A15 m c (ix1 (i 1)) from gamma2 m ρ c (i 1),
    show V7 m ρ c main_v153 (ix2 (0 : Fin 1) (i 1)) = A16 m c (ix1 (i 1)) from beta2 m ρ c (i 1),
    show V7 m ρ c main_v154 (ix2 (0 : Fin 1) (i 1)) = A17 m c (ix1 (i 1)) from alpha2 m ρ c (i 1),
    show V7 m ρ c main_v77 = R81 m c from (x1_at7 m ρ c).trans (x1_eq m ρ c)]
  exact Cert.Gnn.normResElt_eq_ref _ _ _ _ _ _ _ (Cert.ReferenceIdeal.LayerRead.var2_nonneg (A0 m c) (A1 m c) (A2 m c) (A3 m c) (A4 m c) (A5 m c) (A6 m c) (A7 m c) (A8 m c) (A12 m c) (A13 m c) (A14 m c) (A17 m c) i)

/-- Layer 3's convolution region leaves the reference's convolution stage. -/
theorem conv3_eq : W10 m ρ c (Proc.devRef .tc main_v181) = R194 m c := by
  refine (show W10 m ρ c (Proc.devRef .tc main_v181) = (dat4 (V9 m ρ) c).arrAt 5 cfg4.N from W10_arr m ρ c 5).trans ?_
  rw [Cert.KernelIdeal.ConvValue.final4 (V9 m ρ) c]
  refine Eq.trans ?_ (Cert.ReferenceIdeal.LayerRead.conv3 (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c)).symm
  funext i
  beta_reduce
  refine (Cert.Gnn.convK_eq_convR _ _ _ _ _ (A9 m c) (A11 m c) (A10 m c)
    (wl3 m ρ c) (wr3 m ρ c) (bias3 m ρ c) (i 0) (i 1)).trans ?_
  rw [show V9 m ρ c main_v177 = R186 m c from agg3 m ρ c (x2_eq m ρ c),
    show V9 m ρ c main_v155 = R164 m c from (x2_at9 m ρ c).trans (x2_eq m ρ c)]
  rfl

/-- Layer 3's normalisation region leaves the reference's layer output. -/
theorem x3_eq : W12 m ρ c (Proc.devRef .tc main_v233) = R247 m c := by
  have hconv := conv3_eq m ρ c
  refine (show W12 m ρ c (Proc.devRef .tc main_v233) = (dat5 (V11 m ρ) c).arrAt 7 cfg5.N from W12_arr m ρ c 7).trans ?_
  rw [Cert.KernelIdeal.NormValue.final5 (V11 m ρ) c]
  refine Eq.trans ?_ (Cert.ReferenceIdeal.LayerRead.norm3 (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c)).symm
  funext i
  beta_reduce
  rw [show V11 m ρ c main_v181 = R194 m c from (conv3_at11 m ρ c).trans hconv,
    show V11 m ρ c main_v222 = R212 m c from mean3 m ρ c hconv,
    show V11 m ρ c main_v229 = R238 m c from var3 m ρ c hconv,
    show V11 m ρ c main_v230 (ix2 (0 : Fin 1) (i 1)) = A18 m c (ix1 (i 1)) from gamma3 m ρ c (i 1),
    show V11 m ρ c main_v231 (ix2 (0 : Fin 1) (i 1)) = A19 m c (ix1 (i 1)) from beta3 m ρ c (i 1),
    show V11 m ρ c main_v232 (ix2 (0 : Fin 1) (i 1)) = A20 m c (ix1 (i 1)) from alpha3 m ρ c (i 1),
    show V11 m ρ c main_v155 = R164 m c from (x2_at11 m ρ c).trans (x2_eq m ρ c)]
  exact Cert.Gnn.normResElt_eq_ref _ _ _ _ _ _ _ (Cert.ReferenceIdeal.LayerRead.var3_nonneg (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A20 m c) i)

/-- The kernel program's result buffer at the last boundary is the reference's result stage. -/
theorem result_eq : W13 m ρ c (Proc.devRef .tc main_v247) = R261 m c :=
  tail m ρ c (x3_eq m ρ c)

end Cert.Bridge

end
-- ==== Proof.lean ====
/-
  The certificate of a three-layer graph network: per layer a mean aggregation over incoming edges, a convolution
  (two small dense maps and a bias), a per-graph normalisation with learned scale, shift and mean-scale, a clamp at
  zero, with a residual from the second layer on; then a per-graph mean pooling and a last linear map.

  The kernel program runs the convolutions and the normalisations as six kernel regions over blocks of 5000 nodes and
  everything else as host operations; the reference is one straight line of host operations.  At the idealized
  instance both end at one function of the arguments: each convolution region's array is the reference's convolution
  stage because addition of extended reals is commutative and associative (the kernel adds the bias last, the
  reference between the two products), and each normalisation region's array is the reference's layer output because
  scaling by the reciprocal square root of v + ε is dividing by its square root whenever v ≥ 0, and the variance — a
  mean of squares over a divisor at least one — is never negative; the host stretches in between are the same
  operations on the same operands.  No finiteness of the inputs is used for the value.

  The two kernel programs' frames are the generated frame runs; the reference's frame is its run, read off the fold of
  its operations; the ideal pass rewrote nothing, so there is nothing to preserve.
-/
import proofs.«152839_j85684597555422_1_alg».proof.Defs
import proofs.«152839_j85684597555422_1_alg».proof.Proof.Gen.Kernel
import proofs.«152839_j85684597555422_1_alg».proof.Proof.Gen.Kernel.Skeleton
import proofs.«152839_j85684597555422_1_alg».proof.Proof.Gen.Kernel.Launch
import proofs.«152839_j85684597555422_1_alg».proof.Proof.Gen.Kernel.Points
import proofs.«152839_j85684597555422_1_alg».proof.Proof.Gen.Kernel.Frame
import proofs.«152839_j85684597555422_1_alg».proof.Proof.Gen.KernelIdeal
import proofs.«152839_j85684597555422_1_alg».proof.Proof.Gen.KernelIdeal.Skeleton
import proofs.«152839_j85684597555422_1_alg».proof.Proof.Gen.KernelIdeal.Launch
import proofs.«152839_j85684597555422_1_alg».proof.Proof.Gen.KernelIdeal.Points
import proofs.«152839_j85684597555422_1_alg».proof.Proof.Gen.KernelIdeal.Frame
import proofs.«152839_j85684597555422_1_alg».proof.Proof.Gen.ReferenceIdeal
import proofs.«152839_j85684597555422_1_alg».proof.Proof.Gen.Pre_finite_inputs
import proofs.«152839_j85684597555422_1_alg».proof.Proof.KernelRun
import proofs.«152839_j85684597555422_1_alg».proof.Proof.RefRun
import proofs.«152839_j85684597555422_1_alg».proof.Proof.Chain
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run m ρ)

/-- Both idealized programs end with the result at the reference's result stage of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W13 m ρ c (Proc.devRef .tc Cert.KernelIdeal.main_v247),
    Cert.KernelIdeal.Run.run (F := Ideal) m ρ, ?_⟩
  refine (θ_run Cert.ReferenceIdeal.defs _ _).mono (fun _ h c => ⟨(h c).1.trans ?_, (h c).2⟩)
    (Cert.ReferenceIdeal.RefRun.run m' ρ')
  obtain ⟨h0, h1, h2, h3, h4, h5, h6, h7, h8, h9, h10, h11, h12, h13, h14, h15, h16, h17, h18, h19, h20, h21, h22⟩ := hagree c
  rw [h0, h1, h2, h3, h4, h5, h6, h7, h8, h9, h10, h11, h12, h13, h14, h15, h16,
    h17, h18, h19, h20, h21, h22]
  exact (Cert.Bridge.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
